-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192x1024 : Shape := ⟨2, ![8192, 1024]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x2048 .f32) (main_arg1 : FVec F S8192x1024 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x2048 : Shape := ⟨2, ![8192, 2048]⟩
abbrev S8192x1024 : Shape := ⟨2, ![8192, 1024]⟩
abbrev S_ : Shape := ⟨0, ![]⟩
abbrev S2048 : Shape := ⟨1, ![2048]⟩
abbrev S1x2048 : Shape := ⟨2, ![1, 2048]⟩
abbrev S1024 : Shape := ⟨1, ![1024]⟩
abbrev S1x1024 : Shape := ⟨2, ![1, 1024]⟩
abbrev S1x1 : Shape := ⟨2, ![1, 1]⟩
abbrev S2048x512 : Shape := ⟨2, ![2048, 512]⟩
abbrev S512x512 : Shape := ⟨2, ![512, 512]⟩
abbrev S1x512x512 : Shape := ⟨3, ![1, 512, 512]⟩
abbrev S1 : Shape := ⟨1, ![1]⟩
abbrev S1x1x1 : Shape := ⟨3, ![1, 1, 1]⟩

abbrev nBuf : Space → Nat
  | .hbm => 31
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S_, .f32⟩
  | .hbm, ⟨3, _⟩ => ⟨S2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S8192x2048, .f32⟩
  | .hbm, ⟨9, _⟩ => ⟨S8192x2048, .f32⟩
  | .hbm, ⟨10, _⟩ => ⟨S8192x2048, .bf16⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1x1, .f32⟩
  | .hbm, ⟨21, _⟩ => ⟨S_, .f32⟩
  | .hbm, ⟨22, _⟩ => ⟨S1x1, .f32⟩
  | .hbm, ⟨23, _⟩ => ⟨S_, .f32⟩
  | .hbm, ⟨24, _⟩ => ⟨S1x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x1, .f32⟩
  | .local _ .vmem, ⟨5, _⟩ => ⟨S512x512, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S1x1, .f32⟩
  | .local _ .vmem, ⟨11, _⟩ => ⟨S512x512, .f32⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S1x1, .f32⟩
  | .local _ .vmem, ⟨17, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14

abbrev nD : Nat := 1
abbrev τ : Topo := Topo.v7x

variable {F : FTy → Type} [FloatOps F]

abbrev grid0 : Pipeline.Grid := ⟨3, ![4, 2, 4], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let arg2 : BitVec 32 := BitVec.ofNat 32 (i 2).val
  let c0_i32_1 : BitVec 32 := 0#32
  let v3 : BitVec 1 := Scalar.cmpi .eq arg2 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def k0_cond3 (i : grid0.Coords) : BitVec 1 :=
  let arg2 : BitVec 32 := BitVec.ofNat 32 (i 2).val
  let c3_i32 : BitVec 32 := 3#32
  let v20 : BitVec 1 := Scalar.cmpi .eq arg2 c3_i32
  let v21 : BitVec 32 := Scalar.extui v20
  let c0_i32_12 : BitVec 32 := 0#32
  let v22 : BitVec 1 := Scalar.cmpi .ne v21 c0_i32_12
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev grid1 : Pipeline.Grid := ⟨3, ![4, 4, 4], ![false, false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let arg2 : BitVec 32 := BitVec.ofNat 32 (i 2).val
  let c0_i32_1 : BitVec 32 := 0#32
  let v3 : BitVec 1 := Scalar.cmpi .eq arg2 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def k1_cond3 (i : grid1.Coords) : BitVec 1 :=
  let arg2 : BitVec 32 := BitVec.ofNat 32 (i 2).val
  let c3_i32 : BitVec 32 := 3#32
  let v20 : BitVec 1 := Scalar.cmpi .eq arg2 c3_i32
  let v21 : BitVec 32 := Scalar.extui v20
  let c0_i32_12 : BitVec 32 := 0#32
  let v22 : BitVec 1 := Scalar.cmpi .ne v21 c0_i32_12
  v22

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev grid2 : Pipeline.Grid := ⟨3, ![2, 2, 4], ![false, false, false]⟩

def k2_cond1 (i : grid2.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let arg2 : BitVec 32 := BitVec.ofNat 32 (i 2).val
  let c0_i32_1 : BitVec 32 := 0#32
  let v3 : BitVec 1 := Scalar.cmpi .eq arg2 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def k2_cond3 (i : grid2.Coords) : BitVec 1 :=
  let arg2 : BitVec 32 := BitVec.ofNat 32 (i 2).val
  let c3_i32 : BitVec 32 := 3#32
  let v20 : BitVec 1 := Scalar.cmpi .eq arg2 c3_i32
  let v21 : BitVec 32 := Scalar.extui v20
  let c0_i32_12 : BitVec 32 := 0#32
  let v22 : BitVec 1 := Scalar.cmpi .ne v21 c0_i32_12
  v22

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false, false]

class Facts₀ : Prop where
  reducesTo_S8192x2048_S2048_d0 : S8192x2048.ReducesTo [0] S2048
  h_S_ : 0 < S_.numel
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S8192x2048_0_1 : S1x2048.BroadcastsInDim S8192x2048 (![0, 1] : Fin 2 → Fin S8192x2048.rank)
  bitsLt_bf16_f32 : FTy.bits .bf16 < FTy.bits .f32
  reducesTo_S8192x1024_S1024_d0 : S8192x1024.ReducesTo [0] S1024
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S1x1024_S8192x1024_0_1 : S1x1024.BroadcastsInDim S8192x1024 (![0, 1] : Fin 2 → Fin S8192x1024.rank)
  inb_S1x1_S1x1_0_0 : ∀ a, (![0, 0] : Fin 2 → Nat) a + S1x1.size a ≤ S1x1.size a
  h_S1x1 : 0 < S1x1.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  shapeCasts_S1x1_S_ : S1x1.ShapeCasts S_
  dot_S2048x512_S2048x512_S512x512_0_0_1_1_n_n_wf : DotDims.WF S2048x512 S2048x512 S512x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x2048.size a
  hwx0_0 : ∀ i : grid0.Coords, EltTy.bits .bf16 = 32 ∨ (Rect.block (s := S8192x2048) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x1024.size a
  hwx0_1 : ∀ i : grid0.Coords, EltTy.bits .bf16 = 32 ∨ (Rect.block (s := S8192x1024) S2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x2048.size a
  hwx1_0 : ∀ i : grid1.Coords, EltTy.bits .bf16 = 32 ∨ (Rect.block (s := S8192x2048) S2048x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S8192x2048.size a
  hwx1_1 : ∀ i : grid1.Coords, EltTy.bits .bf16 = 32 ∨ (Rect.block (s := S8192x2048) S2048x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S8192x1024.size a
  hwx2_0 : ∀ i : grid2.Coords, EltTy.bits .bf16 = 32 ∨ (Rect.block (s := S8192x1024) S2048x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x512.size a ≤ S8192x1024.size a
  hwx2_1 : ∀ i : grid2.Coords, EltTy.bits .bf16 = 32 ∨ (Rect.block (s := S8192x1024) S2048x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)

variable [Facts₀]

def dot_S2048x512_S2048x512_S512x512_0_0_1_1_n_n : DotDims S2048x512 S2048x512 S512x512 where
  lhsContracting := [0]
  rhsContracting := [0]
  lhsNonContracting := [1]
  rhsNonContracting := [1]
  lhsBatch := []
  rhsBatch := []
  wf := dot_S2048x512_S2048x512_S512x512_0_0_1_1_n_n_wf

abbrev win0_0 : Pipeline.Window sig grid0 :=
  Pipeline.Window.ofSpec (Memref.whole main_v6) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond3 i == 1#1) | ⟨_ + 3, h⟩ => absurd h (Nat.not_lt.2 (Nat.le_add_left _ _))

abbrev win1_0 : Pipeline.Window sig grid1 :=
  Pipeline.Window.ofSpec (Memref.whole main_v6) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond1 i == 1#1) && !(k1_cond3 i == 1#1) | ⟨_ + 3, h⟩ => absurd h (Nat.not_lt.2 (Nat.le_add_left _ _))

abbrev win2_0 : Pipeline.Window sig grid2 :=
  Pipeline.Window.ofSpec (Memref.whole main_v13) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S2048x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond1 i == 1#1) && !(k2_cond3 i == 1#1) | ⟨_ + 3, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8192x1024 : Shape := ⟨2, ![8192, 1024]⟩
abbrev S2048x8192 : Shape := ⟨2, ![2048, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1024x8192 : Shape := ⟨2, ![1024, 8192]⟩

abbrev nBuf : Space → Nat
  | .hbm => 160
  | .vmem => 0
  | .smem => 0
  | _ => 0

abbrev hbmTy0_0 (i : Nat) : BufTy := match i % 128 with
  | 0 => ⟨S8192x2048, .f32⟩
  | 1 => ⟨S8192x1024, .f32⟩
  | 2 => ⟨S2048x8192, .f32⟩
  | 3 => ⟨S8192x8192, .f32⟩
  | 4 => ⟨S_, .f32⟩
  | 5 => ⟨S8192, .f32⟩
  | 6 => ⟨S8192x1, .f32⟩
  | 7 => ⟨S_, .f32⟩
  | 8 => ⟨S8192x1, .f32⟩
  | 9 => ⟨S8192x1, .f32⟩
  | 10 => ⟨S_, .f32⟩
  | 11 => ⟨S8192, .f32⟩
  | 12 => ⟨S1x8192, .f32⟩
  | 13 => ⟨S_, .f32⟩
  | 14 => ⟨S1x8192, .f32⟩
  | 15 => ⟨S1x8192, .f32⟩
  | 16 => ⟨S_, .f32⟩
  | 17 => ⟨S_, .f32⟩
  | 18 => ⟨S_, .f32⟩
  | 19 => ⟨S_, .f32⟩
  | 20 => ⟨S8192x8192, .f32⟩
  | 21 => ⟨S8192x8192, .f32⟩
  | 22 => ⟨S8192x8192, .f32⟩
  | 23 => ⟨S8192x8192, .f32⟩
  | 24 => ⟨S8192x8192, .f32⟩
  | 25 => ⟨S8192x8192, .f32⟩
  | 26 => ⟨S1024x8192, .f32⟩
  | 27 => ⟨S8192x8192, .f32⟩
  | 28 => ⟨S_, .f32⟩
  | 29 => ⟨S8192, .f32⟩
  | 30 => ⟨S8192x1, .f32⟩
  | 31 => ⟨S_, .f32⟩
  | 32 => ⟨S8192x1, .f32⟩
  | 33 => ⟨S8192x1, .f32⟩
  | 34 => ⟨S_, .f32⟩
  | 35 => ⟨S8192, .f32⟩
  | 36 => ⟨S1x8192, .f32⟩
  | 37 => ⟨S_, .f32⟩
  | 38 => ⟨S1x8192, .f32⟩
  | 39 => ⟨S1x8192, .f32⟩
  | 40 => ⟨S_, .f32⟩
  | 41 => ⟨S_, .f32⟩
  | 42 => ⟨S_, .f32⟩
  | 43 => ⟨S_, .f32⟩
  | 44 => ⟨S8192x8192, .f32⟩
  | 45 => ⟨S8192x8192, .f32⟩
  | 46 => ⟨S8192x8192, .f32⟩
  | 47 => ⟨S8192x8192, .f32⟩
  | 48 => ⟨S8192x8192, .f32⟩
  | 49 => ⟨S8192x8192, .f32⟩
  | 50 => ⟨S8192x8192, .f32⟩
  | 51 => ⟨S_, .f32⟩
  | 52 => ⟨S_, .f32⟩
  | 53 => ⟨S2048x8192, .f32⟩
  | 54 => ⟨S8192x8192, .f32⟩
  | 55 => ⟨S_, .f32⟩
  | 56 => ⟨S8192, .f32⟩
  | 57 => ⟨S8192x1, .f32⟩
  | 58 => ⟨S_, .f32⟩
  | 59 => ⟨S8192x1, .f32⟩
  | 60 => ⟨S8192x1, .f32⟩
  | 61 => ⟨S_, .f32⟩
  | 62 => ⟨S8192, .f32⟩
  | 63 => ⟨S1x8192, .f32⟩
  | 64 => ⟨S_, .f32⟩
  | 65 => ⟨S1x8192, .f32⟩
  | 66 => ⟨S1x8192, .f32⟩
  | 67 => ⟨S_, .f32⟩
  | 68 => ⟨S_, .f32⟩
  | 69 => ⟨S_, .f32⟩
  | 70 => ⟨S_, .f32⟩
  | 71 => ⟨S8192x8192, .f32⟩
  | 72 => ⟨S8192x8192, .f32⟩
  | 73 => ⟨S8192x8192, .f32⟩
  | 74 => ⟨S8192x8192, .f32⟩
  | 75 => ⟨S8192x8192, .f32⟩
  | 76 => ⟨S8192x8192, .f32⟩
  | 77 => ⟨S2048x8192, .f32⟩
  | 78 => ⟨S8192x8192, .f32⟩
  | 79 => ⟨S_, .f32⟩
  | 80 => ⟨S8192, .f32⟩
  | 81 => ⟨S8192x1, .f32⟩
  | 82 => ⟨S_, .f32⟩
  | 83 => ⟨S8192x1, .f32⟩
  | 84 => ⟨S8192x1, .f32⟩
  | 85 => ⟨S_, .f32⟩
  | 86 => ⟨S8192, .f32⟩
  | 87 => ⟨S1x8192, .f32⟩
  | 88 => ⟨S_, .f32⟩
  | 89 => ⟨S1x8192, .f32⟩
  | 90 => ⟨S1x8192, .f32⟩
  | 91 => ⟨S_, .f32⟩
  | 92 => ⟨S_, .f32⟩
  | 93 => ⟨S_, .f32⟩
  | 94 => ⟨S_, .f32⟩
  | 95 => ⟨S8192x8192, .f32⟩
  | 96 => ⟨S8192x8192, .f32⟩
  | 97 => ⟨S8192x8192, .f32⟩
  | 98 => ⟨S8192x8192, .f32⟩
  | 99 => ⟨S8192x8192, .f32⟩
  | 100 => ⟨S8192x8192, .f32⟩
  | 101 => ⟨S8192x8192, .f32⟩
  | 102 => ⟨S_, .f32⟩
  | 103 => ⟨S_, .f32⟩
  | 104 => ⟨S1024x8192, .f32⟩
  | 105 => ⟨S8192x8192, .f32⟩
  | 106 => ⟨S_, .f32⟩
  | 107 => ⟨S8192, .f32⟩
  | 108 => ⟨S8192x1, .f32⟩
  | 109 => ⟨S_, .f32⟩
  | 110 => ⟨S8192x1, .f32⟩
  | 111 => ⟨S8192x1, .f32⟩
  | 112 => ⟨S_, .f32⟩
  | 113 => ⟨S8192, .f32⟩
  | 114 => ⟨S1x8192, .f32⟩
  | 115 => ⟨S_, .f32⟩
  | 116 => ⟨S1x8192, .f32⟩
  | 117 => ⟨S1x8192, .f32⟩
  | 118 => ⟨S_, .f32⟩
  | 119 => ⟨S_, .f32⟩
  | 120 => ⟨S_, .f32⟩
  | 121 => ⟨S_, .f32⟩
  | 122 => ⟨S8192x8192, .f32⟩
  | 123 => ⟨S8192x8192, .f32⟩
  | 124 => ⟨S8192x8192, .f32⟩
  | 125 => ⟨S8192x8192, .f32⟩
  | 126 => ⟨S8192x8192, .f32⟩
  | 127 => ⟨S8192x8192, .f32⟩
  | _ => ⟨S8192x2048, .f32⟩

abbrev hbmTy0_1 (i : Nat) : BufTy := match i % 128 with
  | 0 => ⟨S1024x8192, .f32⟩
  | 1 => ⟨S8192x8192, .f32⟩
  | 2 => ⟨S_, .f32⟩
  | 3 => ⟨S8192, .f32⟩
  | 4 => ⟨S8192x1, .f32⟩
  | 5 => ⟨S_, .f32⟩
  | 6 => ⟨S8192x1, .f32⟩
  | 7 => ⟨S8192x1, .f32⟩
  | 8 => ⟨S_, .f32⟩
  | 9 => ⟨S8192, .f32⟩
  | 10 => ⟨S1x8192, .f32⟩
  | 11 => ⟨S_, .f32⟩
  | 12 => ⟨S1x8192, .f32⟩
  | 13 => ⟨S1x8192, .f32⟩
  | 14 => ⟨S_, .f32⟩
  | 15 => ⟨S_, .f32⟩
  | 16 => ⟨S_, .f32⟩
  | 17 => ⟨S_, .f32⟩
  | 18 => ⟨S8192x8192, .f32⟩
  | 19 => ⟨S8192x8192, .f32⟩
  | 20 => ⟨S8192x8192, .f32⟩
  | 21 => ⟨S8192x8192, .f32⟩
  | 22 => ⟨S8192x8192, .f32⟩
  | 23 => ⟨S8192x8192, .f32⟩
  | 24 => ⟨S8192x8192, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_cst_9 : Ref sig .tc := ⟨.hbm, 40, rfl⟩
abbrev main_v28 : Ref sig .tc := ⟨.hbm, 41, rfl⟩
abbrev main_cst_10 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_11 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_12 : Ref sig .tc := ⟨.hbm, 55, rfl⟩
abbrev main_v40 : Ref sig .tc := ⟨.hbm, 56, rfl⟩
abbrev main_v41 : Ref sig .tc := ⟨.hbm, 57, rfl⟩
abbrev main_cst_13 : Ref sig .tc := ⟨.hbm, 58, rfl⟩
abbrev main_v42 : Ref sig .tc := ⟨.hbm, 59, rfl⟩
abbrev main_v43 : Ref sig .tc := ⟨.hbm, 60, rfl⟩
abbrev main_cst_14 : Ref sig .tc := ⟨.hbm, 61, rfl⟩
abbrev main_v44 : Ref sig .tc := ⟨.hbm, 62, rfl⟩
abbrev main_v45 : Ref sig .tc := ⟨.hbm, 63, rfl⟩
abbrev main_cst_15 : Ref sig .tc := ⟨.hbm, 64, rfl⟩
abbrev main_v46 : Ref sig .tc := ⟨.hbm, 65, rfl⟩
abbrev main_v47 : Ref sig .tc := ⟨.hbm, 66, rfl⟩
abbrev main_cst_16 : Ref sig .tc := ⟨.hbm, 67, rfl⟩
abbrev main_v48 : Ref sig .tc := ⟨.hbm, 68, rfl⟩
abbrev main_cst_17 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_18 : Ref sig .tc := ⟨.hbm, 79, rfl⟩
abbrev main_v58 : Ref sig .tc := ⟨.hbm, 80, rfl⟩
abbrev main_v59 : Ref sig .tc := ⟨.hbm, 81, rfl⟩
abbrev main_cst_19 : Ref sig .tc := ⟨.hbm, 82, rfl⟩
abbrev main_v60 : Ref sig .tc := ⟨.hbm, 83, rfl⟩
abbrev main_v61 : Ref sig .tc := ⟨.hbm, 84, rfl⟩
abbrev main_cst_20 : Ref sig .tc := ⟨.hbm, 85, rfl⟩
abbrev main_v62 : Ref sig .tc := ⟨.hbm, 86, rfl⟩
abbrev main_v63 : Ref sig .tc := ⟨.hbm, 87, rfl⟩
abbrev main_cst_21 : Ref sig .tc := ⟨.hbm, 88, rfl⟩
abbrev main_v64 : Ref sig .tc := ⟨.hbm, 89, rfl⟩
abbrev main_v65 : Ref sig .tc := ⟨.hbm, 90, rfl⟩
abbrev main_cst_22 : Ref sig .tc := ⟨.hbm, 91, rfl⟩
abbrev main_v66 : Ref sig .tc := ⟨.hbm, 92, rfl⟩
abbrev main_cst_23 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_24 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_25 : Ref sig .tc := ⟨.hbm, 106, rfl⟩
abbrev main_v78 : Ref sig .tc := ⟨.hbm, 107, rfl⟩
abbrev main_v79 : Ref sig .tc := ⟨.hbm, 108, rfl⟩
abbrev main_cst_26 : Ref sig .tc := ⟨.hbm, 109, rfl⟩
abbrev main_v80 : Ref sig .tc := ⟨.hbm, 110, rfl⟩
abbrev main_v81 : Ref sig .tc := ⟨.hbm, 111, rfl⟩
abbrev main_cst_27 : Ref sig .tc := ⟨.hbm, 112, rfl⟩
abbrev main_v82 : Ref sig .tc := ⟨.hbm, 113, rfl⟩
abbrev main_v83 : Ref sig .tc := ⟨.hbm, 114, rfl⟩
abbrev main_cst_28 : Ref sig .tc := ⟨.hbm, 115, rfl⟩
abbrev main_v84 : Ref sig .tc := ⟨.hbm, 116, rfl⟩
abbrev main_v85 : Ref sig .tc := ⟨.hbm, 117, rfl⟩
abbrev main_cst_29 : Ref sig .tc := ⟨.hbm, 118, rfl⟩
abbrev main_v86 : Ref sig .tc := ⟨.hbm, 119, rfl⟩
abbrev main_cst_30 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_31 : Ref sig .tc := ⟨.hbm, 130, rfl⟩
abbrev main_v96 : Ref sig .tc := ⟨.hbm, 131, rfl⟩
abbrev main_v97 : Ref sig .tc := ⟨.hbm, 132, rfl⟩
abbrev main_cst_32 : Ref sig .tc := ⟨.hbm, 133, rfl⟩
abbrev main_v98 : Ref sig .tc := ⟨.hbm, 134, rfl⟩
abbrev main_v99 : Ref sig .tc := ⟨.hbm, 135, rfl⟩
abbrev main_cst_33 : Ref sig .tc := ⟨.hbm, 136, rfl⟩
abbrev main_v100 : Ref sig .tc := ⟨.hbm, 137, rfl⟩
abbrev main_v101 : Ref sig .tc := ⟨.hbm, 138, rfl⟩
abbrev main_cst_34 : Ref sig .tc := ⟨.hbm, 139, rfl⟩
abbrev main_v102 : Ref sig .tc := ⟨.hbm, 140, rfl⟩
abbrev main_v103 : Ref sig .tc := ⟨.hbm, 141, rfl⟩
abbrev main_cst_35 : Ref sig .tc := ⟨.hbm, 142, rfl⟩
abbrev main_v104 : Ref sig .tc := ⟨.hbm, 143, rfl⟩
abbrev main_cst_36 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_37 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_cst_38 : Ref sig .tc := ⟨.hbm, 157, rfl⟩
abbrev main_v116 : Ref sig .tc := ⟨.hbm, 158, rfl⟩
abbrev main_v117 : Ref sig .tc := ⟨.hbm, 159, rfl⟩

abbrev nD : Nat := 1
abbrev τ : Topo := Topo.v7x

variable {F : FTy → Type} [FloatOps F]

class Facts₀ : Prop where
  transposes_S8192x2048_S2048x8192_1_0 : S8192x2048.Transposes [1, 0] S2048x8192
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  reducesTo_S8192x8192_S8192_d0 : S8192x8192.ReducesTo [0] S8192
  bcast_S8192_S1x8192_1 : S8192.BroadcastsInDim S1x8192 (![1] : Fin 1 → Fin S1x8192.rank)
  bcast_S_S1x8192 : S_.BroadcastsInDim S1x8192 (![] : Fin 0 → Fin S1x8192.rank)
  reducesTo_S8192x8192_S_d0_1 : S8192x8192.ReducesTo [0, 1] S_
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  transposes_S8192x1024_S1024x8192_1_0 : S8192x1024.Transposes [1, 0] S1024x8192
  dot_S8192x2048_S2048x8192_S8192x8192_1_0_0_1_n_n_wf : DotDims.WF S8192x2048 S2048x8192 S8192x8192 [1] [0] [0] [1] [] []
  dot_S8192x1024_S1024x8192_S8192x8192_1_0_0_1_n_n_wf : DotDims.WF S8192x1024 S1024x8192 S8192x8192 [1] [0] [0] [1] [] []

variable [Facts₀]

def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf

class Facts : Prop extends Facts₀ where

variable [Facts]
-- ==== Proof.KB0Runs.lean ====
/-
  Region 0 of the program (one launch of the sum-of-squares kernel over a grid of 32 points), first part: what the
  four control cases of the body share. A grid point is (i, j, k) in row-major order, k the reduction axis of extent 4.
  The body has three conditional blocks: at the very first point it zeroes the 1×1 result; at k = 0 it zeroes the
  512×512 accumulator; at every point it adds the product of the two 2048×512 input blocks (contracted over their
  2048 rows) into the accumulator; at k = 3 it adds the sum of the accumulator's squares into the result. Hence four
  cases: A (first point), B (k = 0 elsewhere), C (k = 1, 2), D (k = 3). The result window is idle (not stored into,
  not written back) in cases B and C.
-/
import proofs.«157129_j47072841564786_1_alg».proof.Proof.Gen.Kernel.Launch
import proofs.«157129_j47072841564786_1_alg».proof.Proof.Gen.Kernel.Skeleton
import proofs.«157129_j47072841564786_1_alg».proof.Proof.Gen.Kernel.Points
import Idealize.ShloMosaic.Lib.Pipeline.FrameBody
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions, in closed form over the grid -/

/-- The first point of the grid. -/
abbrev cond_0 (i : grid0.Coords) : Prop := k0_cond1 i = 1#1
theorem hcond_0 : ∀ t : Fin cfg0.N, cond_0 (grid0.coords t) ↔ t.val = 0 :=
  (by decide +kernel : ∀ t : Fin grid0.N, cond_0 (grid0.coords t) ↔ t.val = 0)
/-- The reduction coordinate is 0. -/
abbrev cond_1 (i : grid0.Coords) : Prop := (Scalar.cmpi .ne (Scalar.extui (Scalar.cmpi .eq (BitVec.ofNat 32 (i 2).val) 0#32)) 0#32) = 1#1
theorem hcond_1 : ∀ t : Fin cfg0.N, cond_1 (grid0.coords t) ↔ t.val % 4 = 0 :=
  (by decide +kernel : ∀ t : Fin grid0.N, cond_1 (grid0.coords t) ↔ t.val % 4 = 0)
/-- The reduction coordinate is 3, the last. -/
abbrev cond_2 (i : grid0.Coords) : Prop := k0_cond3 i = 1#1
theorem hcond_2 : ∀ t : Fin cfg0.N, cond_2 (grid0.coords t) ↔ t.val % 4 = 3 :=
  (by decide +kernel : ∀ t : Fin grid0.N, cond_2 (grid0.coords t) ↔ t.val % 4 = 3)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2_A : ∀ t : Fin cfg0.N, cond_0 (grid0.coords t) → cfg0.idle 2 (grid0.coords t) = false := by decide +kernel
theorem liveAt_2_D : ∀ t : Fin cfg0.N, cond_2 (grid0.coords t) → cfg0.idle 2 (grid0.coords t) = false := by decide +kernel
theorem idleAt_2 : ∀ t : Fin cfg0.N, ¬cond_0 (grid0.coords t) → ¬cond_2 (grid0.coords t) → cfg0.idle 2 (grid0.coords t) = true := by decide +kernel
theorem noFlush_2 : ∀ t : Fin cfg0.N, ¬cond_2 (grid0.coords t) → (cfg0.win 2).flush t = false := by decide +kernel
/-- The result window's buffer holds nothing the body stored only when the body runs at the first point. -/
theorem fresh_2 : ∀ n, n ≤ cfg0.N → cfg0.fresh 2 n = (decide (n = 0) || decide (n = 32)) :=
  Pipeline.Cfg.fresh_tab cfg0 2 (fun n => decide (n = 0) || decide (n = 32)) rfl
    (by decide +kernel : ∀ t : Fin grid0.N, (decide (t.val + 1 = 0) || decide (t.val + 1 = 32)) = ((cfg0.win 2).flush t || (cfg0.idle 2 (grid0.coords t) && (decide (t.val = 0) || decide (t.val = 32)))))

/-! ## The memrefs the body is called with -/

abbrev ms_0 (t : Fin cfg0.N) : Memref sig .tc .vmem S2048x512 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S2048x512 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x1 .f32 := win0_2.stage (cfg0.slots t 2)
abbrev hs_2 (t : Fin cfg0.N) : (ms_2 t).IsWhole := hstage0_2 ((cfg0.slots t 2).cast nbuf0_2)
/-- The accumulator: a whole scoped buffer of the kernel's own. -/
abbrev scM : Memref sig .tc .vmem S512x512 .f32 := Memref.whole cc0_scratch0
abbrev VS : View sig .tc .vmem S512x512 .f32 := (scM : Memref sig .tc .vmem S512x512 .f32).view
abbrev VO : View sig .tc .vmem S1x1 .f32 := (Memref.whole cc0_stg2_0 : Memref sig .tc .vmem S1x1 .f32).view

/-- The region's standing invariant with the accumulator split out of the scoped buffers no window stages. -/
theorem PhiA_eq (c : Dev nD) :
    (Pipeline.ΦA spec0 c : sProp 𝕄)
      = iprop(iprop((∃ d, owns (c : Thread nD τ) scM fullShare d) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [scM, owns_whole, bigSepL]
  try rfl

end Cert.Kernel.Reg0

end
-- ==== Proof.KB0RunA.lean ====
/-
  Region 0, case A (the grid's first point): the body zeroes the result, zeroes the accumulator and adds the first
  product into it. The run finds the pieces each buffer ends with.
-/
import proofs.«157129_j47072841564786_1_alg».proof.Proof.KB0Runs

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case A on whole memrefs: the inputs at their blocks, the result and the accumulator at anything; it ends
    with the inputs as they were and the result and the accumulator with the found pieces written. -/
noncomputable def kernelRun_A (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i)
    (x0 x1 : Vec F S2048x512 .bf16) :
    Σ' (L2 : List (View.Piece (Elt F) S1x1 .f32)), { LS : List (View.Piece (Elt F) S512x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc0__sumsq_kernel i arg3 harg3 arg4 harg4 arg5 harg5 arg6 harg6) K } := by
  refine ⟨?_, ?_, fun E K => ?run⟩
  case run =>
    simp only [cc0__sumsq_kernel_eq_skeleton]; unfold cc0__sumsq_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.Kernel.Reg0

end
-- ==== Proof.KB0RunB.lean ====
/-
  Region 0, case B (reduction coordinate 0, not the first point): the body zeroes the accumulator and adds the
  product into it; the result's buffer is left as found.
-/
import proofs.«157129_j47072841564786_1_alg».proof.Proof.KB0Runs

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case B: the result's buffer handed back untouched, the accumulator with the found pieces written. -/
noncomputable def kernelRun_B (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : cond_1 i) (hc2 : ¬cond_2 i)
    (x0 x1 : Vec F S2048x512 .bf16) :
    { LS : List (View.Piece (Elt F) S512x512 .f32) //
      ∀ (xi2 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc0__sumsq_kernel i arg3 harg3 arg4 harg4 arg5 harg5 arg6 harg6) K } := by
  refine ⟨?_, fun xi2 E K => ?run⟩
  case run =>
    simp only [cc0__sumsq_kernel_eq_skeleton]; unfold cc0__sumsq_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Reg0

end
-- ==== Proof.KB0RunC.lean ====
/-
  Region 0, case C (reduction coordinate 1 or 2): the body adds the product into the accumulator, which holds what
  the point before left; the result's buffer is left as found.
-/
import proofs.«157129_j47072841564786_1_alg».proof.Proof.KB0Runs

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case C: the accumulator enters at the contents xs and ends with the found pieces written. -/
noncomputable def kernelRun_C (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : ¬cond_2 i)
    (x0 x1 : Vec F S2048x512 .bf16) (xs : Vec F S512x512 .f32) :
    { LS : List (View.Piece (Elt F) S512x512 .f32) //
      ∀ (xi2 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc0__sumsq_kernel i arg3 harg3 arg4 harg4 arg5 harg5 arg6 harg6) K } := by
  refine ⟨?_, fun xi2 E K => ?run⟩
  case run =>
    simp only [cc0__sumsq_kernel_eq_skeleton]; unfold cc0__sumsq_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Reg0

end
-- ==== Proof.KB0RunD.lean ====
/-
  Region 0, case D (reduction coordinate 3): the body adds the product into the accumulator, then adds the sum of the
  accumulator's squares into the result, which holds what the last storing point left.
-/
import proofs.«157129_j47072841564786_1_alg».proof.Proof.KB0Runs

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case D: the accumulator enters at xs, the result at xo; both end with the found pieces written. -/
noncomputable def kernelRun_D (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i)
    (x0 x1 : Vec F S2048x512 .bf16) (xs : Vec F S512x512 .f32) (xo : Vec F S1x1 .f32) :
    Σ' (L2 : List (View.Piece (Elt F) S1x1 .f32)), { LS : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare xo ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc0__sumsq_kernel i arg3 harg3 arg4 harg4 arg5 harg5 arg6 harg6) K } := by
  refine ⟨?_, ?_, fun E K => ?run⟩
  case run =>
    simp only [cc0__sumsq_kernel_eq_skeleton]; unfold cc0__sumsq_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.Kernel.Reg0

end
-- ==== Proof.KB0.lean ====
/-
  Region 0, last part: what the result's buffer and the accumulator hold after each grid point (one recursion over
  the points, the result carried unchanged through the points that do not store it), the region's proof data, and the
  body obligation at a generic point, by the four cases.
-/
import proofs.«157129_j47072841564786_1_alg».proof.Proof.KB0RunA
import proofs.«157129_j47072841564786_1_alg».proof.Proof.KB0RunB
import proofs.«157129_j47072841564786_1_alg».proof.Proof.KB0RunC
import proofs.«157129_j47072841564786_1_alg».proof.Proof.KB0RunD

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back from the pieces its run found -/

theorem cover_A_2 (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) (y : S1x1.Idx) :
    ∃ pc ∈ (kernelRun_A c i arg3 harg3 arg4 harg4 arg5 harg5 arg6 harg6 hc0 hc1 hc2 x0 x1).1, y ∈ pc.1.set :=
  View.cover_of_tiledL (kernelRun_A c i arg3 harg3 arg4 harg4 arg5 harg5 arg6 harg6 hc0 hc1 hc2 x0 x1).1 S1x1.size (by sl_kernel_rfl) y
def out_A_2 (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) : Vec F S1x1 .f32 :=
  VO.read (Elt F) (VO.writes (Elt F) VO.junk (kernelRun_A c i arg3 harg3 arg4 harg4 arg5 harg5 arg6 harg6 hc0 hc1 hc2 x0 x1).1)
theorem scover_A (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) (y : S512x512.Idx) :
    ∃ pc ∈ (kernelRun_A c i arg3 harg3 arg4 harg4 arg5 harg5 arg6 harg6 hc0 hc1 hc2 x0 x1).2.1, y ∈ pc.1.set :=
  View.cover_of_tiledL (kernelRun_A c i arg3 harg3 arg4 harg4 arg5 harg5 arg6 harg6 hc0 hc1 hc2 x0 x1).2.1 S512x512.size (by sl_kernel_rfl) y
def sout_A (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) : Vec F S512x512 .f32 :=
  VS.read (Elt F) (VS.writes (Elt F) VS.junk (kernelRun_A c i arg3 harg3 arg4 harg4 arg5 harg5 arg6 harg6 hc0 hc1 hc2 x0 x1).2.1)

theorem scover_B (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : cond_1 i) (hc2 : ¬cond_2 i) (x0 x1 : Vec F S2048x512 .bf16) (y : S512x512.Idx) :
    ∃ pc ∈ (kernelRun_B c i arg3 harg3 arg4 harg4 arg5 harg5 arg6 harg6 hc0 hc1 hc2 x0 x1).1, y ∈ pc.1.set :=
  View.cover_of_tiledL (kernelRun_B c i arg3 harg3 arg4 harg4 arg5 harg5 arg6 harg6 hc0 hc1 hc2 x0 x1).1 S512x512.size (by sl_kernel_rfl) y
def sout_B (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : cond_1 i) (hc2 : ¬cond_2 i) (x0 x1 : Vec F S2048x512 .bf16) : Vec F S512x512 .f32 :=
  VS.read (Elt F) (VS.writes (Elt F) VS.junk (kernelRun_B c i arg3 harg3 arg4 harg4 arg5 harg5 arg6 harg6 hc0 hc1 hc2 x0 x1).1)

theorem scover_C (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : ¬cond_2 i) (x0 x1 : Vec F S2048x512 .bf16) (xs : Vec F S512x512 .f32) (y : S512x512.Idx) :
    ∃ pc ∈ (kernelRun_C c i arg3 harg3 arg4 harg4 arg5 harg5 arg6 harg6 hc0 hc1 hc2 x0 x1 xs).1, y ∈ pc.1.set :=
  View.cover_of_tiledL (kernelRun_C c i arg3 harg3 arg4 harg4 arg5 harg5 arg6 harg6 hc0 hc1 hc2 x0 x1 xs).1 S512x512.size (by sl_kernel_rfl) y
def sout_C (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : ¬cond_2 i) (x0 x1 : Vec F S2048x512 .bf16) (xs : Vec F S512x512 .f32) : Vec F S512x512 .f32 :=
  VS.read (Elt F) (VS.writes (Elt F) VS.junk (kernelRun_C c i arg3 harg3 arg4 harg4 arg5 harg5 arg6 harg6 hc0 hc1 hc2 x0 x1 xs).1)

theorem cover_D_2 (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) (y : S1x1.Idx) :
    ∃ pc ∈ (kernelRun_D c i arg3 harg3 arg4 harg4 arg5 harg5 arg6 harg6 hc0 hc1 hc2 x0 x1 xs xo).1, y ∈ pc.1.set :=
  View.cover_of_tiledL (kernelRun_D c i arg3 harg3 arg4 harg4 arg5 harg5 arg6 harg6 hc0 hc1 hc2 x0 x1 xs xo).1 S1x1.size (by sl_kernel_rfl) y
def out_D_2 (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) : Vec F S1x1 .f32 :=
  VO.read (Elt F) (VO.writes (Elt F) VO.junk (kernelRun_D c i arg3 harg3 arg4 harg4 arg5 harg5 arg6 harg6 hc0 hc1 hc2 x0 x1 xs xo).1)
theorem scover_D (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) (y : S512x512.Idx) :
    ∃ pc ∈ (kernelRun_D c i arg3 harg3 arg4 harg4 arg5 harg5 arg6 harg6 hc0 hc1 hc2 x0 x1 xs xo).2.1, y ∈ pc.1.set :=
  View.cover_of_tiledL (kernelRun_D c i arg3 harg3 arg4 harg4 arg5 harg5 arg6 harg6 hc0 hc1 hc2 x0 x1 xs xo).2.1 S512x512.size (by sl_kernel_rfl) y
def sout_D (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) : Vec F S512x512 .f32 :=
  VS.read (Elt F) (VS.writes (Elt F) VS.junk (kernelRun_D c i arg3 harg3 arg4 harg4 arg5 harg5 arg6 harg6 hc0 hc1 hc2 x0 x1 xs xo).2.1)

/-! ## The accumulation over the grid points -/

/-- What the result's buffer (first component) and the accumulator (second) hold after the body at position n. -/
def outsAt (c : Dev nD) : (n : ℕ) → n < cfg0.N → Vec F S1x1 .f32 × Vec F S512x512 .f32
  | 0, hn =>
    (out_A_2 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond_0 ⟨0, hn⟩).mpr rfl) ((hcond_1 ⟨0, hn⟩).mpr (Nat.zero_mod _)) (fun h => (fun h' => by (try dsimp only at h'); omega) ((hcond_2 ⟨0, hn⟩).mp h)) (iblk V c 0 ⟨0, hn⟩) (iblk V c 1 ⟨0, hn⟩),
     sout_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond_0 ⟨0, hn⟩).mpr rfl) ((hcond_1 ⟨0, hn⟩).mpr (Nat.zero_mod _)) (fun h => (fun h' => by (try dsimp only at h'); omega) ((hcond_2 ⟨0, hn⟩).mp h)) (iblk V c 0 ⟨0, hn⟩) (iblk V c 1 ⟨0, hn⟩))
  | n + 1, hn =>
    if h1 : (n + 1) % 4 = 0 then
      ((outsAt c n (Nat.lt_of_succ_lt hn)).1,
       sout_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => Nat.succ_ne_zero n ((hcond_0 ⟨n + 1, hn⟩).mp h)) ((hcond_1 ⟨n + 1, hn⟩).mpr h1) (fun h => (fun h' => by (try dsimp only at h'); omega) ((hcond_2 ⟨n + 1, hn⟩).mp h)) (iblk V c 0 ⟨n + 1, hn⟩) (iblk V c 1 ⟨n + 1, hn⟩))
    else if h2 : (n + 1) % 4 = 3 then
      (out_D_2 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => Nat.succ_ne_zero n ((hcond_0 ⟨n + 1, hn⟩).mp h)) (fun h => h1 ((hcond_1 ⟨n + 1, hn⟩).mp h)) ((hcond_2 ⟨n + 1, hn⟩).mpr h2) (iblk V c 0 ⟨n + 1, hn⟩) (iblk V c 1 ⟨n + 1, hn⟩) (outsAt c n (Nat.lt_of_succ_lt hn)).2 (outsAt c n (Nat.lt_of_succ_lt hn)).1,
       sout_D c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => Nat.succ_ne_zero n ((hcond_0 ⟨n + 1, hn⟩).mp h)) (fun h => h1 ((hcond_1 ⟨n + 1, hn⟩).mp h)) ((hcond_2 ⟨n + 1, hn⟩).mpr h2) (iblk V c 0 ⟨n + 1, hn⟩) (iblk V c 1 ⟨n + 1, hn⟩) (outsAt c n (Nat.lt_of_succ_lt hn)).2 (outsAt c n (Nat.lt_of_succ_lt hn)).1)
    else
      ((outsAt c n (Nat.lt_of_succ_lt hn)).1,
       sout_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => Nat.succ_ne_zero n ((hcond_0 ⟨n + 1, hn⟩).mp h)) (fun h => h1 ((hcond_1 ⟨n + 1, hn⟩).mp h)) (fun h => h2 ((hcond_2 ⟨n + 1, hn⟩).mp h)) (iblk V c 0 ⟨n + 1, hn⟩) (iblk V c 1 ⟨n + 1, hn⟩) (outsAt c n (Nat.lt_of_succ_lt hn)).2)

/-- The previous position, for a point that is not the first. -/
abbrev prevLt (t : Fin cfg0.N) : t.val - 1 < cfg0.N := Nat.lt_of_le_of_lt (Nat.sub_le _ _) t.isLt

theorem outsAt_A (c : Dev nD) (t : Fin cfg0.N) (h0 : t.val = 0) (hc0 : cond_0 (grid0.coords t)) (hc1 : cond_1 (grid0.coords t)) (hc2 : ¬cond_2 (grid0.coords t)) :
    outsAt V c t.val t.isLt = (out_A_2 c (grid0.coords t) (ms_0 t) (hs_0 t) (ms_1 t) (hs_1 t) (ms_2 t) (hs_2 t) scM (Memref.isWhole_whole _) hc0 hc1 hc2 (iblk V c 0 t) (iblk V c 1 t), sout_A c (grid0.coords t) (ms_0 t) (hs_0 t) (ms_1 t) (hs_1 t) (ms_2 t) (hs_2 t) scM (Memref.isWhole_whole _) hc0 hc1 hc2 (iblk V c 0 t) (iblk V c 1 t)) := by
  obtain ⟨n, hn⟩ := t
  cases n with
  | zero => exact rfl
  | succ n => exact absurd h0 (Nat.succ_ne_zero n)

theorem outsAt_B (c : Dev nD) (t : Fin cfg0.N) (h0 : t.val ≠ 0) (h1 : t.val % 4 = 0) (hc0 : ¬cond_0 (grid0.coords t)) (hc1 : cond_1 (grid0.coords t)) (hc2 : ¬cond_2 (grid0.coords t)) :
    outsAt V c t.val t.isLt = ((outsAt V c (t.val - 1) (prevLt t)).1, sout_B c (grid0.coords t) (ms_0 t) (hs_0 t) (ms_1 t) (hs_1 t) (ms_2 t) (hs_2 t) scM (Memref.isWhole_whole _) hc0 hc1 hc2 (iblk V c 0 t) (iblk V c 1 t)) := by
  obtain ⟨n, hn⟩ := t
  cases n with
  | zero => exact absurd rfl h0
  | succ n => exact (dif_pos h1).trans rfl

theorem outsAt_C (c : Dev nD) (t : Fin cfg0.N) (h0 : t.val ≠ 0) (h1 : ¬t.val % 4 = 0) (h2 : ¬t.val % 4 = 3) (hc0 : ¬cond_0 (grid0.coords t)) (hc1 : ¬cond_1 (grid0.coords t)) (hc2 : ¬cond_2 (grid0.coords t)) :
    outsAt V c t.val t.isLt = ((outsAt V c (t.val - 1) (prevLt t)).1, sout_C c (grid0.coords t) (ms_0 t) (hs_0 t) (ms_1 t) (hs_1 t) (ms_2 t) (hs_2 t) scM (Memref.isWhole_whole _) hc0 hc1 hc2 (iblk V c 0 t) (iblk V c 1 t) (outsAt V c (t.val - 1) (prevLt t)).2) := by
  obtain ⟨n, hn⟩ := t
  cases n with
  | zero => exact absurd rfl h0
  | succ n => exact (dif_neg h1).trans ((dif_neg h2).trans rfl)

theorem outsAt_D (c : Dev nD) (t : Fin cfg0.N) (h0 : t.val ≠ 0) (h1 : ¬t.val % 4 = 0) (h2 : t.val % 4 = 3) (hc0 : ¬cond_0 (grid0.coords t)) (hc1 : ¬cond_1 (grid0.coords t)) (hc2 : cond_2 (grid0.coords t)) :
    outsAt V c t.val t.isLt = (out_D_2 c (grid0.coords t) (ms_0 t) (hs_0 t) (ms_1 t) (hs_1 t) (ms_2 t) (hs_2 t) scM (Memref.isWhole_whole _) hc0 hc1 hc2 (iblk V c 0 t) (iblk V c 1 t) (outsAt V c (t.val - 1) (prevLt t)).2 (outsAt V c (t.val - 1) (prevLt t)).1, sout_D c (grid0.coords t) (ms_0 t) (hs_0 t) (ms_1 t) (hs_1 t) (ms_2 t) (hs_2 t) scM (Memref.isWhole_whole _) hc0 hc1 hc2 (iblk V c 0 t) (iblk V c 1 t) (outsAt V c (t.val - 1) (prevLt t)).2 (outsAt V c (t.val - 1) (prevLt t)).1) := by
  obtain ⟨n, hn⟩ := t
  cases n with
  | zero => exact absurd rfl h0
  | succ n => exact (dif_neg h1).trans ((dif_pos h2).trans rfl)

/-- At a point that does not store the result, its buffer's contents are carried. -/
theorem outsAt_carry (c : Dev nD) (t : Fin cfg0.N) (h0 : t.val ≠ 0) (h2 : ¬t.val % 4 = 3) :
    (outsAt V c t.val t.isLt).1 = (outsAt V c (t.val - 1) (prevLt t)).1 := by
  have hc0 : ¬cond_0 (grid0.coords t) := fun h => h0 ((hcond_0 t).mp h)
  have hc2 : ¬cond_2 (grid0.coords t) := fun h => h2 ((hcond_2 t).mp h)
  by_cases h1 : t.val % 4 = 0
  · rw [outsAt_B V c t h0 h1 hc0 ((hcond_1 t).mpr h1) hc2]
  · rw [outsAt_C V c t h0 h1 h2 hc0 (fun h => h1 ((hcond_1 t).mp h)) hc2]

/-! ## The region invariant: the accumulator at what the point before left -/

def PhiS (c : Dev nD) : (n : ℕ) → n ≤ cfg0.N → sProp 𝕄
  | 0, _ => Pipeline.ΦA spec0 c
  | n + 1, hn => iprop(iprop(owns (c : Thread nD τ) scM fullShare ((outsAt V c n hn).2) ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM fullShare ((outsAt V c n hn).2) ∗ Pipeline.scopedRestBut (Ix := Unit) (Name := ℕ) (U := UR sig nD τ) (Lvl := ℕ) (Val := Elt F) spec0 c [cc0_scratch0]) ∗ (∃ r, prngReg c r)) := rfl
theorem PhiS_pos (c : Dev nD) (n : ℕ) (h : n ≤ cfg0.N) (hz : n ≠ 0) :
    PhiS V c n h = iprop(iprop(owns (c : Thread nD τ) scM fullShare ((outsAt V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q w := match w with
    | ⟨0, _⟩ => fullShare
    | ⟨1, _⟩ => fullShare
    | ⟨2, _⟩ => fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1 := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-- After the first point the result's buffer holds, when the body runs, what the recursion says of the point before:
    it is never written back before the last point, and the recursion carries it through the points that do not store. -/
theorem before_2 (c : Dev nD) (t : Fin cfg0.N) (hz : t.val ≠ 0) (d) :
    (dat V c).before 2 t d = (outsAt V c (t.val - 1) (prevLt t)).1 := by
  have hN : t.val < 32 := lt_of_lt_of_eq t.isLt (show cfg0.N = 32 from N_0)
  rw [(dat V c).before_out_traj 2 rfl (fun _ _ => rfl) (fun s hs hi hfr => by
      rw [after_2, after_2]
      have hc0 : ¬cond_0 (grid0.coords s) := fun h => by rw [liveAt_2_A s h] at hi; exact Bool.false_ne_true hi
      have hc2 : ¬cond_2 (grid0.coords s) := fun h => by rw [liveAt_2_D s h] at hi; exact Bool.false_ne_true hi
      exact outsAt_carry V c s hs (fun h => hc2 ((hcond_2 s).mpr h))) t.val t rfl d,
    fresh_2 t.val (Nat.le_of_lt t.isLt)]
  rw [show (decide (t.val = 0) || decide (t.val = 32)) = false from by
    rw [Bool.or_eq_false_iff]; exact ⟨decide_eq_false hz, decide_eq_false (by omega)⟩]
  rw [if_neg Bool.false_ne_true, after_2]

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

theorem leaves_0 (c : Dev nD) (t : Fin cfg0.N) : (dat V c).leavesExact 0 t = owns (c : Thread nD τ) (ms_0 t) fullShare (iblk V c 0 t) := by
  unfold Dat.leavesExact; rw [liveAt_0 t, after_0]
theorem leaves_1 (c : Dev nD) (t : Fin cfg0.N) : (dat V c).leavesExact 1 t = owns (c : Thread nD τ) (ms_1 t) fullShare (iblk V c 1 t) := by
  unfold Dat.leavesExact; rw [liveAt_1 t, after_1]

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ, leaves_0, leaves_1]
  have hN : t.val < 32 := lt_of_lt_of_eq t.isLt (show cfg0.N = 32 from N_0)
  by_cases hz : t.val = 0
  · -- case A: the first point
    have hc0 : cond_0 (grid0.coords t) := (hcond_0 t).mpr hz
    have hc1 : cond_1 (grid0.coords t) := (hcond_1 t).mpr (by omega)
    have hc2 : ¬cond_2 (grid0.coords t) := fun h => by have := (hcond_2 t).mp h; omega
    rw [show (dat V c).leavesExact 2 t = owns (c : Thread nD τ) (ms_2 t) fullShare ((dat V c).after 2 t) from by
      unfold Dat.leavesExact; rw [liveAt_2_A t hc0], after_2]
    rw [outsAt_A V c t hz hc0 hc1 hc2]
    unfold out_A_2 sout_A; (try dsimp only)
    rw [PhiS_castSucc V c t, PhiS_zero V c _ _ hz, PhiA_eq]
    iintro ⟨⟨⟨HS, HR⟩, Hg⟩, Ho, ⟨%d0, H0⟩, ⟨%d1, H1⟩, ⟨%d2, H2⟩⟩
    iapply ((kernelRun_A c (grid0.coords t) _ _ _ _ _ _ _ _ hc0 hc1 hc2 (iblk V c 0 t) (iblk V c 1 t)).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact View.read_writes_of_cover _ _ _ _ _ (scover_A c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover_A_2 c _ _ _ _ _ _ _ _ _ _ _ _ _ _)
  · have hc0 : ¬cond_0 (grid0.coords t) := fun h => hz ((hcond_0 t).mp h)
    rw [PhiS_castSucc V c t, PhiS_pos V c _ _ hz]
    by_cases h1 : t.val % 4 = 0
    · -- case B: the reduction starts again
      have hc1 : cond_1 (grid0.coords t) := (hcond_1 t).mpr h1
      have hc2 : ¬cond_2 (grid0.coords t) := fun h => by have := (hcond_2 t).mp h; omega
      rw [Dat.leavesExact_idle (dat V c) 2 t (idleAt_2 t hc0 hc2) (noFlush_2 t hc2)]
      rw [outsAt_B V c t hz h1 hc0 hc1 hc2]
      unfold sout_B; (try dsimp only)
      iintro ⟨⟨⟨HS, HR⟩, Hg⟩, Ho, ⟨%d0, H0⟩, ⟨%d1, H1⟩, ⟨%d2, H2⟩⟩
      iapply ((kernelRun_B c (grid0.coords t) _ _ _ _ _ _ _ _ hc0 hc1 hc2 (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover_B c _ _ _ _ _ _ _ _ _ _ _ _ _ _)
          iexact HR
        iexact Hg
      isplitl [Ho]; · iexact Ho
      isplitl [H0]; · iexact H0
      isplitl [H1]; · iexact H1
      iexists _; iexact H2
    · have hc1 : ¬cond_1 (grid0.coords t) := fun h => h1 ((hcond_1 t).mp h)
      by_cases h2 : t.val % 4 = 3
      · -- case D: the reduction ends
        have hc2 : cond_2 (grid0.coords t) := (hcond_2 t).mpr h2
        rw [show (dat V c).leavesExact 2 t = owns (c : Thread nD τ) (ms_2 t) fullShare ((dat V c).after 2 t) from by
          unfold Dat.leavesExact; rw [liveAt_2_D t hc2], after_2]
        simp only [before_2 V c t hz]
        rw [outsAt_D V c t hz h1 h2 hc0 hc1 hc2]
        unfold out_D_2 sout_D; (try dsimp only)
        iintro ⟨⟨⟨HS, HR⟩, Hg⟩, Ho, ⟨%d0, H0⟩, ⟨%d1, H1⟩, ⟨%d2, H2⟩⟩
        iapply ((kernelRun_D c (grid0.coords t) _ _ _ _ _ _ _ _ hc0 hc1 hc2 (iblk V c 0 t) (iblk V c 1 t) _ _).2.2 Set.univ _)
        isplitl [H0]; · iexact H0
        isplitl [H1]; · iexact H1
        isplitl [H2]; · iexact H2
        isplitl [HS]; · iexact HS
        iintro ⟨H0, H1, ⟨%e2, H2⟩, ⟨%es, HS⟩⟩
        isplitl [HS HR Hg]
        · isplitl [HS HR]
          · isplitl [HS]
            · unfold owns; iexists _; isplitr
              swap; · iexact HS
              ipureintro; exact View.read_writes_of_cover _ _ _ _ _ (scover_D c _ _ _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover_D_2 c _ _ _ _ _ _ _ _ _ _ _ _ _ _ _ _)
      · -- case C: the reduction goes on
        have hc2 : ¬cond_2 (grid0.coords t) := fun h => h2 ((hcond_2 t).mp h)
        rw [Dat.leavesExact_idle (dat V c) 2 t (idleAt_2 t hc0 hc2) (noFlush_2 t hc2)]
        rw [outsAt_C V c t hz h1 h2 hc0 hc1 hc2]
        unfold sout_C; (try dsimp only)
        iintro ⟨⟨⟨HS, HR⟩, Hg⟩, Ho, ⟨%d0, H0⟩, ⟨%d1, H1⟩, ⟨%d2, H2⟩⟩
        iapply ((kernelRun_C c (grid0.coords t) _ _ _ _ _ _ _ _ hc0 hc1 hc2 (iblk V c 0 t) (iblk V c 1 t) _).2 _ Set.univ _)
        isplitl [H0]; · iexact H0
        isplitl [H1]; · iexact H1
        isplitl [H2]; · iexact H2
        isplitl [HS]; · iexact HS
        iintro ⟨H0, H1, H2, ⟨%es, HS⟩⟩
        isplitl [HS HR Hg]
        · isplitl [HS HR]
          · isplitl [HS]
            · unfold owns; iexists _; isplitr
              swap; · iexact HS
              ipureintro; exact View.read_writes_of_cover _ _ _ _ _ (scover_C c _ _ _ _ _ _ _ _ _ _ _ _ _ _ _)
            iexact HR
          iexact Hg
        isplitl [Ho]; · iexact Ho
        isplitl [H0]; · iexact H0
        isplitl [H1]; · iexact H1
        iexists _; iexact H2

theorem body_obligation (c : Dev nD) : BodyObligation (dat (F := F) V c) (defs₀ (F := F)) Variants.none () Set.univ := fun t => by
  rw [bigSep_W0, bigSep_W0]
  exact sound_body V c t

theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

theorem hout (c : Dev nD) : (dat V c).Φ (Fin.last cfg0.N) ⊢ Pipeline.ΦA spec0 c :=
  Phi_out V c _ (by rw [Fin.val_last]; have : cfg0.N = 32 := N_0; omega)

end Cert.Kernel.Reg0

end
-- ==== Proof.KB1Runs.lean ====
/-
  Region 1 of the program (one launch of the sum-of-squares kernel over a grid of 64 points), first part: what the
  four control cases of the body share. A grid point is (i, j, k) in row-major order, k the reduction axis of extent 4.
  The body has three conditional blocks: at the very first point it zeroes the 1×1 result; at k = 0 it zeroes the
  512×512 accumulator; at every point it adds the product of the two 2048×512 input blocks (contracted over their
  2048 rows) into the accumulator; at k = 3 it adds the sum of the accumulator's squares into the result. Hence four
  cases: A (first point), B (k = 0 elsewhere), C (k = 1, 2), D (k = 3). The result window is idle (not stored into,
  not written back) in cases B and C.
-/
import proofs.«157129_j47072841564786_1_alg».proof.Proof.Gen.Kernel.Launch
import proofs.«157129_j47072841564786_1_alg».proof.Proof.Gen.Kernel.Skeleton
import proofs.«157129_j47072841564786_1_alg».proof.Proof.Gen.Kernel.Points
import Idealize.ShloMosaic.Lib.Pipeline.FrameBody
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions, in closed form over the grid -/

/-- The first point of the grid. -/
abbrev cond_0 (i : grid1.Coords) : Prop := k1_cond1 i = 1#1
theorem hcond_0 : ∀ t : Fin cfg1.N, cond_0 (grid1.coords t) ↔ t.val = 0 :=
  (by decide +kernel : ∀ t : Fin grid1.N, cond_0 (grid1.coords t) ↔ t.val = 0)
/-- The reduction coordinate is 0. -/
abbrev cond_1 (i : grid1.Coords) : Prop := (Scalar.cmpi .ne (Scalar.extui (Scalar.cmpi .eq (BitVec.ofNat 32 (i 2).val) 0#32)) 0#32) = 1#1
theorem hcond_1 : ∀ t : Fin cfg1.N, cond_1 (grid1.coords t) ↔ t.val % 4 = 0 :=
  (by decide +kernel : ∀ t : Fin grid1.N, cond_1 (grid1.coords t) ↔ t.val % 4 = 0)
/-- The reduction coordinate is 3, the last. -/
abbrev cond_2 (i : grid1.Coords) : Prop := k1_cond3 i = 1#1
theorem hcond_2 : ∀ t : Fin cfg1.N, cond_2 (grid1.coords t) ↔ t.val % 4 = 3 :=
  (by decide +kernel : ∀ t : Fin grid1.N, cond_2 (grid1.coords t) ↔ t.val % 4 = 3)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2_A : ∀ t : Fin cfg1.N, cond_0 (grid1.coords t) → cfg1.idle 2 (grid1.coords t) = false := by decide +kernel
theorem liveAt_2_D : ∀ t : Fin cfg1.N, cond_2 (grid1.coords t) → cfg1.idle 2 (grid1.coords t) = false := by decide +kernel
theorem idleAt_2 : ∀ t : Fin cfg1.N, ¬cond_0 (grid1.coords t) → ¬cond_2 (grid1.coords t) → cfg1.idle 2 (grid1.coords t) = true := by decide +kernel
theorem noFlush_2 : ∀ t : Fin cfg1.N, ¬cond_2 (grid1.coords t) → (cfg1.win 2).flush t = false := by decide +kernel
/-- The result window's buffer holds nothing the body stored only when the body runs at the first point. -/
theorem fresh_2 : ∀ n, n ≤ cfg1.N → cfg1.fresh 2 n = (decide (n = 0) || decide (n = 64)) :=
  Pipeline.Cfg.fresh_tab cfg1 2 (fun n => decide (n = 0) || decide (n = 64)) rfl
    (by decide +kernel : ∀ t : Fin grid1.N, (decide (t.val + 1 = 0) || decide (t.val + 1 = 64)) = ((cfg1.win 2).flush t || (cfg1.idle 2 (grid1.coords t) && (decide (t.val = 0) || decide (t.val = 64)))))

/-! ## The memrefs the body is called with -/

abbrev ms_0 (t : Fin cfg1.N) : Memref sig .tc .vmem S2048x512 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S2048x512 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x1 .f32 := win1_2.stage (cfg1.slots t 2)
abbrev hs_2 (t : Fin cfg1.N) : (ms_2 t).IsWhole := hstage1_2 ((cfg1.slots t 2).cast nbuf1_2)
/-- The accumulator: a whole scoped buffer of the kernel's own. -/
abbrev scM : Memref sig .tc .vmem S512x512 .f32 := Memref.whole cc1_scratch0
abbrev VS : View sig .tc .vmem S512x512 .f32 := (scM : Memref sig .tc .vmem S512x512 .f32).view
abbrev VO : View sig .tc .vmem S1x1 .f32 := (Memref.whole cc1_stg2_0 : Memref sig .tc .vmem S1x1 .f32).view

/-- The region's standing invariant with the accumulator split out of the scoped buffers no window stages. -/
theorem PhiA_eq (c : Dev nD) :
    (Pipeline.ΦA spec1 c : sProp 𝕄)
      = iprop(iprop((∃ d, owns (c : Thread nD τ) scM fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM, owns_whole, bigSepL]
  try rfl

end Cert.Kernel.Reg1

end
-- ==== Proof.KB1RunA.lean ====
/-
  Region 1, case A (the grid's first point): the body zeroes the result, zeroes the accumulator and adds the first
  product into it. The run finds the pieces each buffer ends with.
-/
import proofs.«157129_j47072841564786_1_alg».proof.Proof.KB1Runs

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case A on whole memrefs: the inputs at their blocks, the result and the accumulator at anything; it ends
    with the inputs as they were and the result and the accumulator with the found pieces written. -/
noncomputable def kernelRun_A (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i)
    (x0 x1 : Vec F S2048x512 .bf16) :
    Σ' (L2 : List (View.Piece (Elt F) S1x1 .f32)), { LS : List (View.Piece (Elt F) S512x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc1__sumsq_kernel i arg3 harg3 arg4 harg4 arg5 harg5 arg6 harg6) K } := by
  refine ⟨?_, ?_, fun E K => ?run⟩
  case run =>
    simp only [cc1__sumsq_kernel_eq_skeleton]; unfold cc1__sumsq_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.Kernel.Reg1

end
-- ==== Proof.KB1RunB.lean ====
/-
  Region 1, case B (reduction coordinate 0, not the first point): the body zeroes the accumulator and adds the
  product into it; the result's buffer is left as found.
-/
import proofs.«157129_j47072841564786_1_alg».proof.Proof.KB1Runs

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case B: the result's buffer handed back untouched, the accumulator with the found pieces written. -/
noncomputable def kernelRun_B (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : cond_1 i) (hc2 : ¬cond_2 i)
    (x0 x1 : Vec F S2048x512 .bf16) :
    { LS : List (View.Piece (Elt F) S512x512 .f32) //
      ∀ (xi2 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__sumsq_kernel i arg3 harg3 arg4 harg4 arg5 harg5 arg6 harg6) K } := by
  refine ⟨?_, fun xi2 E K => ?run⟩
  case run =>
    simp only [cc1__sumsq_kernel_eq_skeleton]; unfold cc1__sumsq_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Reg1

end
-- ==== Proof.KB1RunC.lean ====
/-
  Region 1, case C (reduction coordinate 1 or 2): the body adds the product into the accumulator, which holds what
  the point before left; the result's buffer is left as found.
-/
import proofs.«157129_j47072841564786_1_alg».proof.Proof.KB1Runs

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case C: the accumulator enters at the contents xs and ends with the found pieces written. -/
noncomputable def kernelRun_C (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : ¬cond_2 i)
    (x0 x1 : Vec F S2048x512 .bf16) (xs : Vec F S512x512 .f32) :
    { LS : List (View.Piece (Elt F) S512x512 .f32) //
      ∀ (xi2 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__sumsq_kernel i arg3 harg3 arg4 harg4 arg5 harg5 arg6 harg6) K } := by
  refine ⟨?_, fun xi2 E K => ?run⟩
  case run =>
    simp only [cc1__sumsq_kernel_eq_skeleton]; unfold cc1__sumsq_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Reg1

end
-- ==== Proof.KB1RunD.lean ====
/-
  Region 1, case D (reduction coordinate 3): the body adds the product into the accumulator, then adds the sum of the
  accumulator's squares into the result, which holds what the last storing point left.
-/
import proofs.«157129_j47072841564786_1_alg».proof.Proof.KB1Runs

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case D: the accumulator enters at xs, the result at xo; both end with the found pieces written. -/
noncomputable def kernelRun_D (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i)
    (x0 x1 : Vec F S2048x512 .bf16) (xs : Vec F S512x512 .f32) (xo : Vec F S1x1 .f32) :
    Σ' (L2 : List (View.Piece (Elt F) S1x1 .f32)), { LS : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare xo ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc1__sumsq_kernel i arg3 harg3 arg4 harg4 arg5 harg5 arg6 harg6) K } := by
  refine ⟨?_, ?_, fun E K => ?run⟩
  case run =>
    simp only [cc1__sumsq_kernel_eq_skeleton]; unfold cc1__sumsq_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.Kernel.Reg1

end
-- ==== Proof.KB1.lean ====
/-
  Region 1, last part: what the result's buffer and the accumulator hold after each grid point (one recursion over
  the points, the result carried unchanged through the points that do not store it), the region's proof data, and the
  body obligation at a generic point, by the four cases.
-/
import proofs.«157129_j47072841564786_1_alg».proof.Proof.KB1RunA
import proofs.«157129_j47072841564786_1_alg».proof.Proof.KB1RunB
import proofs.«157129_j47072841564786_1_alg».proof.Proof.KB1RunC
import proofs.«157129_j47072841564786_1_alg».proof.Proof.KB1RunD

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back from the pieces its run found -/

theorem cover_A_2 (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) (y : S1x1.Idx) :
    ∃ pc ∈ (kernelRun_A c i arg3 harg3 arg4 harg4 arg5 harg5 arg6 harg6 hc0 hc1 hc2 x0 x1).1, y ∈ pc.1.set :=
  View.cover_of_tiledL (kernelRun_A c i arg3 harg3 arg4 harg4 arg5 harg5 arg6 harg6 hc0 hc1 hc2 x0 x1).1 S1x1.size (by sl_kernel_rfl) y
def out_A_2 (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) : Vec F S1x1 .f32 :=
  VO.read (Elt F) (VO.writes (Elt F) VO.junk (kernelRun_A c i arg3 harg3 arg4 harg4 arg5 harg5 arg6 harg6 hc0 hc1 hc2 x0 x1).1)
theorem scover_A (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) (y : S512x512.Idx) :
    ∃ pc ∈ (kernelRun_A c i arg3 harg3 arg4 harg4 arg5 harg5 arg6 harg6 hc0 hc1 hc2 x0 x1).2.1, y ∈ pc.1.set :=
  View.cover_of_tiledL (kernelRun_A c i arg3 harg3 arg4 harg4 arg5 harg5 arg6 harg6 hc0 hc1 hc2 x0 x1).2.1 S512x512.size (by sl_kernel_rfl) y
def sout_A (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) : Vec F S512x512 .f32 :=
  VS.read (Elt F) (VS.writes (Elt F) VS.junk (kernelRun_A c i arg3 harg3 arg4 harg4 arg5 harg5 arg6 harg6 hc0 hc1 hc2 x0 x1).2.1)

theorem scover_B (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : cond_1 i) (hc2 : ¬cond_2 i) (x0 x1 : Vec F S2048x512 .bf16) (y : S512x512.Idx) :
    ∃ pc ∈ (kernelRun_B c i arg3 harg3 arg4 harg4 arg5 harg5 arg6 harg6 hc0 hc1 hc2 x0 x1).1, y ∈ pc.1.set :=
  View.cover_of_tiledL (kernelRun_B c i arg3 harg3 arg4 harg4 arg5 harg5 arg6 harg6 hc0 hc1 hc2 x0 x1).1 S512x512.size (by sl_kernel_rfl) y
def sout_B (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : cond_1 i) (hc2 : ¬cond_2 i) (x0 x1 : Vec F S2048x512 .bf16) : Vec F S512x512 .f32 :=
  VS.read (Elt F) (VS.writes (Elt F) VS.junk (kernelRun_B c i arg3 harg3 arg4 harg4 arg5 harg5 arg6 harg6 hc0 hc1 hc2 x0 x1).1)

theorem scover_C (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : ¬cond_2 i) (x0 x1 : Vec F S2048x512 .bf16) (xs : Vec F S512x512 .f32) (y : S512x512.Idx) :
    ∃ pc ∈ (kernelRun_C c i arg3 harg3 arg4 harg4 arg5 harg5 arg6 harg6 hc0 hc1 hc2 x0 x1 xs).1, y ∈ pc.1.set :=
  View.cover_of_tiledL (kernelRun_C c i arg3 harg3 arg4 harg4 arg5 harg5 arg6 harg6 hc0 hc1 hc2 x0 x1 xs).1 S512x512.size (by sl_kernel_rfl) y
def sout_C (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : ¬cond_2 i) (x0 x1 : Vec F S2048x512 .bf16) (xs : Vec F S512x512 .f32) : Vec F S512x512 .f32 :=
  VS.read (Elt F) (VS.writes (Elt F) VS.junk (kernelRun_C c i arg3 harg3 arg4 harg4 arg5 harg5 arg6 harg6 hc0 hc1 hc2 x0 x1 xs).1)

theorem cover_D_2 (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) (y : S1x1.Idx) :
    ∃ pc ∈ (kernelRun_D c i arg3 harg3 arg4 harg4 arg5 harg5 arg6 harg6 hc0 hc1 hc2 x0 x1 xs xo).1, y ∈ pc.1.set :=
  View.cover_of_tiledL (kernelRun_D c i arg3 harg3 arg4 harg4 arg5 harg5 arg6 harg6 hc0 hc1 hc2 x0 x1 xs xo).1 S1x1.size (by sl_kernel_rfl) y
def out_D_2 (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) : Vec F S1x1 .f32 :=
  VO.read (Elt F) (VO.writes (Elt F) VO.junk (kernelRun_D c i arg3 harg3 arg4 harg4 arg5 harg5 arg6 harg6 hc0 hc1 hc2 x0 x1 xs xo).1)
theorem scover_D (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) (y : S512x512.Idx) :
    ∃ pc ∈ (kernelRun_D c i arg3 harg3 arg4 harg4 arg5 harg5 arg6 harg6 hc0 hc1 hc2 x0 x1 xs xo).2.1, y ∈ pc.1.set :=
  View.cover_of_tiledL (kernelRun_D c i arg3 harg3 arg4 harg4 arg5 harg5 arg6 harg6 hc0 hc1 hc2 x0 x1 xs xo).2.1 S512x512.size (by sl_kernel_rfl) y
def sout_D (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) : Vec F S512x512 .f32 :=
  VS.read (Elt F) (VS.writes (Elt F) VS.junk (kernelRun_D c i arg3 harg3 arg4 harg4 arg5 harg5 arg6 harg6 hc0 hc1 hc2 x0 x1 xs xo).2.1)

/-! ## The accumulation over the grid points -/

/-- What the result's buffer (first component) and the accumulator (second) hold after the body at position n. -/
def outsAt (c : Dev nD) : (n : ℕ) → n < cfg1.N → Vec F S1x1 .f32 × Vec F S512x512 .f32
  | 0, hn =>
    (out_A_2 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond_0 ⟨0, hn⟩).mpr rfl) ((hcond_1 ⟨0, hn⟩).mpr (Nat.zero_mod _)) (fun h => (fun h' => by (try dsimp only at h'); omega) ((hcond_2 ⟨0, hn⟩).mp h)) (iblk V c 0 ⟨0, hn⟩) (iblk V c 1 ⟨0, hn⟩),
     sout_A c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond_0 ⟨0, hn⟩).mpr rfl) ((hcond_1 ⟨0, hn⟩).mpr (Nat.zero_mod _)) (fun h => (fun h' => by (try dsimp only at h'); omega) ((hcond_2 ⟨0, hn⟩).mp h)) (iblk V c 0 ⟨0, hn⟩) (iblk V c 1 ⟨0, hn⟩))
  | n + 1, hn =>
    if h1 : (n + 1) % 4 = 0 then
      ((outsAt c n (Nat.lt_of_succ_lt hn)).1,
       sout_B c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => Nat.succ_ne_zero n ((hcond_0 ⟨n + 1, hn⟩).mp h)) ((hcond_1 ⟨n + 1, hn⟩).mpr h1) (fun h => (fun h' => by (try dsimp only at h'); omega) ((hcond_2 ⟨n + 1, hn⟩).mp h)) (iblk V c 0 ⟨n + 1, hn⟩) (iblk V c 1 ⟨n + 1, hn⟩))
    else if h2 : (n + 1) % 4 = 3 then
      (out_D_2 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => Nat.succ_ne_zero n ((hcond_0 ⟨n + 1, hn⟩).mp h)) (fun h => h1 ((hcond_1 ⟨n + 1, hn⟩).mp h)) ((hcond_2 ⟨n + 1, hn⟩).mpr h2) (iblk V c 0 ⟨n + 1, hn⟩) (iblk V c 1 ⟨n + 1, hn⟩) (outsAt c n (Nat.lt_of_succ_lt hn)).2 (outsAt c n (Nat.lt_of_succ_lt hn)).1,
       sout_D c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => Nat.succ_ne_zero n ((hcond_0 ⟨n + 1, hn⟩).mp h)) (fun h => h1 ((hcond_1 ⟨n + 1, hn⟩).mp h)) ((hcond_2 ⟨n + 1, hn⟩).mpr h2) (iblk V c 0 ⟨n + 1, hn⟩) (iblk V c 1 ⟨n + 1, hn⟩) (outsAt c n (Nat.lt_of_succ_lt hn)).2 (outsAt c n (Nat.lt_of_succ_lt hn)).1)
    else
      ((outsAt c n (Nat.lt_of_succ_lt hn)).1,
       sout_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => Nat.succ_ne_zero n ((hcond_0 ⟨n + 1, hn⟩).mp h)) (fun h => h1 ((hcond_1 ⟨n + 1, hn⟩).mp h)) (fun h => h2 ((hcond_2 ⟨n + 1, hn⟩).mp h)) (iblk V c 0 ⟨n + 1, hn⟩) (iblk V c 1 ⟨n + 1, hn⟩) (outsAt c n (Nat.lt_of_succ_lt hn)).2)

/-- The previous position, for a point that is not the first. -/
abbrev prevLt (t : Fin cfg1.N) : t.val - 1 < cfg1.N := Nat.lt_of_le_of_lt (Nat.sub_le _ _) t.isLt

theorem outsAt_A (c : Dev nD) (t : Fin cfg1.N) (h0 : t.val = 0) (hc0 : cond_0 (grid1.coords t)) (hc1 : cond_1 (grid1.coords t)) (hc2 : ¬cond_2 (grid1.coords t)) :
    outsAt V c t.val t.isLt = (out_A_2 c (grid1.coords t) (ms_0 t) (hs_0 t) (ms_1 t) (hs_1 t) (ms_2 t) (hs_2 t) scM (Memref.isWhole_whole _) hc0 hc1 hc2 (iblk V c 0 t) (iblk V c 1 t), sout_A c (grid1.coords t) (ms_0 t) (hs_0 t) (ms_1 t) (hs_1 t) (ms_2 t) (hs_2 t) scM (Memref.isWhole_whole _) hc0 hc1 hc2 (iblk V c 0 t) (iblk V c 1 t)) := by
  obtain ⟨n, hn⟩ := t
  cases n with
  | zero => exact rfl
  | succ n => exact absurd h0 (Nat.succ_ne_zero n)

theorem outsAt_B (c : Dev nD) (t : Fin cfg1.N) (h0 : t.val ≠ 0) (h1 : t.val % 4 = 0) (hc0 : ¬cond_0 (grid1.coords t)) (hc1 : cond_1 (grid1.coords t)) (hc2 : ¬cond_2 (grid1.coords t)) :
    outsAt V c t.val t.isLt = ((outsAt V c (t.val - 1) (prevLt t)).1, sout_B c (grid1.coords t) (ms_0 t) (hs_0 t) (ms_1 t) (hs_1 t) (ms_2 t) (hs_2 t) scM (Memref.isWhole_whole _) hc0 hc1 hc2 (iblk V c 0 t) (iblk V c 1 t)) := by
  obtain ⟨n, hn⟩ := t
  cases n with
  | zero => exact absurd rfl h0
  | succ n => exact (dif_pos h1).trans rfl

theorem outsAt_C (c : Dev nD) (t : Fin cfg1.N) (h0 : t.val ≠ 0) (h1 : ¬t.val % 4 = 0) (h2 : ¬t.val % 4 = 3) (hc0 : ¬cond_0 (grid1.coords t)) (hc1 : ¬cond_1 (grid1.coords t)) (hc2 : ¬cond_2 (grid1.coords t)) :
    outsAt V c t.val t.isLt = ((outsAt V c (t.val - 1) (prevLt t)).1, sout_C c (grid1.coords t) (ms_0 t) (hs_0 t) (ms_1 t) (hs_1 t) (ms_2 t) (hs_2 t) scM (Memref.isWhole_whole _) hc0 hc1 hc2 (iblk V c 0 t) (iblk V c 1 t) (outsAt V c (t.val - 1) (prevLt t)).2) := by
  obtain ⟨n, hn⟩ := t
  cases n with
  | zero => exact absurd rfl h0
  | succ n => exact (dif_neg h1).trans ((dif_neg h2).trans rfl)

theorem outsAt_D (c : Dev nD) (t : Fin cfg1.N) (h0 : t.val ≠ 0) (h1 : ¬t.val % 4 = 0) (h2 : t.val % 4 = 3) (hc0 : ¬cond_0 (grid1.coords t)) (hc1 : ¬cond_1 (grid1.coords t)) (hc2 : cond_2 (grid1.coords t)) :
    outsAt V c t.val t.isLt = (out_D_2 c (grid1.coords t) (ms_0 t) (hs_0 t) (ms_1 t) (hs_1 t) (ms_2 t) (hs_2 t) scM (Memref.isWhole_whole _) hc0 hc1 hc2 (iblk V c 0 t) (iblk V c 1 t) (outsAt V c (t.val - 1) (prevLt t)).2 (outsAt V c (t.val - 1) (prevLt t)).1, sout_D c (grid1.coords t) (ms_0 t) (hs_0 t) (ms_1 t) (hs_1 t) (ms_2 t) (hs_2 t) scM (Memref.isWhole_whole _) hc0 hc1 hc2 (iblk V c 0 t) (iblk V c 1 t) (outsAt V c (t.val - 1) (prevLt t)).2 (outsAt V c (t.val - 1) (prevLt t)).1) := by
  obtain ⟨n, hn⟩ := t
  cases n with
  | zero => exact absurd rfl h0
  | succ n => exact (dif_neg h1).trans ((dif_pos h2).trans rfl)

/-- At a point that does not store the result, its buffer's contents are carried. -/
theorem outsAt_carry (c : Dev nD) (t : Fin cfg1.N) (h0 : t.val ≠ 0) (h2 : ¬t.val % 4 = 3) :
    (outsAt V c t.val t.isLt).1 = (outsAt V c (t.val - 1) (prevLt t)).1 := by
  have hc0 : ¬cond_0 (grid1.coords t) := fun h => h0 ((hcond_0 t).mp h)
  have hc2 : ¬cond_2 (grid1.coords t) := fun h => h2 ((hcond_2 t).mp h)
  by_cases h1 : t.val % 4 = 0
  · rw [outsAt_B V c t h0 h1 hc0 ((hcond_1 t).mpr h1) hc2]
  · rw [outsAt_C V c t h0 h1 h2 hc0 (fun h => h1 ((hcond_1 t).mp h)) hc2]

/-! ## The region invariant: the accumulator at what the point before left -/

def PhiS (c : Dev nD) : (n : ℕ) → n ≤ cfg1.N → sProp 𝕄
  | 0, _ => Pipeline.ΦA spec1 c
  | n + 1, hn => iprop(iprop(owns (c : Thread nD τ) scM fullShare ((outsAt V c n hn).2) ∗ Pipeline.scopedRestBut (Ix := Unit) (Name := ℕ) (U := UR sig nD τ) (Lvl := ℕ) (Val := Elt F) spec1 c [cc1_scratch0]) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) scM fullShare ((outsAt V c n hn).2) ∗ Pipeline.scopedRestBut (Ix := Unit) (Name := ℕ) (U := UR sig nD τ) (Lvl := ℕ) (Val := Elt F) spec1 c [cc1_scratch0]) ∗ (∃ r, prngReg c r)) := rfl
theorem PhiS_pos (c : Dev nD) (n : ℕ) (h : n ≤ cfg1.N) (hz : n ≠ 0) :
    PhiS V c n h = iprop(iprop(owns (c : Thread nD τ) scM fullShare ((outsAt V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = (outsAt V c t.val t.isLt).1 := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-- After the first point the result's buffer holds, when the body runs, what the recursion says of the point before:
    it is never written back before the last point, and the recursion carries it through the points that do not store. -/
theorem before_2 (c : Dev nD) (t : Fin cfg1.N) (hz : t.val ≠ 0) (d) :
    (dat V c).before 2 t d = (outsAt V c (t.val - 1) (prevLt t)).1 := by
  have hN : t.val < 64 := lt_of_lt_of_eq t.isLt (show cfg1.N = 64 from N_1)
  rw [(dat V c).before_out_traj 2 rfl (fun _ _ => rfl) (fun s hs hi hfr => by
      rw [after_2, after_2]
      have hc0 : ¬cond_0 (grid1.coords s) := fun h => by rw [liveAt_2_A s h] at hi; exact Bool.false_ne_true hi
      have hc2 : ¬cond_2 (grid1.coords s) := fun h => by rw [liveAt_2_D s h] at hi; exact Bool.false_ne_true hi
      exact outsAt_carry V c s hs (fun h => hc2 ((hcond_2 s).mpr h))) t.val t rfl d,
    fresh_2 t.val (Nat.le_of_lt t.isLt)]
  rw [show (decide (t.val = 0) || decide (t.val = 64)) = false from by
    rw [Bool.or_eq_false_iff]; exact ⟨decide_eq_false hz, decide_eq_false (by omega)⟩]
  rw [if_neg Bool.false_ne_true, after_2]

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

theorem leaves_0 (c : Dev nD) (t : Fin cfg1.N) : (dat V c).leavesExact 0 t = owns (c : Thread nD τ) (ms_0 t) fullShare (iblk V c 0 t) := by
  unfold Dat.leavesExact; rw [liveAt_0 t, after_0]
theorem leaves_1 (c : Dev nD) (t : Fin cfg1.N) : (dat V c).leavesExact 1 t = owns (c : Thread nD τ) (ms_1 t) fullShare (iblk V c 1 t) := by
  unfold Dat.leavesExact; rw [liveAt_1 t, after_1]

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ, leaves_0, leaves_1]
  have hN : t.val < 64 := lt_of_lt_of_eq t.isLt (show cfg1.N = 64 from N_1)
  by_cases hz : t.val = 0
  · -- case A: the first point
    have hc0 : cond_0 (grid1.coords t) := (hcond_0 t).mpr hz
    have hc1 : cond_1 (grid1.coords t) := (hcond_1 t).mpr (by omega)
    have hc2 : ¬cond_2 (grid1.coords t) := fun h => by have := (hcond_2 t).mp h; omega
    rw [show (dat V c).leavesExact 2 t = owns (c : Thread nD τ) (ms_2 t) fullShare ((dat V c).after 2 t) from by
      unfold Dat.leavesExact; rw [liveAt_2_A t hc0], after_2]
    rw [outsAt_A V c t hz hc0 hc1 hc2]
    unfold out_A_2 sout_A; (try dsimp only)
    rw [PhiS_castSucc V c t, PhiS_zero V c _ _ hz, PhiA_eq]
    iintro ⟨⟨⟨HS, HR⟩, Hg⟩, Ho, ⟨%d0, H0⟩, ⟨%d1, H1⟩, ⟨%d2, H2⟩⟩
    iapply ((kernelRun_A c (grid1.coords t) _ _ _ _ _ _ _ _ hc0 hc1 hc2 (iblk V c 0 t) (iblk V c 1 t)).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact View.read_writes_of_cover _ _ _ _ _ (scover_A c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover_A_2 c _ _ _ _ _ _ _ _ _ _ _ _ _ _)
  · have hc0 : ¬cond_0 (grid1.coords t) := fun h => hz ((hcond_0 t).mp h)
    rw [PhiS_castSucc V c t, PhiS_pos V c _ _ hz]
    by_cases h1 : t.val % 4 = 0
    · -- case B: the reduction starts again
      have hc1 : cond_1 (grid1.coords t) := (hcond_1 t).mpr h1
      have hc2 : ¬cond_2 (grid1.coords t) := fun h => by have := (hcond_2 t).mp h; omega
      rw [Dat.leavesExact_idle (dat V c) 2 t (idleAt_2 t hc0 hc2) (noFlush_2 t hc2)]
      rw [outsAt_B V c t hz h1 hc0 hc1 hc2]
      unfold sout_B; (try dsimp only)
      iintro ⟨⟨⟨HS, HR⟩, Hg⟩, Ho, ⟨%d0, H0⟩, ⟨%d1, H1⟩, ⟨%d2, H2⟩⟩
      iapply ((kernelRun_B c (grid1.coords t) _ _ _ _ _ _ _ _ hc0 hc1 hc2 (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover_B c _ _ _ _ _ _ _ _ _ _ _ _ _ _)
          iexact HR
        iexact Hg
      isplitl [Ho]; · iexact Ho
      isplitl [H0]; · iexact H0
      isplitl [H1]; · iexact H1
      iexists _; iexact H2
    · have hc1 : ¬cond_1 (grid1.coords t) := fun h => h1 ((hcond_1 t).mp h)
      by_cases h2 : t.val % 4 = 3
      · -- case D: the reduction ends
        have hc2 : cond_2 (grid1.coords t) := (hcond_2 t).mpr h2
        rw [show (dat V c).leavesExact 2 t = owns (c : Thread nD τ) (ms_2 t) fullShare ((dat V c).after 2 t) from by
          unfold Dat.leavesExact; rw [liveAt_2_D t hc2], after_2]
        simp only [before_2 V c t hz]
        rw [outsAt_D V c t hz h1 h2 hc0 hc1 hc2]
        unfold out_D_2 sout_D; (try dsimp only)
        iintro ⟨⟨⟨HS, HR⟩, Hg⟩, Ho, ⟨%d0, H0⟩, ⟨%d1, H1⟩, ⟨%d2, H2⟩⟩
        iapply ((kernelRun_D c (grid1.coords t) _ _ _ _ _ _ _ _ hc0 hc1 hc2 (iblk V c 0 t) (iblk V c 1 t) _ _).2.2 Set.univ _)
        isplitl [H0]; · iexact H0
        isplitl [H1]; · iexact H1
        isplitl [H2]; · iexact H2
        isplitl [HS]; · iexact HS
        iintro ⟨H0, H1, ⟨%e2, H2⟩, ⟨%es, HS⟩⟩
        isplitl [HS HR Hg]
        · isplitl [HS HR]
          · isplitl [HS]
            · unfold owns; iexists _; isplitr
              swap; · iexact HS
              ipureintro; exact View.read_writes_of_cover _ _ _ _ _ (scover_D c _ _ _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover_D_2 c _ _ _ _ _ _ _ _ _ _ _ _ _ _ _ _)
      · -- case C: the reduction goes on
        have hc2 : ¬cond_2 (grid1.coords t) := fun h => h2 ((hcond_2 t).mp h)
        rw [Dat.leavesExact_idle (dat V c) 2 t (idleAt_2 t hc0 hc2) (noFlush_2 t hc2)]
        rw [outsAt_C V c t hz h1 h2 hc0 hc1 hc2]
        unfold sout_C; (try dsimp only)
        iintro ⟨⟨⟨HS, HR⟩, Hg⟩, Ho, ⟨%d0, H0⟩, ⟨%d1, H1⟩, ⟨%d2, H2⟩⟩
        iapply ((kernelRun_C c (grid1.coords t) _ _ _ _ _ _ _ _ hc0 hc1 hc2 (iblk V c 0 t) (iblk V c 1 t) _).2 _ Set.univ _)
        isplitl [H0]; · iexact H0
        isplitl [H1]; · iexact H1
        isplitl [H2]; · iexact H2
        isplitl [HS]; · iexact HS
        iintro ⟨H0, H1, H2, ⟨%es, HS⟩⟩
        isplitl [HS HR Hg]
        · isplitl [HS HR]
          · isplitl [HS]
            · unfold owns; iexists _; isplitr
              swap; · iexact HS
              ipureintro; exact View.read_writes_of_cover _ _ _ _ _ (scover_C c _ _ _ _ _ _ _ _ _ _ _ _ _ _ _)
            iexact HR
          iexact Hg
        isplitl [Ho]; · iexact Ho
        isplitl [H0]; · iexact H0
        isplitl [H1]; · iexact H1
        iexists _; iexact H2

theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

theorem hout (c : Dev nD) : (dat V c).Φ (Fin.last cfg1.N) ⊢ Pipeline.ΦA spec1 c :=
  Phi_out V c _ (by rw [Fin.val_last]; have : cfg1.N = 64 := N_1; omega)

end Cert.Kernel.Reg1

end
-- ==== Proof.KB2Runs.lean ====
/-
  Region 2 of the program (one launch of the sum-of-squares kernel over a grid of 16 points), first part: what the
  four control cases of the body share. A grid point is (i, j, k) in row-major order, k the reduction axis of extent 4.
  The body has three conditional blocks: at the very first point it zeroes the 1×1 result; at k = 0 it zeroes the
  512×512 accumulator; at every point it adds the product of the two 2048×512 input blocks (contracted over their
  2048 rows) into the accumulator; at k = 3 it adds the sum of the accumulator's squares into the result. Hence four
  cases: A (first point), B (k = 0 elsewhere), C (k = 1, 2), D (k = 3). The result window is idle (not stored into,
  not written back) in cases B and C.
-/
import proofs.«157129_j47072841564786_1_alg».proof.Proof.Gen.Kernel.Launch
import proofs.«157129_j47072841564786_1_alg».proof.Proof.Gen.Kernel.Skeleton
import proofs.«157129_j47072841564786_1_alg».proof.Proof.Gen.Kernel.Points
import Idealize.ShloMosaic.Lib.Pipeline.FrameBody
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions, in closed form over the grid -/

/-- The first point of the grid. -/
abbrev cond_0 (i : grid2.Coords) : Prop := k2_cond1 i = 1#1
theorem hcond_0 : ∀ t : Fin cfg2.N, cond_0 (grid2.coords t) ↔ t.val = 0 :=
  (by decide +kernel : ∀ t : Fin grid2.N, cond_0 (grid2.coords t) ↔ t.val = 0)
/-- The reduction coordinate is 0. -/
abbrev cond_1 (i : grid2.Coords) : Prop := (Scalar.cmpi .ne (Scalar.extui (Scalar.cmpi .eq (BitVec.ofNat 32 (i 2).val) 0#32)) 0#32) = 1#1
theorem hcond_1 : ∀ t : Fin cfg2.N, cond_1 (grid2.coords t) ↔ t.val % 4 = 0 :=
  (by decide +kernel : ∀ t : Fin grid2.N, cond_1 (grid2.coords t) ↔ t.val % 4 = 0)
/-- The reduction coordinate is 3, the last. -/
abbrev cond_2 (i : grid2.Coords) : Prop := k2_cond3 i = 1#1
theorem hcond_2 : ∀ t : Fin cfg2.N, cond_2 (grid2.coords t) ↔ t.val % 4 = 3 :=
  (by decide +kernel : ∀ t : Fin grid2.N, cond_2 (grid2.coords t) ↔ t.val % 4 = 3)

/-! ## Where the windows are idle -/

theorem liveAt_0 : ∀ t : Fin cfg2.N, cfg2.idle 0 (grid2.coords t) = false := by decide +kernel
theorem liveAt_1 : ∀ t : Fin cfg2.N, cfg2.idle 1 (grid2.coords t) = false := by decide +kernel
theorem liveAt_2_A : ∀ t : Fin cfg2.N, cond_0 (grid2.coords t) → cfg2.idle 2 (grid2.coords t) = false := by decide +kernel
theorem liveAt_2_D : ∀ t : Fin cfg2.N, cond_2 (grid2.coords t) → cfg2.idle 2 (grid2.coords t) = false := by decide +kernel
theorem idleAt_2 : ∀ t : Fin cfg2.N, ¬cond_0 (grid2.coords t) → ¬cond_2 (grid2.coords t) → cfg2.idle 2 (grid2.coords t) = true := by decide +kernel
theorem noFlush_2 : ∀ t : Fin cfg2.N, ¬cond_2 (grid2.coords t) → (cfg2.win 2).flush t = false := by decide +kernel
/-- The result window's buffer holds nothing the body stored only when the body runs at the first point. -/
theorem fresh_2 : ∀ n, n ≤ cfg2.N → cfg2.fresh 2 n = (decide (n = 0) || decide (n = 16)) :=
  Pipeline.Cfg.fresh_tab cfg2 2 (fun n => decide (n = 0) || decide (n = 16)) rfl
    (by decide +kernel : ∀ t : Fin grid2.N, (decide (t.val + 1 = 0) || decide (t.val + 1 = 16)) = ((cfg2.win 2).flush t || (cfg2.idle 2 (grid2.coords t) && (decide (t.val = 0) || decide (t.val = 16)))))

/-! ## The memrefs the body is called with -/

abbrev ms_0 (t : Fin cfg2.N) : Memref sig .tc .vmem S2048x512 .bf16 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S2048x512 .bf16 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S1x1 .f32 := win2_2.stage (cfg2.slots t 2)
abbrev hs_2 (t : Fin cfg2.N) : (ms_2 t).IsWhole := hstage2_2 ((cfg2.slots t 2).cast nbuf2_2)
/-- The accumulator: a whole scoped buffer of the kernel's own. -/
abbrev scM : Memref sig .tc .vmem S512x512 .f32 := Memref.whole cc2_scratch0
abbrev VS : View sig .tc .vmem S512x512 .f32 := (scM : Memref sig .tc .vmem S512x512 .f32).view
abbrev VO : View sig .tc .vmem S1x1 .f32 := (Memref.whole cc2_stg2_0 : Memref sig .tc .vmem S1x1 .f32).view

/-- The region's standing invariant with the accumulator split out of the scoped buffers no window stages. -/
theorem PhiA_eq (c : Dev nD) :
    (Pipeline.ΦA spec2 c : sProp 𝕄)
      = iprop(iprop((∃ d, owns (c : Thread nD τ) scM fullShare d) ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [scM, owns_whole, bigSepL]
  try rfl

end Cert.Kernel.Reg2

end
-- ==== Proof.KB2RunA.lean ====
/-
  Region 2, case A (the grid's first point): the body zeroes the result, zeroes the accumulator and adds the first
  product into it. The run finds the pieces each buffer ends with.
-/
import proofs.«157129_j47072841564786_1_alg».proof.Proof.KB2Runs

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case A on whole memrefs: the inputs at their blocks, the result and the accumulator at anything; it ends
    with the inputs as they were and the result and the accumulator with the found pieces written. -/
noncomputable def kernelRun_A (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i)
    (x0 x1 : Vec F S2048x512 .bf16) :
    Σ' (L2 : List (View.Piece (Elt F) S1x1 .f32)), { LS : List (View.Piece (Elt F) S512x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc2__sumsq_kernel i arg3 harg3 arg4 harg4 arg5 harg5 arg6 harg6) K } := by
  refine ⟨?_, ?_, fun E K => ?run⟩
  case run =>
    simp only [cc2__sumsq_kernel_eq_skeleton]; unfold cc2__sumsq_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.Kernel.Reg2

end
-- ==== Proof.KB2RunB.lean ====
/-
  Region 2, case B (reduction coordinate 0, not the first point): the body zeroes the accumulator and adds the
  product into it; the result's buffer is left as found.
-/
import proofs.«157129_j47072841564786_1_alg».proof.Proof.KB2Runs

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case B: the result's buffer handed back untouched, the accumulator with the found pieces written. -/
noncomputable def kernelRun_B (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : cond_1 i) (hc2 : ¬cond_2 i)
    (x0 x1 : Vec F S2048x512 .bf16) :
    { LS : List (View.Piece (Elt F) S512x512 .f32) //
      ∀ (xi2 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc2__sumsq_kernel i arg3 harg3 arg4 harg4 arg5 harg5 arg6 harg6) K } := by
  refine ⟨?_, fun xi2 E K => ?run⟩
  case run =>
    simp only [cc2__sumsq_kernel_eq_skeleton]; unfold cc2__sumsq_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Reg2

end
-- ==== Proof.KB2RunC.lean ====
/-
  Region 2, case C (reduction coordinate 1 or 2): the body adds the product into the accumulator, which holds what
  the point before left; the result's buffer is left as found.
-/
import proofs.«157129_j47072841564786_1_alg».proof.Proof.KB2Runs

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case C: the accumulator enters at the contents xs and ends with the found pieces written. -/
noncomputable def kernelRun_C (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : ¬cond_2 i)
    (x0 x1 : Vec F S2048x512 .bf16) (xs : Vec F S512x512 .f32) :
    { LS : List (View.Piece (Elt F) S512x512 .f32) //
      ∀ (xi2 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc2__sumsq_kernel i arg3 harg3 arg4 harg4 arg5 harg5 arg6 harg6) K } := by
  refine ⟨?_, fun xi2 E K => ?run⟩
  case run =>
    simp only [cc2__sumsq_kernel_eq_skeleton]; unfold cc2__sumsq_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Reg2

end
-- ==== Proof.KB2RunD.lean ====
/-
  Region 2, case D (reduction coordinate 3): the body adds the product into the accumulator, then adds the sum of the
  accumulator's squares into the result, which holds what the last storing point left.
-/
import proofs.«157129_j47072841564786_1_alg».proof.Proof.KB2Runs

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case D: the accumulator enters at xs, the result at xo; both end with the found pieces written. -/
noncomputable def kernelRun_D (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i)
    (x0 x1 : Vec F S2048x512 .bf16) (xs : Vec F S512x512 .f32) (xo : Vec F S1x1 .f32) :
    Σ' (L2 : List (View.Piece (Elt F) S1x1 .f32)), { LS : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare xo ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc2__sumsq_kernel i arg3 harg3 arg4 harg4 arg5 harg5 arg6 harg6) K } := by
  refine ⟨?_, ?_, fun E K => ?run⟩
  case run =>
    simp only [cc2__sumsq_kernel_eq_skeleton]; unfold cc2__sumsq_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.Kernel.Reg2

end
-- ==== Proof.KB2.lean ====
/-
  Region 2, last part: what the result's buffer and the accumulator hold after each grid point (one recursion over
  the points, the result carried unchanged through the points that do not store it), the region's proof data, and the
  body obligation at a generic point, by the four cases.
-/
import proofs.«157129_j47072841564786_1_alg».proof.Proof.KB2RunA
import proofs.«157129_j47072841564786_1_alg».proof.Proof.KB2RunB
import proofs.«157129_j47072841564786_1_alg».proof.Proof.KB2RunC
import proofs.«157129_j47072841564786_1_alg».proof.Proof.KB2RunD

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back from the pieces its run found -/

theorem cover_A_2 (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) (y : S1x1.Idx) :
    ∃ pc ∈ (kernelRun_A c i arg3 harg3 arg4 harg4 arg5 harg5 arg6 harg6 hc0 hc1 hc2 x0 x1).1, y ∈ pc.1.set :=
  View.cover_of_tiledL (kernelRun_A c i arg3 harg3 arg4 harg4 arg5 harg5 arg6 harg6 hc0 hc1 hc2 x0 x1).1 S1x1.size (by sl_kernel_rfl) y
def out_A_2 (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) : Vec F S1x1 .f32 :=
  VO.read (Elt F) (VO.writes (Elt F) VO.junk (kernelRun_A c i arg3 harg3 arg4 harg4 arg5 harg5 arg6 harg6 hc0 hc1 hc2 x0 x1).1)
theorem scover_A (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) (y : S512x512.Idx) :
    ∃ pc ∈ (kernelRun_A c i arg3 harg3 arg4 harg4 arg5 harg5 arg6 harg6 hc0 hc1 hc2 x0 x1).2.1, y ∈ pc.1.set :=
  View.cover_of_tiledL (kernelRun_A c i arg3 harg3 arg4 harg4 arg5 harg5 arg6 harg6 hc0 hc1 hc2 x0 x1).2.1 S512x512.size (by sl_kernel_rfl) y
def sout_A (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) : Vec F S512x512 .f32 :=
  VS.read (Elt F) (VS.writes (Elt F) VS.junk (kernelRun_A c i arg3 harg3 arg4 harg4 arg5 harg5 arg6 harg6 hc0 hc1 hc2 x0 x1).2.1)

theorem scover_B (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : cond_1 i) (hc2 : ¬cond_2 i) (x0 x1 : Vec F S2048x512 .bf16) (y : S512x512.Idx) :
    ∃ pc ∈ (kernelRun_B c i arg3 harg3 arg4 harg4 arg5 harg5 arg6 harg6 hc0 hc1 hc2 x0 x1).1, y ∈ pc.1.set :=
  View.cover_of_tiledL (kernelRun_B c i arg3 harg3 arg4 harg4 arg5 harg5 arg6 harg6 hc0 hc1 hc2 x0 x1).1 S512x512.size (by sl_kernel_rfl) y
def sout_B (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : cond_1 i) (hc2 : ¬cond_2 i) (x0 x1 : Vec F S2048x512 .bf16) : Vec F S512x512 .f32 :=
  VS.read (Elt F) (VS.writes (Elt F) VS.junk (kernelRun_B c i arg3 harg3 arg4 harg4 arg5 harg5 arg6 harg6 hc0 hc1 hc2 x0 x1).1)

theorem scover_C (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : ¬cond_2 i) (x0 x1 : Vec F S2048x512 .bf16) (xs : Vec F S512x512 .f32) (y : S512x512.Idx) :
    ∃ pc ∈ (kernelRun_C c i arg3 harg3 arg4 harg4 arg5 harg5 arg6 harg6 hc0 hc1 hc2 x0 x1 xs).1, y ∈ pc.1.set :=
  View.cover_of_tiledL (kernelRun_C c i arg3 harg3 arg4 harg4 arg5 harg5 arg6 harg6 hc0 hc1 hc2 x0 x1 xs).1 S512x512.size (by sl_kernel_rfl) y
def sout_C (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : ¬cond_2 i) (x0 x1 : Vec F S2048x512 .bf16) (xs : Vec F S512x512 .f32) : Vec F S512x512 .f32 :=
  VS.read (Elt F) (VS.writes (Elt F) VS.junk (kernelRun_C c i arg3 harg3 arg4 harg4 arg5 harg5 arg6 harg6 hc0 hc1 hc2 x0 x1 xs).1)

theorem cover_D_2 (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) (y : S1x1.Idx) :
    ∃ pc ∈ (kernelRun_D c i arg3 harg3 arg4 harg4 arg5 harg5 arg6 harg6 hc0 hc1 hc2 x0 x1 xs xo).1, y ∈ pc.1.set :=
  View.cover_of_tiledL (kernelRun_D c i arg3 harg3 arg4 harg4 arg5 harg5 arg6 harg6 hc0 hc1 hc2 x0 x1 xs xo).1 S1x1.size (by sl_kernel_rfl) y
def out_D_2 (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) : Vec F S1x1 .f32 :=
  VO.read (Elt F) (VO.writes (Elt F) VO.junk (kernelRun_D c i arg3 harg3 arg4 harg4 arg5 harg5 arg6 harg6 hc0 hc1 hc2 x0 x1 xs xo).1)
theorem scover_D (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) (y : S512x512.Idx) :
    ∃ pc ∈ (kernelRun_D c i arg3 harg3 arg4 harg4 arg5 harg5 arg6 harg6 hc0 hc1 hc2 x0 x1 xs xo).2.1, y ∈ pc.1.set :=
  View.cover_of_tiledL (kernelRun_D c i arg3 harg3 arg4 harg4 arg5 harg5 arg6 harg6 hc0 hc1 hc2 x0 x1 xs xo).2.1 S512x512.size (by sl_kernel_rfl) y
def sout_D (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) : Vec F S512x512 .f32 :=
  VS.read (Elt F) (VS.writes (Elt F) VS.junk (kernelRun_D c i arg3 harg3 arg4 harg4 arg5 harg5 arg6 harg6 hc0 hc1 hc2 x0 x1 xs xo).2.1)

/-! ## The accumulation over the grid points -/

/-- What the result's buffer (first component) and the accumulator (second) hold after the body at position n. -/
def outsAt (c : Dev nD) : (n : ℕ) → n < cfg2.N → Vec F S1x1 .f32 × Vec F S512x512 .f32
  | 0, hn =>
    (out_A_2 c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond_0 ⟨0, hn⟩).mpr rfl) ((hcond_1 ⟨0, hn⟩).mpr (Nat.zero_mod _)) (fun h => (fun h' => by (try dsimp only at h'); omega) ((hcond_2 ⟨0, hn⟩).mp h)) (iblk V c 0 ⟨0, hn⟩) (iblk V c 1 ⟨0, hn⟩),
     sout_A c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond_0 ⟨0, hn⟩).mpr rfl) ((hcond_1 ⟨0, hn⟩).mpr (Nat.zero_mod _)) (fun h => (fun h' => by (try dsimp only at h'); omega) ((hcond_2 ⟨0, hn⟩).mp h)) (iblk V c 0 ⟨0, hn⟩) (iblk V c 1 ⟨0, hn⟩))
  | n + 1, hn =>
    if h1 : (n + 1) % 4 = 0 then
      ((outsAt c n (Nat.lt_of_succ_lt hn)).1,
       sout_B c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => Nat.succ_ne_zero n ((hcond_0 ⟨n + 1, hn⟩).mp h)) ((hcond_1 ⟨n + 1, hn⟩).mpr h1) (fun h => (fun h' => by (try dsimp only at h'); omega) ((hcond_2 ⟨n + 1, hn⟩).mp h)) (iblk V c 0 ⟨n + 1, hn⟩) (iblk V c 1 ⟨n + 1, hn⟩))
    else if h2 : (n + 1) % 4 = 3 then
      (out_D_2 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => Nat.succ_ne_zero n ((hcond_0 ⟨n + 1, hn⟩).mp h)) (fun h => h1 ((hcond_1 ⟨n + 1, hn⟩).mp h)) ((hcond_2 ⟨n + 1, hn⟩).mpr h2) (iblk V c 0 ⟨n + 1, hn⟩) (iblk V c 1 ⟨n + 1, hn⟩) (outsAt c n (Nat.lt_of_succ_lt hn)).2 (outsAt c n (Nat.lt_of_succ_lt hn)).1,
       sout_D c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => Nat.succ_ne_zero n ((hcond_0 ⟨n + 1, hn⟩).mp h)) (fun h => h1 ((hcond_1 ⟨n + 1, hn⟩).mp h)) ((hcond_2 ⟨n + 1, hn⟩).mpr h2) (iblk V c 0 ⟨n + 1, hn⟩) (iblk V c 1 ⟨n + 1, hn⟩) (outsAt c n (Nat.lt_of_succ_lt hn)).2 (outsAt c n (Nat.lt_of_succ_lt hn)).1)
    else
      ((outsAt c n (Nat.lt_of_succ_lt hn)).1,
       sout_C c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => Nat.succ_ne_zero n ((hcond_0 ⟨n + 1, hn⟩).mp h)) (fun h => h1 ((hcond_1 ⟨n + 1, hn⟩).mp h)) (fun h => h2 ((hcond_2 ⟨n + 1, hn⟩).mp h)) (iblk V c 0 ⟨n + 1, hn⟩) (iblk V c 1 ⟨n + 1, hn⟩) (outsAt c n (Nat.lt_of_succ_lt hn)).2)

/-- The previous position, for a point that is not the first. -/
abbrev prevLt (t : Fin cfg2.N) : t.val - 1 < cfg2.N := Nat.lt_of_le_of_lt (Nat.sub_le _ _) t.isLt

theorem outsAt_A (c : Dev nD) (t : Fin cfg2.N) (h0 : t.val = 0) (hc0 : cond_0 (grid2.coords t)) (hc1 : cond_1 (grid2.coords t)) (hc2 : ¬cond_2 (grid2.coords t)) :
    outsAt V c t.val t.isLt = (out_A_2 c (grid2.coords t) (ms_0 t) (hs_0 t) (ms_1 t) (hs_1 t) (ms_2 t) (hs_2 t) scM (Memref.isWhole_whole _) hc0 hc1 hc2 (iblk V c 0 t) (iblk V c 1 t), sout_A c (grid2.coords t) (ms_0 t) (hs_0 t) (ms_1 t) (hs_1 t) (ms_2 t) (hs_2 t) scM (Memref.isWhole_whole _) hc0 hc1 hc2 (iblk V c 0 t) (iblk V c 1 t)) := by
  obtain ⟨n, hn⟩ := t
  cases n with
  | zero => exact rfl
  | succ n => exact absurd h0 (Nat.succ_ne_zero n)

theorem outsAt_B (c : Dev nD) (t : Fin cfg2.N) (h0 : t.val ≠ 0) (h1 : t.val % 4 = 0) (hc0 : ¬cond_0 (grid2.coords t)) (hc1 : cond_1 (grid2.coords t)) (hc2 : ¬cond_2 (grid2.coords t)) :
    outsAt V c t.val t.isLt = ((outsAt V c (t.val - 1) (prevLt t)).1, sout_B c (grid2.coords t) (ms_0 t) (hs_0 t) (ms_1 t) (hs_1 t) (ms_2 t) (hs_2 t) scM (Memref.isWhole_whole _) hc0 hc1 hc2 (iblk V c 0 t) (iblk V c 1 t)) := by
  obtain ⟨n, hn⟩ := t
  cases n with
  | zero => exact absurd rfl h0
  | succ n => exact (dif_pos h1).trans rfl

theorem outsAt_C (c : Dev nD) (t : Fin cfg2.N) (h0 : t.val ≠ 0) (h1 : ¬t.val % 4 = 0) (h2 : ¬t.val % 4 = 3) (hc0 : ¬cond_0 (grid2.coords t)) (hc1 : ¬cond_1 (grid2.coords t)) (hc2 : ¬cond_2 (grid2.coords t)) :
    outsAt V c t.val t.isLt = ((outsAt V c (t.val - 1) (prevLt t)).1, sout_C c (grid2.coords t) (ms_0 t) (hs_0 t) (ms_1 t) (hs_1 t) (ms_2 t) (hs_2 t) scM (Memref.isWhole_whole _) hc0 hc1 hc2 (iblk V c 0 t) (iblk V c 1 t) (outsAt V c (t.val - 1) (prevLt t)).2) := by
  obtain ⟨n, hn⟩ := t
  cases n with
  | zero => exact absurd rfl h0
  | succ n => exact (dif_neg h1).trans ((dif_neg h2).trans rfl)

theorem outsAt_D (c : Dev nD) (t : Fin cfg2.N) (h0 : t.val ≠ 0) (h1 : ¬t.val % 4 = 0) (h2 : t.val % 4 = 3) (hc0 : ¬cond_0 (grid2.coords t)) (hc1 : ¬cond_1 (grid2.coords t)) (hc2 : cond_2 (grid2.coords t)) :
    outsAt V c t.val t.isLt = (out_D_2 c (grid2.coords t) (ms_0 t) (hs_0 t) (ms_1 t) (hs_1 t) (ms_2 t) (hs_2 t) scM (Memref.isWhole_whole _) hc0 hc1 hc2 (iblk V c 0 t) (iblk V c 1 t) (outsAt V c (t.val - 1) (prevLt t)).2 (outsAt V c (t.val - 1) (prevLt t)).1, sout_D c (grid2.coords t) (ms_0 t) (hs_0 t) (ms_1 t) (hs_1 t) (ms_2 t) (hs_2 t) scM (Memref.isWhole_whole _) hc0 hc1 hc2 (iblk V c 0 t) (iblk V c 1 t) (outsAt V c (t.val - 1) (prevLt t)).2 (outsAt V c (t.val - 1) (prevLt t)).1) := by
  obtain ⟨n, hn⟩ := t
  cases n with
  | zero => exact absurd rfl h0
  | succ n => exact (dif_neg h1).trans ((dif_pos h2).trans rfl)

/-- At a point that does not store the result, its buffer's contents are carried. -/
theorem outsAt_carry (c : Dev nD) (t : Fin cfg2.N) (h0 : t.val ≠ 0) (h2 : ¬t.val % 4 = 3) :
    (outsAt V c t.val t.isLt).1 = (outsAt V c (t.val - 1) (prevLt t)).1 := by
  have hc0 : ¬cond_0 (grid2.coords t) := fun h => h0 ((hcond_0 t).mp h)
  have hc2 : ¬cond_2 (grid2.coords t) := fun h => h2 ((hcond_2 t).mp h)
  by_cases h1 : t.val % 4 = 0
  · rw [outsAt_B V c t h0 h1 hc0 ((hcond_1 t).mpr h1) hc2]
  · rw [outsAt_C V c t h0 h1 h2 hc0 (fun h => h1 ((hcond_1 t).mp h)) hc2]

/-! ## The region invariant: the accumulator at what the point before left -/

def PhiS (c : Dev nD) : (n : ℕ) → n ≤ cfg2.N → sProp 𝕄
  | 0, _ => Pipeline.ΦA spec2 c
  | n + 1, hn => iprop(iprop(owns (c : Thread nD τ) scM fullShare ((outsAt V c n hn).2) ∗ Pipeline.scopedRestBut (Ix := Unit) (Name := ℕ) (U := UR sig nD τ) (Lvl := ℕ) (Val := Elt F) spec2 c [cc2_scratch0]) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) scM fullShare ((outsAt V c n hn).2) ∗ Pipeline.scopedRestBut (Ix := Unit) (Name := ℕ) (U := UR sig nD τ) (Lvl := ℕ) (Val := Elt F) spec2 c [cc2_scratch0]) ∗ (∃ r, prngReg c r)) := rfl
theorem PhiS_pos (c : Dev nD) (n : ℕ) (h : n ≤ cfg2.N) (hz : n ≠ 0) :
    PhiS V c n h = iprop(iprop(owns (c : Thread nD τ) scM fullShare ((outsAt V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg2.W) : (dat V c).A w = V c (Pipeline.arrRef spec2 w) := by
  dsimp only [dat]
theorem PhiS_castSucc (c : Dev nD) (t : Fin cfg2.N) :
    (dat V c).Φ t.castSucc = PhiS V c t.val (Nat.le_of_lt t.isLt) := by
  dsimp only [dat]; simp only [Fin.coe_castSucc]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = (outsAt V c t.val t.isLt).1 := by dsimp only [dat]
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d

/-- After the first point the result's buffer holds, when the body runs, what the recursion says of the point before:
    it is never written back before the last point, and the recursion carries it through the points that do not store. -/
theorem before_2 (c : Dev nD) (t : Fin cfg2.N) (hz : t.val ≠ 0) (d) :
    (dat V c).before 2 t d = (outsAt V c (t.val - 1) (prevLt t)).1 := by
  have hN : t.val < 16 := lt_of_lt_of_eq t.isLt (show cfg2.N = 16 from N_2)
  rw [(dat V c).before_out_traj 2 rfl (fun _ _ => rfl) (fun s hs hi hfr => by
      rw [after_2, after_2]
      have hc0 : ¬cond_0 (grid2.coords s) := fun h => by rw [liveAt_2_A s h] at hi; exact Bool.false_ne_true hi
      have hc2 : ¬cond_2 (grid2.coords s) := fun h => by rw [liveAt_2_D s h] at hi; exact Bool.false_ne_true hi
      exact outsAt_carry V c s hs (fun h => hc2 ((hcond_2 s).mpr h))) t.val t rfl d,
    fresh_2 t.val (Nat.le_of_lt t.isLt)]
  rw [show (decide (t.val = 0) || decide (t.val = 16)) = false from by
    rw [Bool.or_eq_false_iff]; exact ⟨decide_eq_false hz, decide_eq_false (by omega)⟩]
  rw [if_neg Bool.false_ne_true, after_2]

/-! ## The body obligation, at a generic point -/

def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

theorem leaves_0 (c : Dev nD) (t : Fin cfg2.N) : (dat V c).leavesExact 0 t = owns (c : Thread nD τ) (ms_0 t) fullShare (iblk V c 0 t) := by
  unfold Dat.leavesExact; rw [liveAt_0 t, after_0]
theorem leaves_1 (c : Dev nD) (t : Fin cfg2.N) : (dat V c).leavesExact 1 t = owns (c : Thread nD τ) (ms_1 t) fullShare (iblk V c 1 t) := by
  unfold Dat.leavesExact; rw [liveAt_1 t, after_1]

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).owesAt () t.succ = (dat V c).owesAt () t.castSucc from rfl]
  rw [show (dat V c).Φ t.succ = PhiS V c (t.val + 1) t.isLt from rfl, PhiS_succ, leaves_0, leaves_1]
  have hN : t.val < 16 := lt_of_lt_of_eq t.isLt (show cfg2.N = 16 from N_2)
  by_cases hz : t.val = 0
  · -- case A: the first point
    have hc0 : cond_0 (grid2.coords t) := (hcond_0 t).mpr hz
    have hc1 : cond_1 (grid2.coords t) := (hcond_1 t).mpr (by omega)
    have hc2 : ¬cond_2 (grid2.coords t) := fun h => by have := (hcond_2 t).mp h; omega
    rw [show (dat V c).leavesExact 2 t = owns (c : Thread nD τ) (ms_2 t) fullShare ((dat V c).after 2 t) from by
      unfold Dat.leavesExact; rw [liveAt_2_A t hc0], after_2]
    rw [outsAt_A V c t hz hc0 hc1 hc2]
    unfold out_A_2 sout_A; (try dsimp only)
    rw [PhiS_castSucc V c t, PhiS_zero V c _ _ hz, PhiA_eq]
    iintro ⟨⟨⟨HS, HR⟩, Hg⟩, Ho, ⟨%d0, H0⟩, ⟨%d1, H1⟩, ⟨%d2, H2⟩⟩
    iapply ((kernelRun_A c (grid2.coords t) _ _ _ _ _ _ _ _ hc0 hc1 hc2 (iblk V c 0 t) (iblk V c 1 t)).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact View.read_writes_of_cover _ _ _ _ _ (scover_A c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover_A_2 c _ _ _ _ _ _ _ _ _ _ _ _ _ _)
  · have hc0 : ¬cond_0 (grid2.coords t) := fun h => hz ((hcond_0 t).mp h)
    rw [PhiS_castSucc V c t, PhiS_pos V c _ _ hz]
    by_cases h1 : t.val % 4 = 0
    · -- case B: the reduction starts again
      have hc1 : cond_1 (grid2.coords t) := (hcond_1 t).mpr h1
      have hc2 : ¬cond_2 (grid2.coords t) := fun h => by have := (hcond_2 t).mp h; omega
      rw [Dat.leavesExact_idle (dat V c) 2 t (idleAt_2 t hc0 hc2) (noFlush_2 t hc2)]
      rw [outsAt_B V c t hz h1 hc0 hc1 hc2]
      unfold sout_B; (try dsimp only)
      iintro ⟨⟨⟨HS, HR⟩, Hg⟩, Ho, ⟨%d0, H0⟩, ⟨%d1, H1⟩, ⟨%d2, H2⟩⟩
      iapply ((kernelRun_B c (grid2.coords t) _ _ _ _ _ _ _ _ hc0 hc1 hc2 (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover_B c _ _ _ _ _ _ _ _ _ _ _ _ _ _)
          iexact HR
        iexact Hg
      isplitl [Ho]; · iexact Ho
      isplitl [H0]; · iexact H0
      isplitl [H1]; · iexact H1
      iexists _; iexact H2
    · have hc1 : ¬cond_1 (grid2.coords t) := fun h => h1 ((hcond_1 t).mp h)
      by_cases h2 : t.val % 4 = 3
      · -- case D: the reduction ends
        have hc2 : cond_2 (grid2.coords t) := (hcond_2 t).mpr h2
        rw [show (dat V c).leavesExact 2 t = owns (c : Thread nD τ) (ms_2 t) fullShare ((dat V c).after 2 t) from by
          unfold Dat.leavesExact; rw [liveAt_2_D t hc2], after_2]
        simp only [before_2 V c t hz]
        rw [outsAt_D V c t hz h1 h2 hc0 hc1 hc2]
        unfold out_D_2 sout_D; (try dsimp only)
        iintro ⟨⟨⟨HS, HR⟩, Hg⟩, Ho, ⟨%d0, H0⟩, ⟨%d1, H1⟩, ⟨%d2, H2⟩⟩
        iapply ((kernelRun_D c (grid2.coords t) _ _ _ _ _ _ _ _ hc0 hc1 hc2 (iblk V c 0 t) (iblk V c 1 t) _ _).2.2 Set.univ _)
        isplitl [H0]; · iexact H0
        isplitl [H1]; · iexact H1
        isplitl [H2]; · iexact H2
        isplitl [HS]; · iexact HS
        iintro ⟨H0, H1, ⟨%e2, H2⟩, ⟨%es, HS⟩⟩
        isplitl [HS HR Hg]
        · isplitl [HS HR]
          · isplitl [HS]
            · unfold owns; iexists _; isplitr
              swap; · iexact HS
              ipureintro; exact View.read_writes_of_cover _ _ _ _ _ (scover_D c _ _ _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover_D_2 c _ _ _ _ _ _ _ _ _ _ _ _ _ _ _ _)
      · -- case C: the reduction goes on
        have hc2 : ¬cond_2 (grid2.coords t) := fun h => h2 ((hcond_2 t).mp h)
        rw [Dat.leavesExact_idle (dat V c) 2 t (idleAt_2 t hc0 hc2) (noFlush_2 t hc2)]
        rw [outsAt_C V c t hz h1 h2 hc0 hc1 hc2]
        unfold sout_C; (try dsimp only)
        iintro ⟨⟨⟨HS, HR⟩, Hg⟩, Ho, ⟨%d0, H0⟩, ⟨%d1, H1⟩, ⟨%d2, H2⟩⟩
        iapply ((kernelRun_C c (grid2.coords t) _ _ _ _ _ _ _ _ hc0 hc1 hc2 (iblk V c 0 t) (iblk V c 1 t) _).2 _ Set.univ _)
        isplitl [H0]; · iexact H0
        isplitl [H1]; · iexact H1
        isplitl [H2]; · iexact H2
        isplitl [HS]; · iexact HS
        iintro ⟨H0, H1, H2, ⟨%es, HS⟩⟩
        isplitl [HS HR Hg]
        · isplitl [HS HR]
          · isplitl [HS]
            · unfold owns; iexists _; isplitr
              swap; · iexact HS
              ipureintro; exact View.read_writes_of_cover _ _ _ _ _ (scover_C c _ _ _ _ _ _ _ _ _ _ _ _ _ _ _)
            iexact HR
          iexact Hg
        isplitl [Ho]; · iexact Ho
        isplitl [H0]; · iexact H0
        isplitl [H1]; · iexact H1
        iexists _; iexact H2

theorem body_obligation (c : Dev nD) : BodyObligation (dat (F := F) V c) (defs₀ (F := F)) Variants.none () Set.univ := fun t => by
  rw [bigSep_W2, bigSep_W2]
  exact sound_body V c t

theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

theorem hout (c : Dev nD) : (dat V c).Φ (Fin.last cfg2.N) ⊢ Pipeline.ΦA spec2 c :=
  Phi_out V c _ (by rw [Fin.val_last]; have : cfg2.N = 16 := N_2; omega)

end Cert.Kernel.Reg2

end
-- ==== Proof.KBRun.lean ====
/-
  The whole-program run of the word-level kernel program, at any float instance.

  @main is seven items: four stretches of host operations with three kernel regions between them. Each region is
  entered from "every unscoped buffer of the core at the contents the items before it leave, the generator register
  at some state, nothing owed" and left at the same with the region's result array at what its pipeline's last
  write-back leaves. Regions 1 and 2 read ONE array through both their input windows: its points-to is split between
  the two windows along the share at the region's entry and joined back at its exit. The run then reads the last
  buffer contents off the final memory: the program's result, and the two arguments as launched.
-/
import proofs.«157129_j47072841564786_1_alg».proof.Proof.Gen.Kernel.Regions
import proofs.«157129_j47072841564786_1_alg».proof.Proof.KB0
import proofs.«157129_j47072841564786_1_alg».proof.Proof.KB1
import proofs.«157129_j47072841564786_1_alg».proof.Proof.KB2
import Idealize.ShloMosaic.Lib.Pipeline.RegionsLoop

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

section Share

variable {Ix : Type} [DecidableEq Ix] {U : Type} [URA U] {Lvl : Type}

local notation "𝕄" => MT nD τ sig Ix (Elt F) ℕ U Lvl

/-! ## An array read through two input windows: its points-to split along the share -/

/-- A core's unscoped buffers that are no window's array depend only on the contents off the arrays. -/
theorem unscopedRest_congr {gr W : Nat} (win : Fin W → Pipeline.WinSpec sig gr) (c : Dev nD)
    (V V' : (b : Ref sig .tc) → Buf (Elt F) ((c : Thread nD τ).loc b))
    (h : ∀ b, b ∉ Finset.univ.image (Pipeline.arrRef win) → V' b = V b) :
    (Pipeline.unscopedRest win c V : sProp 𝕄) = Pipeline.unscopedRest win c V' := by
  unfold Pipeline.unscopedRest
  exact bigSep_congr fun b hb => by rw [h b (Finset.mem_sdiff.mp hb).2]

/-- The distinct buffers behind region 1's arrays: the one its two input windows read and its output's. -/
theorem arrBufs1_eq (c : Dev nD) (V : (b : Ref sig .tc) → Buf (Elt F) ((c : Thread nD τ).loc b)) :
    (Pipeline.arrBufs spec1 c V : sProp 𝕄)
      = iprop((((c : Thread nD τ).loc main_v6) ↦{fullShare} V main_v6) ∗ (((c : Thread nD τ).loc main_v16) ↦{fullShare} V main_v16)) := by
  unfold Pipeline.arrBufs
  rw [show (Finset.univ.image (Pipeline.arrRef spec1) : Finset (Ref sig .tc)) = {main_v6, main_v16} from by decide,
    bigSep_insert (by decide), bigSep_singleton]
  rfl

/-- Region 1's arrays window by window, for proof data holding the shared input array at the left half of the full
    share through window 0 and at the right half through window 1. -/
theorem arrays1_eq (c : Dev nD) (dat : Dat τ (Elt F) Ix ℕ U Lvl cfg1 c)
    (hq0 : dat.q 0 = fullShare.left) (hq1 : dat.q 1 = fullShare.right)
    (G : (w : Fin cfg1.W) → Buf (Elt F) ((cfg1.win w).arr.view.loc (c : Thread nD τ))) :
    (dat.arrays G : sProp 𝕄)
      = iprop((((c : Thread nD τ).loc main_v6) ↦{fullShare.left} G 0) ∗ (((c : Thread nD τ).loc main_v6) ↦{fullShare.right} G 1)
          ∗ (((c : Thread nD τ).loc main_v16) ↦{fullShare} G 2)) := by
  unfold Dat.arrays
  rw [bigSep_W1]
  have s0 : dat.share 0 = fullShare.left := by unfold Dat.share; rw [if_neg (by decide), hq0]
  have s1 : dat.share 1 = fullShare.right := by unfold Dat.share; rw [if_neg (by decide), hq1]
  have s2 : dat.share 2 = fullShare := by unfold Dat.share; rw [if_pos (by decide)]
  rw [s0, s1, s2, (arr_whole1 0).set_eq_univ, (arr_whole1 2).set_eq_univ]

/-- The buffers behind region 1's arrays, whole at the full share, ARE its `arrays` at contents that agree on the
    shared input array: its points-to splits between the two windows along the share, and joins back. -/
theorem arrays1_split (c : Dev nD) (dat : Dat τ (Elt F) Ix ℕ U Lvl cfg1 c)
    (hq0 : dat.q 0 = fullShare.left) (hq1 : dat.q 1 = fullShare.right)
    (V : (b : Ref sig .tc) → Buf (Elt F) ((c : Thread nD τ).loc b))
    (G : (w : Fin cfg1.W) → Buf (Elt F) ((cfg1.win w).arr.view.loc (c : Thread nD τ)))
    (h0 : G 0 = V main_v6) (h1 : G 1 = V main_v6) (h2 : G 2 = V main_v16) :
    (Pipeline.arrBufs spec1 c V : sProp 𝕄) ⊣⊢ dat.arrays G := by
  rw [arrBufs1_eq, arrays1_eq c dat hq0 hq1, h0, h1, h2]
  have hs : ((((c : Thread nD τ).loc main_v6) ↦{fullShare} V main_v6) : sProp 𝕄)
      ⊣⊢ iprop((((c : Thread nD τ).loc main_v6) ↦{fullShare.left} V main_v6) ∗ (((c : Thread nD τ).loc main_v6) ↦{fullShare.right} V main_v6)) :=
    pointsTo_share (PosShare.mem_left_op_right fullShare)
  constructor
  · iintro ⟨Ha, Hb⟩
    ihave H := hs.1 $$ Ha
    icases H with ⟨Hl, Hr⟩
    isplitl [Hl]; · iexact Hl
    isplitl [Hr]; · iexact Hr
    iexact Hb
  · iintro ⟨Hl, Hr, Hb⟩
    isplitl [Hl Hr]
    · iapply hs.2
      isplitl [Hl] <;> iassumption
    iexact Hb

/-- The distinct buffers behind region 2's arrays: the one its two input windows read and its output's. -/
theorem arrBufs2_eq (c : Dev nD) (V : (b : Ref sig .tc) → Buf (Elt F) ((c : Thread nD τ).loc b)) :
    (Pipeline.arrBufs spec2 c V : sProp 𝕄)
      = iprop((((c : Thread nD τ).loc main_v13) ↦{fullShare} V main_v13) ∗ (((c : Thread nD τ).loc main_v18) ↦{fullShare} V main_v18)) := by
  unfold Pipeline.arrBufs
  rw [show (Finset.univ.image (Pipeline.arrRef spec2) : Finset (Ref sig .tc)) = {main_v13, main_v18} from by decide,
    bigSep_insert (by decide), bigSep_singleton]
  rfl

/-- Region 2's arrays window by window, for proof data holding the shared input array at the left half of the full
    share through window 0 and at the right half through window 1. -/
theorem arrays2_eq (c : Dev nD) (dat : Dat τ (Elt F) Ix ℕ U Lvl cfg2 c)
    (hq0 : dat.q 0 = fullShare.left) (hq1 : dat.q 1 = fullShare.right)
    (G : (w : Fin cfg2.W) → Buf (Elt F) ((cfg2.win w).arr.view.loc (c : Thread nD τ))) :
    (dat.arrays G : sProp 𝕄)
      = iprop((((c : Thread nD τ).loc main_v13) ↦{fullShare.left} G 0) ∗ (((c : Thread nD τ).loc main_v13) ↦{fullShare.right} G 1)
          ∗ (((c : Thread nD τ).loc main_v18) ↦{fullShare} G 2)) := by
  unfold Dat.arrays
  rw [bigSep_W2]
  have s0 : dat.share 0 = fullShare.left := by unfold Dat.share; rw [if_neg (by decide), hq0]
  have s1 : dat.share 1 = fullShare.right := by unfold Dat.share; rw [if_neg (by decide), hq1]
  have s2 : dat.share 2 = fullShare := by unfold Dat.share; rw [if_pos (by decide)]
  rw [s0, s1, s2, (arr_whole2 0).set_eq_univ, (arr_whole2 2).set_eq_univ]

/-- The buffers behind region 2's arrays, whole at the full share, ARE its `arrays` at contents that agree on the
    shared input array: its points-to splits between the two windows along the share, and joins back. -/
theorem arrays2_split (c : Dev nD) (dat : Dat τ (Elt F) Ix ℕ U Lvl cfg2 c)
    (hq0 : dat.q 0 = fullShare.left) (hq1 : dat.q 1 = fullShare.right)
    (V : (b : Ref sig .tc) → Buf (Elt F) ((c : Thread nD τ).loc b))
    (G : (w : Fin cfg2.W) → Buf (Elt F) ((cfg2.win w).arr.view.loc (c : Thread nD τ)))
    (h0 : G 0 = V main_v13) (h1 : G 1 = V main_v13) (h2 : G 2 = V main_v18) :
    (Pipeline.arrBufs spec2 c V : sProp 𝕄) ⊣⊢ dat.arrays G := by
  rw [arrBufs2_eq, arrays2_eq c dat hq0 hq1, h0, h1, h2]
  have hs : ((((c : Thread nD τ).loc main_v13) ↦{fullShare} V main_v13) : sProp 𝕄)
      ⊣⊢ iprop((((c : Thread nD τ).loc main_v13) ↦{fullShare.left} V main_v13) ∗ (((c : Thread nD τ).loc main_v13) ↦{fullShare.right} V main_v13)) :=
    pointsTo_share (PosShare.mem_left_op_right fullShare)
  constructor
  · iintro ⟨Ha, Hb⟩
    ihave H := hs.1 $$ Ha
    icases H with ⟨Hl, Hr⟩
    isplitl [Hl]; · iexact Hl
    isplitl [Hr]; · iexact Hr
    iexact Hb
  · iintro ⟨Hl, Hr, Hb⟩
    isplitl [Hl Hr]
    · iapply hs.2
      isplitl [Hl] <;> iassumption
    iexact Hb

end Share

local notation "𝕄" => MT nD τ sig Unit (Elt F) ℕ (UR sig nD τ) ℕ

variable (m : (ℓ : Loc nD τ sig) → Buf (Elt F) ℓ)

/-! ## The buffer contents at each item boundary, and what the regions leave -/

/-- Core `c`'s buffers when region 0 is entered, read at the TensorCore's references. -/
abbrev E1 : (c : Dev nD) → (b : Ref sig .tc) → Buf (Elt F) ((c : Thread nD τ).loc b) := fun c b => Gen.V1 m c b
/-- What region 0 leaves in its result array: the last write-back's contents. -/
def o0 (c : Dev nD) : Buf (Elt F) ((c : Thread nD τ).loc main_v14) := (Reg0.dat (E1 m) c).arrAt 2 cfg0.N
/-- After region 0. -/
abbrev W2 (c : Dev nD) : Valuation τ sig (Elt F) := Function.update (Gen.V1 m c) main_v14 (o0 m c)
/-- After the second host stretch. -/
abbrev W3 (c : Dev nD) : Valuation τ sig (Elt F) := StableHlo.after hostOps1 (W2 m c)
/-- The same read at the TensorCore's references: what region 1 is entered from. -/
abbrev E3 : (c : Dev nD) → (b : Ref sig .tc) → Buf (Elt F) ((c : Thread nD τ).loc b) := fun c b => W3 m c b
/-- What region 1 leaves in its result array. -/
def o1 (c : Dev nD) : Buf (Elt F) ((c : Thread nD τ).loc main_v16) := (Reg1.dat (E3 m) c).arrAt 2 cfg1.N
/-- After region 1. -/
abbrev W4 (c : Dev nD) : Valuation τ sig (Elt F) := Function.update (W3 m c) main_v16 (o1 m c)
/-- After the third host stretch. -/
abbrev W5 (c : Dev nD) : Valuation τ sig (Elt F) := StableHlo.after hostOps2 (W4 m c)
/-- The same read at the TensorCore's references: what region 2 is entered from. -/
abbrev E5 : (c : Dev nD) → (b : Ref sig .tc) → Buf (Elt F) ((c : Thread nD τ).loc b) := fun c b => W5 m c b
/-- What region 2 leaves in its result array. -/
def o2 (c : Dev nD) : Buf (Elt F) ((c : Thread nD τ).loc main_v18) := (Reg2.dat (E5 m) c).arrAt 2 cfg2.N

/-- What the regions leave, as the family the generated valuations are written over: read only at item 2's
    `main_v14`, item 4's `main_v16` and item 6's `main_v18`; elsewhere the launch contents. -/
def outs : Gen.Outs (F := F) := fun J r c =>
  match J with
  | 2 => Function.update (fun r : Ref sig .tc => m ((c : Thread nD τ).loc r)) main_v14 (o0 m c) r
  | 4 => Function.update (fun r : Ref sig .tc => m ((c : Thread nD τ).loc r)) main_v16 (o1 m c) r
  | _ => Function.update (fun r : Ref sig .tc => m ((c : Thread nD τ).loc r)) main_v18 (o2 m c) r

theorem outs_2 (c : Dev nD) : outs m 2 main_v14 c = o0 m c := by
  show Function.update (fun r : Ref sig .tc => m ((c : Thread nD τ).loc r)) main_v14 (o0 m c) main_v14 = _; exact Function.update_self ..
theorem outs_4 (c : Dev nD) : outs m 4 main_v16 c = o1 m c := by
  show Function.update (fun r : Ref sig .tc => m ((c : Thread nD τ).loc r)) main_v16 (o1 m c) main_v16 = _; exact Function.update_self ..
theorem outs_6 (c : Dev nD) : outs m 6 main_v18 c = o2 m c := by
  show Function.update (fun r : Ref sig .tc => m ((c : Thread nD τ).loc r)) main_v18 (o2 m c) main_v18 = _; exact Function.update_self ..

theorem V2_eq (c : Dev nD) : Gen.V2 m (outs m) c = W2 m c := by
  show Function.update (Gen.V1 m c) main_v14 (outs m 2 main_v14 c) = _; rw [outs_2]
theorem V3_eq (c : Dev nD) : Gen.V3 m (outs m) c = W3 m c := by
  show StableHlo.after hostOps1 (Gen.V2 m (outs m) c) = _; rw [V2_eq]
theorem V4_eq (c : Dev nD) : Gen.V4 m (outs m) c = W4 m c := by
  show Function.update (Gen.V3 m (outs m) c) main_v16 (outs m 4 main_v16 c) = _; rw [outs_4, V3_eq]
theorem V5_eq (c : Dev nD) : Gen.V5 m (outs m) c = W5 m c := by
  show StableHlo.after hostOps2 (Gen.V4 m (outs m) c) = _; rw [V4_eq]
/-- After region 2. -/
abbrev W6 (c : Dev nD) : Valuation τ sig (Elt F) := Function.update (W5 m c) main_v18 (o2 m c)
theorem V6_eq (c : Dev nD) : Gen.V6 m (outs m) c = W6 m c := by
  show Function.update (Gen.V5 m (outs m) c) main_v18 (outs m 6 main_v18 c) = _; rw [outs_6, V5_eq]

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Reg0.dat (E1 m) c
  | ⟨1, _⟩ => fun c => Reg1.dat (E3 m) c
  | ⟨2, _⟩ => fun c => Reg2.dat (E5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)

/-! ## The regions as segments -/

/-- At region 0's exit each of its arrays holds what the pipeline leaves: the two inputs as entered, the result at the
    last write-back's contents. -/
theorem hF0 (c : Dev nD) (w : Fin cfg0.W) :
    (pdats m 0 c).arrAt w cfg0.N = Gen.V2 m (outs m) c (Pipeline.arrRef spec0 w) :=
  match w with
  | ⟨0, _⟩ => ((Reg0.dat (E1 m) c).arrAt_in 0 rfl _).trans (Gen.V2_of m (outs m) c main_v6 (by decide)).symm
  | ⟨1, _⟩ => ((Reg0.dat (E1 m) c).arrAt_in 1 rfl _).trans (Gen.V2_of m (outs m) c main_v13 (by decide)).symm
  | ⟨2, _⟩ => (Function.update_self (β := fun b : DevRef τ sig => b.ty.Contents (Elt F)) (Proc.devRef .tc main_v14) (o0 m c) (Gen.V1 m c)).symm.trans
      (congrFun (V2_eq m c) _).symm
/-- Every other buffer holds what it held at entry. -/
theorem hrest0 (c : Dev nD) : ∀ b : Ref sig .tc, b ∉ Finset.univ.image (Pipeline.arrRef spec0) → Gen.V2 m (outs m) c b = Gen.V1 m c b :=
  fun b hb => Gen.V2_of m (outs m) c b fun h => hb (by
    rw [List.mem_singleton] at h; subst h; exact Finset.mem_image.mpr ⟨2, Finset.mem_univ _, rfl⟩)

set_option backward.isDefEq.respectTransparency.types false in
/-- REGION 0 over the thread state: entered from every unscoped buffer at the contents after the first host stretch,
    left with the result array at what the pipeline leaves. Its arrays are distinct buffers, each held whole. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun w => match w with | ⟨0, _⟩ => rfl | ⟨1, _⟩ => rfl | ⟨2, _⟩ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Reg0.hin (E1 m) c)
    unfold Pipeline.ΦA
    iintro ⟨Hp, -, Hr⟩
    isplitl [Hr]; · iexact Hr
    iexact Hp
  hout c := by
    rw [Pipeline.ownSems0_none]
    refine BIBase.Entails.trans (Reg0.hout (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => match w with | ⟨0, _⟩ => rfl | ⟨1, _⟩ => rfl | ⟨2, _⟩ => rfl)
      (E1 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Off region 1's result array the contents after it are those before it. -/
theorem W4_of (c : Dev nD) (r : Ref sig .tc) (h : r ∉ ([main_v16] : List (Ref sig .tc))) : W4 m c r = W3 m c r := by
  rw [← V4_eq, ← V3_eq]; exact Gen.V4_of m (outs m) c r h
/-- At region 1's exit the shared input array holds what it held at entry, through either window, -/
theorem hF1_0 (c : Dev nD) : (Reg1.dat (E3 m) c).arrAt 0 cfg1.N = W4 m c main_v6 :=
  ((Reg1.dat (E3 m) c).arrAt_in 0 rfl _).trans (W4_of m c main_v6 (by decide)).symm
theorem hF1_1 (c : Dev nD) : (Reg1.dat (E3 m) c).arrAt 1 cfg1.N = W4 m c main_v6 :=
  ((Reg1.dat (E3 m) c).arrAt_in 1 rfl _).trans (W4_of m c main_v6 (by decide)).symm
/-- the result array what the last write-back leaves, -/
theorem hF1_2 (c : Dev nD) : (Reg1.dat (E3 m) c).arrAt 2 cfg1.N = W4 m c main_v16 :=
  (Function.update_self (β := fun b : DevRef τ sig => b.ty.Contents (Elt F)) (Proc.devRef .tc main_v16) (o1 m c) (W3 m c)).symm
/-- and every other buffer what it held at entry. -/
theorem hrest1 (c : Dev nD) : ∀ b : Ref sig .tc, b ∉ Finset.univ.image (Pipeline.arrRef spec1) → W4 m c b = W3 m c b :=
  fun b hb => W4_of m c b fun h => hb (by
    rw [List.mem_singleton] at h; subst h; exact Finset.mem_image.mpr ⟨2, Finset.mem_univ _, rfl⟩)

set_option backward.isDefEq.respectTransparency.types false in
/-- REGION 1 over the thread state: entered from every unscoped buffer at the contents after the second host stretch, left with the result array at what the pipeline leaves. Its two input windows read one array: the array's points-to, whole at
    the full share among the unscoped buffers, is split along the share between them at the entry and joined at the exit. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Reg1.body_obligation (E3 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none, V3_eq m c,
      ← Pipeline.unscopedBufs_held (Ix := Unit) (Name := ℕ) (U := UR sig nD τ) (Lvl := ℕ) c (W3 m c),
      Pipeline.unscopedBufs_split₀ cfgs 1 winFacts₀1.arr_unscoped c (E3 m c)]
    have hsplit := (arrays1_split (Ix := Unit) (U := UR sig nD τ) (Lvl := ℕ) c (Reg1.dat (E3 m) c) rfl rfl (E3 m c)
      ((Reg1.dat (E3 m) c).arrAt · 0) rfl rfl rfl).1
    iintro ⟨⟨⟨Hab, Hrest⟩, Hp, HO⟩, -, -⟩
    ihave Ha := hsplit $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Reg1.hin (E3 m) c)
    unfold Pipeline.ΦA
    iintro ⟨Hp, -, Hr⟩
    isplitl [Hr]; · iexact Hr
    iexact Hp
  hout c := by
    rw [Pipeline.ownSems0_none]
    refine BIBase.Entails.trans (Reg1.hout (E3 m) c) ?_
    unfold Pipeline.ΦA
    iintro ⟨Hr, Hp⟩
    isplitl [Hp]; · iexact Hp
    isplitr; · iempintro
    iexact Hr
  hexit c := by
    rw [V4_eq m c,
      ← Pipeline.unscopedBufs_held (Ix := Unit) (Name := ℕ) (U := UR sig nD τ) (Lvl := ℕ) c (W4 m c),
      Pipeline.unscopedBufs_split₀ cfgs 1 winFacts₀1.arr_unscoped c (fun b => W4 m c b),
      ← unscopedRest_congr (Ix := Unit) (U := UR sig nD τ) (Lvl := ℕ) (cfgs 1).spec c (E3 m c) (fun b => W4 m c b) (hrest1 m c)]
    have hjoin := (arrays1_split (Ix := Unit) (U := UR sig nD τ) (Lvl := ℕ) c (Reg1.dat (E3 m) c) rfl rfl (fun b => W4 m c b)
      ((Reg1.dat (E3 m) c).arrAt · cfg1.N) (hF1_0 m c) (hF1_1 m c) (hF1_2 m c)).2
    iintro ⟨Ha, HO, HY, Hrest⟩
    imodintro
    isplitl [Ha Hrest]
    · isplitl [Ha]
      · iapply hjoin; iexact Ha
      iexact Hrest
    isplitl [HY]; · iexact HY
    unfold Pipeline.Dat.owesAt Pipeline.owesWithin
    icases HO with ⟨%W, -, HO⟩; iexists W; iexact HO

/-- Off region 2's result array the contents after it are those before it. -/
theorem W6_of (c : Dev nD) (r : Ref sig .tc) (h : r ∉ ([main_v18] : List (Ref sig .tc))) : W6 m c r = W5 m c r := by
  rw [← V6_eq, ← V5_eq]; exact Gen.V6_of m (outs m) c r h
/-- At region 2's exit the shared input array holds what it held at entry, through either window, -/
theorem hF2_0 (c : Dev nD) : (Reg2.dat (E5 m) c).arrAt 0 cfg2.N = W6 m c main_v13 :=
  ((Reg2.dat (E5 m) c).arrAt_in 0 rfl _).trans (W6_of m c main_v13 (by decide)).symm
theorem hF2_1 (c : Dev nD) : (Reg2.dat (E5 m) c).arrAt 1 cfg2.N = W6 m c main_v13 :=
  ((Reg2.dat (E5 m) c).arrAt_in 1 rfl _).trans (W6_of m c main_v13 (by decide)).symm
/-- the result array what the last write-back leaves, -/
theorem hF2_2 (c : Dev nD) : (Reg2.dat (E5 m) c).arrAt 2 cfg2.N = W6 m c main_v18 :=
  (Function.update_self (β := fun b : DevRef τ sig => b.ty.Contents (Elt F)) (Proc.devRef .tc main_v18) (o2 m c) (W5 m c)).symm
/-- and every other buffer what it held at entry. -/
theorem hrest2 (c : Dev nD) : ∀ b : Ref sig .tc, b ∉ Finset.univ.image (Pipeline.arrRef spec2) → W6 m c b = W5 m c b :=
  fun b hb => W6_of m c b fun h => hb (by
    rw [List.mem_singleton] at h; subst h; exact Finset.mem_image.mpr ⟨2, Finset.mem_univ _, rfl⟩)

set_option backward.isDefEq.respectTransparency.types false in
/-- REGION 2 over the thread state: entered from every unscoped buffer at the contents after the third host stretch, left with the result array at what the pipeline leaves. Its two input windows read one array: the array's points-to, whole at
    the full share among the unscoped buffers, is split along the share between them at the entry and joined at the exit. -/
def reg2 : RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (Reg2.body_obligation (E5 m) c).loose
  hwaits := Pipeline.hwaits_of_owed_zero _ _ _ _ L lv 2 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none, V5_eq m c,
      ← Pipeline.unscopedBufs_held (Ix := Unit) (Name := ℕ) (U := UR sig nD τ) (Lvl := ℕ) c (W5 m c),
      Pipeline.unscopedBufs_split₀ cfgs 2 winFacts₀2.arr_unscoped c (E5 m c)]
    have hsplit := (arrays2_split (Ix := Unit) (U := UR sig nD τ) (Lvl := ℕ) c (Reg2.dat (E5 m) c) rfl rfl (E5 m c)
      ((Reg2.dat (E5 m) c).arrAt · 0) rfl rfl rfl).1
    iintro ⟨⟨⟨Hab, Hrest⟩, Hp, HO⟩, -, -⟩
    ihave Ha := hsplit $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Reg2.hin (E5 m) c)
    unfold Pipeline.ΦA
    iintro ⟨Hp, -, Hr⟩
    isplitl [Hr]; · iexact Hr
    iexact Hp
  hout c := by
    rw [Pipeline.ownSems0_none]
    refine BIBase.Entails.trans (Reg2.hout (E5 m) c) ?_
    unfold Pipeline.ΦA
    iintro ⟨Hr, Hp⟩
    isplitl [Hp]; · iexact Hp
    isplitr; · iempintro
    iexact Hr
  hexit c := by
    rw [V6_eq m c,
      ← Pipeline.unscopedBufs_held (Ix := Unit) (Name := ℕ) (U := UR sig nD τ) (Lvl := ℕ) c (W6 m c),
      Pipeline.unscopedBufs_split₀ cfgs 2 winFacts₀2.arr_unscoped c (fun b => W6 m c b),
      ← unscopedRest_congr (Ix := Unit) (U := UR sig nD τ) (Lvl := ℕ) (cfgs 2).spec c (E5 m c) (fun b => W6 m c b) (hrest2 m c)]
    have hjoin := (arrays2_split (Ix := Unit) (U := UR sig nD τ) (Lvl := ℕ) c (Reg2.dat (E5 m) c) rfl rfl (fun b => W6 m c b)
      ((Reg2.dat (E5 m) c).arrAt · cfg2.N) (hF2_0 m c) (hF2_1 m c) (hF2_2 m c)).2
    iintro ⟨Ha, HO, HY, Hrest⟩
    imodintro
    isplitl [Ha Hrest]
    · isplitl [Ha]
      · iapply hjoin; iexact Ha
      iexact Hrest
    isplitl [HY]; · iexact HY
    unfold Pipeline.Dat.owesAt Pipeline.owesWithin
    icases HO with ⟨%W, -, HO⟩; iexists W; iexact HO

/-! ## @main as segments, and the launch -/

/-- The rest beside the buffers between items: the same at every boundary. -/
abbrev E : Fin 4 → Dev nD → sProp 𝕄 := fun _ c => R c

set_option backward.isDefEq.respectTransparency.types false in
/-- THE RUN: from any memory with zero counters every weakly fair execution of @main on the TensorCores terminates, and
    every final memory holds, on each core, the program's result at what the items' fold from the launch memory says
    (the regions' result arrays at what their pipelines' last write-backs leave) and the two arguments as launched. -/
theorem run (ρ : Dev nD → PrngReg) :
    θ_run defs (onTc (τ := τ) (main (F := F))) ⟨m, fun _ => 0, ρ⟩ (fun r => ∀ c : Dev nD,
      r.2.mem ((c.tc : Thread nD τ).loc main_v23) = Gen.V7 m (outs m) c main_v23
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have hlast : ∀ c : Dev nD, iprop(StableHlo.held (c : Thread nD τ) (Pipeline.ucRefs τ sig) (Gen.V7 m (outs m) c) ∗ R (F := F) c)
      ⊢ (iprop(iprop(StableHlo.held (c : Thread nD τ) (Pipeline.ucRefs τ sig) (Gen.V7 m (outs m) c) ∗ ∃ r, prngReg c r)
          ∗ ∃ W, owes (c.tc : Thread nD τ) (0 : CellTallies nD τ sig Unit) W) : sProp 𝕄) := fun c => by
    iintro ⟨Hh, Hp, HO⟩
    isplitl [Hh Hp]
    · isplitl [Hh] <;> iassumption
    iexact HO
  refine Pipeline.θ_run_regions_kit_dev (pcfgs (F := F)) adm (pdats m) () cellOf_inj emb₁ defs₀ 𝒱₀ L lv m ρ main
    (segs m (outs m) 𝒱₀ L lv (E (F := F)) () (pdats m) (reg0 m) (reg1 m) (reg2 m))
    (fun c Q => by
      rewrite [main_chain c, Seg.run_eq_chain,
        show (segs m (outs m) 𝒱₀ L lv (E (F := F)) () (pdats m) (reg0 m) (reg1 m) (reg2 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V7 m (outs m) c) ∗ ∃ r, prngReg c r))
    (hch := fun c => ⟨.rfl, .rfl, .rfl, .rfl, .rfl, .rfl, .rfl, hlast c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v23) = Gen.V7 m (outs m) c main_v23
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h => h)
  -- the end: the result's and each argument's buffer read off the last contents
  unfold StableHlo.held
  iintro ⟨⟨Hh, -⟩, HSI⟩
  ihave Hr := (pointsTo_read_all (Pipeline.ucRefs τ sig) (fun b => ((c : Thread nD τ).1, b)) (Gen.V7 m (outs m) c) s') $$ [Hh HSI]
  · isplitl [Hh] <;> iassumption
  icases Hr with ⟨%h, HSI⟩
  imodintro
  isplitr
  · ipureintro
    exact ⟨h (Proc.devRef .tc main_v23) (Finset.mem_filter.mpr ⟨StableHlo.devRef_mem_tcRefs main_v23, by decide⟩),
      (h (Proc.devRef .tc main_arg0) (Finset.mem_filter.mpr ⟨StableHlo.devRef_mem_tcRefs main_arg0, by decide⟩)).trans (Gen.V7_main_arg0 m (outs m) c),
      (h (Proc.devRef .tc main_arg1) (Finset.mem_filter.mpr ⟨StableHlo.devRef_mem_tcRefs main_arg1, by decide⟩)).trans (Gen.V7_main_arg1 m (outs m) c)⟩
  · iexact HSI

end Cert.Kernel.Run

end
-- ==== Proof.KI0Runs.lean ====
/-
  Region 0 of the program (one launch of the sum-of-squares kernel over a grid of 32 points), first part: what the
  four control cases of the body share. A grid point is (i, j, k) in row-major order, k the reduction axis of extent 4.
  The body has three conditional blocks: at the very first point it zeroes the 1×1 result; at k = 0 it zeroes the
  512×512 accumulator; at every point it adds the product of the two 2048×512 input blocks (contracted over their
  2048 rows) into the accumulator; at k = 3 it adds the sum of the accumulator's squares into the result. Hence four
  cases: A (first point), B (k = 0 elsewhere), C (k = 1, 2), D (k = 3). The result window is idle (not stored into,
  not written back) in cases B and C.
-/
import proofs.«157129_j47072841564786_1_alg».proof.Proof.Gen.KernelIdeal.Launch
import proofs.«157129_j47072841564786_1_alg».proof.Proof.Gen.KernelIdeal.Skeleton
import proofs.«157129_j47072841564786_1_alg».proof.Proof.Gen.KernelIdeal.Points
import Idealize.ShloMosaic.Lib.Pipeline.FrameBody
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions, in closed form over the grid -/

/-- The first point of the grid. -/
abbrev cond_0 (i : grid0.Coords) : Prop := k0_cond1 i = 1#1
theorem hcond_0 : ∀ t : Fin cfg0.N, cond_0 (grid0.coords t) ↔ t.val = 0 :=
  (by decide +kernel : ∀ t : Fin grid0.N, cond_0 (grid0.coords t) ↔ t.val = 0)
/-- The reduction coordinate is 0. -/
abbrev cond_1 (i : grid0.Coords) : Prop := (Scalar.cmpi .ne (Scalar.extui (Scalar.cmpi .eq (BitVec.ofNat 32 (i 2).val) 0#32)) 0#32) = 1#1
theorem hcond_1 : ∀ t : Fin cfg0.N, cond_1 (grid0.coords t) ↔ t.val % 4 = 0 :=
  (by decide +kernel : ∀ t : Fin grid0.N, cond_1 (grid0.coords t) ↔ t.val % 4 = 0)
/-- The reduction coordinate is 3, the last. -/
abbrev cond_2 (i : grid0.Coords) : Prop := k0_cond3 i = 1#1
theorem hcond_2 : ∀ t : Fin cfg0.N, cond_2 (grid0.coords t) ↔ t.val % 4 = 3 :=
  (by decide +kernel : ∀ t : Fin grid0.N, cond_2 (grid0.coords t) ↔ t.val % 4 = 3)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2_A : ∀ t : Fin cfg0.N, cond_0 (grid0.coords t) → cfg0.idle 2 (grid0.coords t) = false := by decide +kernel
theorem liveAt_2_D : ∀ t : Fin cfg0.N, cond_2 (grid0.coords t) → cfg0.idle 2 (grid0.coords t) = false := by decide +kernel
theorem idleAt_2 : ∀ t : Fin cfg0.N, ¬cond_0 (grid0.coords t) → ¬cond_2 (grid0.coords t) → cfg0.idle 2 (grid0.coords t) = true := by decide +kernel
theorem noFlush_2 : ∀ t : Fin cfg0.N, ¬cond_2 (grid0.coords t) → (cfg0.win 2).flush t = false := by decide +kernel
/-- The result window's buffer holds nothing the body stored only when the body runs at the first point. -/
theorem fresh_2 : ∀ n, n ≤ cfg0.N → cfg0.fresh 2 n = (decide (n = 0) || decide (n = 32)) :=
  Pipeline.Cfg.fresh_tab cfg0 2 (fun n => decide (n = 0) || decide (n = 32)) rfl
    (by decide +kernel : ∀ t : Fin grid0.N, (decide (t.val + 1 = 0) || decide (t.val + 1 = 32)) = ((cfg0.win 2).flush t || (cfg0.idle 2 (grid0.coords t) && (decide (t.val = 0) || decide (t.val = 32)))))

/-! ## The memrefs the body is called with -/

abbrev ms_0 (t : Fin cfg0.N) : Memref sig .tc .vmem S2048x512 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S2048x512 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x1 .f32 := win0_2.stage (cfg0.slots t 2)
abbrev hs_2 (t : Fin cfg0.N) : (ms_2 t).IsWhole := hstage0_2 ((cfg0.slots t 2).cast nbuf0_2)
/-- The accumulator: a whole scoped buffer of the kernel's own. -/
abbrev scM : Memref sig .tc .vmem S512x512 .f32 := Memref.whole cc0_scratch0
abbrev VS : View sig .tc .vmem S512x512 .f32 := (scM : Memref sig .tc .vmem S512x512 .f32).view
abbrev VO : View sig .tc .vmem S1x1 .f32 := (Memref.whole cc0_stg2_0 : Memref sig .tc .vmem S1x1 .f32).view

/-- The region's standing invariant with the accumulator split out of the scoped buffers no window stages. -/
theorem PhiA_eq (c : Dev nD) :
    (Pipeline.ΦA spec0 c : sProp 𝕄)
      = iprop(iprop((∃ d, owns (c : Thread nD τ) scM fullShare d) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [scM, owns_whole, bigSepL]
  try rfl

end Cert.KernelIdeal.Reg0

end
-- ==== Proof.KI0RunA.lean ====
/-
  Region 0, case A (the grid's first point): the body zeroes the result, zeroes the accumulator and adds the first
  product into it. The run finds the pieces each buffer ends with.
-/
import proofs.«157129_j47072841564786_1_alg».proof.Proof.KI0Runs

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case A on whole memrefs: the inputs at their blocks, the result and the accumulator at anything; it ends
    with the inputs as they were and the result and the accumulator with the found pieces written. -/
noncomputable def kernelRun_A (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i)
    (x0 x1 : Vec F S2048x512 .bf16) :
    Σ' (L2 : List (View.Piece (Elt F) S1x1 .f32)), { LS : List (View.Piece (Elt F) S512x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc0__sumsq_kernel i arg3 harg3 arg4 harg4 arg5 harg5 arg6 harg6) K } := by
  refine ⟨?_, ?_, fun E K => ?run⟩
  case run =>
    simp only [cc0__sumsq_kernel_eq_skeleton]; unfold cc0__sumsq_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.KernelIdeal.Reg0

end
-- ==== Proof.KI0RunB.lean ====
/-
  Region 0, case B (reduction coordinate 0, not the first point): the body zeroes the accumulator and adds the
  product into it; the result's buffer is left as found.
-/
import proofs.«157129_j47072841564786_1_alg».proof.Proof.KI0Runs

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case B: the result's buffer handed back untouched, the accumulator with the found pieces written. -/
noncomputable def kernelRun_B (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : cond_1 i) (hc2 : ¬cond_2 i)
    (x0 x1 : Vec F S2048x512 .bf16) :
    { LS : List (View.Piece (Elt F) S512x512 .f32) //
      ∀ (xi2 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc0__sumsq_kernel i arg3 harg3 arg4 harg4 arg5 harg5 arg6 harg6) K } := by
  refine ⟨?_, fun xi2 E K => ?run⟩
  case run =>
    simp only [cc0__sumsq_kernel_eq_skeleton]; unfold cc0__sumsq_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Reg0

end
-- ==== Proof.KI0RunC.lean ====
/-
  Region 0, case C (reduction coordinate 1 or 2): the body adds the product into the accumulator, which holds what
  the point before left; the result's buffer is left as found.
-/
import proofs.«157129_j47072841564786_1_alg».proof.Proof.KI0Runs

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case C: the accumulator enters at the contents xs and ends with the found pieces written. -/
noncomputable def kernelRun_C (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : ¬cond_2 i)
    (x0 x1 : Vec F S2048x512 .bf16) (xs : Vec F S512x512 .f32) :
    { LS : List (View.Piece (Elt F) S512x512 .f32) //
      ∀ (xi2 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc0__sumsq_kernel i arg3 harg3 arg4 harg4 arg5 harg5 arg6 harg6) K } := by
  refine ⟨?_, fun xi2 E K => ?run⟩
  case run =>
    simp only [cc0__sumsq_kernel_eq_skeleton]; unfold cc0__sumsq_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Reg0

end
-- ==== Proof.KI0RunD.lean ====
/-
  Region 0, case D (reduction coordinate 3): the body adds the product into the accumulator, then adds the sum of the
  accumulator's squares into the result, which holds what the last storing point left.
-/
import proofs.«157129_j47072841564786_1_alg».proof.Proof.KI0Runs

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case D: the accumulator enters at xs, the result at xo; both end with the found pieces written. -/
noncomputable def kernelRun_D (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i)
    (x0 x1 : Vec F S2048x512 .bf16) (xs : Vec F S512x512 .f32) (xo : Vec F S1x1 .f32) :
    Σ' (L2 : List (View.Piece (Elt F) S1x1 .f32)), { LS : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare xo ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc0__sumsq_kernel i arg3 harg3 arg4 harg4 arg5 harg5 arg6 harg6) K } := by
  refine ⟨?_, ?_, fun E K => ?run⟩
  case run =>
    simp only [cc0__sumsq_kernel_eq_skeleton]; unfold cc0__sumsq_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.KernelIdeal.Reg0

end
-- ==== Proof.KI0.lean ====
/-
  Region 0, last part: what the result's buffer and the accumulator hold after each grid point (one recursion over
  the points, the result carried unchanged through the points that do not store it), the region's proof data, and the
  body obligation at a generic point, by the four cases.
-/
import proofs.«157129_j47072841564786_1_alg».proof.Proof.KI0RunA
import proofs.«157129_j47072841564786_1_alg».proof.Proof.KI0RunB
import proofs.«157129_j47072841564786_1_alg».proof.Proof.KI0RunC
import proofs.«157129_j47072841564786_1_alg».proof.Proof.KI0RunD

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back from the pieces its run found -/

theorem cover_A_2 (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) (y : S1x1.Idx) :
    ∃ pc ∈ (kernelRun_A c i arg3 harg3 arg4 harg4 arg5 harg5 arg6 harg6 hc0 hc1 hc2 x0 x1).1, y ∈ pc.1.set :=
  View.cover_of_tiledL (kernelRun_A c i arg3 harg3 arg4 harg4 arg5 harg5 arg6 harg6 hc0 hc1 hc2 x0 x1).1 S1x1.size (by sl_kernel_rfl) y
def out_A_2 (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) : Vec F S1x1 .f32 :=
  VO.read (Elt F) (VO.writes (Elt F) VO.junk (kernelRun_A c i arg3 harg3 arg4 harg4 arg5 harg5 arg6 harg6 hc0 hc1 hc2 x0 x1).1)
theorem scover_A (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) (y : S512x512.Idx) :
    ∃ pc ∈ (kernelRun_A c i arg3 harg3 arg4 harg4 arg5 harg5 arg6 harg6 hc0 hc1 hc2 x0 x1).2.1, y ∈ pc.1.set :=
  View.cover_of_tiledL (kernelRun_A c i arg3 harg3 arg4 harg4 arg5 harg5 arg6 harg6 hc0 hc1 hc2 x0 x1).2.1 S512x512.size (by sl_kernel_rfl) y
def sout_A (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) : Vec F S512x512 .f32 :=
  VS.read (Elt F) (VS.writes (Elt F) VS.junk (kernelRun_A c i arg3 harg3 arg4 harg4 arg5 harg5 arg6 harg6 hc0 hc1 hc2 x0 x1).2.1)

theorem scover_B (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : cond_1 i) (hc2 : ¬cond_2 i) (x0 x1 : Vec F S2048x512 .bf16) (y : S512x512.Idx) :
    ∃ pc ∈ (kernelRun_B c i arg3 harg3 arg4 harg4 arg5 harg5 arg6 harg6 hc0 hc1 hc2 x0 x1).1, y ∈ pc.1.set :=
  View.cover_of_tiledL (kernelRun_B c i arg3 harg3 arg4 harg4 arg5 harg5 arg6 harg6 hc0 hc1 hc2 x0 x1).1 S512x512.size (by sl_kernel_rfl) y
def sout_B (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : cond_1 i) (hc2 : ¬cond_2 i) (x0 x1 : Vec F S2048x512 .bf16) : Vec F S512x512 .f32 :=
  VS.read (Elt F) (VS.writes (Elt F) VS.junk (kernelRun_B c i arg3 harg3 arg4 harg4 arg5 harg5 arg6 harg6 hc0 hc1 hc2 x0 x1).1)

theorem scover_C (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : ¬cond_2 i) (x0 x1 : Vec F S2048x512 .bf16) (xs : Vec F S512x512 .f32) (y : S512x512.Idx) :
    ∃ pc ∈ (kernelRun_C c i arg3 harg3 arg4 harg4 arg5 harg5 arg6 harg6 hc0 hc1 hc2 x0 x1 xs).1, y ∈ pc.1.set :=
  View.cover_of_tiledL (kernelRun_C c i arg3 harg3 arg4 harg4 arg5 harg5 arg6 harg6 hc0 hc1 hc2 x0 x1 xs).1 S512x512.size (by sl_kernel_rfl) y
def sout_C (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : ¬cond_2 i) (x0 x1 : Vec F S2048x512 .bf16) (xs : Vec F S512x512 .f32) : Vec F S512x512 .f32 :=
  VS.read (Elt F) (VS.writes (Elt F) VS.junk (kernelRun_C c i arg3 harg3 arg4 harg4 arg5 harg5 arg6 harg6 hc0 hc1 hc2 x0 x1 xs).1)

theorem cover_D_2 (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) (y : S1x1.Idx) :
    ∃ pc ∈ (kernelRun_D c i arg3 harg3 arg4 harg4 arg5 harg5 arg6 harg6 hc0 hc1 hc2 x0 x1 xs xo).1, y ∈ pc.1.set :=
  View.cover_of_tiledL (kernelRun_D c i arg3 harg3 arg4 harg4 arg5 harg5 arg6 harg6 hc0 hc1 hc2 x0 x1 xs xo).1 S1x1.size (by sl_kernel_rfl) y
def out_D_2 (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) : Vec F S1x1 .f32 :=
  VO.read (Elt F) (VO.writes (Elt F) VO.junk (kernelRun_D c i arg3 harg3 arg4 harg4 arg5 harg5 arg6 harg6 hc0 hc1 hc2 x0 x1 xs xo).1)
theorem scover_D (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) (y : S512x512.Idx) :
    ∃ pc ∈ (kernelRun_D c i arg3 harg3 arg4 harg4 arg5 harg5 arg6 harg6 hc0 hc1 hc2 x0 x1 xs xo).2.1, y ∈ pc.1.set :=
  View.cover_of_tiledL (kernelRun_D c i arg3 harg3 arg4 harg4 arg5 harg5 arg6 harg6 hc0 hc1 hc2 x0 x1 xs xo).2.1 S512x512.size (by sl_kernel_rfl) y
def sout_D (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) : Vec F S512x512 .f32 :=
  VS.read (Elt F) (VS.writes (Elt F) VS.junk (kernelRun_D c i arg3 harg3 arg4 harg4 arg5 harg5 arg6 harg6 hc0 hc1 hc2 x0 x1 xs xo).2.1)

/-! ## The accumulation over the grid points -/

/-- What the result's buffer (first component) and the accumulator (second) hold after the body at position n. -/
def outsAt (c : Dev nD) : (n : ℕ) → n < cfg0.N → Vec F S1x1 .f32 × Vec F S512x512 .f32
  | 0, hn =>
    (out_A_2 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond_0 ⟨0, hn⟩).mpr rfl) ((hcond_1 ⟨0, hn⟩).mpr (Nat.zero_mod _)) (fun h => (fun h' => by (try dsimp only at h'); omega) ((hcond_2 ⟨0, hn⟩).mp h)) (iblk V c 0 ⟨0, hn⟩) (iblk V c 1 ⟨0, hn⟩),
     sout_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond_0 ⟨0, hn⟩).mpr rfl) ((hcond_1 ⟨0, hn⟩).mpr (Nat.zero_mod _)) (fun h => (fun h' => by (try dsimp only at h'); omega) ((hcond_2 ⟨0, hn⟩).mp h)) (iblk V c 0 ⟨0, hn⟩) (iblk V c 1 ⟨0, hn⟩))
  | n + 1, hn =>
    if h1 : (n + 1) % 4 = 0 then
      ((outsAt c n (Nat.lt_of_succ_lt hn)).1,
       sout_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => Nat.succ_ne_zero n ((hcond_0 ⟨n + 1, hn⟩).mp h)) ((hcond_1 ⟨n + 1, hn⟩).mpr h1) (fun h => (fun h' => by (try dsimp only at h'); omega) ((hcond_2 ⟨n + 1, hn⟩).mp h)) (iblk V c 0 ⟨n + 1, hn⟩) (iblk V c 1 ⟨n + 1, hn⟩))
    else if h2 : (n + 1) % 4 = 3 then
      (out_D_2 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => Nat.succ_ne_zero n ((hcond_0 ⟨n + 1, hn⟩).mp h)) (fun h => h1 ((hcond_1 ⟨n + 1, hn⟩).mp h)) ((hcond_2 ⟨n + 1, hn⟩).mpr h2) (iblk V c 0 ⟨n + 1, hn⟩) (iblk V c 1 ⟨n + 1, hn⟩) (outsAt c n (Nat.lt_of_succ_lt hn)).2 (outsAt c n (Nat.lt_of_succ_lt hn)).1,
       sout_D c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => Nat.succ_ne_zero n ((hcond_0 ⟨n + 1, hn⟩).mp h)) (fun h => h1 ((hcond_1 ⟨n + 1, hn⟩).mp h)) ((hcond_2 ⟨n + 1, hn⟩).mpr h2) (iblk V c 0 ⟨n + 1, hn⟩) (iblk V c 1 ⟨n + 1, hn⟩) (outsAt c n (Nat.lt_of_succ_lt hn)).2 (outsAt c n (Nat.lt_of_succ_lt hn)).1)
    else
      ((outsAt c n (Nat.lt_of_succ_lt hn)).1,
       sout_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => Nat.succ_ne_zero n ((hcond_0 ⟨n + 1, hn⟩).mp h)) (fun h => h1 ((hcond_1 ⟨n + 1, hn⟩).mp h)) (fun h => h2 ((hcond_2 ⟨n + 1, hn⟩).mp h)) (iblk V c 0 ⟨n + 1, hn⟩) (iblk V c 1 ⟨n + 1, hn⟩) (outsAt c n (Nat.lt_of_succ_lt hn)).2)

/-- The previous position, for a point that is not the first. -/
abbrev prevLt (t : Fin cfg0.N) : t.val - 1 < cfg0.N := Nat.lt_of_le_of_lt (Nat.sub_le _ _) t.isLt

theorem outsAt_A (c : Dev nD) (t : Fin cfg0.N) (h0 : t.val = 0) (hc0 : cond_0 (grid0.coords t)) (hc1 : cond_1 (grid0.coords t)) (hc2 : ¬cond_2 (grid0.coords t)) :
    outsAt V c t.val t.isLt = (out_A_2 c (grid0.coords t) (ms_0 t) (hs_0 t) (ms_1 t) (hs_1 t) (ms_2 t) (hs_2 t) scM (Memref.isWhole_whole _) hc0 hc1 hc2 (iblk V c 0 t) (iblk V c 1 t), sout_A c (grid0.coords t) (ms_0 t) (hs_0 t) (ms_1 t) (hs_1 t) (ms_2 t) (hs_2 t) scM (Memref.isWhole_whole _) hc0 hc1 hc2 (iblk V c 0 t) (iblk V c 1 t)) := by
  obtain ⟨n, hn⟩ := t
  cases n with
  | zero => exact rfl
  | succ n => exact absurd h0 (Nat.succ_ne_zero n)

theorem outsAt_B (c : Dev nD) (t : Fin cfg0.N) (h0 : t.val ≠ 0) (h1 : t.val % 4 = 0) (hc0 : ¬cond_0 (grid0.coords t)) (hc1 : cond_1 (grid0.coords t)) (hc2 : ¬cond_2 (grid0.coords t)) :
    outsAt V c t.val t.isLt = ((outsAt V c (t.val - 1) (prevLt t)).1, sout_B c (grid0.coords t) (ms_0 t) (hs_0 t) (ms_1 t) (hs_1 t) (ms_2 t) (hs_2 t) scM (Memref.isWhole_whole _) hc0 hc1 hc2 (iblk V c 0 t) (iblk V c 1 t)) := by
  obtain ⟨n, hn⟩ := t
  cases n with
  | zero => exact absurd rfl h0
  | succ n => exact (dif_pos h1).trans rfl

theorem outsAt_C (c : Dev nD) (t : Fin cfg0.N) (h0 : t.val ≠ 0) (h1 : ¬t.val % 4 = 0) (h2 : ¬t.val % 4 = 3) (hc0 : ¬cond_0 (grid0.coords t)) (hc1 : ¬cond_1 (grid0.coords t)) (hc2 : ¬cond_2 (grid0.coords t)) :
    outsAt V c t.val t.isLt = ((outsAt V c (t.val - 1) (prevLt t)).1, sout_C c (grid0.coords t) (ms_0 t) (hs_0 t) (ms_1 t) (hs_1 t) (ms_2 t) (hs_2 t) scM (Memref.isWhole_whole _) hc0 hc1 hc2 (iblk V c 0 t) (iblk V c 1 t) (outsAt V c (t.val - 1) (prevLt t)).2) := by
  obtain ⟨n, hn⟩ := t
  cases n with
  | zero => exact absurd rfl h0
  | succ n => exact (dif_neg h1).trans ((dif_neg h2).trans rfl)

theorem outsAt_D (c : Dev nD) (t : Fin cfg0.N) (h0 : t.val ≠ 0) (h1 : ¬t.val % 4 = 0) (h2 : t.val % 4 = 3) (hc0 : ¬cond_0 (grid0.coords t)) (hc1 : ¬cond_1 (grid0.coords t)) (hc2 : cond_2 (grid0.coords t)) :
    outsAt V c t.val t.isLt = (out_D_2 c (grid0.coords t) (ms_0 t) (hs_0 t) (ms_1 t) (hs_1 t) (ms_2 t) (hs_2 t) scM (Memref.isWhole_whole _) hc0 hc1 hc2 (iblk V c 0 t) (iblk V c 1 t) (outsAt V c (t.val - 1) (prevLt t)).2 (outsAt V c (t.val - 1) (prevLt t)).1, sout_D c (grid0.coords t) (ms_0 t) (hs_0 t) (ms_1 t) (hs_1 t) (ms_2 t) (hs_2 t) scM (Memref.isWhole_whole _) hc0 hc1 hc2 (iblk V c 0 t) (iblk V c 1 t) (outsAt V c (t.val - 1) (prevLt t)).2 (outsAt V c (t.val - 1) (prevLt t)).1) := by
  obtain ⟨n, hn⟩ := t
  cases n with
  | zero => exact absurd rfl h0
  | succ n => exact (dif_neg h1).trans ((dif_pos h2).trans rfl)

/-- At a point that does not store the result, its buffer's contents are carried. -/
theorem outsAt_carry (c : Dev nD) (t : Fin cfg0.N) (h0 : t.val ≠ 0) (h2 : ¬t.val % 4 = 3) :
    (outsAt V c t.val t.isLt).1 = (outsAt V c (t.val - 1) (prevLt t)).1 := by
  have hc0 : ¬cond_0 (grid0.coords t) := fun h => h0 ((hcond_0 t).mp h)
  have hc2 : ¬cond_2 (grid0.coords t) := fun h => h2 ((hcond_2 t).mp h)
  by_cases h1 : t.val % 4 = 0
  · rw [outsAt_B V c t h0 h1 hc0 ((hcond_1 t).mpr h1) hc2]
  · rw [outsAt_C V c t h0 h1 h2 hc0 (fun h => h1 ((hcond_1 t).mp h)) hc2]

/-! ## The region invariant: the accumulator at what the point before left -/

def PhiS (c : Dev nD) : (n : ℕ) → n ≤ cfg0.N → sProp 𝕄
  | 0, _ => Pipeline.ΦA spec0 c
  | n + 1, hn => iprop(iprop(owns (c : Thread nD τ) scM fullShare ((outsAt V c n hn).2) ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM fullShare ((outsAt V c n hn).2) ∗ Pipeline.scopedRestBut (Ix := Unit) (Name := ℕ) (U := UR sig nD τ) (Lvl := ℕ) (Val := Elt F) spec0 c [cc0_scratch0]) ∗ (∃ r, prngReg c r)) := rfl
theorem PhiS_pos (c : Dev nD) (n : ℕ) (h : n ≤ cfg0.N) (hz : n ≠ 0) :
    PhiS V c n h = iprop(iprop(owns (c : Thread nD τ) scM fullShare ((outsAt V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q w := match w with
    | ⟨0, _⟩ => fullShare
    | ⟨1, _⟩ => fullShare
    | ⟨2, _⟩ => fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1 := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-- After the first point the result's buffer holds, when the body runs, what the recursion says of the point before:
    it is never written back before the last point, and the recursion carries it through the points that do not store. -/
theorem before_2 (c : Dev nD) (t : Fin cfg0.N) (hz : t.val ≠ 0) (d) :
    (dat V c).before 2 t d = (outsAt V c (t.val - 1) (prevLt t)).1 := by
  have hN : t.val < 32 := lt_of_lt_of_eq t.isLt (show cfg0.N = 32 from N_0)
  rw [(dat V c).before_out_traj 2 rfl (fun _ _ => rfl) (fun s hs hi hfr => by
      rw [after_2, after_2]
      have hc0 : ¬cond_0 (grid0.coords s) := fun h => by rw [liveAt_2_A s h] at hi; exact Bool.false_ne_true hi
      have hc2 : ¬cond_2 (grid0.coords s) := fun h => by rw [liveAt_2_D s h] at hi; exact Bool.false_ne_true hi
      exact outsAt_carry V c s hs (fun h => hc2 ((hcond_2 s).mpr h))) t.val t rfl d,
    fresh_2 t.val (Nat.le_of_lt t.isLt)]
  rw [show (decide (t.val = 0) || decide (t.val = 32)) = false from by
    rw [Bool.or_eq_false_iff]; exact ⟨decide_eq_false hz, decide_eq_false (by omega)⟩]
  rw [if_neg Bool.false_ne_true, after_2]

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

theorem leaves_0 (c : Dev nD) (t : Fin cfg0.N) : (dat V c).leavesExact 0 t = owns (c : Thread nD τ) (ms_0 t) fullShare (iblk V c 0 t) := by
  unfold Dat.leavesExact; rw [liveAt_0 t, after_0]
theorem leaves_1 (c : Dev nD) (t : Fin cfg0.N) : (dat V c).leavesExact 1 t = owns (c : Thread nD τ) (ms_1 t) fullShare (iblk V c 1 t) := by
  unfold Dat.leavesExact; rw [liveAt_1 t, after_1]

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ, leaves_0, leaves_1]
  have hN : t.val < 32 := lt_of_lt_of_eq t.isLt (show cfg0.N = 32 from N_0)
  by_cases hz : t.val = 0
  · -- case A: the first point
    have hc0 : cond_0 (grid0.coords t) := (hcond_0 t).mpr hz
    have hc1 : cond_1 (grid0.coords t) := (hcond_1 t).mpr (by omega)
    have hc2 : ¬cond_2 (grid0.coords t) := fun h => by have := (hcond_2 t).mp h; omega
    rw [show (dat V c).leavesExact 2 t = owns (c : Thread nD τ) (ms_2 t) fullShare ((dat V c).after 2 t) from by
      unfold Dat.leavesExact; rw [liveAt_2_A t hc0], after_2]
    rw [outsAt_A V c t hz hc0 hc1 hc2]
    unfold out_A_2 sout_A; (try dsimp only)
    rw [PhiS_castSucc V c t, PhiS_zero V c _ _ hz, PhiA_eq]
    iintro ⟨⟨⟨HS, HR⟩, Hg⟩, Ho, ⟨%d0, H0⟩, ⟨%d1, H1⟩, ⟨%d2, H2⟩⟩
    iapply ((kernelRun_A c (grid0.coords t) _ _ _ _ _ _ _ _ hc0 hc1 hc2 (iblk V c 0 t) (iblk V c 1 t)).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact View.read_writes_of_cover _ _ _ _ _ (scover_A c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover_A_2 c _ _ _ _ _ _ _ _ _ _ _ _ _ _)
  · have hc0 : ¬cond_0 (grid0.coords t) := fun h => hz ((hcond_0 t).mp h)
    rw [PhiS_castSucc V c t, PhiS_pos V c _ _ hz]
    by_cases h1 : t.val % 4 = 0
    · -- case B: the reduction starts again
      have hc1 : cond_1 (grid0.coords t) := (hcond_1 t).mpr h1
      have hc2 : ¬cond_2 (grid0.coords t) := fun h => by have := (hcond_2 t).mp h; omega
      rw [Dat.leavesExact_idle (dat V c) 2 t (idleAt_2 t hc0 hc2) (noFlush_2 t hc2)]
      rw [outsAt_B V c t hz h1 hc0 hc1 hc2]
      unfold sout_B; (try dsimp only)
      iintro ⟨⟨⟨HS, HR⟩, Hg⟩, Ho, ⟨%d0, H0⟩, ⟨%d1, H1⟩, ⟨%d2, H2⟩⟩
      iapply ((kernelRun_B c (grid0.coords t) _ _ _ _ _ _ _ _ hc0 hc1 hc2 (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover_B c _ _ _ _ _ _ _ _ _ _ _ _ _ _)
          iexact HR
        iexact Hg
      isplitl [Ho]; · iexact Ho
      isplitl [H0]; · iexact H0
      isplitl [H1]; · iexact H1
      iexists _; iexact H2
    · have hc1 : ¬cond_1 (grid0.coords t) := fun h => h1 ((hcond_1 t).mp h)
      by_cases h2 : t.val % 4 = 3
      · -- case D: the reduction ends
        have hc2 : cond_2 (grid0.coords t) := (hcond_2 t).mpr h2
        rw [show (dat V c).leavesExact 2 t = owns (c : Thread nD τ) (ms_2 t) fullShare ((dat V c).after 2 t) from by
          unfold Dat.leavesExact; rw [liveAt_2_D t hc2], after_2]
        simp only [before_2 V c t hz]
        rw [outsAt_D V c t hz h1 h2 hc0 hc1 hc2]
        unfold out_D_2 sout_D; (try dsimp only)
        iintro ⟨⟨⟨HS, HR⟩, Hg⟩, Ho, ⟨%d0, H0⟩, ⟨%d1, H1⟩, ⟨%d2, H2⟩⟩
        iapply ((kernelRun_D c (grid0.coords t) _ _ _ _ _ _ _ _ hc0 hc1 hc2 (iblk V c 0 t) (iblk V c 1 t) _ _).2.2 Set.univ _)
        isplitl [H0]; · iexact H0
        isplitl [H1]; · iexact H1
        isplitl [H2]; · iexact H2
        isplitl [HS]; · iexact HS
        iintro ⟨H0, H1, ⟨%e2, H2⟩, ⟨%es, HS⟩⟩
        isplitl [HS HR Hg]
        · isplitl [HS HR]
          · isplitl [HS]
            · unfold owns; iexists _; isplitr
              swap; · iexact HS
              ipureintro; exact View.read_writes_of_cover _ _ _ _ _ (scover_D c _ _ _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover_D_2 c _ _ _ _ _ _ _ _ _ _ _ _ _ _ _ _)
      · -- case C: the reduction goes on
        have hc2 : ¬cond_2 (grid0.coords t) := fun h => h2 ((hcond_2 t).mp h)
        rw [Dat.leavesExact_idle (dat V c) 2 t (idleAt_2 t hc0 hc2) (noFlush_2 t hc2)]
        rw [outsAt_C V c t hz h1 h2 hc0 hc1 hc2]
        unfold sout_C; (try dsimp only)
        iintro ⟨⟨⟨HS, HR⟩, Hg⟩, Ho, ⟨%d0, H0⟩, ⟨%d1, H1⟩, ⟨%d2, H2⟩⟩
        iapply ((kernelRun_C c (grid0.coords t) _ _ _ _ _ _ _ _ hc0 hc1 hc2 (iblk V c 0 t) (iblk V c 1 t) _).2 _ Set.univ _)
        isplitl [H0]; · iexact H0
        isplitl [H1]; · iexact H1
        isplitl [H2]; · iexact H2
        isplitl [HS]; · iexact HS
        iintro ⟨H0, H1, H2, ⟨%es, HS⟩⟩
        isplitl [HS HR Hg]
        · isplitl [HS HR]
          · isplitl [HS]
            · unfold owns; iexists _; isplitr
              swap; · iexact HS
              ipureintro; exact View.read_writes_of_cover _ _ _ _ _ (scover_C c _ _ _ _ _ _ _ _ _ _ _ _ _ _ _)
            iexact HR
          iexact Hg
        isplitl [Ho]; · iexact Ho
        isplitl [H0]; · iexact H0
        isplitl [H1]; · iexact H1
        iexists _; iexact H2

theorem body_obligation (c : Dev nD) : BodyObligation (dat (F := F) V c) (defs₀ (F := F)) Variants.none () Set.univ := fun t => by
  rw [bigSep_W0, bigSep_W0]
  exact sound_body V c t

theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

theorem hout (c : Dev nD) : (dat V c).Φ (Fin.last cfg0.N) ⊢ Pipeline.ΦA spec0 c :=
  Phi_out V c _ (by rw [Fin.val_last]; have : cfg0.N = 32 := N_0; omega)

end Cert.KernelIdeal.Reg0

end
-- ==== Proof.KI1Runs.lean ====
/-
  Region 1 of the program (one launch of the sum-of-squares kernel over a grid of 64 points), first part: what the
  four control cases of the body share. A grid point is (i, j, k) in row-major order, k the reduction axis of extent 4.
  The body has three conditional blocks: at the very first point it zeroes the 1×1 result; at k = 0 it zeroes the
  512×512 accumulator; at every point it adds the product of the two 2048×512 input blocks (contracted over their
  2048 rows) into the accumulator; at k = 3 it adds the sum of the accumulator's squares into the result. Hence four
  cases: A (first point), B (k = 0 elsewhere), C (k = 1, 2), D (k = 3). The result window is idle (not stored into,
  not written back) in cases B and C.
-/
import proofs.«157129_j47072841564786_1_alg».proof.Proof.Gen.KernelIdeal.Launch
import proofs.«157129_j47072841564786_1_alg».proof.Proof.Gen.KernelIdeal.Skeleton
import proofs.«157129_j47072841564786_1_alg».proof.Proof.Gen.KernelIdeal.Points
import Idealize.ShloMosaic.Lib.Pipeline.FrameBody
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions, in closed form over the grid -/

/-- The first point of the grid. -/
abbrev cond_0 (i : grid1.Coords) : Prop := k1_cond1 i = 1#1
theorem hcond_0 : ∀ t : Fin cfg1.N, cond_0 (grid1.coords t) ↔ t.val = 0 :=
  (by decide +kernel : ∀ t : Fin grid1.N, cond_0 (grid1.coords t) ↔ t.val = 0)
/-- The reduction coordinate is 0. -/
abbrev cond_1 (i : grid1.Coords) : Prop := (Scalar.cmpi .ne (Scalar.extui (Scalar.cmpi .eq (BitVec.ofNat 32 (i 2).val) 0#32)) 0#32) = 1#1
theorem hcond_1 : ∀ t : Fin cfg1.N, cond_1 (grid1.coords t) ↔ t.val % 4 = 0 :=
  (by decide +kernel : ∀ t : Fin grid1.N, cond_1 (grid1.coords t) ↔ t.val % 4 = 0)
/-- The reduction coordinate is 3, the last. -/
abbrev cond_2 (i : grid1.Coords) : Prop := k1_cond3 i = 1#1
theorem hcond_2 : ∀ t : Fin cfg1.N, cond_2 (grid1.coords t) ↔ t.val % 4 = 3 :=
  (by decide +kernel : ∀ t : Fin grid1.N, cond_2 (grid1.coords t) ↔ t.val % 4 = 3)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2_A : ∀ t : Fin cfg1.N, cond_0 (grid1.coords t) → cfg1.idle 2 (grid1.coords t) = false := by decide +kernel
theorem liveAt_2_D : ∀ t : Fin cfg1.N, cond_2 (grid1.coords t) → cfg1.idle 2 (grid1.coords t) = false := by decide +kernel
theorem idleAt_2 : ∀ t : Fin cfg1.N, ¬cond_0 (grid1.coords t) → ¬cond_2 (grid1.coords t) → cfg1.idle 2 (grid1.coords t) = true := by decide +kernel
theorem noFlush_2 : ∀ t : Fin cfg1.N, ¬cond_2 (grid1.coords t) → (cfg1.win 2).flush t = false := by decide +kernel
/-- The result window's buffer holds nothing the body stored only when the body runs at the first point. -/
theorem fresh_2 : ∀ n, n ≤ cfg1.N → cfg1.fresh 2 n = (decide (n = 0) || decide (n = 64)) :=
  Pipeline.Cfg.fresh_tab cfg1 2 (fun n => decide (n = 0) || decide (n = 64)) rfl
    (by decide +kernel : ∀ t : Fin grid1.N, (decide (t.val + 1 = 0) || decide (t.val + 1 = 64)) = ((cfg1.win 2).flush t || (cfg1.idle 2 (grid1.coords t) && (decide (t.val = 0) || decide (t.val = 64)))))

/-! ## The memrefs the body is called with -/

abbrev ms_0 (t : Fin cfg1.N) : Memref sig .tc .vmem S2048x512 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S2048x512 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x1 .f32 := win1_2.stage (cfg1.slots t 2)
abbrev hs_2 (t : Fin cfg1.N) : (ms_2 t).IsWhole := hstage1_2 ((cfg1.slots t 2).cast nbuf1_2)
/-- The accumulator: a whole scoped buffer of the kernel's own. -/
abbrev scM : Memref sig .tc .vmem S512x512 .f32 := Memref.whole cc1_scratch0
abbrev VS : View sig .tc .vmem S512x512 .f32 := (scM : Memref sig .tc .vmem S512x512 .f32).view
abbrev VO : View sig .tc .vmem S1x1 .f32 := (Memref.whole cc1_stg2_0 : Memref sig .tc .vmem S1x1 .f32).view

/-- The region's standing invariant with the accumulator split out of the scoped buffers no window stages. -/
theorem PhiA_eq (c : Dev nD) :
    (Pipeline.ΦA spec1 c : sProp 𝕄)
      = iprop(iprop((∃ d, owns (c : Thread nD τ) scM fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM, owns_whole, bigSepL]
  try rfl

end Cert.KernelIdeal.Reg1

end
-- ==== Proof.KI1RunA.lean ====
/-
  Region 1, case A (the grid's first point): the body zeroes the result, zeroes the accumulator and adds the first
  product into it. The run finds the pieces each buffer ends with.
-/
import proofs.«157129_j47072841564786_1_alg».proof.Proof.KI1Runs

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case A on whole memrefs: the inputs at their blocks, the result and the accumulator at anything; it ends
    with the inputs as they were and the result and the accumulator with the found pieces written. -/
noncomputable def kernelRun_A (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i)
    (x0 x1 : Vec F S2048x512 .bf16) :
    Σ' (L2 : List (View.Piece (Elt F) S1x1 .f32)), { LS : List (View.Piece (Elt F) S512x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc1__sumsq_kernel i arg3 harg3 arg4 harg4 arg5 harg5 arg6 harg6) K } := by
  refine ⟨?_, ?_, fun E K => ?run⟩
  case run =>
    simp only [cc1__sumsq_kernel_eq_skeleton]; unfold cc1__sumsq_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.KernelIdeal.Reg1

end
-- ==== Proof.KI1RunB.lean ====
/-
  Region 1, case B (reduction coordinate 0, not the first point): the body zeroes the accumulator and adds the
  product into it; the result's buffer is left as found.
-/
import proofs.«157129_j47072841564786_1_alg».proof.Proof.KI1Runs

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case B: the result's buffer handed back untouched, the accumulator with the found pieces written. -/
noncomputable def kernelRun_B (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : cond_1 i) (hc2 : ¬cond_2 i)
    (x0 x1 : Vec F S2048x512 .bf16) :
    { LS : List (View.Piece (Elt F) S512x512 .f32) //
      ∀ (xi2 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__sumsq_kernel i arg3 harg3 arg4 harg4 arg5 harg5 arg6 harg6) K } := by
  refine ⟨?_, fun xi2 E K => ?run⟩
  case run =>
    simp only [cc1__sumsq_kernel_eq_skeleton]; unfold cc1__sumsq_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Reg1

end
-- ==== Proof.KI1RunC.lean ====
/-
  Region 1, case C (reduction coordinate 1 or 2): the body adds the product into the accumulator, which holds what
  the point before left; the result's buffer is left as found.
-/
import proofs.«157129_j47072841564786_1_alg».proof.Proof.KI1Runs

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case C: the accumulator enters at the contents xs and ends with the found pieces written. -/
noncomputable def kernelRun_C (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : ¬cond_2 i)
    (x0 x1 : Vec F S2048x512 .bf16) (xs : Vec F S512x512 .f32) :
    { LS : List (View.Piece (Elt F) S512x512 .f32) //
      ∀ (xi2 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__sumsq_kernel i arg3 harg3 arg4 harg4 arg5 harg5 arg6 harg6) K } := by
  refine ⟨?_, fun xi2 E K => ?run⟩
  case run =>
    simp only [cc1__sumsq_kernel_eq_skeleton]; unfold cc1__sumsq_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Reg1

end
-- ==== Proof.KI1RunD.lean ====
/-
  Region 1, case D (reduction coordinate 3): the body adds the product into the accumulator, then adds the sum of the
  accumulator's squares into the result, which holds what the last storing point left.
-/
import proofs.«157129_j47072841564786_1_alg».proof.Proof.KI1Runs

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case D: the accumulator enters at xs, the result at xo; both end with the found pieces written. -/
noncomputable def kernelRun_D (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i)
    (x0 x1 : Vec F S2048x512 .bf16) (xs : Vec F S512x512 .f32) (xo : Vec F S1x1 .f32) :
    Σ' (L2 : List (View.Piece (Elt F) S1x1 .f32)), { LS : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare xo ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc1__sumsq_kernel i arg3 harg3 arg4 harg4 arg5 harg5 arg6 harg6) K } := by
  refine ⟨?_, ?_, fun E K => ?run⟩
  case run =>
    simp only [cc1__sumsq_kernel_eq_skeleton]; unfold cc1__sumsq_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.KernelIdeal.Reg1

end
-- ==== Proof.KI1.lean ====
/-
  Region 1, last part: what the result's buffer and the accumulator hold after each grid point (one recursion over
  the points, the result carried unchanged through the points that do not store it), the region's proof data, and the
  body obligation at a generic point, by the four cases.
-/
import proofs.«157129_j47072841564786_1_alg».proof.Proof.KI1RunA
import proofs.«157129_j47072841564786_1_alg».proof.Proof.KI1RunB
import proofs.«157129_j47072841564786_1_alg».proof.Proof.KI1RunC
import proofs.«157129_j47072841564786_1_alg».proof.Proof.KI1RunD

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back from the pieces its run found -/

theorem cover_A_2 (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) (y : S1x1.Idx) :
    ∃ pc ∈ (kernelRun_A c i arg3 harg3 arg4 harg4 arg5 harg5 arg6 harg6 hc0 hc1 hc2 x0 x1).1, y ∈ pc.1.set :=
  View.cover_of_tiledL (kernelRun_A c i arg3 harg3 arg4 harg4 arg5 harg5 arg6 harg6 hc0 hc1 hc2 x0 x1).1 S1x1.size (by sl_kernel_rfl) y
def out_A_2 (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) : Vec F S1x1 .f32 :=
  VO.read (Elt F) (VO.writes (Elt F) VO.junk (kernelRun_A c i arg3 harg3 arg4 harg4 arg5 harg5 arg6 harg6 hc0 hc1 hc2 x0 x1).1)
theorem scover_A (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) (y : S512x512.Idx) :
    ∃ pc ∈ (kernelRun_A c i arg3 harg3 arg4 harg4 arg5 harg5 arg6 harg6 hc0 hc1 hc2 x0 x1).2.1, y ∈ pc.1.set :=
  View.cover_of_tiledL (kernelRun_A c i arg3 harg3 arg4 harg4 arg5 harg5 arg6 harg6 hc0 hc1 hc2 x0 x1).2.1 S512x512.size (by sl_kernel_rfl) y
def sout_A (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) : Vec F S512x512 .f32 :=
  VS.read (Elt F) (VS.writes (Elt F) VS.junk (kernelRun_A c i arg3 harg3 arg4 harg4 arg5 harg5 arg6 harg6 hc0 hc1 hc2 x0 x1).2.1)

theorem scover_B (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : cond_1 i) (hc2 : ¬cond_2 i) (x0 x1 : Vec F S2048x512 .bf16) (y : S512x512.Idx) :
    ∃ pc ∈ (kernelRun_B c i arg3 harg3 arg4 harg4 arg5 harg5 arg6 harg6 hc0 hc1 hc2 x0 x1).1, y ∈ pc.1.set :=
  View.cover_of_tiledL (kernelRun_B c i arg3 harg3 arg4 harg4 arg5 harg5 arg6 harg6 hc0 hc1 hc2 x0 x1).1 S512x512.size (by sl_kernel_rfl) y
def sout_B (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : cond_1 i) (hc2 : ¬cond_2 i) (x0 x1 : Vec F S2048x512 .bf16) : Vec F S512x512 .f32 :=
  VS.read (Elt F) (VS.writes (Elt F) VS.junk (kernelRun_B c i arg3 harg3 arg4 harg4 arg5 harg5 arg6 harg6 hc0 hc1 hc2 x0 x1).1)

theorem scover_C (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : ¬cond_2 i) (x0 x1 : Vec F S2048x512 .bf16) (xs : Vec F S512x512 .f32) (y : S512x512.Idx) :
    ∃ pc ∈ (kernelRun_C c i arg3 harg3 arg4 harg4 arg5 harg5 arg6 harg6 hc0 hc1 hc2 x0 x1 xs).1, y ∈ pc.1.set :=
  View.cover_of_tiledL (kernelRun_C c i arg3 harg3 arg4 harg4 arg5 harg5 arg6 harg6 hc0 hc1 hc2 x0 x1 xs).1 S512x512.size (by sl_kernel_rfl) y
def sout_C (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : ¬cond_2 i) (x0 x1 : Vec F S2048x512 .bf16) (xs : Vec F S512x512 .f32) : Vec F S512x512 .f32 :=
  VS.read (Elt F) (VS.writes (Elt F) VS.junk (kernelRun_C c i arg3 harg3 arg4 harg4 arg5 harg5 arg6 harg6 hc0 hc1 hc2 x0 x1 xs).1)

theorem cover_D_2 (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) (y : S1x1.Idx) :
    ∃ pc ∈ (kernelRun_D c i arg3 harg3 arg4 harg4 arg5 harg5 arg6 harg6 hc0 hc1 hc2 x0 x1 xs xo).1, y ∈ pc.1.set :=
  View.cover_of_tiledL (kernelRun_D c i arg3 harg3 arg4 harg4 arg5 harg5 arg6 harg6 hc0 hc1 hc2 x0 x1 xs xo).1 S1x1.size (by sl_kernel_rfl) y
def out_D_2 (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) : Vec F S1x1 .f32 :=
  VO.read (Elt F) (VO.writes (Elt F) VO.junk (kernelRun_D c i arg3 harg3 arg4 harg4 arg5 harg5 arg6 harg6 hc0 hc1 hc2 x0 x1 xs xo).1)
theorem scover_D (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) (y : S512x512.Idx) :
    ∃ pc ∈ (kernelRun_D c i arg3 harg3 arg4 harg4 arg5 harg5 arg6 harg6 hc0 hc1 hc2 x0 x1 xs xo).2.1, y ∈ pc.1.set :=
  View.cover_of_tiledL (kernelRun_D c i arg3 harg3 arg4 harg4 arg5 harg5 arg6 harg6 hc0 hc1 hc2 x0 x1 xs xo).2.1 S512x512.size (by sl_kernel_rfl) y
def sout_D (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) : Vec F S512x512 .f32 :=
  VS.read (Elt F) (VS.writes (Elt F) VS.junk (kernelRun_D c i arg3 harg3 arg4 harg4 arg5 harg5 arg6 harg6 hc0 hc1 hc2 x0 x1 xs xo).2.1)

/-! ## The accumulation over the grid points -/

/-- What the result's buffer (first component) and the accumulator (second) hold after the body at position n. -/
def outsAt (c : Dev nD) : (n : ℕ) → n < cfg1.N → Vec F S1x1 .f32 × Vec F S512x512 .f32
  | 0, hn =>
    (out_A_2 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond_0 ⟨0, hn⟩).mpr rfl) ((hcond_1 ⟨0, hn⟩).mpr (Nat.zero_mod _)) (fun h => (fun h' => by (try dsimp only at h'); omega) ((hcond_2 ⟨0, hn⟩).mp h)) (iblk V c 0 ⟨0, hn⟩) (iblk V c 1 ⟨0, hn⟩),
     sout_A c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond_0 ⟨0, hn⟩).mpr rfl) ((hcond_1 ⟨0, hn⟩).mpr (Nat.zero_mod _)) (fun h => (fun h' => by (try dsimp only at h'); omega) ((hcond_2 ⟨0, hn⟩).mp h)) (iblk V c 0 ⟨0, hn⟩) (iblk V c 1 ⟨0, hn⟩))
  | n + 1, hn =>
    if h1 : (n + 1) % 4 = 0 then
      ((outsAt c n (Nat.lt_of_succ_lt hn)).1,
       sout_B c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => Nat.succ_ne_zero n ((hcond_0 ⟨n + 1, hn⟩).mp h)) ((hcond_1 ⟨n + 1, hn⟩).mpr h1) (fun h => (fun h' => by (try dsimp only at h'); omega) ((hcond_2 ⟨n + 1, hn⟩).mp h)) (iblk V c 0 ⟨n + 1, hn⟩) (iblk V c 1 ⟨n + 1, hn⟩))
    else if h2 : (n + 1) % 4 = 3 then
      (out_D_2 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => Nat.succ_ne_zero n ((hcond_0 ⟨n + 1, hn⟩).mp h)) (fun h => h1 ((hcond_1 ⟨n + 1, hn⟩).mp h)) ((hcond_2 ⟨n + 1, hn⟩).mpr h2) (iblk V c 0 ⟨n + 1, hn⟩) (iblk V c 1 ⟨n + 1, hn⟩) (outsAt c n (Nat.lt_of_succ_lt hn)).2 (outsAt c n (Nat.lt_of_succ_lt hn)).1,
       sout_D c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => Nat.succ_ne_zero n ((hcond_0 ⟨n + 1, hn⟩).mp h)) (fun h => h1 ((hcond_1 ⟨n + 1, hn⟩).mp h)) ((hcond_2 ⟨n + 1, hn⟩).mpr h2) (iblk V c 0 ⟨n + 1, hn⟩) (iblk V c 1 ⟨n + 1, hn⟩) (outsAt c n (Nat.lt_of_succ_lt hn)).2 (outsAt c n (Nat.lt_of_succ_lt hn)).1)
    else
      ((outsAt c n (Nat.lt_of_succ_lt hn)).1,
       sout_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => Nat.succ_ne_zero n ((hcond_0 ⟨n + 1, hn⟩).mp h)) (fun h => h1 ((hcond_1 ⟨n + 1, hn⟩).mp h)) (fun h => h2 ((hcond_2 ⟨n + 1, hn⟩).mp h)) (iblk V c 0 ⟨n + 1, hn⟩) (iblk V c 1 ⟨n + 1, hn⟩) (outsAt c n (Nat.lt_of_succ_lt hn)).2)

/-- The previous position, for a point that is not the first. -/
abbrev prevLt (t : Fin cfg1.N) : t.val - 1 < cfg1.N := Nat.lt_of_le_of_lt (Nat.sub_le _ _) t.isLt

theorem outsAt_A (c : Dev nD) (t : Fin cfg1.N) (h0 : t.val = 0) (hc0 : cond_0 (grid1.coords t)) (hc1 : cond_1 (grid1.coords t)) (hc2 : ¬cond_2 (grid1.coords t)) :
    outsAt V c t.val t.isLt = (out_A_2 c (grid1.coords t) (ms_0 t) (hs_0 t) (ms_1 t) (hs_1 t) (ms_2 t) (hs_2 t) scM (Memref.isWhole_whole _) hc0 hc1 hc2 (iblk V c 0 t) (iblk V c 1 t), sout_A c (grid1.coords t) (ms_0 t) (hs_0 t) (ms_1 t) (hs_1 t) (ms_2 t) (hs_2 t) scM (Memref.isWhole_whole _) hc0 hc1 hc2 (iblk V c 0 t) (iblk V c 1 t)) := by
  obtain ⟨n, hn⟩ := t
  cases n with
  | zero => exact rfl
  | succ n => exact absurd h0 (Nat.succ_ne_zero n)

theorem outsAt_B (c : Dev nD) (t : Fin cfg1.N) (h0 : t.val ≠ 0) (h1 : t.val % 4 = 0) (hc0 : ¬cond_0 (grid1.coords t)) (hc1 : cond_1 (grid1.coords t)) (hc2 : ¬cond_2 (grid1.coords t)) :
    outsAt V c t.val t.isLt = ((outsAt V c (t.val - 1) (prevLt t)).1, sout_B c (grid1.coords t) (ms_0 t) (hs_0 t) (ms_1 t) (hs_1 t) (ms_2 t) (hs_2 t) scM (Memref.isWhole_whole _) hc0 hc1 hc2 (iblk V c 0 t) (iblk V c 1 t)) := by
  obtain ⟨n, hn⟩ := t
  cases n with
  | zero => exact absurd rfl h0
  | succ n => exact (dif_pos h1).trans rfl

theorem outsAt_C (c : Dev nD) (t : Fin cfg1.N) (h0 : t.val ≠ 0) (h1 : ¬t.val % 4 = 0) (h2 : ¬t.val % 4 = 3) (hc0 : ¬cond_0 (grid1.coords t)) (hc1 : ¬cond_1 (grid1.coords t)) (hc2 : ¬cond_2 (grid1.coords t)) :
    outsAt V c t.val t.isLt = ((outsAt V c (t.val - 1) (prevLt t)).1, sout_C c (grid1.coords t) (ms_0 t) (hs_0 t) (ms_1 t) (hs_1 t) (ms_2 t) (hs_2 t) scM (Memref.isWhole_whole _) hc0 hc1 hc2 (iblk V c 0 t) (iblk V c 1 t) (outsAt V c (t.val - 1) (prevLt t)).2) := by
  obtain ⟨n, hn⟩ := t
  cases n with
  | zero => exact absurd rfl h0
  | succ n => exact (dif_neg h1).trans ((dif_neg h2).trans rfl)

theorem outsAt_D (c : Dev nD) (t : Fin cfg1.N) (h0 : t.val ≠ 0) (h1 : ¬t.val % 4 = 0) (h2 : t.val % 4 = 3) (hc0 : ¬cond_0 (grid1.coords t)) (hc1 : ¬cond_1 (grid1.coords t)) (hc2 : cond_2 (grid1.coords t)) :
    outsAt V c t.val t.isLt = (out_D_2 c (grid1.coords t) (ms_0 t) (hs_0 t) (ms_1 t) (hs_1 t) (ms_2 t) (hs_2 t) scM (Memref.isWhole_whole _) hc0 hc1 hc2 (iblk V c 0 t) (iblk V c 1 t) (outsAt V c (t.val - 1) (prevLt t)).2 (outsAt V c (t.val - 1) (prevLt t)).1, sout_D c (grid1.coords t) (ms_0 t) (hs_0 t) (ms_1 t) (hs_1 t) (ms_2 t) (hs_2 t) scM (Memref.isWhole_whole _) hc0 hc1 hc2 (iblk V c 0 t) (iblk V c 1 t) (outsAt V c (t.val - 1) (prevLt t)).2 (outsAt V c (t.val - 1) (prevLt t)).1) := by
  obtain ⟨n, hn⟩ := t
  cases n with
  | zero => exact absurd rfl h0
  | succ n => exact (dif_neg h1).trans ((dif_pos h2).trans rfl)

/-- At a point that does not store the result, its buffer's contents are carried. -/
theorem outsAt_carry (c : Dev nD) (t : Fin cfg1.N) (h0 : t.val ≠ 0) (h2 : ¬t.val % 4 = 3) :
    (outsAt V c t.val t.isLt).1 = (outsAt V c (t.val - 1) (prevLt t)).1 := by
  have hc0 : ¬cond_0 (grid1.coords t) := fun h => h0 ((hcond_0 t).mp h)
  have hc2 : ¬cond_2 (grid1.coords t) := fun h => h2 ((hcond_2 t).mp h)
  by_cases h1 : t.val % 4 = 0
  · rw [outsAt_B V c t h0 h1 hc0 ((hcond_1 t).mpr h1) hc2]
  · rw [outsAt_C V c t h0 h1 h2 hc0 (fun h => h1 ((hcond_1 t).mp h)) hc2]

/-! ## The region invariant: the accumulator at what the point before left -/

def PhiS (c : Dev nD) : (n : ℕ) → n ≤ cfg1.N → sProp 𝕄
  | 0, _ => Pipeline.ΦA spec1 c
  | n + 1, hn => iprop(iprop(owns (c : Thread nD τ) scM fullShare ((outsAt V c n hn).2) ∗ Pipeline.scopedRestBut (Ix := Unit) (Name := ℕ) (U := UR sig nD τ) (Lvl := ℕ) (Val := Elt F) spec1 c [cc1_scratch0]) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) scM fullShare ((outsAt V c n hn).2) ∗ Pipeline.scopedRestBut (Ix := Unit) (Name := ℕ) (U := UR sig nD τ) (Lvl := ℕ) (Val := Elt F) spec1 c [cc1_scratch0]) ∗ (∃ r, prngReg c r)) := rfl
theorem PhiS_pos (c : Dev nD) (n : ℕ) (h : n ≤ cfg1.N) (hz : n ≠ 0) :
    PhiS V c n h = iprop(iprop(owns (c : Thread nD τ) scM fullShare ((outsAt V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = (outsAt V c t.val t.isLt).1 := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-- After the first point the result's buffer holds, when the body runs, what the recursion says of the point before:
    it is never written back before the last point, and the recursion carries it through the points that do not store. -/
theorem before_2 (c : Dev nD) (t : Fin cfg1.N) (hz : t.val ≠ 0) (d) :
    (dat V c).before 2 t d = (outsAt V c (t.val - 1) (prevLt t)).1 := by
  have hN : t.val < 64 := lt_of_lt_of_eq t.isLt (show cfg1.N = 64 from N_1)
  rw [(dat V c).before_out_traj 2 rfl (fun _ _ => rfl) (fun s hs hi hfr => by
      rw [after_2, after_2]
      have hc0 : ¬cond_0 (grid1.coords s) := fun h => by rw [liveAt_2_A s h] at hi; exact Bool.false_ne_true hi
      have hc2 : ¬cond_2 (grid1.coords s) := fun h => by rw [liveAt_2_D s h] at hi; exact Bool.false_ne_true hi
      exact outsAt_carry V c s hs (fun h => hc2 ((hcond_2 s).mpr h))) t.val t rfl d,
    fresh_2 t.val (Nat.le_of_lt t.isLt)]
  rw [show (decide (t.val = 0) || decide (t.val = 64)) = false from by
    rw [Bool.or_eq_false_iff]; exact ⟨decide_eq_false hz, decide_eq_false (by omega)⟩]
  rw [if_neg Bool.false_ne_true, after_2]

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

theorem leaves_0 (c : Dev nD) (t : Fin cfg1.N) : (dat V c).leavesExact 0 t = owns (c : Thread nD τ) (ms_0 t) fullShare (iblk V c 0 t) := by
  unfold Dat.leavesExact; rw [liveAt_0 t, after_0]
theorem leaves_1 (c : Dev nD) (t : Fin cfg1.N) : (dat V c).leavesExact 1 t = owns (c : Thread nD τ) (ms_1 t) fullShare (iblk V c 1 t) := by
  unfold Dat.leavesExact; rw [liveAt_1 t, after_1]

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ, leaves_0, leaves_1]
  have hN : t.val < 64 := lt_of_lt_of_eq t.isLt (show cfg1.N = 64 from N_1)
  by_cases hz : t.val = 0
  · -- case A: the first point
    have hc0 : cond_0 (grid1.coords t) := (hcond_0 t).mpr hz
    have hc1 : cond_1 (grid1.coords t) := (hcond_1 t).mpr (by omega)
    have hc2 : ¬cond_2 (grid1.coords t) := fun h => by have := (hcond_2 t).mp h; omega
    rw [show (dat V c).leavesExact 2 t = owns (c : Thread nD τ) (ms_2 t) fullShare ((dat V c).after 2 t) from by
      unfold Dat.leavesExact; rw [liveAt_2_A t hc0], after_2]
    rw [outsAt_A V c t hz hc0 hc1 hc2]
    unfold out_A_2 sout_A; (try dsimp only)
    rw [PhiS_castSucc V c t, PhiS_zero V c _ _ hz, PhiA_eq]
    iintro ⟨⟨⟨HS, HR⟩, Hg⟩, Ho, ⟨%d0, H0⟩, ⟨%d1, H1⟩, ⟨%d2, H2⟩⟩
    iapply ((kernelRun_A c (grid1.coords t) _ _ _ _ _ _ _ _ hc0 hc1 hc2 (iblk V c 0 t) (iblk V c 1 t)).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact View.read_writes_of_cover _ _ _ _ _ (scover_A c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover_A_2 c _ _ _ _ _ _ _ _ _ _ _ _ _ _)
  · have hc0 : ¬cond_0 (grid1.coords t) := fun h => hz ((hcond_0 t).mp h)
    rw [PhiS_castSucc V c t, PhiS_pos V c _ _ hz]
    by_cases h1 : t.val % 4 = 0
    · -- case B: the reduction starts again
      have hc1 : cond_1 (grid1.coords t) := (hcond_1 t).mpr h1
      have hc2 : ¬cond_2 (grid1.coords t) := fun h => by have := (hcond_2 t).mp h; omega
      rw [Dat.leavesExact_idle (dat V c) 2 t (idleAt_2 t hc0 hc2) (noFlush_2 t hc2)]
      rw [outsAt_B V c t hz h1 hc0 hc1 hc2]
      unfold sout_B; (try dsimp only)
      iintro ⟨⟨⟨HS, HR⟩, Hg⟩, Ho, ⟨%d0, H0⟩, ⟨%d1, H1⟩, ⟨%d2, H2⟩⟩
      iapply ((kernelRun_B c (grid1.coords t) _ _ _ _ _ _ _ _ hc0 hc1 hc2 (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover_B c _ _ _ _ _ _ _ _ _ _ _ _ _ _)
          iexact HR
        iexact Hg
      isplitl [Ho]; · iexact Ho
      isplitl [H0]; · iexact H0
      isplitl [H1]; · iexact H1
      iexists _; iexact H2
    · have hc1 : ¬cond_1 (grid1.coords t) := fun h => h1 ((hcond_1 t).mp h)
      by_cases h2 : t.val % 4 = 3
      · -- case D: the reduction ends
        have hc2 : cond_2 (grid1.coords t) := (hcond_2 t).mpr h2
        rw [show (dat V c).leavesExact 2 t = owns (c : Thread nD τ) (ms_2 t) fullShare ((dat V c).after 2 t) from by
          unfold Dat.leavesExact; rw [liveAt_2_D t hc2], after_2]
        simp only [before_2 V c t hz]
        rw [outsAt_D V c t hz h1 h2 hc0 hc1 hc2]
        unfold out_D_2 sout_D; (try dsimp only)
        iintro ⟨⟨⟨HS, HR⟩, Hg⟩, Ho, ⟨%d0, H0⟩, ⟨%d1, H1⟩, ⟨%d2, H2⟩⟩
        iapply ((kernelRun_D c (grid1.coords t) _ _ _ _ _ _ _ _ hc0 hc1 hc2 (iblk V c 0 t) (iblk V c 1 t) _ _).2.2 Set.univ _)
        isplitl [H0]; · iexact H0
        isplitl [H1]; · iexact H1
        isplitl [H2]; · iexact H2
        isplitl [HS]; · iexact HS
        iintro ⟨H0, H1, ⟨%e2, H2⟩, ⟨%es, HS⟩⟩
        isplitl [HS HR Hg]
        · isplitl [HS HR]
          · isplitl [HS]
            · unfold owns; iexists _; isplitr
              swap; · iexact HS
              ipureintro; exact View.read_writes_of_cover _ _ _ _ _ (scover_D c _ _ _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover_D_2 c _ _ _ _ _ _ _ _ _ _ _ _ _ _ _ _)
      · -- case C: the reduction goes on
        have hc2 : ¬cond_2 (grid1.coords t) := fun h => h2 ((hcond_2 t).mp h)
        rw [Dat.leavesExact_idle (dat V c) 2 t (idleAt_2 t hc0 hc2) (noFlush_2 t hc2)]
        rw [outsAt_C V c t hz h1 h2 hc0 hc1 hc2]
        unfold sout_C; (try dsimp only)
        iintro ⟨⟨⟨HS, HR⟩, Hg⟩, Ho, ⟨%d0, H0⟩, ⟨%d1, H1⟩, ⟨%d2, H2⟩⟩
        iapply ((kernelRun_C c (grid1.coords t) _ _ _ _ _ _ _ _ hc0 hc1 hc2 (iblk V c 0 t) (iblk V c 1 t) _).2 _ Set.univ _)
        isplitl [H0]; · iexact H0
        isplitl [H1]; · iexact H1
        isplitl [H2]; · iexact H2
        isplitl [HS]; · iexact HS
        iintro ⟨H0, H1, H2, ⟨%es, HS⟩⟩
        isplitl [HS HR Hg]
        · isplitl [HS HR]
          · isplitl [HS]
            · unfold owns; iexists _; isplitr
              swap; · iexact HS
              ipureintro; exact View.read_writes_of_cover _ _ _ _ _ (scover_C c _ _ _ _ _ _ _ _ _ _ _ _ _ _ _)
            iexact HR
          iexact Hg
        isplitl [Ho]; · iexact Ho
        isplitl [H0]; · iexact H0
        isplitl [H1]; · iexact H1
        iexists _; iexact H2

theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

theorem hout (c : Dev nD) : (dat V c).Φ (Fin.last cfg1.N) ⊢ Pipeline.ΦA spec1 c :=
  Phi_out V c _ (by rw [Fin.val_last]; have : cfg1.N = 64 := N_1; omega)

end Cert.KernelIdeal.Reg1

end
-- ==== Proof.KI2Runs.lean ====
/-
  Region 2 of the program (one launch of the sum-of-squares kernel over a grid of 16 points), first part: what the
  four control cases of the body share. A grid point is (i, j, k) in row-major order, k the reduction axis of extent 4.
  The body has three conditional blocks: at the very first point it zeroes the 1×1 result; at k = 0 it zeroes the
  512×512 accumulator; at every point it adds the product of the two 2048×512 input blocks (contracted over their
  2048 rows) into the accumulator; at k = 3 it adds the sum of the accumulator's squares into the result. Hence four
  cases: A (first point), B (k = 0 elsewhere), C (k = 1, 2), D (k = 3). The result window is idle (not stored into,
  not written back) in cases B and C.
-/
import proofs.«157129_j47072841564786_1_alg».proof.Proof.Gen.KernelIdeal.Launch
import proofs.«157129_j47072841564786_1_alg».proof.Proof.Gen.KernelIdeal.Skeleton
import proofs.«157129_j47072841564786_1_alg».proof.Proof.Gen.KernelIdeal.Points
import Idealize.ShloMosaic.Lib.Pipeline.FrameBody
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions, in closed form over the grid -/

/-- The first point of the grid. -/
abbrev cond_0 (i : grid2.Coords) : Prop := k2_cond1 i = 1#1
theorem hcond_0 : ∀ t : Fin cfg2.N, cond_0 (grid2.coords t) ↔ t.val = 0 :=
  (by decide +kernel : ∀ t : Fin grid2.N, cond_0 (grid2.coords t) ↔ t.val = 0)
/-- The reduction coordinate is 0. -/
abbrev cond_1 (i : grid2.Coords) : Prop := (Scalar.cmpi .ne (Scalar.extui (Scalar.cmpi .eq (BitVec.ofNat 32 (i 2).val) 0#32)) 0#32) = 1#1
theorem hcond_1 : ∀ t : Fin cfg2.N, cond_1 (grid2.coords t) ↔ t.val % 4 = 0 :=
  (by decide +kernel : ∀ t : Fin grid2.N, cond_1 (grid2.coords t) ↔ t.val % 4 = 0)
/-- The reduction coordinate is 3, the last. -/
abbrev cond_2 (i : grid2.Coords) : Prop := k2_cond3 i = 1#1
theorem hcond_2 : ∀ t : Fin cfg2.N, cond_2 (grid2.coords t) ↔ t.val % 4 = 3 :=
  (by decide +kernel : ∀ t : Fin grid2.N, cond_2 (grid2.coords t) ↔ t.val % 4 = 3)

/-! ## Where the windows are idle -/

theorem liveAt_0 : ∀ t : Fin cfg2.N, cfg2.idle 0 (grid2.coords t) = false := by decide +kernel
theorem liveAt_1 : ∀ t : Fin cfg2.N, cfg2.idle 1 (grid2.coords t) = false := by decide +kernel
theorem liveAt_2_A : ∀ t : Fin cfg2.N, cond_0 (grid2.coords t) → cfg2.idle 2 (grid2.coords t) = false := by decide +kernel
theorem liveAt_2_D : ∀ t : Fin cfg2.N, cond_2 (grid2.coords t) → cfg2.idle 2 (grid2.coords t) = false := by decide +kernel
theorem idleAt_2 : ∀ t : Fin cfg2.N, ¬cond_0 (grid2.coords t) → ¬cond_2 (grid2.coords t) → cfg2.idle 2 (grid2.coords t) = true := by decide +kernel
theorem noFlush_2 : ∀ t : Fin cfg2.N, ¬cond_2 (grid2.coords t) → (cfg2.win 2).flush t = false := by decide +kernel
/-- The result window's buffer holds nothing the body stored only when the body runs at the first point. -/
theorem fresh_2 : ∀ n, n ≤ cfg2.N → cfg2.fresh 2 n = (decide (n = 0) || decide (n = 16)) :=
  Pipeline.Cfg.fresh_tab cfg2 2 (fun n => decide (n = 0) || decide (n = 16)) rfl
    (by decide +kernel : ∀ t : Fin grid2.N, (decide (t.val + 1 = 0) || decide (t.val + 1 = 16)) = ((cfg2.win 2).flush t || (cfg2.idle 2 (grid2.coords t) && (decide (t.val = 0) || decide (t.val = 16)))))

/-! ## The memrefs the body is called with -/

abbrev ms_0 (t : Fin cfg2.N) : Memref sig .tc .vmem S2048x512 .bf16 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S2048x512 .bf16 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S1x1 .f32 := win2_2.stage (cfg2.slots t 2)
abbrev hs_2 (t : Fin cfg2.N) : (ms_2 t).IsWhole := hstage2_2 ((cfg2.slots t 2).cast nbuf2_2)
/-- The accumulator: a whole scoped buffer of the kernel's own. -/
abbrev scM : Memref sig .tc .vmem S512x512 .f32 := Memref.whole cc2_scratch0
abbrev VS : View sig .tc .vmem S512x512 .f32 := (scM : Memref sig .tc .vmem S512x512 .f32).view
abbrev VO : View sig .tc .vmem S1x1 .f32 := (Memref.whole cc2_stg2_0 : Memref sig .tc .vmem S1x1 .f32).view

/-- The region's standing invariant with the accumulator split out of the scoped buffers no window stages. -/
theorem PhiA_eq (c : Dev nD) :
    (Pipeline.ΦA spec2 c : sProp 𝕄)
      = iprop(iprop((∃ d, owns (c : Thread nD τ) scM fullShare d) ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [scM, owns_whole, bigSepL]
  try rfl

end Cert.KernelIdeal.Reg2

end
-- ==== Proof.KI2RunA.lean ====
/-
  Region 2, case A (the grid's first point): the body zeroes the result, zeroes the accumulator and adds the first
  product into it. The run finds the pieces each buffer ends with.
-/
import proofs.«157129_j47072841564786_1_alg».proof.Proof.KI2Runs

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case A on whole memrefs: the inputs at their blocks, the result and the accumulator at anything; it ends
    with the inputs as they were and the result and the accumulator with the found pieces written. -/
noncomputable def kernelRun_A (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i)
    (x0 x1 : Vec F S2048x512 .bf16) :
    Σ' (L2 : List (View.Piece (Elt F) S1x1 .f32)), { LS : List (View.Piece (Elt F) S512x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc2__sumsq_kernel i arg3 harg3 arg4 harg4 arg5 harg5 arg6 harg6) K } := by
  refine ⟨?_, ?_, fun E K => ?run⟩
  case run =>
    simp only [cc2__sumsq_kernel_eq_skeleton]; unfold cc2__sumsq_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.KernelIdeal.Reg2

end
-- ==== Proof.KI2RunB.lean ====
/-
  Region 2, case B (reduction coordinate 0, not the first point): the body zeroes the accumulator and adds the
  product into it; the result's buffer is left as found.
-/
import proofs.«157129_j47072841564786_1_alg».proof.Proof.KI2Runs

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case B: the result's buffer handed back untouched, the accumulator with the found pieces written. -/
noncomputable def kernelRun_B (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : cond_1 i) (hc2 : ¬cond_2 i)
    (x0 x1 : Vec F S2048x512 .bf16) :
    { LS : List (View.Piece (Elt F) S512x512 .f32) //
      ∀ (xi2 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc2__sumsq_kernel i arg3 harg3 arg4 harg4 arg5 harg5 arg6 harg6) K } := by
  refine ⟨?_, fun xi2 E K => ?run⟩
  case run =>
    simp only [cc2__sumsq_kernel_eq_skeleton]; unfold cc2__sumsq_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Reg2

end
-- ==== Proof.KI2RunC.lean ====
/-
  Region 2, case C (reduction coordinate 1 or 2): the body adds the product into the accumulator, which holds what
  the point before left; the result's buffer is left as found.
-/
import proofs.«157129_j47072841564786_1_alg».proof.Proof.KI2Runs

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case C: the accumulator enters at the contents xs and ends with the found pieces written. -/
noncomputable def kernelRun_C (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : ¬cond_2 i)
    (x0 x1 : Vec F S2048x512 .bf16) (xs : Vec F S512x512 .f32) :
    { LS : List (View.Piece (Elt F) S512x512 .f32) //
      ∀ (xi2 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc2__sumsq_kernel i arg3 harg3 arg4 harg4 arg5 harg5 arg6 harg6) K } := by
  refine ⟨?_, fun xi2 E K => ?run⟩
  case run =>
    simp only [cc2__sumsq_kernel_eq_skeleton]; unfold cc2__sumsq_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Reg2

end
-- ==== Proof.KI2RunD.lean ====
/-
  Region 2, case D (reduction coordinate 3): the body adds the product into the accumulator, then adds the sum of the
  accumulator's squares into the result, which holds what the last storing point left.
-/
import proofs.«157129_j47072841564786_1_alg».proof.Proof.KI2Runs

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case D: the accumulator enters at xs, the result at xo; both end with the found pieces written. -/
noncomputable def kernelRun_D (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i)
    (x0 x1 : Vec F S2048x512 .bf16) (xs : Vec F S512x512 .f32) (xo : Vec F S1x1 .f32) :
    Σ' (L2 : List (View.Piece (Elt F) S1x1 .f32)), { LS : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare xo ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc2__sumsq_kernel i arg3 harg3 arg4 harg4 arg5 harg5 arg6 harg6) K } := by
  refine ⟨?_, ?_, fun E K => ?run⟩
  case run =>
    simp only [cc2__sumsq_kernel_eq_skeleton]; unfold cc2__sumsq_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.KernelIdeal.Reg2

end
-- ==== Proof.KI2.lean ====
/-
  Region 2, last part: what the result's buffer and the accumulator hold after each grid point (one recursion over
  the points, the result carried unchanged through the points that do not store it), the region's proof data, and the
  body obligation at a generic point, by the four cases.
-/
import proofs.«157129_j47072841564786_1_alg».proof.Proof.KI2RunA
import proofs.«157129_j47072841564786_1_alg».proof.Proof.KI2RunB
import proofs.«157129_j47072841564786_1_alg».proof.Proof.KI2RunC
import proofs.«157129_j47072841564786_1_alg».proof.Proof.KI2RunD

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back from the pieces its run found -/

theorem cover_A_2 (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) (y : S1x1.Idx) :
    ∃ pc ∈ (kernelRun_A c i arg3 harg3 arg4 harg4 arg5 harg5 arg6 harg6 hc0 hc1 hc2 x0 x1).1, y ∈ pc.1.set :=
  View.cover_of_tiledL (kernelRun_A c i arg3 harg3 arg4 harg4 arg5 harg5 arg6 harg6 hc0 hc1 hc2 x0 x1).1 S1x1.size (by sl_kernel_rfl) y
def out_A_2 (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) : Vec F S1x1 .f32 :=
  VO.read (Elt F) (VO.writes (Elt F) VO.junk (kernelRun_A c i arg3 harg3 arg4 harg4 arg5 harg5 arg6 harg6 hc0 hc1 hc2 x0 x1).1)
theorem scover_A (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) (y : S512x512.Idx) :
    ∃ pc ∈ (kernelRun_A c i arg3 harg3 arg4 harg4 arg5 harg5 arg6 harg6 hc0 hc1 hc2 x0 x1).2.1, y ∈ pc.1.set :=
  View.cover_of_tiledL (kernelRun_A c i arg3 harg3 arg4 harg4 arg5 harg5 arg6 harg6 hc0 hc1 hc2 x0 x1).2.1 S512x512.size (by sl_kernel_rfl) y
def sout_A (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) : Vec F S512x512 .f32 :=
  VS.read (Elt F) (VS.writes (Elt F) VS.junk (kernelRun_A c i arg3 harg3 arg4 harg4 arg5 harg5 arg6 harg6 hc0 hc1 hc2 x0 x1).2.1)

theorem scover_B (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : cond_1 i) (hc2 : ¬cond_2 i) (x0 x1 : Vec F S2048x512 .bf16) (y : S512x512.Idx) :
    ∃ pc ∈ (kernelRun_B c i arg3 harg3 arg4 harg4 arg5 harg5 arg6 harg6 hc0 hc1 hc2 x0 x1).1, y ∈ pc.1.set :=
  View.cover_of_tiledL (kernelRun_B c i arg3 harg3 arg4 harg4 arg5 harg5 arg6 harg6 hc0 hc1 hc2 x0 x1).1 S512x512.size (by sl_kernel_rfl) y
def sout_B (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : cond_1 i) (hc2 : ¬cond_2 i) (x0 x1 : Vec F S2048x512 .bf16) : Vec F S512x512 .f32 :=
  VS.read (Elt F) (VS.writes (Elt F) VS.junk (kernelRun_B c i arg3 harg3 arg4 harg4 arg5 harg5 arg6 harg6 hc0 hc1 hc2 x0 x1).1)

theorem scover_C (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : ¬cond_2 i) (x0 x1 : Vec F S2048x512 .bf16) (xs : Vec F S512x512 .f32) (y : S512x512.Idx) :
    ∃ pc ∈ (kernelRun_C c i arg3 harg3 arg4 harg4 arg5 harg5 arg6 harg6 hc0 hc1 hc2 x0 x1 xs).1, y ∈ pc.1.set :=
  View.cover_of_tiledL (kernelRun_C c i arg3 harg3 arg4 harg4 arg5 harg5 arg6 harg6 hc0 hc1 hc2 x0 x1 xs).1 S512x512.size (by sl_kernel_rfl) y
def sout_C (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : ¬cond_2 i) (x0 x1 : Vec F S2048x512 .bf16) (xs : Vec F S512x512 .f32) : Vec F S512x512 .f32 :=
  VS.read (Elt F) (VS.writes (Elt F) VS.junk (kernelRun_C c i arg3 harg3 arg4 harg4 arg5 harg5 arg6 harg6 hc0 hc1 hc2 x0 x1 xs).1)

theorem cover_D_2 (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) (y : S1x1.Idx) :
    ∃ pc ∈ (kernelRun_D c i arg3 harg3 arg4 harg4 arg5 harg5 arg6 harg6 hc0 hc1 hc2 x0 x1 xs xo).1, y ∈ pc.1.set :=
  View.cover_of_tiledL (kernelRun_D c i arg3 harg3 arg4 harg4 arg5 harg5 arg6 harg6 hc0 hc1 hc2 x0 x1 xs xo).1 S1x1.size (by sl_kernel_rfl) y
def out_D_2 (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) : Vec F S1x1 .f32 :=
  VO.read (Elt F) (VO.writes (Elt F) VO.junk (kernelRun_D c i arg3 harg3 arg4 harg4 arg5 harg5 arg6 harg6 hc0 hc1 hc2 x0 x1 xs xo).1)
theorem scover_D (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) (y : S512x512.Idx) :
    ∃ pc ∈ (kernelRun_D c i arg3 harg3 arg4 harg4 arg5 harg5 arg6 harg6 hc0 hc1 hc2 x0 x1 xs xo).2.1, y ∈ pc.1.set :=
  View.cover_of_tiledL (kernelRun_D c i arg3 harg3 arg4 harg4 arg5 harg5 arg6 harg6 hc0 hc1 hc2 x0 x1 xs xo).2.1 S512x512.size (by sl_kernel_rfl) y
def sout_D (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) : Vec F S512x512 .f32 :=
  VS.read (Elt F) (VS.writes (Elt F) VS.junk (kernelRun_D c i arg3 harg3 arg4 harg4 arg5 harg5 arg6 harg6 hc0 hc1 hc2 x0 x1 xs xo).2.1)

/-! ## The accumulation over the grid points -/

/-- What the result's buffer (first component) and the accumulator (second) hold after the body at position n. -/
def outsAt (c : Dev nD) : (n : ℕ) → n < cfg2.N → Vec F S1x1 .f32 × Vec F S512x512 .f32
  | 0, hn =>
    (out_A_2 c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond_0 ⟨0, hn⟩).mpr rfl) ((hcond_1 ⟨0, hn⟩).mpr (Nat.zero_mod _)) (fun h => (fun h' => by (try dsimp only at h'); omega) ((hcond_2 ⟨0, hn⟩).mp h)) (iblk V c 0 ⟨0, hn⟩) (iblk V c 1 ⟨0, hn⟩),
     sout_A c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond_0 ⟨0, hn⟩).mpr rfl) ((hcond_1 ⟨0, hn⟩).mpr (Nat.zero_mod _)) (fun h => (fun h' => by (try dsimp only at h'); omega) ((hcond_2 ⟨0, hn⟩).mp h)) (iblk V c 0 ⟨0, hn⟩) (iblk V c 1 ⟨0, hn⟩))
  | n + 1, hn =>
    if h1 : (n + 1) % 4 = 0 then
      ((outsAt c n (Nat.lt_of_succ_lt hn)).1,
       sout_B c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => Nat.succ_ne_zero n ((hcond_0 ⟨n + 1, hn⟩).mp h)) ((hcond_1 ⟨n + 1, hn⟩).mpr h1) (fun h => (fun h' => by (try dsimp only at h'); omega) ((hcond_2 ⟨n + 1, hn⟩).mp h)) (iblk V c 0 ⟨n + 1, hn⟩) (iblk V c 1 ⟨n + 1, hn⟩))
    else if h2 : (n + 1) % 4 = 3 then
      (out_D_2 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => Nat.succ_ne_zero n ((hcond_0 ⟨n + 1, hn⟩).mp h)) (fun h => h1 ((hcond_1 ⟨n + 1, hn⟩).mp h)) ((hcond_2 ⟨n + 1, hn⟩).mpr h2) (iblk V c 0 ⟨n + 1, hn⟩) (iblk V c 1 ⟨n + 1, hn⟩) (outsAt c n (Nat.lt_of_succ_lt hn)).2 (outsAt c n (Nat.lt_of_succ_lt hn)).1,
       sout_D c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => Nat.succ_ne_zero n ((hcond_0 ⟨n + 1, hn⟩).mp h)) (fun h => h1 ((hcond_1 ⟨n + 1, hn⟩).mp h)) ((hcond_2 ⟨n + 1, hn⟩).mpr h2) (iblk V c 0 ⟨n + 1, hn⟩) (iblk V c 1 ⟨n + 1, hn⟩) (outsAt c n (Nat.lt_of_succ_lt hn)).2 (outsAt c n (Nat.lt_of_succ_lt hn)).1)
    else
      ((outsAt c n (Nat.lt_of_succ_lt hn)).1,
       sout_C c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => Nat.succ_ne_zero n ((hcond_0 ⟨n + 1, hn⟩).mp h)) (fun h => h1 ((hcond_1 ⟨n + 1, hn⟩).mp h)) (fun h => h2 ((hcond_2 ⟨n + 1, hn⟩).mp h)) (iblk V c 0 ⟨n + 1, hn⟩) (iblk V c 1 ⟨n + 1, hn⟩) (outsAt c n (Nat.lt_of_succ_lt hn)).2)

/-- The previous position, for a point that is not the first. -/
abbrev prevLt (t : Fin cfg2.N) : t.val - 1 < cfg2.N := Nat.lt_of_le_of_lt (Nat.sub_le _ _) t.isLt

theorem outsAt_A (c : Dev nD) (t : Fin cfg2.N) (h0 : t.val = 0) (hc0 : cond_0 (grid2.coords t)) (hc1 : cond_1 (grid2.coords t)) (hc2 : ¬cond_2 (grid2.coords t)) :
    outsAt V c t.val t.isLt = (out_A_2 c (grid2.coords t) (ms_0 t) (hs_0 t) (ms_1 t) (hs_1 t) (ms_2 t) (hs_2 t) scM (Memref.isWhole_whole _) hc0 hc1 hc2 (iblk V c 0 t) (iblk V c 1 t), sout_A c (grid2.coords t) (ms_0 t) (hs_0 t) (ms_1 t) (hs_1 t) (ms_2 t) (hs_2 t) scM (Memref.isWhole_whole _) hc0 hc1 hc2 (iblk V c 0 t) (iblk V c 1 t)) := by
  obtain ⟨n, hn⟩ := t
  cases n with
  | zero => exact rfl
  | succ n => exact absurd h0 (Nat.succ_ne_zero n)

theorem outsAt_B (c : Dev nD) (t : Fin cfg2.N) (h0 : t.val ≠ 0) (h1 : t.val % 4 = 0) (hc0 : ¬cond_0 (grid2.coords t)) (hc1 : cond_1 (grid2.coords t)) (hc2 : ¬cond_2 (grid2.coords t)) :
    outsAt V c t.val t.isLt = ((outsAt V c (t.val - 1) (prevLt t)).1, sout_B c (grid2.coords t) (ms_0 t) (hs_0 t) (ms_1 t) (hs_1 t) (ms_2 t) (hs_2 t) scM (Memref.isWhole_whole _) hc0 hc1 hc2 (iblk V c 0 t) (iblk V c 1 t)) := by
  obtain ⟨n, hn⟩ := t
  cases n with
  | zero => exact absurd rfl h0
  | succ n => exact (dif_pos h1).trans rfl

theorem outsAt_C (c : Dev nD) (t : Fin cfg2.N) (h0 : t.val ≠ 0) (h1 : ¬t.val % 4 = 0) (h2 : ¬t.val % 4 = 3) (hc0 : ¬cond_0 (grid2.coords t)) (hc1 : ¬cond_1 (grid2.coords t)) (hc2 : ¬cond_2 (grid2.coords t)) :
    outsAt V c t.val t.isLt = ((outsAt V c (t.val - 1) (prevLt t)).1, sout_C c (grid2.coords t) (ms_0 t) (hs_0 t) (ms_1 t) (hs_1 t) (ms_2 t) (hs_2 t) scM (Memref.isWhole_whole _) hc0 hc1 hc2 (iblk V c 0 t) (iblk V c 1 t) (outsAt V c (t.val - 1) (prevLt t)).2) := by
  obtain ⟨n, hn⟩ := t
  cases n with
  | zero => exact absurd rfl h0
  | succ n => exact (dif_neg h1).trans ((dif_neg h2).trans rfl)

theorem outsAt_D (c : Dev nD) (t : Fin cfg2.N) (h0 : t.val ≠ 0) (h1 : ¬t.val % 4 = 0) (h2 : t.val % 4 = 3) (hc0 : ¬cond_0 (grid2.coords t)) (hc1 : ¬cond_1 (grid2.coords t)) (hc2 : cond_2 (grid2.coords t)) :
    outsAt V c t.val t.isLt = (out_D_2 c (grid2.coords t) (ms_0 t) (hs_0 t) (ms_1 t) (hs_1 t) (ms_2 t) (hs_2 t) scM (Memref.isWhole_whole _) hc0 hc1 hc2 (iblk V c 0 t) (iblk V c 1 t) (outsAt V c (t.val - 1) (prevLt t)).2 (outsAt V c (t.val - 1) (prevLt t)).1, sout_D c (grid2.coords t) (ms_0 t) (hs_0 t) (ms_1 t) (hs_1 t) (ms_2 t) (hs_2 t) scM (Memref.isWhole_whole _) hc0 hc1 hc2 (iblk V c 0 t) (iblk V c 1 t) (outsAt V c (t.val - 1) (prevLt t)).2 (outsAt V c (t.val - 1) (prevLt t)).1) := by
  obtain ⟨n, hn⟩ := t
  cases n with
  | zero => exact absurd rfl h0
  | succ n => exact (dif_neg h1).trans ((dif_pos h2).trans rfl)

/-- At a point that does not store the result, its buffer's contents are carried. -/
theorem outsAt_carry (c : Dev nD) (t : Fin cfg2.N) (h0 : t.val ≠ 0) (h2 : ¬t.val % 4 = 3) :
    (outsAt V c t.val t.isLt).1 = (outsAt V c (t.val - 1) (prevLt t)).1 := by
  have hc0 : ¬cond_0 (grid2.coords t) := fun h => h0 ((hcond_0 t).mp h)
  have hc2 : ¬cond_2 (grid2.coords t) := fun h => h2 ((hcond_2 t).mp h)
  by_cases h1 : t.val % 4 = 0
  · rw [outsAt_B V c t h0 h1 hc0 ((hcond_1 t).mpr h1) hc2]
  · rw [outsAt_C V c t h0 h1 h2 hc0 (fun h => h1 ((hcond_1 t).mp h)) hc2]

/-! ## The region invariant: the accumulator at what the point before left -/

def PhiS (c : Dev nD) : (n : ℕ) → n ≤ cfg2.N → sProp 𝕄
  | 0, _ => Pipeline.ΦA spec2 c
  | n + 1, hn => iprop(iprop(owns (c : Thread nD τ) scM fullShare ((outsAt V c n hn).2) ∗ Pipeline.scopedRestBut (Ix := Unit) (Name := ℕ) (U := UR sig nD τ) (Lvl := ℕ) (Val := Elt F) spec2 c [cc2_scratch0]) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) scM fullShare ((outsAt V c n hn).2) ∗ Pipeline.scopedRestBut (Ix := Unit) (Name := ℕ) (U := UR sig nD τ) (Lvl := ℕ) (Val := Elt F) spec2 c [cc2_scratch0]) ∗ (∃ r, prngReg c r)) := rfl
theorem PhiS_pos (c : Dev nD) (n : ℕ) (h : n ≤ cfg2.N) (hz : n ≠ 0) :
    PhiS V c n h = iprop(iprop(owns (c : Thread nD τ) scM fullShare ((outsAt V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg2.W) : (dat V c).A w = V c (Pipeline.arrRef spec2 w) := by
  dsimp only [dat]
theorem PhiS_castSucc (c : Dev nD) (t : Fin cfg2.N) :
    (dat V c).Φ t.castSucc = PhiS V c t.val (Nat.le_of_lt t.isLt) := by
  dsimp only [dat]; simp only [Fin.coe_castSucc]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = (outsAt V c t.val t.isLt).1 := by dsimp only [dat]
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d

/-- After the first point the result's buffer holds, when the body runs, what the recursion says of the point before:
    it is never written back before the last point, and the recursion carries it through the points that do not store. -/
theorem before_2 (c : Dev nD) (t : Fin cfg2.N) (hz : t.val ≠ 0) (d) :
    (dat V c).before 2 t d = (outsAt V c (t.val - 1) (prevLt t)).1 := by
  have hN : t.val < 16 := lt_of_lt_of_eq t.isLt (show cfg2.N = 16 from N_2)
  rw [(dat V c).before_out_traj 2 rfl (fun _ _ => rfl) (fun s hs hi hfr => by
      rw [after_2, after_2]
      have hc0 : ¬cond_0 (grid2.coords s) := fun h => by rw [liveAt_2_A s h] at hi; exact Bool.false_ne_true hi
      have hc2 : ¬cond_2 (grid2.coords s) := fun h => by rw [liveAt_2_D s h] at hi; exact Bool.false_ne_true hi
      exact outsAt_carry V c s hs (fun h => hc2 ((hcond_2 s).mpr h))) t.val t rfl d,
    fresh_2 t.val (Nat.le_of_lt t.isLt)]
  rw [show (decide (t.val = 0) || decide (t.val = 16)) = false from by
    rw [Bool.or_eq_false_iff]; exact ⟨decide_eq_false hz, decide_eq_false (by omega)⟩]
  rw [if_neg Bool.false_ne_true, after_2]

/-! ## The body obligation, at a generic point -/

def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

theorem leaves_0 (c : Dev nD) (t : Fin cfg2.N) : (dat V c).leavesExact 0 t = owns (c : Thread nD τ) (ms_0 t) fullShare (iblk V c 0 t) := by
  unfold Dat.leavesExact; rw [liveAt_0 t, after_0]
theorem leaves_1 (c : Dev nD) (t : Fin cfg2.N) : (dat V c).leavesExact 1 t = owns (c : Thread nD τ) (ms_1 t) fullShare (iblk V c 1 t) := by
  unfold Dat.leavesExact; rw [liveAt_1 t, after_1]

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).owesAt () t.succ = (dat V c).owesAt () t.castSucc from rfl]
  rw [show (dat V c).Φ t.succ = PhiS V c (t.val + 1) t.isLt from rfl, PhiS_succ, leaves_0, leaves_1]
  have hN : t.val < 16 := lt_of_lt_of_eq t.isLt (show cfg2.N = 16 from N_2)
  by_cases hz : t.val = 0
  · -- case A: the first point
    have hc0 : cond_0 (grid2.coords t) := (hcond_0 t).mpr hz
    have hc1 : cond_1 (grid2.coords t) := (hcond_1 t).mpr (by omega)
    have hc2 : ¬cond_2 (grid2.coords t) := fun h => by have := (hcond_2 t).mp h; omega
    rw [show (dat V c).leavesExact 2 t = owns (c : Thread nD τ) (ms_2 t) fullShare ((dat V c).after 2 t) from by
      unfold Dat.leavesExact; rw [liveAt_2_A t hc0], after_2]
    rw [outsAt_A V c t hz hc0 hc1 hc2]
    unfold out_A_2 sout_A; (try dsimp only)
    rw [PhiS_castSucc V c t, PhiS_zero V c _ _ hz, PhiA_eq]
    iintro ⟨⟨⟨HS, HR⟩, Hg⟩, Ho, ⟨%d0, H0⟩, ⟨%d1, H1⟩, ⟨%d2, H2⟩⟩
    iapply ((kernelRun_A c (grid2.coords t) _ _ _ _ _ _ _ _ hc0 hc1 hc2 (iblk V c 0 t) (iblk V c 1 t)).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact View.read_writes_of_cover _ _ _ _ _ (scover_A c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover_A_2 c _ _ _ _ _ _ _ _ _ _ _ _ _ _)
  · have hc0 : ¬cond_0 (grid2.coords t) := fun h => hz ((hcond_0 t).mp h)
    rw [PhiS_castSucc V c t, PhiS_pos V c _ _ hz]
    by_cases h1 : t.val % 4 = 0
    · -- case B: the reduction starts again
      have hc1 : cond_1 (grid2.coords t) := (hcond_1 t).mpr h1
      have hc2 : ¬cond_2 (grid2.coords t) := fun h => by have := (hcond_2 t).mp h; omega
      rw [Dat.leavesExact_idle (dat V c) 2 t (idleAt_2 t hc0 hc2) (noFlush_2 t hc2)]
      rw [outsAt_B V c t hz h1 hc0 hc1 hc2]
      unfold sout_B; (try dsimp only)
      iintro ⟨⟨⟨HS, HR⟩, Hg⟩, Ho, ⟨%d0, H0⟩, ⟨%d1, H1⟩, ⟨%d2, H2⟩⟩
      iapply ((kernelRun_B c (grid2.coords t) _ _ _ _ _ _ _ _ hc0 hc1 hc2 (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover_B c _ _ _ _ _ _ _ _ _ _ _ _ _ _)
          iexact HR
        iexact Hg
      isplitl [Ho]; · iexact Ho
      isplitl [H0]; · iexact H0
      isplitl [H1]; · iexact H1
      iexists _; iexact H2
    · have hc1 : ¬cond_1 (grid2.coords t) := fun h => h1 ((hcond_1 t).mp h)
      by_cases h2 : t.val % 4 = 3
      · -- case D: the reduction ends
        have hc2 : cond_2 (grid2.coords t) := (hcond_2 t).mpr h2
        rw [show (dat V c).leavesExact 2 t = owns (c : Thread nD τ) (ms_2 t) fullShare ((dat V c).after 2 t) from by
          unfold Dat.leavesExact; rw [liveAt_2_D t hc2], after_2]
        simp only [before_2 V c t hz]
        rw [outsAt_D V c t hz h1 h2 hc0 hc1 hc2]
        unfold out_D_2 sout_D; (try dsimp only)
        iintro ⟨⟨⟨HS, HR⟩, Hg⟩, Ho, ⟨%d0, H0⟩, ⟨%d1, H1⟩, ⟨%d2, H2⟩⟩
        iapply ((kernelRun_D c (grid2.coords t) _ _ _ _ _ _ _ _ hc0 hc1 hc2 (iblk V c 0 t) (iblk V c 1 t) _ _).2.2 Set.univ _)
        isplitl [H0]; · iexact H0
        isplitl [H1]; · iexact H1
        isplitl [H2]; · iexact H2
        isplitl [HS]; · iexact HS
        iintro ⟨H0, H1, ⟨%e2, H2⟩, ⟨%es, HS⟩⟩
        isplitl [HS HR Hg]
        · isplitl [HS HR]
          · isplitl [HS]
            · unfold owns; iexists _; isplitr
              swap; · iexact HS
              ipureintro; exact View.read_writes_of_cover _ _ _ _ _ (scover_D c _ _ _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover_D_2 c _ _ _ _ _ _ _ _ _ _ _ _ _ _ _ _)
      · -- case C: the reduction goes on
        have hc2 : ¬cond_2 (grid2.coords t) := fun h => h2 ((hcond_2 t).mp h)
        rw [Dat.leavesExact_idle (dat V c) 2 t (idleAt_2 t hc0 hc2) (noFlush_2 t hc2)]
        rw [outsAt_C V c t hz h1 h2 hc0 hc1 hc2]
        unfold sout_C; (try dsimp only)
        iintro ⟨⟨⟨HS, HR⟩, Hg⟩, Ho, ⟨%d0, H0⟩, ⟨%d1, H1⟩, ⟨%d2, H2⟩⟩
        iapply ((kernelRun_C c (grid2.coords t) _ _ _ _ _ _ _ _ hc0 hc1 hc2 (iblk V c 0 t) (iblk V c 1 t) _).2 _ Set.univ _)
        isplitl [H0]; · iexact H0
        isplitl [H1]; · iexact H1
        isplitl [H2]; · iexact H2
        isplitl [HS]; · iexact HS
        iintro ⟨H0, H1, H2, ⟨%es, HS⟩⟩
        isplitl [HS HR Hg]
        · isplitl [HS HR]
          · isplitl [HS]
            · unfold owns; iexists _; isplitr
              swap; · iexact HS
              ipureintro; exact View.read_writes_of_cover _ _ _ _ _ (scover_C c _ _ _ _ _ _ _ _ _ _ _ _ _ _ _)
            iexact HR
          iexact Hg
        isplitl [Ho]; · iexact Ho
        isplitl [H0]; · iexact H0
        isplitl [H1]; · iexact H1
        iexists _; iexact H2

theorem body_obligation (c : Dev nD) : BodyObligation (dat (F := F) V c) (defs₀ (F := F)) Variants.none () Set.univ := fun t => by
  rw [bigSep_W2, bigSep_W2]
  exact sound_body V c t

theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

theorem hout (c : Dev nD) : (dat V c).Φ (Fin.last cfg2.N) ⊢ Pipeline.ΦA spec2 c :=
  Phi_out V c _ (by rw [Fin.val_last]; have : cfg2.N = 16 := N_2; omega)

end Cert.KernelIdeal.Reg2

end
-- ==== Proof.KIRun.lean ====
/-
  The whole-program run of the idealized kernel program, at any float instance.

  @main is seven items: four stretches of host operations with three kernel regions between them. Each region is
  entered from "every unscoped buffer of the core at the contents the items before it leave, the generator register
  at some state, nothing owed" and left at the same with the region's result array at what its pipeline's last
  write-back leaves. Regions 1 and 2 read ONE array through both their input windows: its points-to is split between
  the two windows along the share at the region's entry and joined back at its exit. The run then reads the last
  buffer contents off the final memory: the program's result, and the two arguments as launched.
-/
import proofs.«157129_j47072841564786_1_alg».proof.Proof.Gen.KernelIdeal.Regions
import proofs.«157129_j47072841564786_1_alg».proof.Proof.KI0
import proofs.«157129_j47072841564786_1_alg».proof.Proof.KI1
import proofs.«157129_j47072841564786_1_alg».proof.Proof.KI2
import Idealize.ShloMosaic.Lib.Pipeline.RegionsLoop

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

section Share

variable {Ix : Type} [DecidableEq Ix] {U : Type} [URA U] {Lvl : Type}

local notation "𝕄" => MT nD τ sig Ix (Elt F) ℕ U Lvl

/-! ## An array read through two input windows: its points-to split along the share -/

/-- A core's unscoped buffers that are no window's array depend only on the contents off the arrays. -/
theorem unscopedRest_congr {gr W : Nat} (win : Fin W → Pipeline.WinSpec sig gr) (c : Dev nD)
    (V V' : (b : Ref sig .tc) → Buf (Elt F) ((c : Thread nD τ).loc b))
    (h : ∀ b, b ∉ Finset.univ.image (Pipeline.arrRef win) → V' b = V b) :
    (Pipeline.unscopedRest win c V : sProp 𝕄) = Pipeline.unscopedRest win c V' := by
  unfold Pipeline.unscopedRest
  exact bigSep_congr fun b hb => by rw [h b (Finset.mem_sdiff.mp hb).2]

/-- The distinct buffers behind region 1's arrays: the one its two input windows read and its output's. -/
theorem arrBufs1_eq (c : Dev nD) (V : (b : Ref sig .tc) → Buf (Elt F) ((c : Thread nD τ).loc b)) :
    (Pipeline.arrBufs spec1 c V : sProp 𝕄)
      = iprop((((c : Thread nD τ).loc main_v6) ↦{fullShare} V main_v6) ∗ (((c : Thread nD τ).loc main_v16) ↦{fullShare} V main_v16)) := by
  unfold Pipeline.arrBufs
  rw [show (Finset.univ.image (Pipeline.arrRef spec1) : Finset (Ref sig .tc)) = {main_v6, main_v16} from by decide,
    bigSep_insert (by decide), bigSep_singleton]
  rfl

/-- Region 1's arrays window by window, for proof data holding the shared input array at the left half of the full
    share through window 0 and at the right half through window 1. -/
theorem arrays1_eq (c : Dev nD) (dat : Dat τ (Elt F) Ix ℕ U Lvl cfg1 c)
    (hq0 : dat.q 0 = fullShare.left) (hq1 : dat.q 1 = fullShare.right)
    (G : (w : Fin cfg1.W) → Buf (Elt F) ((cfg1.win w).arr.view.loc (c : Thread nD τ))) :
    (dat.arrays G : sProp 𝕄)
      = iprop((((c : Thread nD τ).loc main_v6) ↦{fullShare.left} G 0) ∗ (((c : Thread nD τ).loc main_v6) ↦{fullShare.right} G 1)
          ∗ (((c : Thread nD τ).loc main_v16) ↦{fullShare} G 2)) := by
  unfold Dat.arrays
  rw [bigSep_W1]
  have s0 : dat.share 0 = fullShare.left := by unfold Dat.share; rw [if_neg (by decide), hq0]
  have s1 : dat.share 1 = fullShare.right := by unfold Dat.share; rw [if_neg (by decide), hq1]
  have s2 : dat.share 2 = fullShare := by unfold Dat.share; rw [if_pos (by decide)]
  rw [s0, s1, s2, (arr_whole1 0).set_eq_univ, (arr_whole1 2).set_eq_univ]

/-- The buffers behind region 1's arrays, whole at the full share, ARE its `arrays` at contents that agree on the
    shared input array: its points-to splits between the two windows along the share, and joins back. -/
theorem arrays1_split (c : Dev nD) (dat : Dat τ (Elt F) Ix ℕ U Lvl cfg1 c)
    (hq0 : dat.q 0 = fullShare.left) (hq1 : dat.q 1 = fullShare.right)
    (V : (b : Ref sig .tc) → Buf (Elt F) ((c : Thread nD τ).loc b))
    (G : (w : Fin cfg1.W) → Buf (Elt F) ((cfg1.win w).arr.view.loc (c : Thread nD τ)))
    (h0 : G 0 = V main_v6) (h1 : G 1 = V main_v6) (h2 : G 2 = V main_v16) :
    (Pipeline.arrBufs spec1 c V : sProp 𝕄) ⊣⊢ dat.arrays G := by
  rw [arrBufs1_eq, arrays1_eq c dat hq0 hq1, h0, h1, h2]
  have hs : ((((c : Thread nD τ).loc main_v6) ↦{fullShare} V main_v6) : sProp 𝕄)
      ⊣⊢ iprop((((c : Thread nD τ).loc main_v6) ↦{fullShare.left} V main_v6) ∗ (((c : Thread nD τ).loc main_v6) ↦{fullShare.right} V main_v6)) :=
    pointsTo_share (PosShare.mem_left_op_right fullShare)
  constructor
  · iintro ⟨Ha, Hb⟩
    ihave H := hs.1 $$ Ha
    icases H with ⟨Hl, Hr⟩
    isplitl [Hl]; · iexact Hl
    isplitl [Hr]; · iexact Hr
    iexact Hb
  · iintro ⟨Hl, Hr, Hb⟩
    isplitl [Hl Hr]
    · iapply hs.2
      isplitl [Hl] <;> iassumption
    iexact Hb

/-- The distinct buffers behind region 2's arrays: the one its two input windows read and its output's. -/
theorem arrBufs2_eq (c : Dev nD) (V : (b : Ref sig .tc) → Buf (Elt F) ((c : Thread nD τ).loc b)) :
    (Pipeline.arrBufs spec2 c V : sProp 𝕄)
      = iprop((((c : Thread nD τ).loc main_v13) ↦{fullShare} V main_v13) ∗ (((c : Thread nD τ).loc main_v18) ↦{fullShare} V main_v18)) := by
  unfold Pipeline.arrBufs
  rw [show (Finset.univ.image (Pipeline.arrRef spec2) : Finset (Ref sig .tc)) = {main_v13, main_v18} from by decide,
    bigSep_insert (by decide), bigSep_singleton]
  rfl

/-- Region 2's arrays window by window, for proof data holding the shared input array at the left half of the full
    share through window 0 and at the right half through window 1. -/
theorem arrays2_eq (c : Dev nD) (dat : Dat τ (Elt F) Ix ℕ U Lvl cfg2 c)
    (hq0 : dat.q 0 = fullShare.left) (hq1 : dat.q 1 = fullShare.right)
    (G : (w : Fin cfg2.W) → Buf (Elt F) ((cfg2.win w).arr.view.loc (c : Thread nD τ))) :
    (dat.arrays G : sProp 𝕄)
      = iprop((((c : Thread nD τ).loc main_v13) ↦{fullShare.left} G 0) ∗ (((c : Thread nD τ).loc main_v13) ↦{fullShare.right} G 1)
          ∗ (((c : Thread nD τ).loc main_v18) ↦{fullShare} G 2)) := by
  unfold Dat.arrays
  rw [bigSep_W2]
  have s0 : dat.share 0 = fullShare.left := by unfold Dat.share; rw [if_neg (by decide), hq0]
  have s1 : dat.share 1 = fullShare.right := by unfold Dat.share; rw [if_neg (by decide), hq1]
  have s2 : dat.share 2 = fullShare := by unfold Dat.share; rw [if_pos (by decide)]
  rw [s0, s1, s2, (arr_whole2 0).set_eq_univ, (arr_whole2 2).set_eq_univ]

/-- The buffers behind region 2's arrays, whole at the full share, ARE its `arrays` at contents that agree on the
    shared input array: its points-to splits between the two windows along the share, and joins back. -/
theorem arrays2_split (c : Dev nD) (dat : Dat τ (Elt F) Ix ℕ U Lvl cfg2 c)
    (hq0 : dat.q 0 = fullShare.left) (hq1 : dat.q 1 = fullShare.right)
    (V : (b : Ref sig .tc) → Buf (Elt F) ((c : Thread nD τ).loc b))
    (G : (w : Fin cfg2.W) → Buf (Elt F) ((cfg2.win w).arr.view.loc (c : Thread nD τ)))
    (h0 : G 0 = V main_v13) (h1 : G 1 = V main_v13) (h2 : G 2 = V main_v18) :
    (Pipeline.arrBufs spec2 c V : sProp 𝕄) ⊣⊢ dat.arrays G := by
  rw [arrBufs2_eq, arrays2_eq c dat hq0 hq1, h0, h1, h2]
  have hs : ((((c : Thread nD τ).loc main_v13) ↦{fullShare} V main_v13) : sProp 𝕄)
      ⊣⊢ iprop((((c : Thread nD τ).loc main_v13) ↦{fullShare.left} V main_v13) ∗ (((c : Thread nD τ).loc main_v13) ↦{fullShare.right} V main_v13)) :=
    pointsTo_share (PosShare.mem_left_op_right fullShare)
  constructor
  · iintro ⟨Ha, Hb⟩
    ihave H := hs.1 $$ Ha
    icases H with ⟨Hl, Hr⟩
    isplitl [Hl]; · iexact Hl
    isplitl [Hr]; · iexact Hr
    iexact Hb
  · iintro ⟨Hl, Hr, Hb⟩
    isplitl [Hl Hr]
    · iapply hs.2
      isplitl [Hl] <;> iassumption
    iexact Hb

end Share

local notation "𝕄" => MT nD τ sig Unit (Elt F) ℕ (UR sig nD τ) ℕ

variable (m : (ℓ : Loc nD τ sig) → Buf (Elt F) ℓ)

/-! ## The buffer contents at each item boundary, and what the regions leave -/

/-- Core `c`'s buffers when region 0 is entered, read at the TensorCore's references. -/
abbrev E1 : (c : Dev nD) → (b : Ref sig .tc) → Buf (Elt F) ((c : Thread nD τ).loc b) := fun c b => Gen.V1 m c b
/-- What region 0 leaves in its result array: the last write-back's contents. -/
def o0 (c : Dev nD) : Buf (Elt F) ((c : Thread nD τ).loc main_v14) := (Reg0.dat (E1 m) c).arrAt 2 cfg0.N
/-- After region 0. -/
abbrev W2 (c : Dev nD) : Valuation τ sig (Elt F) := Function.update (Gen.V1 m c) main_v14 (o0 m c)
/-- After the second host stretch. -/
abbrev W3 (c : Dev nD) : Valuation τ sig (Elt F) := StableHlo.after hostOps1 (W2 m c)
/-- The same read at the TensorCore's references: what region 1 is entered from. -/
abbrev E3 : (c : Dev nD) → (b : Ref sig .tc) → Buf (Elt F) ((c : Thread nD τ).loc b) := fun c b => W3 m c b
/-- What region 1 leaves in its result array. -/
def o1 (c : Dev nD) : Buf (Elt F) ((c : Thread nD τ).loc main_v16) := (Reg1.dat (E3 m) c).arrAt 2 cfg1.N
/-- After region 1. -/
abbrev W4 (c : Dev nD) : Valuation τ sig (Elt F) := Function.update (W3 m c) main_v16 (o1 m c)
/-- After the third host stretch. -/
abbrev W5 (c : Dev nD) : Valuation τ sig (Elt F) := StableHlo.after hostOps2 (W4 m c)
/-- The same read at the TensorCore's references: what region 2 is entered from. -/
abbrev E5 : (c : Dev nD) → (b : Ref sig .tc) → Buf (Elt F) ((c : Thread nD τ).loc b) := fun c b => W5 m c b
/-- What region 2 leaves in its result array. -/
def o2 (c : Dev nD) : Buf (Elt F) ((c : Thread nD τ).loc main_v18) := (Reg2.dat (E5 m) c).arrAt 2 cfg2.N

/-- What the regions leave, as the family the generated valuations are written over: read only at item 2's
    `main_v14`, item 4's `main_v16` and item 6's `main_v18`; elsewhere the launch contents. -/
def outs : Gen.Outs (F := F) := fun J r c =>
  match J with
  | 2 => Function.update (fun r : Ref sig .tc => m ((c : Thread nD τ).loc r)) main_v14 (o0 m c) r
  | 4 => Function.update (fun r : Ref sig .tc => m ((c : Thread nD τ).loc r)) main_v16 (o1 m c) r
  | _ => Function.update (fun r : Ref sig .tc => m ((c : Thread nD τ).loc r)) main_v18 (o2 m c) r

theorem outs_2 (c : Dev nD) : outs m 2 main_v14 c = o0 m c := by
  show Function.update (fun r : Ref sig .tc => m ((c : Thread nD τ).loc r)) main_v14 (o0 m c) main_v14 = _; exact Function.update_self ..
theorem outs_4 (c : Dev nD) : outs m 4 main_v16 c = o1 m c := by
  show Function.update (fun r : Ref sig .tc => m ((c : Thread nD τ).loc r)) main_v16 (o1 m c) main_v16 = _; exact Function.update_self ..
theorem outs_6 (c : Dev nD) : outs m 6 main_v18 c = o2 m c := by
  show Function.update (fun r : Ref sig .tc => m ((c : Thread nD τ).loc r)) main_v18 (o2 m c) main_v18 = _; exact Function.update_self ..

theorem V2_eq (c : Dev nD) : Gen.V2 m (outs m) c = W2 m c := by
  show Function.update (Gen.V1 m c) main_v14 (outs m 2 main_v14 c) = _; rw [outs_2]
theorem V3_eq (c : Dev nD) : Gen.V3 m (outs m) c = W3 m c := by
  show StableHlo.after hostOps1 (Gen.V2 m (outs m) c) = _; rw [V2_eq]
theorem V4_eq (c : Dev nD) : Gen.V4 m (outs m) c = W4 m c := by
  show Function.update (Gen.V3 m (outs m) c) main_v16 (outs m 4 main_v16 c) = _; rw [outs_4, V3_eq]
theorem V5_eq (c : Dev nD) : Gen.V5 m (outs m) c = W5 m c := by
  show StableHlo.after hostOps2 (Gen.V4 m (outs m) c) = _; rw [V4_eq]
/-- After region 2. -/
abbrev W6 (c : Dev nD) : Valuation τ sig (Elt F) := Function.update (W5 m c) main_v18 (o2 m c)
theorem V6_eq (c : Dev nD) : Gen.V6 m (outs m) c = W6 m c := by
  show Function.update (Gen.V5 m (outs m) c) main_v18 (outs m 6 main_v18 c) = _; rw [outs_6, V5_eq]

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Reg0.dat (E1 m) c
  | ⟨1, _⟩ => fun c => Reg1.dat (E3 m) c
  | ⟨2, _⟩ => fun c => Reg2.dat (E5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)

/-! ## The regions as segments -/

/-- At region 0's exit each of its arrays holds what the pipeline leaves: the two inputs as entered, the result at the
    last write-back's contents. -/
theorem hF0 (c : Dev nD) (w : Fin cfg0.W) :
    (pdats m 0 c).arrAt w cfg0.N = Gen.V2 m (outs m) c (Pipeline.arrRef spec0 w) :=
  match w with
  | ⟨0, _⟩ => ((Reg0.dat (E1 m) c).arrAt_in 0 rfl _).trans (Gen.V2_of m (outs m) c main_v6 (by decide)).symm
  | ⟨1, _⟩ => ((Reg0.dat (E1 m) c).arrAt_in 1 rfl _).trans (Gen.V2_of m (outs m) c main_v13 (by decide)).symm
  | ⟨2, _⟩ => (Function.update_self (β := fun b : DevRef τ sig => b.ty.Contents (Elt F)) (Proc.devRef .tc main_v14) (o0 m c) (Gen.V1 m c)).symm.trans
      (congrFun (V2_eq m c) _).symm
/-- Every other buffer holds what it held at entry. -/
theorem hrest0 (c : Dev nD) : ∀ b : Ref sig .tc, b ∉ Finset.univ.image (Pipeline.arrRef spec0) → Gen.V2 m (outs m) c b = Gen.V1 m c b :=
  fun b hb => Gen.V2_of m (outs m) c b fun h => hb (by
    rw [List.mem_singleton] at h; subst h; exact Finset.mem_image.mpr ⟨2, Finset.mem_univ _, rfl⟩)

set_option backward.isDefEq.respectTransparency.types false in
/-- REGION 0 over the thread state: entered from every unscoped buffer at the contents after the first host stretch,
    left with the result array at what the pipeline leaves. Its arrays are distinct buffers, each held whole. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun w => match w with | ⟨0, _⟩ => rfl | ⟨1, _⟩ => rfl | ⟨2, _⟩ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Reg0.hin (E1 m) c)
    unfold Pipeline.ΦA
    iintro ⟨Hp, -, Hr⟩
    isplitl [Hr]; · iexact Hr
    iexact Hp
  hout c := by
    rw [Pipeline.ownSems0_none]
    refine BIBase.Entails.trans (Reg0.hout (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => match w with | ⟨0, _⟩ => rfl | ⟨1, _⟩ => rfl | ⟨2, _⟩ => rfl)
      (E1 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Off region 1's result array the contents after it are those before it. -/
theorem W4_of (c : Dev nD) (r : Ref sig .tc) (h : r ∉ ([main_v16] : List (Ref sig .tc))) : W4 m c r = W3 m c r := by
  rw [← V4_eq, ← V3_eq]; exact Gen.V4_of m (outs m) c r h
/-- At region 1's exit the shared input array holds what it held at entry, through either window, -/
theorem hF1_0 (c : Dev nD) : (Reg1.dat (E3 m) c).arrAt 0 cfg1.N = W4 m c main_v6 :=
  ((Reg1.dat (E3 m) c).arrAt_in 0 rfl _).trans (W4_of m c main_v6 (by decide)).symm
theorem hF1_1 (c : Dev nD) : (Reg1.dat (E3 m) c).arrAt 1 cfg1.N = W4 m c main_v6 :=
  ((Reg1.dat (E3 m) c).arrAt_in 1 rfl _).trans (W4_of m c main_v6 (by decide)).symm
/-- the result array what the last write-back leaves, -/
theorem hF1_2 (c : Dev nD) : (Reg1.dat (E3 m) c).arrAt 2 cfg1.N = W4 m c main_v16 :=
  (Function.update_self (β := fun b : DevRef τ sig => b.ty.Contents (Elt F)) (Proc.devRef .tc main_v16) (o1 m c) (W3 m c)).symm
/-- and every other buffer what it held at entry. -/
theorem hrest1 (c : Dev nD) : ∀ b : Ref sig .tc, b ∉ Finset.univ.image (Pipeline.arrRef spec1) → W4 m c b = W3 m c b :=
  fun b hb => W4_of m c b fun h => hb (by
    rw [List.mem_singleton] at h; subst h; exact Finset.mem_image.mpr ⟨2, Finset.mem_univ _, rfl⟩)

set_option backward.isDefEq.respectTransparency.types false in
/-- REGION 1 over the thread state: entered from every unscoped buffer at the contents after the second host stretch, left with the result array at what the pipeline leaves. Its two input windows read one array: the array's points-to, whole at
    the full share among the unscoped buffers, is split along the share between them at the entry and joined at the exit. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Reg1.body_obligation (E3 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none, V3_eq m c,
      ← Pipeline.unscopedBufs_held (Ix := Unit) (Name := ℕ) (U := UR sig nD τ) (Lvl := ℕ) c (W3 m c),
      Pipeline.unscopedBufs_split₀ cfgs 1 winFacts₀1.arr_unscoped c (E3 m c)]
    have hsplit := (arrays1_split (Ix := Unit) (U := UR sig nD τ) (Lvl := ℕ) c (Reg1.dat (E3 m) c) rfl rfl (E3 m c)
      ((Reg1.dat (E3 m) c).arrAt · 0) rfl rfl rfl).1
    iintro ⟨⟨⟨Hab, Hrest⟩, Hp, HO⟩, -, -⟩
    ihave Ha := hsplit $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Reg1.hin (E3 m) c)
    unfold Pipeline.ΦA
    iintro ⟨Hp, -, Hr⟩
    isplitl [Hr]; · iexact Hr
    iexact Hp
  hout c := by
    rw [Pipeline.ownSems0_none]
    refine BIBase.Entails.trans (Reg1.hout (E3 m) c) ?_
    unfold Pipeline.ΦA
    iintro ⟨Hr, Hp⟩
    isplitl [Hp]; · iexact Hp
    isplitr; · iempintro
    iexact Hr
  hexit c := by
    rw [V4_eq m c,
      ← Pipeline.unscopedBufs_held (Ix := Unit) (Name := ℕ) (U := UR sig nD τ) (Lvl := ℕ) c (W4 m c),
      Pipeline.unscopedBufs_split₀ cfgs 1 winFacts₀1.arr_unscoped c (fun b => W4 m c b),
      ← unscopedRest_congr (Ix := Unit) (U := UR sig nD τ) (Lvl := ℕ) (cfgs 1).spec c (E3 m c) (fun b => W4 m c b) (hrest1 m c)]
    have hjoin := (arrays1_split (Ix := Unit) (U := UR sig nD τ) (Lvl := ℕ) c (Reg1.dat (E3 m) c) rfl rfl (fun b => W4 m c b)
      ((Reg1.dat (E3 m) c).arrAt · cfg1.N) (hF1_0 m c) (hF1_1 m c) (hF1_2 m c)).2
    iintro ⟨Ha, HO, HY, Hrest⟩
    imodintro
    isplitl [Ha Hrest]
    · isplitl [Ha]
      · iapply hjoin; iexact Ha
      iexact Hrest
    isplitl [HY]; · iexact HY
    unfold Pipeline.Dat.owesAt Pipeline.owesWithin
    icases HO with ⟨%W, -, HO⟩; iexists W; iexact HO

/-- Off region 2's result array the contents after it are those before it. -/
theorem W6_of (c : Dev nD) (r : Ref sig .tc) (h : r ∉ ([main_v18] : List (Ref sig .tc))) : W6 m c r = W5 m c r := by
  rw [← V6_eq, ← V5_eq]; exact Gen.V6_of m (outs m) c r h
/-- At region 2's exit the shared input array holds what it held at entry, through either window, -/
theorem hF2_0 (c : Dev nD) : (Reg2.dat (E5 m) c).arrAt 0 cfg2.N = W6 m c main_v13 :=
  ((Reg2.dat (E5 m) c).arrAt_in 0 rfl _).trans (W6_of m c main_v13 (by decide)).symm
theorem hF2_1 (c : Dev nD) : (Reg2.dat (E5 m) c).arrAt 1 cfg2.N = W6 m c main_v13 :=
  ((Reg2.dat (E5 m) c).arrAt_in 1 rfl _).trans (W6_of m c main_v13 (by decide)).symm
/-- the result array what the last write-back leaves, -/
theorem hF2_2 (c : Dev nD) : (Reg2.dat (E5 m) c).arrAt 2 cfg2.N = W6 m c main_v18 :=
  (Function.update_self (β := fun b : DevRef τ sig => b.ty.Contents (Elt F)) (Proc.devRef .tc main_v18) (o2 m c) (W5 m c)).symm
/-- and every other buffer what it held at entry. -/
theorem hrest2 (c : Dev nD) : ∀ b : Ref sig .tc, b ∉ Finset.univ.image (Pipeline.arrRef spec2) → W6 m c b = W5 m c b :=
  fun b hb => W6_of m c b fun h => hb (by
    rw [List.mem_singleton] at h; subst h; exact Finset.mem_image.mpr ⟨2, Finset.mem_univ _, rfl⟩)

set_option backward.isDefEq.respectTransparency.types false in
/-- REGION 2 over the thread state: entered from every unscoped buffer at the contents after the third host stretch, left with the result array at what the pipeline leaves. Its two input windows read one array: the array's points-to, whole at
    the full share among the unscoped buffers, is split along the share between them at the entry and joined at the exit. -/
def reg2 : RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (Reg2.body_obligation (E5 m) c).loose
  hwaits := Pipeline.hwaits_of_owed_zero _ _ _ _ L lv 2 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none, V5_eq m c,
      ← Pipeline.unscopedBufs_held (Ix := Unit) (Name := ℕ) (U := UR sig nD τ) (Lvl := ℕ) c (W5 m c),
      Pipeline.unscopedBufs_split₀ cfgs 2 winFacts₀2.arr_unscoped c (E5 m c)]
    have hsplit := (arrays2_split (Ix := Unit) (U := UR sig nD τ) (Lvl := ℕ) c (Reg2.dat (E5 m) c) rfl rfl (E5 m c)
      ((Reg2.dat (E5 m) c).arrAt · 0) rfl rfl rfl).1
    iintro ⟨⟨⟨Hab, Hrest⟩, Hp, HO⟩, -, -⟩
    ihave Ha := hsplit $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Reg2.hin (E5 m) c)
    unfold Pipeline.ΦA
    iintro ⟨Hp, -, Hr⟩
    isplitl [Hr]; · iexact Hr
    iexact Hp
  hout c := by
    rw [Pipeline.ownSems0_none]
    refine BIBase.Entails.trans (Reg2.hout (E5 m) c) ?_
    unfold Pipeline.ΦA
    iintro ⟨Hr, Hp⟩
    isplitl [Hp]; · iexact Hp
    isplitr; · iempintro
    iexact Hr
  hexit c := by
    rw [V6_eq m c,
      ← Pipeline.unscopedBufs_held (Ix := Unit) (Name := ℕ) (U := UR sig nD τ) (Lvl := ℕ) c (W6 m c),
      Pipeline.unscopedBufs_split₀ cfgs 2 winFacts₀2.arr_unscoped c (fun b => W6 m c b),
      ← unscopedRest_congr (Ix := Unit) (U := UR sig nD τ) (Lvl := ℕ) (cfgs 2).spec c (E5 m c) (fun b => W6 m c b) (hrest2 m c)]
    have hjoin := (arrays2_split (Ix := Unit) (U := UR sig nD τ) (Lvl := ℕ) c (Reg2.dat (E5 m) c) rfl rfl (fun b => W6 m c b)
      ((Reg2.dat (E5 m) c).arrAt · cfg2.N) (hF2_0 m c) (hF2_1 m c) (hF2_2 m c)).2
    iintro ⟨Ha, HO, HY, Hrest⟩
    imodintro
    isplitl [Ha Hrest]
    · isplitl [Ha]
      · iapply hjoin; iexact Ha
      iexact Hrest
    isplitl [HY]; · iexact HY
    unfold Pipeline.Dat.owesAt Pipeline.owesWithin
    icases HO with ⟨%W, -, HO⟩; iexists W; iexact HO

/-! ## @main as segments, and the launch -/

/-- The rest beside the buffers between items: the same at every boundary. -/
abbrev E : Fin 4 → Dev nD → sProp 𝕄 := fun _ c => R c

set_option backward.isDefEq.respectTransparency.types false in
/-- THE RUN: from any memory with zero counters every weakly fair execution of @main on the TensorCores terminates, and
    every final memory holds, on each core, the program's result at what the items' fold from the launch memory says
    (the regions' result arrays at what their pipelines' last write-backs leave) and the two arguments as launched. -/
theorem run (ρ : Dev nD → PrngReg) :
    θ_run defs (onTc (τ := τ) (main (F := F))) ⟨m, fun _ => 0, ρ⟩ (fun r => ∀ c : Dev nD,
      r.2.mem ((c.tc : Thread nD τ).loc main_v23) = Gen.V7 m (outs m) c main_v23
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have hlast : ∀ c : Dev nD, iprop(StableHlo.held (c : Thread nD τ) (Pipeline.ucRefs τ sig) (Gen.V7 m (outs m) c) ∗ R (F := F) c)
      ⊢ (iprop(iprop(StableHlo.held (c : Thread nD τ) (Pipeline.ucRefs τ sig) (Gen.V7 m (outs m) c) ∗ ∃ r, prngReg c r)
          ∗ ∃ W, owes (c.tc : Thread nD τ) (0 : CellTallies nD τ sig Unit) W) : sProp 𝕄) := fun c => by
    iintro ⟨Hh, Hp, HO⟩
    isplitl [Hh Hp]
    · isplitl [Hh] <;> iassumption
    iexact HO
  refine Pipeline.θ_run_regions_kit_dev (pcfgs (F := F)) adm (pdats m) () cellOf_inj emb₁ defs₀ 𝒱₀ L lv m ρ main
    (segs m (outs m) 𝒱₀ L lv (E (F := F)) () (pdats m) (reg0 m) (reg1 m) (reg2 m))
    (fun c Q => by
      rewrite [main_chain c, Seg.run_eq_chain,
        show (segs m (outs m) 𝒱₀ L lv (E (F := F)) () (pdats m) (reg0 m) (reg1 m) (reg2 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V7 m (outs m) c) ∗ ∃ r, prngReg c r))
    (hch := fun c => ⟨.rfl, .rfl, .rfl, .rfl, .rfl, .rfl, .rfl, hlast c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v23) = Gen.V7 m (outs m) c main_v23
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h => h)
  -- the end: the result's and each argument's buffer read off the last contents
  unfold StableHlo.held
  iintro ⟨⟨Hh, -⟩, HSI⟩
  ihave Hr := (pointsTo_read_all (Pipeline.ucRefs τ sig) (fun b => ((c : Thread nD τ).1, b)) (Gen.V7 m (outs m) c) s') $$ [Hh HSI]
  · isplitl [Hh] <;> iassumption
  icases Hr with ⟨%h, HSI⟩
  imodintro
  isplitr
  · ipureintro
    exact ⟨h (Proc.devRef .tc main_v23) (Finset.mem_filter.mpr ⟨StableHlo.devRef_mem_tcRefs main_v23, by decide⟩),
      (h (Proc.devRef .tc main_arg0) (Finset.mem_filter.mpr ⟨StableHlo.devRef_mem_tcRefs main_arg0, by decide⟩)).trans (Gen.V7_main_arg0 m (outs m) c),
      (h (Proc.devRef .tc main_arg1) (Finset.mem_filter.mpr ⟨StableHlo.devRef_mem_tcRefs main_arg1, by decide⟩)).trans (Gen.V7_main_arg1 m (outs m) c)⟩
  · iexact HSI

end Cert.KernelIdeal.Run

end
-- ==== Proof.KI0Val.lean ====
/-
  Region 0: the contents each control case of the body leaves in the result's buffer and in the accumulator, read
  back from the pieces its run found, are the kernel's stored values: every store writes its whole buffer and every
  load reads its whole buffer, so the last store's value is what the buffer holds, with each loaded operand the
  buffer's contents at that moment.
-/
import proofs.«157129_j47072841564786_1_alg».proof.Proof.KI0
import Idealize.ShloMosaic.Lib.Pipeline.Value

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of a whole-buffer rectangle of rank two is zero on both axes. -/
theorem hz : (![0, 0] : Fin 2 → Nat) = fun _ => 0 := funext fun a => by fin_cases a <;> rfl

/-- Case A (the first point): the result's buffer ends with the zero splat. -/
theorem out_A_2_eq (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) :
    out_A_2 c i arg3 harg3 arg4 harg4 arg5 harg5 arg6 harg6 hc0 hc1 hc2 x0 x1 = k0_pay1 (F := F) := by
  unfold out_A_2
  rw [View.read_writes_eq_canon _ _ _ (cover_A_2 c i arg3 harg3 arg4 harg4 arg5 harg5 arg6 harg6 hc0 hc1 hc2 x0 x1)]
  unfold kernelRun_A
  dsimp only
  sl_unfold_words
  rw [View.canon_unit_zero hz]

/-- Case A: the accumulator is zeroed, then ends with the product of the two input blocks added to the zeros. -/
theorem sout_A_eq (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) :
    sout_A c i arg3 harg3 arg4 harg4 arg5 harg5 arg6 harg6 hc0 hc1 hc2 x0 x1 = k0_pay3 x0 x1 (k0_pay2 (F := F)) := by
  unfold sout_A
  rw [View.read_writes_eq_canon _ _ _ (scover_A c i arg3 harg3 arg4 harg4 arg5 harg5 arg6 harg6 hc0 hc1 hc2 x0 x1)]
  unfold kernelRun_A
  dsimp only
  sl_unfold_words
  rw [View.canon_cons_unit_zero (S := S512x512) hz, View.readCov_unit_zero (S := S512x512) _ hz]
  simp only [View.readAt_eq_ld, harg3.read_unread, harg4.read_unread, View.ld_unit_zero (S := S2048x512) hz]

/-- Case B (reduction coordinate 0, not the first point): the same as case A for the accumulator. -/
theorem sout_B_eq (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : cond_1 i) (hc2 : ¬cond_2 i) (x0 x1 : Vec F S2048x512 .bf16) :
    sout_B c i arg3 harg3 arg4 harg4 arg5 harg5 arg6 harg6 hc0 hc1 hc2 x0 x1 = k0_pay3 x0 x1 (k0_pay2 (F := F)) := by
  unfold sout_B
  rw [View.read_writes_eq_canon _ _ _ (scover_B c i arg3 harg3 arg4 harg4 arg5 harg5 arg6 harg6 hc0 hc1 hc2 x0 x1)]
  unfold kernelRun_B
  dsimp only
  sl_unfold_words
  rw [View.canon_cons_unit_zero (S := S512x512) hz, View.readCov_unit_zero (S := S512x512) _ hz]
  simp only [View.readAt_eq_ld, harg3.read_unread, harg4.read_unread, View.ld_unit_zero (S := S2048x512) hz]

/-- Case C (reduction coordinate 1 or 2): the accumulator ends with its entering contents plus the product of the two
    input blocks. -/
theorem sout_C_eq (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : ¬cond_2 i) (x0 x1 : Vec F S2048x512 .bf16) (xs : Vec F S512x512 .f32) :
    sout_C c i arg3 harg3 arg4 harg4 arg5 harg5 arg6 harg6 hc0 hc1 hc2 x0 x1 xs = k0_pay3 x0 x1 xs := by
  unfold sout_C
  rw [View.read_writes_eq_canon _ _ _ (scover_C c i arg3 harg3 arg4 harg4 arg5 harg5 arg6 harg6 hc0 hc1 hc2 x0 x1 xs)]
  unfold kernelRun_C
  dsimp only
  sl_unfold_words
  rw [View.canon_unit_zero hz]
  simp only [View.readAt_eq_ld, harg3.read_unread, harg4.read_unread, harg6.read_unread, View.ld_unit_zero (S := S2048x512) hz, View.ld_unit_zero (S := S512x512) hz]

/-- Case D (reduction coordinate 3): the accumulator likewise. -/
theorem sout_D_eq (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) :
    sout_D c i arg3 harg3 arg4 harg4 arg5 harg5 arg6 harg6 hc0 hc1 hc2 x0 x1 xs xo = k0_pay3 x0 x1 xs := by
  unfold sout_D
  rw [View.read_writes_eq_canon _ _ _ (scover_D c i arg3 harg3 arg4 harg4 arg5 harg5 arg6 harg6 hc0 hc1 hc2 x0 x1 xs xo)]
  unfold kernelRun_D
  dsimp only
  sl_unfold_words
  rw [View.canon_unit_zero hz]
  simp only [View.readAt_eq_ld, harg3.read_unread, harg4.read_unread, harg6.read_unread, View.ld_unit_zero (S := S2048x512) hz, View.ld_unit_zero (S := S512x512) hz]

/-- Case D: the result's buffer ends with its entering contents plus the sum of the squares of the accumulator as the
    body has just left it. -/
theorem out_D_2_eq (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) :
    out_D_2 c i arg3 harg3 arg4 harg4 arg5 harg5 arg6 harg6 hc0 hc1 hc2 x0 x1 xs xo = k0_pay4 (k0_pay3 x0 x1 xs) xo := by
  unfold out_D_2
  rw [View.read_writes_eq_canon _ _ _ (cover_D_2 c i arg3 harg3 arg4 harg4 arg5 harg5 arg6 harg6 hc0 hc1 hc2 x0 x1 xs xo)]
  unfold kernelRun_D
  dsimp only
  sl_unfold_words
  rw [View.canon_unit_zero hz, View.readCov_unit_zero (S := S512x512) _ hz]
  simp only [View.readAt_eq_ld, harg3.read_unread, harg4.read_unread, harg5.read_unread, harg6.read_unread, View.ld_unit_zero (S := S2048x512) hz, View.ld_unit_zero (S := S512x512) hz, View.ld_unit_zero (S := S1x1) hz]

end Cert.KernelIdeal.Reg0

end
-- ==== Proof.KI0Blk.lean ====
/-
  Region 0 (the grid of 32 points, 4 × 2 × 4, in row-major order: point t is (i, j, k) with
  i = t / 8, j = (t / 4) % 2, k = t % 4): its input blocks as entries of the arrays the region finds, and
  its result array after the region.

  The first input window's block at a point is block (k, i) of the first centred-data array of 8192 × 2048 in blocks of
  2048 × 512, the second's is block (k, j) of the second centred-data array of 8192 × 1024: entry (n, p) of a block sits in
  its array at row k · 2048 + n and column (block column) · 512 + p — a block's coordinate on an axis is the block
  index times the block's size plus the coordinate inside the block. The printed index maps are decided once over
  the grid (`idx_facts`).

  The result window is one 1 × 1 block, written back at the last point only; that block covers the whole 1 × 1 array,
  so the array after the region is what the result's buffer holds after the last point (`arrAt_out`).
-/
import proofs.«157129_j47072841564786_1_alg».proof.Proof.KI0
import Idealize.ShloMosaic.Lib.ValueIdx
import Idealize.ShloMosaic.Lib.Pipeline.Value

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The printed index maps of the two input windows, decided once over the grid. -/
theorem idx_facts : ∀ t : Fin cfg0.N,
    win0_0.index t (0 : Fin 2) = t.val % 4 ∧ win0_0.index t (1 : Fin 2) = t.val / 8
    ∧ win0_1.index t (0 : Fin 2) = t.val % 4 ∧ win0_1.index t (1 : Fin 2) = (t.val / 4) % 2 :=
  (by decide +kernel : ∀ t : Fin grid0.N, _)

/-- Entry (n, p) of the first window's block at point t, in its array. -/
theorem iblk_0_apply (c : Dev nD) (t : Fin cfg0.N) (n : Fin 2048) (p : Fin 512) :
    (iblk V c 0 t : S2048x512.Idx → Elt F .bf16) (ValueIdx.ix2 n p)
      = (V c (Pipeline.arrRef spec0 0) : S8192x2048.Idx → Elt F .bf16)
          (ValueIdx.ix2 (⟨(t.val % 4) * 2048 + n.val, by have := n.isLt; omega⟩ : Fin 8192)
            (⟨(t.val / 8) * 512 + p.val, by
              have hN : t.val < 32 := lt_of_lt_of_eq t.isLt (show cfg0.N = 32 from N_0)
              have := p.isLt; omega⟩ : Fin 2048)) := by
  obtain ⟨e0, e1, -, -⟩ := idx_facts t
  unfold iblk
  rw [View.read_apply]
  show (V c (Pipeline.arrRef spec0 0) : S8192x2048.Idx → Elt F .bf16) _ = _
  congr 1
  funext a
  apply Fin.ext
  match a with
  | ⟨0, _⟩ => show win0_0.index t (0 : Fin 2) * 2048 + 1 * n.val = (t.val % 4) * 2048 + n.val; rw [e0]; omega
  | ⟨1, _⟩ => show win0_0.index t (1 : Fin 2) * 512 + 1 * p.val = (t.val / 8) * 512 + p.val; rw [e1]; omega

/-- Entry (n, q) of the second window's block at point t, in its array. -/
theorem iblk_1_apply (c : Dev nD) (t : Fin cfg0.N) (n : Fin 2048) (q : Fin 512) :
    (iblk V c 1 t : S2048x512.Idx → Elt F .bf16) (ValueIdx.ix2 n q)
      = (V c (Pipeline.arrRef spec0 1) : S8192x1024.Idx → Elt F .bf16)
          (ValueIdx.ix2 (⟨(t.val % 4) * 2048 + n.val, by have := n.isLt; omega⟩ : Fin 8192)
            (⟨((t.val / 4) % 2) * 512 + q.val, by have := q.isLt; omega⟩ : Fin 1024)) := by
  obtain ⟨-, -, e0, e1⟩ := idx_facts t
  unfold iblk
  rw [View.read_apply]
  show (V c (Pipeline.arrRef spec0 1) : S8192x1024.Idx → Elt F .bf16) _ = _
  congr 1
  funext a
  apply Fin.ext
  match a with
  | ⟨0, _⟩ => show win0_1.index t (0 : Fin 2) * 2048 + 1 * n.val = (t.val % 4) * 2048 + n.val; rw [e0]; omega
  | ⟨1, _⟩ => show win0_1.index t (1 : Fin 2) * 512 + 1 * q.val = ((t.val / 4) % 2) * 512 + q.val; rw [e1]; omega

/-- A 1×1 array has one index. -/
theorem idx11_eq (y y' : S1x1.Idx) : y = y' := funext fun a => Fin.ext (by
  match a with
  | ⟨0, _⟩ =>
    have h := ValueIdx.idx2_lt0 y; have h' := ValueIdx.idx2_lt0 y'
    show (y 0).val = (y' 0).val; omega
  | ⟨1, _⟩ =>
    have h := ValueIdx.idx2_lt1 y; have h' := ValueIdx.idx2_lt1 y'
    show (y 1).val = (y' 1).val; omega)

/-- The last point of the grid. -/
theorem lastLt : 31 < cfg0.N := by have h : cfg0.N = 32 := N_0; omega

/-- The one write-back, at the last point, writes what the result's buffer holds after that point: block (0, 0) of a
    1×1 array is the array. -/
theorem flushed_2_eq (c : Dev nD) (t : Fin cfg0.N) (hf : (cfg0.win 2).flush t = true) :
    (dat V c).flushed 2 t = ((cfg0.win 2).blk t).view.read (Elt F) ((outsAt V c 31 lastLt).1 : Vec F S1x1 .f32) := by
  have hN : cfg0.N = 32 := N_0
  have h1 : t.val = 31 := by have := (flush0_2 t).mp hf; have := t.isLt; omega
  obtain rfl : t = ⟨31, lastLt⟩ := Fin.ext h1
  show (cfg0.win 2).cut (grid0.coords _) ((dat V c).after 2 _) = _
  rw [after_2]
  funext j
  rw [View.read_apply]
  show (outsAt V c 31 _).1 _ = (outsAt V c 31 _).1 _
  exact congrArg _ (idx11_eq _ _)

/-- The result array after the region holds what the recursion says the result's buffer holds after the last point. -/
theorem arrAt_out (c : Dev nD) :
    ((dat V c).arrAt 2 cfg0.N : S1x1.Idx → Elt F .f32) = (outsAt V c 31 lastLt).1 :=
  (dat V c).arrAt_eq_of_cover 2 ((outsAt V c 31 lastLt).1 : Vec F S1x1 .f32) (flushed_2_eq V c) fun i =>
    ⟨⟨31, lastLt⟩, (flush0_2 _).mpr rfl, by
      show i ∈ ((View.whole main_v14).slice (win0_2.rect ⟨31, lastLt⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index ⟨31, lastLt⟩ 0 * win0_2.size 0 ≤ (i 0 : Nat)
          ∧ (i 0 : Nat) < win0_2.index ⟨31, lastLt⟩ 0 * win0_2.size 0 + win0_2.xsize (grid0.coords ⟨31, lastLt⟩) 0
        rw [show win0_2.index ⟨31, lastLt⟩ 0 * win0_2.size 0 = 0 from rfl,
          show win0_2.xsize (grid0.coords ⟨31, lastLt⟩) 0 = 1 from rfl]
        omega
      | ⟨1, _⟩ =>
        show win0_2.index ⟨31, lastLt⟩ 1 * win0_2.size 1 ≤ (i 1 : Nat)
          ∧ (i 1 : Nat) < win0_2.index ⟨31, lastLt⟩ 1 * win0_2.size 1 + win0_2.xsize (grid0.coords ⟨31, lastLt⟩) 1
        rw [show win0_2.index ⟨31, lastLt⟩ 1 * win0_2.size 1 = 0 from rfl,
          show win0_2.xsize (grid0.coords ⟨31, lastLt⟩) 1 = 1 from rfl]
        omega⟩

/-- The same, at an index. -/
theorem arrAt_out_apply (c : Dev nD) (y : S1x1.Idx) :
    ((dat V c).arrAt 2 cfg0.N : S1x1.Idx → Elt F .f32) y = (outsAt V c 31 lastLt).1 y :=
  congrFun (arrAt_out V c) y

end Cert.KernelIdeal.Reg0

end
-- ==== Proof.PayIdeal.lean ====
import proofs.«157129_j47072841564786_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayVal

open Cert.KernelIdeal Cert.KernelIdeal.Gen Idealize.ShloMosaic Idealize.ShloMosaic.ValueIdx
open scoped BigOperators

/-- Axis 1 of the left operand (its kept axis) carries the output's row coordinate. -/
theorem lhs_ax1 (i : S512x512.Idx) (c : dot_S2048x512_S2048x512_S512x512_0_0_1_1_n_n.contr.Idx) :
    (dot_S2048x512_S2048x512_S512x512_0_0_1_1_n_n.lhsIdx i c 1).val = (i 0).val := by
  unfold DotDims.lhsIdx
  rw [dif_neg (show ¬(1 : Fin S2048x512.rank) ∈ dot_S2048x512_S2048x512_S512x512_0_0_1_1_n_n.lhsBatch by decide), dif_pos (show (1 : Fin S2048x512.rank) ∈ dot_S2048x512_S2048x512_S512x512_0_0_1_1_n_n.lhsNonContracting by decide)]
  rfl

/-- Axis 0 of the left operand (its contracted axis) carries the contraction coordinate. -/
theorem lhs_ax0 (i : S512x512.Idx) (c : dot_S2048x512_S2048x512_S512x512_0_0_1_1_n_n.contr.Idx) :
    (dot_S2048x512_S2048x512_S512x512_0_0_1_1_n_n.lhsIdx i c 0).val = (c ⟨0, by decide⟩).val :=
  dot_S2048x512_S2048x512_S512x512_0_0_1_1_n_n.lhsIdx_val_of_single rfl i c

/-- Axis 1 of the right operand (its kept axis) carries the output's column coordinate. -/
theorem rhs_ax1 (i : S512x512.Idx) (c : dot_S2048x512_S2048x512_S512x512_0_0_1_1_n_n.contr.Idx) :
    (dot_S2048x512_S2048x512_S512x512_0_0_1_1_n_n.rhsIdx i c 1).val = (i 1).val := by
  unfold DotDims.rhsIdx
  rw [dif_neg (show ¬(1 : Fin S2048x512.rank) ∈ dot_S2048x512_S2048x512_S512x512_0_0_1_1_n_n.rhsBatch by decide), dif_pos (show (1 : Fin S2048x512.rank) ∈ dot_S2048x512_S2048x512_S512x512_0_0_1_1_n_n.rhsNonContracting by decide)]
  rfl

/-- Axis 0 of the right operand (its contracted axis) carries the contraction coordinate. -/
theorem rhs_ax0 (i : S512x512.Idx) (c : dot_S2048x512_S2048x512_S512x512_0_0_1_1_n_n.contr.Idx) :
    (dot_S2048x512_S2048x512_S512x512_0_0_1_1_n_n.rhsIdx i c 0).val = (c ⟨0, by decide⟩).val :=
  dot_S2048x512_S2048x512_S512x512_0_0_1_1_n_n.rhsIdx_val_of_single rfl i c

/-- The left operand's index at output (p, q) and contraction coordinate k is (k, p). -/
theorem lhs_idx (p q : Fin 512) (k : Fin 2048) :
    dot_S2048x512_S2048x512_S512x512_0_0_1_1_n_n.lhsIdx (ix2 p q)
      ((ValueIdx.contrEquiv1 dot_S2048x512_S2048x512_S512x512_0_0_1_1_n_n 2048 rfl rfl).symm k) = ix2 k p := by
  have hk := ValueIdx.contrEquiv1_symm_val dot_S2048x512_S2048x512_S512x512_0_0_1_1_n_n 2048 rfl rfl k
  refine funext fun a => Fin.ext ?_
  match a with
  | ⟨0, _⟩ => exact (lhs_ax0 _ _).trans hk
  | ⟨1, _⟩ => exact lhs_ax1 _ _

/-- The right operand's index at output (p, q) and contraction coordinate k is (k, q). -/
theorem rhs_idx (p q : Fin 512) (k : Fin 2048) :
    dot_S2048x512_S2048x512_S512x512_0_0_1_1_n_n.rhsIdx (ix2 p q)
      ((ValueIdx.contrEquiv1 dot_S2048x512_S2048x512_S512x512_0_0_1_1_n_n 2048 rfl rfl).symm k) = ix2 k q := by
  have hk := ValueIdx.contrEquiv1_symm_val dot_S2048x512_S2048x512_S512x512_0_0_1_1_n_n 2048 rfl rfl k
  refine funext fun a => Fin.ext ?_
  match a with
  | ⟨0, _⟩ => exact (rhs_ax0 _ _).trans hk
  | ⟨1, _⟩ => exact rhs_ax1 _ _

/-- The transposed-left product into the zero accumulator, read at (p, q): the sum over the 2048 rows. -/
theorem matmul_at (a b : FVec Ideal S2048x512 .bf16) (p q : Fin 512) :
    matmul dot_S2048x512_S2048x512_S512x512_0_0_1_1_n_n none a b (constant S512x512 .f32 0x00000000#32) (ix2 p q)
      = ∑ n : Fin 2048, a (ix2 n p) * b (ix2 n q) := by
  simp only [matmul]
  rw [Ideal.matmul_constant_zero_apply, ← Equiv.sum_comp (ValueIdx.contrEquiv1 dot_S2048x512_S2048x512_S512x512_0_0_1_1_n_n 2048 rfl rfl).symm]
  refine Finset.sum_congr rfl fun k _ => ?_
  rw [lhs_idx, rhs_idx]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun t := ix3 t.1 t.2.1 t.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum of the whole 1×512×512 view of a 512×512 array is the double sum over its rows and columns. -/
theorem sum_view (v : FVec Ideal S512x512 .f32) (h : S512x512.ShapeCasts S1x512x512) :
    ∑ i : S1x512x512.Idx, shapeCast S1x512x512 v h i = ∑ p : Fin 512, ∑ q : Fin 512, v (ix2 p q) := by
  refine (sum_idx3 _).trans ?_
  rw [Fin.sum_univ_one]
  refine Finset.sum_congr rfl fun p _ => Finset.sum_congr rfl fun q _ => ?_
  exact shapeCast_ab_1ab_apply v h (0 : Fin 1) p q

/-! ## Kernel 0 -/

/-- The first stored value is the zero splat. -/
theorem pay1_0 (y : S1x1.Idx) : k0_pay1 (F := Ideal) y = 0 := by
  unfold k0_pay1
  exact Ideal.ofBits_zero_f32

/-- The second stored value is the zero splat (through an identity reshape). -/
theorem pay2_0 (y : S512x512.Idx) : k0_pay2 (F := Ideal) y = 0 := by
  unfold k0_pay2
  rw [shapeCast_self]
  exact Ideal.ofBits_zero_f32

/-- The third stored value at (p, q): the accumulator there plus the sum over the 2048 rows of the operands' products. -/
theorem pay3_0 (a b : Vec Ideal S2048x512 .bf16) (s : Vec Ideal S512x512 .f32) (p q : Fin 512) :
    k0_pay3 a b s (ix2 p q) = s (ix2 p q) + ∑ n : Fin 2048, a (ix2 n p) * b (ix2 n q) := by
  unfold k0_pay3
  rw [shapeCast_self, shapeCast_self, shapeCast_self]
  refine (addf_apply _ _ _).trans ?_
  exact congrArg (s (ix2 p q) + ·) (matmul_at a b p q)

/-- The fourth stored value: the running scalar plus the sum of the squares of all 512×512 entries. -/
theorem pay4_0 (s : Vec Ideal S512x512 .f32) (o : Vec Ideal S1x1 .f32) (y : S1x1.Idx) :
    k0_pay4 s o y = o y + ∑ p : Fin 512, ∑ q : Fin 512, s (ix2 p q) * s (ix2 p q) := by
  unfold k0_pay4
  rw [shapeCast_self]
  refine (addf_apply _ _ _).trans ?_
  refine congrArg (o y + ·) ?_
  refine (broadcast_apply _ _).trans ?_
  unfold extractAt shapeCast
  refine (Ideal.multiReduction_add_total _ _ _ (by decide) _ _ _).trans ?_
  exact sum_view (mulf s s) _

/-! ## Kernel 1 -/

/-- The first stored value is the zero splat. -/
theorem pay1_1 (y : S1x1.Idx) : k1_pay1 (F := Ideal) y = 0 := by
  unfold k1_pay1
  exact Ideal.ofBits_zero_f32

/-- The second stored value is the zero splat (through an identity reshape). -/
theorem pay2_1 (y : S512x512.Idx) : k1_pay2 (F := Ideal) y = 0 := by
  unfold k1_pay2
  rw [shapeCast_self]
  exact Ideal.ofBits_zero_f32

/-- The third stored value at (p, q): the accumulator there plus the sum over the 2048 rows of the operands' products. -/
theorem pay3_1 (a b : Vec Ideal S2048x512 .bf16) (s : Vec Ideal S512x512 .f32) (p q : Fin 512) :
    k1_pay3 a b s (ix2 p q) = s (ix2 p q) + ∑ n : Fin 2048, a (ix2 n p) * b (ix2 n q) := by
  unfold k1_pay3
  rw [shapeCast_self, shapeCast_self, shapeCast_self]
  refine (addf_apply _ _ _).trans ?_
  exact congrArg (s (ix2 p q) + ·) (matmul_at a b p q)

/-- The fourth stored value: the running scalar plus the sum of the squares of all 512×512 entries. -/
theorem pay4_1 (s : Vec Ideal S512x512 .f32) (o : Vec Ideal S1x1 .f32) (y : S1x1.Idx) :
    k1_pay4 s o y = o y + ∑ p : Fin 512, ∑ q : Fin 512, s (ix2 p q) * s (ix2 p q) := by
  unfold k1_pay4
  rw [shapeCast_self]
  refine (addf_apply _ _ _).trans ?_
  refine congrArg (o y + ·) ?_
  refine (broadcast_apply _ _).trans ?_
  unfold extractAt shapeCast
  refine (Ideal.multiReduction_add_total _ _ _ (by decide) _ _ _).trans ?_
  exact sum_view (mulf s s) _

/-! ## Kernel 2 -/

/-- The first stored value is the zero splat. -/
theorem pay1_2 (y : S1x1.Idx) : k2_pay1 (F := Ideal) y = 0 := by
  unfold k2_pay1
  exact Ideal.ofBits_zero_f32

/-- The second stored value is the zero splat (through an identity reshape). -/
theorem pay2_2 (y : S512x512.Idx) : k2_pay2 (F := Ideal) y = 0 := by
  unfold k2_pay2
  rw [shapeCast_self]
  exact Ideal.ofBits_zero_f32

/-- The third stored value at (p, q): the accumulator there plus the sum over the 2048 rows of the operands' products. -/
theorem pay3_2 (a b : Vec Ideal S2048x512 .bf16) (s : Vec Ideal S512x512 .f32) (p q : Fin 512) :
    k2_pay3 a b s (ix2 p q) = s (ix2 p q) + ∑ n : Fin 2048, a (ix2 n p) * b (ix2 n q) := by
  unfold k2_pay3
  rw [shapeCast_self, shapeCast_self, shapeCast_self]
  refine (addf_apply _ _ _).trans ?_
  exact congrArg (s (ix2 p q) + ·) (matmul_at a b p q)

/-- The fourth stored value: the running scalar plus the sum of the squares of all 512×512 entries. -/
theorem pay4_2 (s : Vec Ideal S512x512 .f32) (o : Vec Ideal S1x1 .f32) (y : S1x1.Idx) :
    k2_pay4 s o y = o y + ∑ p : Fin 512, ∑ q : Fin 512, s (ix2 p q) * s (ix2 p q) := by
  unfold k2_pay4
  rw [shapeCast_self]
  refine (addf_apply _ _ _).trans ?_
  refine congrArg (o y + ·) ?_
  refine (broadcast_apply _ _).trans ?_
  unfold extractAt shapeCast
  refine (Ideal.multiReduction_add_total _ _ _ (by decide) _ _ _).trans ?_
  exact sum_view (mulf s s) _

end Cert.KernelIdeal.PayVal
-- ==== Proof.GridSum.lean ====
import Mathlib

/-!
# A blocked accumulation over a grid computes a squared Frobenius norm

A grid of `I × J × 4` points is walked in row-major order, `t = (i * J + j) * 4 + k`.
At each point a `512 × 512` accumulator (restarted when `k = 0`) receives the product of a
`2048`-row block of two matrices; when `k = 3` the sum of the squares of the accumulator is added
to a running scalar.  Over the whole grid the scalar equals `∑ P Q, (∑ n, a n P * b n Q) ^ 2`,
the squared Frobenius norm of `aᵀ b`.
-/

noncomputable section
namespace Cert.GridSum
open Finset BigOperators

/-- A sum over `range (m * n)` is an iterated sum over `range m` and `range n`. -/
theorem sum_range_mul_eq {M : Type*} [AddCommMonoid M] (m n : ℕ) (f : ℕ → M) :
    ∑ s ∈ range (m * n), f s = ∑ i ∈ range m, ∑ j ∈ range n, f (i * n + j) := by
  induction m with
  | zero => simp
  | succ m ih =>
    rw [Nat.succ_mul, Finset.sum_range_add, ih, Finset.sum_range_succ]

/-- A sum over four terms, written out. -/
theorem sum_range_four {M : Type*} [AddCommMonoid M] (g : ℕ → M) :
    ∑ k ∈ range 4, g k = g 0 + g 1 + g 2 + g 3 := by
  simp [Finset.sum_range_succ]

variable (J : ℕ) (a b : ℕ → ℕ → ℝ)

def kk (t : ℕ) : ℕ := t % 4
def jj (t : ℕ) : ℕ := (t / 4) % J
def ii (t : ℕ) : ℕ := t / (4 * J)
def mm (t p q : ℕ) : ℝ :=
  ∑ n ∈ range 2048, a (kk t * 2048 + n) (ii J t * 512 + p) * b (kk t * 2048 + n) (jj J t * 512 + q)
def accR : ℕ → ℕ → ℕ → ℝ
  | 0 => fun p q => 0 + mm J a b 0 p q
  | t + 1 => fun p q =>
      if (t + 1) % 4 = 0 then 0 + mm J a b (t + 1) p q else accR t p q + mm J a b (t + 1) p q
def outR : ℕ → ℝ
  | 0 => 0
  | t + 1 =>
      if (t + 1) % 4 = 3 then
        outR t + ∑ p ∈ range 512, ∑ q ∈ range 512, accR J a b (t + 1) p q * accR J a b (t + 1) p q
      else outR t

/-! ### Index arithmetic on a block of four consecutive points -/

theorem kk_block (s k : ℕ) (hk : k < 4) : kk (4 * s + k) = k := by
  unfold kk; omega

theorem jj_block (s k : ℕ) (hk : k < 4) : jj J (4 * s + k) = s % J := by
  unfold jj
  have h : (4 * s + k) / 4 = s := by omega
  rw [h]

theorem ii_block (s k : ℕ) (hk : k < 4) : ii J (4 * s + k) = s / J := by
  unfold ii
  have h : (4 * s + k) / 4 = s := by omega
  rw [← Nat.div_div_eq_div_mul, h]

/-- The product block added at the point `4 * s + k`. -/
theorem mm_block (s k : ℕ) (hk : k < 4) (p q : ℕ) :
    mm J a b (4 * s + k) p q =
      ∑ n ∈ range 2048, a (k * 2048 + n) (s / J * 512 + p) * b (k * 2048 + n) (s % J * 512 + q) := by
  unfold mm
  rw [kk_block s k hk, jj_block J s k hk, ii_block J s k hk]

/-! ### The accumulator -/

theorem accR_succ_restart (t : ℕ) (h : (t + 1) % 4 = 0) (p q : ℕ) :
    accR J a b (t + 1) p q = mm J a b (t + 1) p q := by
  rw [accR]; simp only [h, if_true, zero_add]

theorem accR_succ_add (t : ℕ) (h : (t + 1) % 4 ≠ 0) (p q : ℕ) :
    accR J a b (t + 1) p q = accR J a b t p q + mm J a b (t + 1) p q := by
  rw [accR]; simp only [h, if_false]

theorem accR_block0 (s p q : ℕ) : accR J a b (4 * s) p q = mm J a b (4 * s) p q := by
  cases s with
  | zero => simp [accR]
  | succ s =>
    have h : 4 * (s + 1) = (4 * s + 3) + 1 := by ring
    rw [h]
    exact accR_succ_restart J a b (4 * s + 3) (by omega) p q

/-- At the last point of a block the accumulator holds the full product over `8192` rows. -/
theorem accR_block3 (s p q : ℕ) :
    accR J a b (4 * s + 3) p q =
      ∑ n ∈ range 8192, a n (s / J * 512 + p) * b n (s % J * 512 + q) := by
  have h1 : accR J a b (4 * s + 1) p q = accR J a b (4 * s) p q + mm J a b (4 * s + 1) p q :=
    accR_succ_add J a b (4 * s) (by omega) p q
  have h2 : accR J a b (4 * s + 2) p q = accR J a b (4 * s + 1) p q + mm J a b (4 * s + 2) p q :=
    accR_succ_add J a b (4 * s + 1) (by omega) p q
  have h3 : accR J a b (4 * s + 3) p q = accR J a b (4 * s + 2) p q + mm J a b (4 * s + 3) p q :=
    accR_succ_add J a b (4 * s + 2) (by omega) p q
  have h0 : accR J a b (4 * s) p q = mm J a b (4 * s + 0) p q := accR_block0 J a b s p q
  rw [h3, h2, h1, h0, mm_block J a b s 0 (by omega), mm_block J a b s 1 (by omega),
    mm_block J a b s 2 (by omega), mm_block J a b s 3 (by omega)]
  rw [show (8192 : ℕ) = 4 * 2048 by norm_num,
    sum_range_mul_eq 4 2048 (fun n => a n (s / J * 512 + p) * b n (s % J * 512 + q)),
    sum_range_four]

/-! ### The running scalar -/

/-- The contribution of block `s` to the running scalar. -/
def blockTerm (s : ℕ) : ℝ :=
  ∑ p ∈ range 512, ∑ q ∈ range 512,
    (∑ n ∈ range 8192, a n (s / J * 512 + p) * b n (s % J * 512 + q)) ^ 2

theorem outR_succ_add (t : ℕ) (h : (t + 1) % 4 = 3) :
    outR J a b (t + 1) = outR J a b t +
      ∑ p ∈ range 512, ∑ q ∈ range 512, accR J a b (t + 1) p q * accR J a b (t + 1) p q := by
  rw [outR]; simp only [h, if_true]

theorem outR_succ_keep (t : ℕ) (h : (t + 1) % 4 ≠ 3) : outR J a b (t + 1) = outR J a b t := by
  rw [outR]; simp only [h, if_false]

theorem outR_block3 (s : ℕ) :
    outR J a b (4 * s + 3) = outR J a b (4 * s) + blockTerm J a b s := by
  have h1 : outR J a b (4 * s + 1) = outR J a b (4 * s) := outR_succ_keep J a b (4 * s) (by omega)
  have h2 : outR J a b (4 * s + 2) = outR J a b (4 * s + 1) :=
    outR_succ_keep J a b (4 * s + 1) (by omega)
  have h3 := outR_succ_add J a b (4 * s + 2) (by omega)
  rw [h3, h2, h1]
  congr 1
  unfold blockTerm
  refine Finset.sum_congr rfl (fun p _ => Finset.sum_congr rfl (fun q _ => ?_))
  rw [accR_block3, sq]

theorem outR_block_next (s : ℕ) : outR J a b (4 * (s + 1)) = outR J a b (4 * s + 3) := by
  have h : 4 * (s + 1) = (4 * s + 3) + 1 := by ring
  rw [h]
  exact outR_succ_keep J a b (4 * s + 3) (by omega)

theorem outR_block0 (s : ℕ) : outR J a b (4 * s) = ∑ s' ∈ range s, blockTerm J a b s' := by
  induction s with
  | zero => simp [outR]
  | succ s ih => rw [outR_block_next, outR_block3, ih, Finset.sum_range_succ]

theorem outR_block3_sum (s : ℕ) :
    outR J a b (4 * s + 3) = ∑ s' ∈ range (s + 1), blockTerm J a b s' := by
  rw [outR_block3, outR_block0, Finset.sum_range_succ]

/-! ### Re-indexing the blocks as a grid -/

theorem outR_last (I : ℕ) (hI : 0 < I) (hJ : 0 < J) :
    outR J a b (I * J * 4 - 1) =
      ∑ P ∈ range (I * 512), ∑ Q ∈ range (J * 512), (∑ n ∈ range 8192, a n P * b n Q) ^ 2 := by
  have hIJ : 0 < I * J := Nat.mul_pos hI hJ
  have ht : I * J * 4 - 1 = 4 * (I * J - 1) + 3 := by omega
  have hs : I * J - 1 + 1 = I * J := by omega
  rw [ht, outR_block3_sum, hs, sum_range_mul_eq I J, sum_range_mul_eq I 512]
  refine Finset.sum_congr rfl (fun i _ => ?_)
  have hL : ∀ j ∈ range J, blockTerm J a b (i * J + j) =
      ∑ p ∈ range 512, ∑ q ∈ range 512,
        (∑ n ∈ range 8192, a n (i * 512 + p) * b n (j * 512 + q)) ^ 2 := by
    intro j hj
    have hjJ : j < J := Finset.mem_range.mp hj
    unfold blockTerm
    have hd : (i * J + j) / J = i := by
      rw [Nat.mul_comm i J, Nat.mul_add_div hJ, Nat.div_eq_of_lt hjJ, Nat.add_zero]
    have hm : (i * J + j) % J = j := by
      rw [Nat.mul_comm i J, Nat.mul_add_mod, Nat.mod_eq_of_lt hjJ]
    rw [hd, hm]
  rw [Finset.sum_congr rfl hL, Finset.sum_comm]
  refine Finset.sum_congr rfl (fun p _ => ?_)
  rw [sum_range_mul_eq J 512]

end Cert.GridSum
-- ==== Proof.ExtMat.lean ====
import Mathlib

/-!
# Matrices over finite index ranges, extended by zero to all natural indices

A matrix `a : Fin n → Fin d → ℝ` is read at natural-number indices as `ext a i p`, equal to the entry
when both indices are in range and `0` otherwise; sums over `Finset.range` of the extension are sums
over the finite index types of the matrix. Also: a finite sum of real numbers, read as extended reals.
-/

noncomputable section
namespace Cert.GridSum
open Finset BigOperators

/-- The matrix `a` read at natural-number indices, zero outside its index ranges. -/
def ext {n d : ℕ} (a : Fin n → Fin d → ℝ) : ℕ → ℕ → ℝ :=
  fun i p => if h : i < n ∧ p < d then a ⟨i, h.1⟩ ⟨p, h.2⟩ else 0

/-- Inside its index ranges the extension is the entry. -/
theorem ext_apply {n d : ℕ} (a : Fin n → Fin d → ℝ) (i p : ℕ) (hi : i < n) (hp : p < d) :
    ext a i p = a ⟨i, hi⟩ ⟨p, hp⟩ := by
  unfold ext
  rw [dif_pos ⟨hi, hp⟩]

/-- At the values of indices of the matrix the extension is the entry. -/
theorem ext_val {n d : ℕ} (a : Fin n → Fin d → ℝ) (i : Fin n) (p : Fin d) :
    ext a i.val p.val = a i p :=
  ext_apply a i.val p.val i.isLt p.isLt

/-- A finite sum of real numbers, read as extended reals, is the sum of the readings. -/
theorem coe_sum_ereal {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The squared Frobenius norm of `aᵀ b` over `Finset.range` sums of the extensions is the one over the
index types. -/
theorem sum_ext_sq {N d1 d2 : ℕ} (a : Fin N → Fin d1 → ℝ) (b : Fin N → Fin d2 → ℝ) :
    ∑ P ∈ range d1, ∑ Q ∈ range d2, (∑ n ∈ range N, ext a n P * ext b n Q) ^ 2
      = ∑ p : Fin d1, ∑ q : Fin d2, (∑ n : Fin N, a n p * b n q) ^ 2 := by
  rw [Finset.sum_range]
  refine Finset.sum_congr rfl fun p _ => ?_
  rw [Finset.sum_range]
  refine Finset.sum_congr rfl fun q _ => ?_
  rw [Finset.sum_range]
  refine congrArg (· ^ 2) (Finset.sum_congr rfl fun n _ => ?_)
  rw [ext_val, ext_val]

/-- A double sum of squares of extended reals that are readings of real numbers is the reading of the double
`Finset.range` sum of the squares. -/
theorem sum_sq_coe (n m : ℕ) (g : ℕ → ℕ → ℝ) (s : Fin n → Fin m → EReal)
    (h : ∀ p q, s p q = ((g p.val q.val : ℝ) : EReal)) :
    ∑ p : Fin n, ∑ q : Fin m, s p q * s p q
      = ((∑ p ∈ range n, ∑ q ∈ range m, g p q * g p q : ℝ) : EReal) := by
  rw [Finset.sum_range, ← coe_sum_ereal]
  refine Finset.sum_congr rfl fun p _ => ?_
  rw [Finset.sum_range, ← coe_sum_ereal]
  refine Finset.sum_congr rfl fun q _ => ?_
  rw [h p q, EReal.coe_mul]

end Cert.GridSum
-- ==== Proof.KI0Acc.lean ====
/-
  Region 0 of the idealized program as real numbers. The region walks a grid of 4 × 2 × 4 points; after each
  point the accumulator and the result's buffer hold, as extended reals, the values of the blocked accumulation over
  the real matrices the two input arrays hold (the matrices read at natural-number indices, zero outside their
  ranges), and after the last point the result array holds the squared Frobenius norm of the product of the
  transposed first matrix and the second.
-/
import proofs.«157129_j47072841564786_1_alg».proof.Proof.KI0Val
import proofs.«157129_j47072841564786_1_alg».proof.Proof.KI0Blk
import proofs.«157129_j47072841564786_1_alg».proof.Proof.PayIdeal
import proofs.«157129_j47072841564786_1_alg».proof.Proof.GridSum
import proofs.«157129_j47072841564786_1_alg».proof.Proof.ExtMat

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.GridSum (ext accR outR mm kk ii jj)
open scoped BigOperators

/-! ## What each case leaves, over the payloads -/

section Steps
variable {F : FTy → Type} [FloatOps F]
variable (V : (c : Dev nD) → (b : Ref sig .tc) → Buf (Elt F) ((c : Thread nD τ).loc b))

/-- The first point: the result is zeroed; the accumulator is zeroed and receives the first product. -/
theorem outsAt_zero_pay (c : Dev nD) (ht : 0 < cfg0.N) :
    outsAt V c 0 ht = (k0_pay1, k0_pay3 (iblk V c 0 ⟨0, ht⟩) (iblk V c 1 ⟨0, ht⟩) k0_pay2) := by
  have hc0 : cond_0 (grid0.coords ⟨0, ht⟩) := (hcond_0 ⟨0, ht⟩).mpr rfl
  have hc1 : cond_1 (grid0.coords ⟨0, ht⟩) := (hcond_1 ⟨0, ht⟩).mpr (Nat.zero_mod _)
  have hc2 : ¬cond_2 (grid0.coords ⟨0, ht⟩) := fun h => (fun h' => by (try dsimp only at h'); omega) ((hcond_2 ⟨0, ht⟩).mp h)
  have e := outsAt_A V c ⟨0, ht⟩ rfl hc0 hc1 hc2
  rw [out_A_2_eq, sout_A_eq] at e
  exact e

/-- A later point where the reduction starts again: the result is carried; the accumulator is zeroed and receives
the product. -/
theorem outsAt_succ_pay_B (c : Dev nD) (t : ℕ) (ht : t + 1 < cfg0.N) (h1 : (t + 1) % 4 = 0) :
    outsAt V c (t + 1) ht = ((outsAt V c t (Nat.lt_of_succ_lt ht)).1,
      k0_pay3 (iblk V c 0 ⟨t + 1, ht⟩) (iblk V c 1 ⟨t + 1, ht⟩) k0_pay2) := by
  have hc0 : ¬cond_0 (grid0.coords ⟨t + 1, ht⟩) := fun h => Nat.succ_ne_zero t ((hcond_0 ⟨t + 1, ht⟩).mp h)
  have hc1 : cond_1 (grid0.coords ⟨t + 1, ht⟩) := (hcond_1 ⟨t + 1, ht⟩).mpr h1
  have hc2 : ¬cond_2 (grid0.coords ⟨t + 1, ht⟩) := fun h => (fun h' => by (try dsimp only at h'); omega) ((hcond_2 ⟨t + 1, ht⟩).mp h)
  have e := outsAt_B V c ⟨t + 1, ht⟩ (Nat.succ_ne_zero t) h1 hc0 hc1 hc2
  rw [sout_B_eq] at e
  exact e

/-- A point where the reduction goes on: the result is carried; the accumulator receives the product. -/
theorem outsAt_succ_pay_C (c : Dev nD) (t : ℕ) (ht : t + 1 < cfg0.N) (h1 : ¬(t + 1) % 4 = 0) (h2 : ¬(t + 1) % 4 = 3) :
    outsAt V c (t + 1) ht = ((outsAt V c t (Nat.lt_of_succ_lt ht)).1,
      k0_pay3 (iblk V c 0 ⟨t + 1, ht⟩) (iblk V c 1 ⟨t + 1, ht⟩) (outsAt V c t (Nat.lt_of_succ_lt ht)).2) := by
  have hc0 : ¬cond_0 (grid0.coords ⟨t + 1, ht⟩) := fun h => Nat.succ_ne_zero t ((hcond_0 ⟨t + 1, ht⟩).mp h)
  have hc1 : ¬cond_1 (grid0.coords ⟨t + 1, ht⟩) := fun h => h1 ((hcond_1 ⟨t + 1, ht⟩).mp h)
  have hc2 : ¬cond_2 (grid0.coords ⟨t + 1, ht⟩) := fun h => h2 ((hcond_2 ⟨t + 1, ht⟩).mp h)
  have e := outsAt_C V c ⟨t + 1, ht⟩ (Nat.succ_ne_zero t) h1 h2 hc0 hc1 hc2
  rw [sout_C_eq] at e
  exact e

/-- A point where the reduction ends: the accumulator receives the product, and the result the sum of the
accumulator's squares. -/
theorem outsAt_succ_pay_D (c : Dev nD) (t : ℕ) (ht : t + 1 < cfg0.N) (h1 : ¬(t + 1) % 4 = 0) (h2 : (t + 1) % 4 = 3) :
    outsAt V c (t + 1) ht =
      (k0_pay4 (k0_pay3 (iblk V c 0 ⟨t + 1, ht⟩) (iblk V c 1 ⟨t + 1, ht⟩) (outsAt V c t (Nat.lt_of_succ_lt ht)).2)
          (outsAt V c t (Nat.lt_of_succ_lt ht)).1,
        k0_pay3 (iblk V c 0 ⟨t + 1, ht⟩) (iblk V c 1 ⟨t + 1, ht⟩) (outsAt V c t (Nat.lt_of_succ_lt ht)).2) := by
  have hc0 : ¬cond_0 (grid0.coords ⟨t + 1, ht⟩) := fun h => Nat.succ_ne_zero t ((hcond_0 ⟨t + 1, ht⟩).mp h)
  have hc1 : ¬cond_1 (grid0.coords ⟨t + 1, ht⟩) := fun h => h1 ((hcond_1 ⟨t + 1, ht⟩).mp h)
  have hc2 : cond_2 (grid0.coords ⟨t + 1, ht⟩) := (hcond_2 ⟨t + 1, ht⟩).mpr h2
  have e := outsAt_D V c ⟨t + 1, ht⟩ (Nat.succ_ne_zero t) h1 h2 hc0 hc1 hc2
  rw [out_D_2_eq, sout_D_eq] at e
  exact e

end Steps

/-! ## The accumulator and the result as real numbers -/

section Real
variable (V : (c : Dev nD) → (b : Ref sig .tc) → Buf (Elt Ideal) ((c : Thread nD τ).loc b))
variable (c : Dev nD) (ar : Fin 8192 → Fin 2048 → ℝ) (br : Fin 8192 → Fin 1024 → ℝ)

/-- An entry of the first operand's block at point `t` is the entry of the real matrix the grid point names. -/
theorem iblk_0_real (hA : ∀ n p, V c (Pipeline.arrRef spec0 0) (ix2 n p) = ((ar n p : ℝ) : EReal))
    (t : Fin cfg0.N) (n : Fin 2048) (p : Fin 512) :
    (iblk V c 0 t : Vec Ideal S2048x512 .bf16) (ix2 n p)
      = ((ext ar (t.val % 4 * 2048 + n.val) (t.val / 8 * 512 + p.val) : ℝ) : EReal) := by
  have hN : t.val < 32 := lt_of_lt_of_eq t.isLt (show cfg0.N = 32 from N_0)
  have h1 : t.val % 4 * 2048 + n.val < 8192 := by have := n.isLt; omega
  have h2 : t.val / 8 * 512 + p.val < 2048 := by have := p.isLt; omega
  rw [Cert.GridSum.ext_apply ar _ _ h1 h2]
  exact (iblk_0_apply V c t n p).trans (hA _ _)

/-- An entry of the second operand's block at point `t` is the entry of the real matrix the grid point names. -/
theorem iblk_1_real (hB : ∀ n q, V c (Pipeline.arrRef spec0 1) (ix2 n q) = ((br n q : ℝ) : EReal))
    (t : Fin cfg0.N) (n : Fin 2048) (q : Fin 512) :
    (iblk V c 1 t : Vec Ideal S2048x512 .bf16) (ix2 n q)
      = ((ext br (t.val % 4 * 2048 + n.val) (t.val / 4 % 2 * 512 + q.val) : ℝ) : EReal) := by
  have h1 : t.val % 4 * 2048 + n.val < 8192 := by have := n.isLt; omega
  have h2 : t.val / 4 % 2 * 512 + q.val < 1024 := by have := q.isLt; omega
  rw [Cert.GridSum.ext_apply br _ _ h1 h2]
  exact (iblk_1_apply V c t n q).trans (hB _ _)

omit V c in
/-- The product of two blocks that hold the real matrices' entries the point `t` names, at (p, q): the block
term of the real accumulation. -/
theorem block_sum (x0 x1 : Vec Ideal S2048x512 .bf16) (t : ℕ) (p q : Fin 512)
    (h0 : ∀ n : Fin 2048, x0 (ix2 n p) = ((ext ar (t % 4 * 2048 + n.val) (t / 8 * 512 + p.val) : ℝ) : EReal))
    (h1 : ∀ n : Fin 2048, x1 (ix2 n q) = ((ext br (t % 4 * 2048 + n.val) (t / 4 % 2 * 512 + q.val) : ℝ) : EReal)) :
    (∑ n : Fin 2048, x0 (ix2 n p) * x1 (ix2 n q))
      = ((mm 2 (ext ar) (ext br) t p.val q.val : ℝ) : EReal) := by
  unfold mm kk ii jj
  rw [Finset.sum_range, ← Cert.GridSum.coe_sum_ereal]
  refine Finset.sum_congr rfl fun n _ => ?_
  rw [h0 n, h1 n, ← EReal.coe_mul]

omit V c in
/-- The accumulator's payload at (p, q), over an accumulator that holds a real number there. -/
theorem pay3_real (x0 x1 : Vec Ideal S2048x512 .bf16) (t : ℕ) (s : Vec Ideal S512x512 .f32) (p q : Fin 512) (r : ℝ)
    (h0 : ∀ n : Fin 2048, x0 (ix2 n p) = ((ext ar (t % 4 * 2048 + n.val) (t / 8 * 512 + p.val) : ℝ) : EReal))
    (h1 : ∀ n : Fin 2048, x1 (ix2 n q) = ((ext br (t % 4 * 2048 + n.val) (t / 4 % 2 * 512 + q.val) : ℝ) : EReal))
    (hs : s (ix2 p q) = ((r : ℝ) : EReal)) :
    k0_pay3 x0 x1 s (ix2 p q) = ((r + mm 2 (ext ar) (ext br) t p.val q.val : ℝ) : EReal) := by
  rw [PayVal.pay3_0, hs, EReal.coe_add]
  exact congrArg (((r : ℝ) : EReal) + ·) (block_sum ar br x0 x1 t p q h0 h1)

end Real

section Main
variable (V : (c : Dev nD) → (b : Ref sig .tc) → Buf (Elt Ideal) ((c : Thread nD τ).loc b))
variable (c : Dev nD) (ar : Fin 8192 → Fin 2048 → ℝ) (br : Fin 8192 → Fin 1024 → ℝ)

/-- After every grid point the accumulator and the result's buffer hold the real accumulation's values. -/
theorem outsAt_real (hA : ∀ n p, V c (Pipeline.arrRef spec0 0) (ix2 n p) = ((ar n p : ℝ) : EReal))
    (hB : ∀ n q, V c (Pipeline.arrRef spec0 1) (ix2 n q) = ((br n q : ℝ) : EReal)) :
    ∀ (t : ℕ) (ht : t < cfg0.N),
      (∀ p q : Fin 512, (outsAt V c t ht).2 (ix2 p q)
          = ((accR 2 (ext ar) (ext br) t p.val q.val : ℝ) : EReal)) ∧
      (∀ y : S1x1.Idx, (outsAt V c t ht).1 y = ((outR 2 (ext ar) (ext br) t : ℝ) : EReal)) := by
  intro t
  induction t with
  | zero =>
    intro ht
    rw [outsAt_zero_pay V c ht]
    refine ⟨fun p q => ?_, fun y => ?_⟩
    · show k0_pay3 (iblk V c 0 ⟨0, ht⟩) (iblk V c 1 ⟨0, ht⟩) (k0_pay2 (F := Ideal)) (ix2 p q) = _
      rw [pay3_real ar br (iblk V c 0 ⟨0, ht⟩) (iblk V c 1 ⟨0, ht⟩) 0 (k0_pay2 (F := Ideal)) p q 0
        (fun n => iblk_0_real V c ar hA ⟨0, ht⟩ n p) (fun n => iblk_1_real V c br hB ⟨0, ht⟩ n q)
        ((PayVal.pay2_0 _).trans EReal.coe_zero.symm)]
      rfl
    · show k0_pay1 y = _
      rw [PayVal.pay1_0]
      exact EReal.coe_zero.symm
  | succ t ih =>
    intro ht
    obtain ⟨ihS, ihO⟩ := ih (Nat.lt_of_succ_lt ht)
    have hS : ∀ (s : Vec Ideal S512x512 .f32) (g : ℕ → ℕ → ℝ), (∀ p q : Fin 512, s (ix2 p q) = ((g p.val q.val : ℝ) : EReal)) →
        ∀ p q : Fin 512, k0_pay3 (iblk V c 0 ⟨t + 1, ht⟩) (iblk V c 1 ⟨t + 1, ht⟩) s (ix2 p q)
          = ((g p.val q.val + mm 2 (ext ar) (ext br) (t + 1) p.val q.val : ℝ) : EReal) := fun s g hs p q =>
      pay3_real ar br (iblk V c 0 ⟨t + 1, ht⟩) (iblk V c 1 ⟨t + 1, ht⟩) (t + 1) s p q _
        (fun n => iblk_0_real V c ar hA ⟨t + 1, ht⟩ n p) (fun n => iblk_1_real V c br hB ⟨t + 1, ht⟩ n q) (hs p q)
    by_cases h1 : (t + 1) % 4 = 0
    · rw [outsAt_succ_pay_B V c t ht h1]
      refine ⟨fun p q => ?_, fun y => ?_⟩
      · show k0_pay3 (iblk V c 0 ⟨t + 1, ht⟩) (iblk V c 1 ⟨t + 1, ht⟩) (k0_pay2 (F := Ideal)) (ix2 p q) = _
        rw [hS (k0_pay2 (F := Ideal)) (fun _ _ => 0) (fun p q => (PayVal.pay2_0 _).trans EReal.coe_zero.symm) p q,
          Cert.GridSum.accR_succ_restart 2 _ _ t h1, zero_add]
      · show (outsAt V c t (Nat.lt_of_succ_lt ht)).1 y = _
        rw [ihO y, Cert.GridSum.outR_succ_keep 2 _ _ t (by omega)]
    · by_cases h2 : (t + 1) % 4 = 3
      · rw [outsAt_succ_pay_D V c t ht h1 h2]
        have hS' : ∀ p q : Fin 512,
            k0_pay3 (iblk V c 0 ⟨t + 1, ht⟩) (iblk V c 1 ⟨t + 1, ht⟩) (outsAt V c t (Nat.lt_of_succ_lt ht)).2 (ix2 p q)
              = ((accR 2 (ext ar) (ext br) (t + 1) p.val q.val : ℝ) : EReal) := fun p q => by
          rw [hS _ (accR 2 (ext ar) (ext br) t) ihS p q, Cert.GridSum.accR_succ_add 2 _ _ t h1]
        refine ⟨hS', fun y => ?_⟩
        show k0_pay4 _ _ y = _
        rw [PayVal.pay4_0, ihO y, Cert.GridSum.outR_succ_add 2 _ _ t h2, EReal.coe_add]
        refine congrArg (((outR 2 (ext ar) (ext br) t : ℝ) : EReal) + ·) ?_
        exact Cert.GridSum.sum_sq_coe 512 512 (accR 2 (ext ar) (ext br) (t + 1)) (fun p q => k0_pay3 (iblk V c 0 ⟨t + 1, ht⟩) (iblk V c 1 ⟨t + 1, ht⟩) (outsAt V c t (Nat.lt_of_succ_lt ht)).2 (ix2 p q)) hS'
      · rw [outsAt_succ_pay_C V c t ht h1 h2]
        refine ⟨fun p q => ?_, fun y => ?_⟩
        · show k0_pay3 (iblk V c 0 ⟨t + 1, ht⟩) (iblk V c 1 ⟨t + 1, ht⟩) (outsAt V c t (Nat.lt_of_succ_lt ht)).2 (ix2 p q) = _
          rw [hS _ (accR 2 (ext ar) (ext br) t) ihS p q, Cert.GridSum.accR_succ_add 2 _ _ t h1]
        · show (outsAt V c t (Nat.lt_of_succ_lt ht)).1 y = _
          rw [ihO y, Cert.GridSum.outR_succ_keep 2 _ _ t h2]

/-- The result array after the region: the squared Frobenius norm of the product of the transposed first matrix and
the second. -/
theorem result_real (hA : ∀ n p, V c (Pipeline.arrRef spec0 0) (ix2 n p) = ((ar n p : ℝ) : EReal))
    (hB : ∀ n q, V c (Pipeline.arrRef spec0 1) (ix2 n q) = ((br n q : ℝ) : EReal)) :
    ∀ y : S1x1.Idx, (dat V c).arrAt 2 cfg0.N y
      = ((∑ p : Fin 2048, ∑ q : Fin 1024, (∑ n : Fin 8192, ar n p * br n q) ^ 2 : ℝ) : EReal) := by
  intro y
  rw [arrAt_out_apply V c y, (outsAt_real V c ar br hA hB 31 lastLt).2 y]
  have h : outR 2 (ext ar) (ext br) 31
      = ∑ P ∈ Finset.range 2048, ∑ Q ∈ Finset.range 1024, (∑ n ∈ Finset.range 8192, ext ar n P * ext br n Q) ^ 2 :=
    Cert.GridSum.outR_last 2 (ext ar) (ext br) 4 (by norm_num) (by norm_num)
  rw [h, Cert.GridSum.sum_ext_sq]

end Main

end Cert.KernelIdeal.Reg0

end
-- ==== Proof.KI1Val.lean ====
/-
  Region 1: the contents each control case of the body leaves in the result's buffer and in the accumulator, read
  back from the pieces its run found, are the kernel's stored values: every store writes its whole buffer and every
  load reads its whole buffer, so the last store's value is what the buffer holds, with each loaded operand the
  buffer's contents at that moment.
-/
import proofs.«157129_j47072841564786_1_alg».proof.Proof.KI1
import Idealize.ShloMosaic.Lib.Pipeline.Value

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of a whole-buffer rectangle of rank two is zero on both axes. -/
theorem hz : (![0, 0] : Fin 2 → Nat) = fun _ => 0 := funext fun a => by fin_cases a <;> rfl

/-- Case A (the first point): the result's buffer ends with the zero splat. -/
theorem out_A_2_eq (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) :
    out_A_2 c i arg3 harg3 arg4 harg4 arg5 harg5 arg6 harg6 hc0 hc1 hc2 x0 x1 = k1_pay1 (F := F) := by
  unfold out_A_2
  rw [View.read_writes_eq_canon _ _ _ (cover_A_2 c i arg3 harg3 arg4 harg4 arg5 harg5 arg6 harg6 hc0 hc1 hc2 x0 x1)]
  unfold kernelRun_A
  dsimp only
  sl_unfold_words
  rw [View.canon_unit_zero hz]

/-- Case A: the accumulator is zeroed, then ends with the product of the two input blocks added to the zeros. -/
theorem sout_A_eq (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) :
    sout_A c i arg3 harg3 arg4 harg4 arg5 harg5 arg6 harg6 hc0 hc1 hc2 x0 x1 = k1_pay3 x0 x1 (k1_pay2 (F := F)) := by
  unfold sout_A
  rw [View.read_writes_eq_canon _ _ _ (scover_A c i arg3 harg3 arg4 harg4 arg5 harg5 arg6 harg6 hc0 hc1 hc2 x0 x1)]
  unfold kernelRun_A
  dsimp only
  sl_unfold_words
  rw [View.canon_cons_unit_zero (S := S512x512) hz, View.readCov_unit_zero (S := S512x512) _ hz]
  simp only [View.readAt_eq_ld, harg3.read_unread, harg4.read_unread, View.ld_unit_zero (S := S2048x512) hz]

/-- Case B (reduction coordinate 0, not the first point): the same as case A for the accumulator. -/
theorem sout_B_eq (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : cond_1 i) (hc2 : ¬cond_2 i) (x0 x1 : Vec F S2048x512 .bf16) :
    sout_B c i arg3 harg3 arg4 harg4 arg5 harg5 arg6 harg6 hc0 hc1 hc2 x0 x1 = k1_pay3 x0 x1 (k1_pay2 (F := F)) := by
  unfold sout_B
  rw [View.read_writes_eq_canon _ _ _ (scover_B c i arg3 harg3 arg4 harg4 arg5 harg5 arg6 harg6 hc0 hc1 hc2 x0 x1)]
  unfold kernelRun_B
  dsimp only
  sl_unfold_words
  rw [View.canon_cons_unit_zero (S := S512x512) hz, View.readCov_unit_zero (S := S512x512) _ hz]
  simp only [View.readAt_eq_ld, harg3.read_unread, harg4.read_unread, View.ld_unit_zero (S := S2048x512) hz]

/-- Case C (reduction coordinate 1 or 2): the accumulator ends with its entering contents plus the product of the two
    input blocks. -/
theorem sout_C_eq (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : ¬cond_2 i) (x0 x1 : Vec F S2048x512 .bf16) (xs : Vec F S512x512 .f32) :
    sout_C c i arg3 harg3 arg4 harg4 arg5 harg5 arg6 harg6 hc0 hc1 hc2 x0 x1 xs = k1_pay3 x0 x1 xs := by
  unfold sout_C
  rw [View.read_writes_eq_canon _ _ _ (scover_C c i arg3 harg3 arg4 harg4 arg5 harg5 arg6 harg6 hc0 hc1 hc2 x0 x1 xs)]
  unfold kernelRun_C
  dsimp only
  sl_unfold_words
  rw [View.canon_unit_zero hz]
  simp only [View.readAt_eq_ld, harg3.read_unread, harg4.read_unread, harg6.read_unread, View.ld_unit_zero (S := S2048x512) hz, View.ld_unit_zero (S := S512x512) hz]

/-- Case D (reduction coordinate 3): the accumulator likewise. -/
theorem sout_D_eq (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) :
    sout_D c i arg3 harg3 arg4 harg4 arg5 harg5 arg6 harg6 hc0 hc1 hc2 x0 x1 xs xo = k1_pay3 x0 x1 xs := by
  unfold sout_D
  rw [View.read_writes_eq_canon _ _ _ (scover_D c i arg3 harg3 arg4 harg4 arg5 harg5 arg6 harg6 hc0 hc1 hc2 x0 x1 xs xo)]
  unfold kernelRun_D
  dsimp only
  sl_unfold_words
  rw [View.canon_unit_zero hz]
  simp only [View.readAt_eq_ld, harg3.read_unread, harg4.read_unread, harg6.read_unread, View.ld_unit_zero (S := S2048x512) hz, View.ld_unit_zero (S := S512x512) hz]

/-- Case D: the result's buffer ends with its entering contents plus the sum of the squares of the accumulator as the
    body has just left it. -/
theorem out_D_2_eq (c : Dev nD) (i : grid1.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) :
    out_D_2 c i arg3 harg3 arg4 harg4 arg5 harg5 arg6 harg6 hc0 hc1 hc2 x0 x1 xs xo = k1_pay4 (k1_pay3 x0 x1 xs) xo := by
  unfold out_D_2
  rw [View.read_writes_eq_canon _ _ _ (cover_D_2 c i arg3 harg3 arg4 harg4 arg5 harg5 arg6 harg6 hc0 hc1 hc2 x0 x1 xs xo)]
  unfold kernelRun_D
  dsimp only
  sl_unfold_words
  rw [View.canon_unit_zero hz, View.readCov_unit_zero (S := S512x512) _ hz]
  simp only [View.readAt_eq_ld, harg3.read_unread, harg4.read_unread, harg5.read_unread, harg6.read_unread, View.ld_unit_zero (S := S2048x512) hz, View.ld_unit_zero (S := S512x512) hz, View.ld_unit_zero (S := S1x1) hz]

end Cert.KernelIdeal.Reg1

end
-- ==== Proof.KI1Blk.lean ====
/-
  Region 1 (the grid of 64 points, 4 × 4 × 4, in row-major order: point t is (i, j, k) with
  i = t / 16, j = (t / 4) % 4, k = t % 4): its input blocks as entries of the arrays the region finds, and
  its result array after the region.

  The first input window's block at a point is block (k, i) of the first centred-data array of 8192 × 2048 in blocks of
  2048 × 512, the second's is block (k, j) of the first centred-data array of 8192 × 2048: entry (n, p) of a block sits in
  its array at row k · 2048 + n and column (block column) · 512 + p — a block's coordinate on an axis is the block
  index times the block's size plus the coordinate inside the block. The printed index maps are decided once over
  the grid (`idx_facts`).

  The result window is one 1 × 1 block, written back at the last point only; that block covers the whole 1 × 1 array,
  so the array after the region is what the result's buffer holds after the last point (`arrAt_out`).
-/
import proofs.«157129_j47072841564786_1_alg».proof.Proof.KI1
import Idealize.ShloMosaic.Lib.ValueIdx
import Idealize.ShloMosaic.Lib.Pipeline.Value

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The printed index maps of the two input windows, decided once over the grid. -/
theorem idx_facts : ∀ t : Fin cfg1.N,
    win1_0.index t (0 : Fin 2) = t.val % 4 ∧ win1_0.index t (1 : Fin 2) = t.val / 16
    ∧ win1_1.index t (0 : Fin 2) = t.val % 4 ∧ win1_1.index t (1 : Fin 2) = (t.val / 4) % 4 :=
  (by decide +kernel : ∀ t : Fin grid1.N, _)

/-- Entry (n, p) of the first window's block at point t, in its array. -/
theorem iblk_0_apply (c : Dev nD) (t : Fin cfg1.N) (n : Fin 2048) (p : Fin 512) :
    (iblk V c 0 t : S2048x512.Idx → Elt F .bf16) (ValueIdx.ix2 n p)
      = (V c (Pipeline.arrRef spec1 0) : S8192x2048.Idx → Elt F .bf16)
          (ValueIdx.ix2 (⟨(t.val % 4) * 2048 + n.val, by have := n.isLt; omega⟩ : Fin 8192)
            (⟨(t.val / 16) * 512 + p.val, by
              have hN : t.val < 64 := lt_of_lt_of_eq t.isLt (show cfg1.N = 64 from N_1)
              have := p.isLt; omega⟩ : Fin 2048)) := by
  obtain ⟨e0, e1, -, -⟩ := idx_facts t
  unfold iblk
  rw [View.read_apply]
  show (V c (Pipeline.arrRef spec1 0) : S8192x2048.Idx → Elt F .bf16) _ = _
  congr 1
  funext a
  apply Fin.ext
  match a with
  | ⟨0, _⟩ => show win1_0.index t (0 : Fin 2) * 2048 + 1 * n.val = (t.val % 4) * 2048 + n.val; rw [e0]; omega
  | ⟨1, _⟩ => show win1_0.index t (1 : Fin 2) * 512 + 1 * p.val = (t.val / 16) * 512 + p.val; rw [e1]; omega

/-- Entry (n, q) of the second window's block at point t, in its array. -/
theorem iblk_1_apply (c : Dev nD) (t : Fin cfg1.N) (n : Fin 2048) (q : Fin 512) :
    (iblk V c 1 t : S2048x512.Idx → Elt F .bf16) (ValueIdx.ix2 n q)
      = (V c (Pipeline.arrRef spec1 1) : S8192x2048.Idx → Elt F .bf16)
          (ValueIdx.ix2 (⟨(t.val % 4) * 2048 + n.val, by have := n.isLt; omega⟩ : Fin 8192)
            (⟨((t.val / 4) % 4) * 512 + q.val, by have := q.isLt; omega⟩ : Fin 2048)) := by
  obtain ⟨-, -, e0, e1⟩ := idx_facts t
  unfold iblk
  rw [View.read_apply]
  show (V c (Pipeline.arrRef spec1 1) : S8192x2048.Idx → Elt F .bf16) _ = _
  congr 1
  funext a
  apply Fin.ext
  match a with
  | ⟨0, _⟩ => show win1_1.index t (0 : Fin 2) * 2048 + 1 * n.val = (t.val % 4) * 2048 + n.val; rw [e0]; omega
  | ⟨1, _⟩ => show win1_1.index t (1 : Fin 2) * 512 + 1 * q.val = ((t.val / 4) % 4) * 512 + q.val; rw [e1]; omega

/-- A 1×1 array has one index. -/
theorem idx11_eq (y y' : S1x1.Idx) : y = y' := funext fun a => Fin.ext (by
  match a with
  | ⟨0, _⟩ =>
    have h := ValueIdx.idx2_lt0 y; have h' := ValueIdx.idx2_lt0 y'
    show (y 0).val = (y' 0).val; omega
  | ⟨1, _⟩ =>
    have h := ValueIdx.idx2_lt1 y; have h' := ValueIdx.idx2_lt1 y'
    show (y 1).val = (y' 1).val; omega)

/-- The last point of the grid. -/
theorem lastLt : 63 < cfg1.N := by have h : cfg1.N = 64 := N_1; omega

/-- The one write-back, at the last point, writes what the result's buffer holds after that point: block (0, 0) of a
    1×1 array is the array. -/
theorem flushed_2_eq (c : Dev nD) (t : Fin cfg1.N) (hf : (cfg1.win 2).flush t = true) :
    (dat V c).flushed 2 t = ((cfg1.win 2).blk t).view.read (Elt F) ((outsAt V c 63 lastLt).1 : Vec F S1x1 .f32) := by
  have hN : cfg1.N = 64 := N_1
  have h1 : t.val = 63 := by have := (flush1_2 t).mp hf; have := t.isLt; omega
  obtain rfl : t = ⟨63, lastLt⟩ := Fin.ext h1
  show (cfg1.win 2).cut (grid1.coords _) ((dat V c).after 2 _) = _
  rw [after_2]
  funext j
  rw [View.read_apply]
  show (outsAt V c 63 _).1 _ = (outsAt V c 63 _).1 _
  exact congrArg _ (idx11_eq _ _)

/-- The result array after the region holds what the recursion says the result's buffer holds after the last point. -/
theorem arrAt_out (c : Dev nD) :
    ((dat V c).arrAt 2 cfg1.N : S1x1.Idx → Elt F .f32) = (outsAt V c 63 lastLt).1 :=
  (dat V c).arrAt_eq_of_cover 2 ((outsAt V c 63 lastLt).1 : Vec F S1x1 .f32) (flushed_2_eq V c) fun i =>
    ⟨⟨63, lastLt⟩, (flush1_2 _).mpr rfl, by
      show i ∈ ((View.whole main_v16).slice (win1_2.rect ⟨63, lastLt⟩)).set
      rw [View.set_slice_whole, Rect.mem_set_unit]
      intro a
      have h0 : (i 0 : Nat) < 1 := (i 0).isLt
      have h1 : (i 1 : Nat) < 1 := (i 1).isLt
      match a with
      | ⟨0, _⟩ =>
        show win1_2.index ⟨63, lastLt⟩ 0 * win1_2.size 0 ≤ (i 0 : Nat)
          ∧ (i 0 : Nat) < win1_2.index ⟨63, lastLt⟩ 0 * win1_2.size 0 + win1_2.xsize (grid1.coords ⟨63, lastLt⟩) 0
        rw [show win1_2.index ⟨63, lastLt⟩ 0 * win1_2.size 0 = 0 from rfl,
          show win1_2.xsize (grid1.coords ⟨63, lastLt⟩) 0 = 1 from rfl]
        omega
      | ⟨1, _⟩ =>
        show win1_2.index ⟨63, lastLt⟩ 1 * win1_2.size 1 ≤ (i 1 : Nat)
          ∧ (i 1 : Nat) < win1_2.index ⟨63, lastLt⟩ 1 * win1_2.size 1 + win1_2.xsize (grid1.coords ⟨63, lastLt⟩) 1
        rw [show win1_2.index ⟨63, lastLt⟩ 1 * win1_2.size 1 = 0 from rfl,
          show win1_2.xsize (grid1.coords ⟨63, lastLt⟩) 1 = 1 from rfl]
        omega⟩

/-- The same, at an index. -/
theorem arrAt_out_apply (c : Dev nD) (y : S1x1.Idx) :
    ((dat V c).arrAt 2 cfg1.N : S1x1.Idx → Elt F .f32) y = (outsAt V c 63 lastLt).1 y :=
  congrFun (arrAt_out V c) y

end Cert.KernelIdeal.Reg1

end
-- ==== Proof.KI1Acc.lean ====
/-
  Region 1 of the idealized program as real numbers. The region walks a grid of 4 × 4 × 4 points; after each
  point the accumulator and the result's buffer hold, as extended reals, the values of the blocked accumulation over
  the real matrices the two input arrays hold (the matrices read at natural-number indices, zero outside their
  ranges), and after the last point the result array holds the squared Frobenius norm of the product of the
  transposed first matrix and the second.
-/
import proofs.«157129_j47072841564786_1_alg».proof.Proof.KI1Val
import proofs.«157129_j47072841564786_1_alg».proof.Proof.KI1Blk
import proofs.«157129_j47072841564786_1_alg».proof.Proof.PayIdeal
import proofs.«157129_j47072841564786_1_alg».proof.Proof.GridSum
import proofs.«157129_j47072841564786_1_alg».proof.Proof.ExtMat

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.GridSum (ext accR outR mm kk ii jj)
open scoped BigOperators

/-! ## What each case leaves, over the payloads -/

section Steps
variable {F : FTy → Type} [FloatOps F]
variable (V : (c : Dev nD) → (b : Ref sig .tc) → Buf (Elt F) ((c : Thread nD τ).loc b))

/-- The first point: the result is zeroed; the accumulator is zeroed and receives the first product. -/
theorem outsAt_zero_pay (c : Dev nD) (ht : 0 < cfg1.N) :
    outsAt V c 0 ht = (k1_pay1, k1_pay3 (iblk V c 0 ⟨0, ht⟩) (iblk V c 1 ⟨0, ht⟩) k1_pay2) := by
  have hc0 : cond_0 (grid1.coords ⟨0, ht⟩) := (hcond_0 ⟨0, ht⟩).mpr rfl
  have hc1 : cond_1 (grid1.coords ⟨0, ht⟩) := (hcond_1 ⟨0, ht⟩).mpr (Nat.zero_mod _)
  have hc2 : ¬cond_2 (grid1.coords ⟨0, ht⟩) := fun h => (fun h' => by (try dsimp only at h'); omega) ((hcond_2 ⟨0, ht⟩).mp h)
  have e := outsAt_A V c ⟨0, ht⟩ rfl hc0 hc1 hc2
  rw [out_A_2_eq, sout_A_eq] at e
  exact e

/-- A later point where the reduction starts again: the result is carried; the accumulator is zeroed and receives
the product. -/
theorem outsAt_succ_pay_B (c : Dev nD) (t : ℕ) (ht : t + 1 < cfg1.N) (h1 : (t + 1) % 4 = 0) :
    outsAt V c (t + 1) ht = ((outsAt V c t (Nat.lt_of_succ_lt ht)).1,
      k1_pay3 (iblk V c 0 ⟨t + 1, ht⟩) (iblk V c 1 ⟨t + 1, ht⟩) k1_pay2) := by
  have hc0 : ¬cond_0 (grid1.coords ⟨t + 1, ht⟩) := fun h => Nat.succ_ne_zero t ((hcond_0 ⟨t + 1, ht⟩).mp h)
  have hc1 : cond_1 (grid1.coords ⟨t + 1, ht⟩) := (hcond_1 ⟨t + 1, ht⟩).mpr h1
  have hc2 : ¬cond_2 (grid1.coords ⟨t + 1, ht⟩) := fun h => (fun h' => by (try dsimp only at h'); omega) ((hcond_2 ⟨t + 1, ht⟩).mp h)
  have e := outsAt_B V c ⟨t + 1, ht⟩ (Nat.succ_ne_zero t) h1 hc0 hc1 hc2
  rw [sout_B_eq] at e
  exact e

/-- A point where the reduction goes on: the result is carried; the accumulator receives the product. -/
theorem outsAt_succ_pay_C (c : Dev nD) (t : ℕ) (ht : t + 1 < cfg1.N) (h1 : ¬(t + 1) % 4 = 0) (h2 : ¬(t + 1) % 4 = 3) :
    outsAt V c (t + 1) ht = ((outsAt V c t (Nat.lt_of_succ_lt ht)).1,
      k1_pay3 (iblk V c 0 ⟨t + 1, ht⟩) (iblk V c 1 ⟨t + 1, ht⟩) (outsAt V c t (Nat.lt_of_succ_lt ht)).2) := by
  have hc0 : ¬cond_0 (grid1.coords ⟨t + 1, ht⟩) := fun h => Nat.succ_ne_zero t ((hcond_0 ⟨t + 1, ht⟩).mp h)
  have hc1 : ¬cond_1 (grid1.coords ⟨t + 1, ht⟩) := fun h => h1 ((hcond_1 ⟨t + 1, ht⟩).mp h)
  have hc2 : ¬cond_2 (grid1.coords ⟨t + 1, ht⟩) := fun h => h2 ((hcond_2 ⟨t + 1, ht⟩).mp h)
  have e := outsAt_C V c ⟨t + 1, ht⟩ (Nat.succ_ne_zero t) h1 h2 hc0 hc1 hc2
  rw [sout_C_eq] at e
  exact e

/-- A point where the reduction ends: the accumulator receives the product, and the result the sum of the
accumulator's squares. -/
theorem outsAt_succ_pay_D (c : Dev nD) (t : ℕ) (ht : t + 1 < cfg1.N) (h1 : ¬(t + 1) % 4 = 0) (h2 : (t + 1) % 4 = 3) :
    outsAt V c (t + 1) ht =
      (k1_pay4 (k1_pay3 (iblk V c 0 ⟨t + 1, ht⟩) (iblk V c 1 ⟨t + 1, ht⟩) (outsAt V c t (Nat.lt_of_succ_lt ht)).2)
          (outsAt V c t (Nat.lt_of_succ_lt ht)).1,
        k1_pay3 (iblk V c 0 ⟨t + 1, ht⟩) (iblk V c 1 ⟨t + 1, ht⟩) (outsAt V c t (Nat.lt_of_succ_lt ht)).2) := by
  have hc0 : ¬cond_0 (grid1.coords ⟨t + 1, ht⟩) := fun h => Nat.succ_ne_zero t ((hcond_0 ⟨t + 1, ht⟩).mp h)
  have hc1 : ¬cond_1 (grid1.coords ⟨t + 1, ht⟩) := fun h => h1 ((hcond_1 ⟨t + 1, ht⟩).mp h)
  have hc2 : cond_2 (grid1.coords ⟨t + 1, ht⟩) := (hcond_2 ⟨t + 1, ht⟩).mpr h2
  have e := outsAt_D V c ⟨t + 1, ht⟩ (Nat.succ_ne_zero t) h1 h2 hc0 hc1 hc2
  rw [out_D_2_eq, sout_D_eq] at e
  exact e

end Steps

/-! ## The accumulator and the result as real numbers -/

section Real
variable (V : (c : Dev nD) → (b : Ref sig .tc) → Buf (Elt Ideal) ((c : Thread nD τ).loc b))
variable (c : Dev nD) (ar : Fin 8192 → Fin 2048 → ℝ) (br : Fin 8192 → Fin 2048 → ℝ)

/-- An entry of the first operand's block at point `t` is the entry of the real matrix the grid point names. -/
theorem iblk_0_real (hA : ∀ n p, V c (Pipeline.arrRef spec1 0) (ix2 n p) = ((ar n p : ℝ) : EReal))
    (t : Fin cfg1.N) (n : Fin 2048) (p : Fin 512) :
    (iblk V c 0 t : Vec Ideal S2048x512 .bf16) (ix2 n p)
      = ((ext ar (t.val % 4 * 2048 + n.val) (t.val / 16 * 512 + p.val) : ℝ) : EReal) := by
  have hN : t.val < 64 := lt_of_lt_of_eq t.isLt (show cfg1.N = 64 from N_1)
  have h1 : t.val % 4 * 2048 + n.val < 8192 := by have := n.isLt; omega
  have h2 : t.val / 16 * 512 + p.val < 2048 := by have := p.isLt; omega
  rw [Cert.GridSum.ext_apply ar _ _ h1 h2]
  exact (iblk_0_apply V c t n p).trans (hA _ _)

/-- An entry of the second operand's block at point `t` is the entry of the real matrix the grid point names. -/
theorem iblk_1_real (hB : ∀ n q, V c (Pipeline.arrRef spec1 1) (ix2 n q) = ((br n q : ℝ) : EReal))
    (t : Fin cfg1.N) (n : Fin 2048) (q : Fin 512) :
    (iblk V c 1 t : Vec Ideal S2048x512 .bf16) (ix2 n q)
      = ((ext br (t.val % 4 * 2048 + n.val) (t.val / 4 % 4 * 512 + q.val) : ℝ) : EReal) := by
  have h1 : t.val % 4 * 2048 + n.val < 8192 := by have := n.isLt; omega
  have h2 : t.val / 4 % 4 * 512 + q.val < 2048 := by have := q.isLt; omega
  rw [Cert.GridSum.ext_apply br _ _ h1 h2]
  exact (iblk_1_apply V c t n q).trans (hB _ _)

omit V c in
/-- The product of two blocks that hold the real matrices' entries the point `t` names, at (p, q): the block
term of the real accumulation. -/
theorem block_sum (x0 x1 : Vec Ideal S2048x512 .bf16) (t : ℕ) (p q : Fin 512)
    (h0 : ∀ n : Fin 2048, x0 (ix2 n p) = ((ext ar (t % 4 * 2048 + n.val) (t / 16 * 512 + p.val) : ℝ) : EReal))
    (h1 : ∀ n : Fin 2048, x1 (ix2 n q) = ((ext br (t % 4 * 2048 + n.val) (t / 4 % 4 * 512 + q.val) : ℝ) : EReal)) :
    (∑ n : Fin 2048, x0 (ix2 n p) * x1 (ix2 n q))
      = ((mm 4 (ext ar) (ext br) t p.val q.val : ℝ) : EReal) := by
  unfold mm kk ii jj
  rw [Finset.sum_range, ← Cert.GridSum.coe_sum_ereal]
  refine Finset.sum_congr rfl fun n _ => ?_
  rw [h0 n, h1 n, ← EReal.coe_mul]

omit V c in
/-- The accumulator's payload at (p, q), over an accumulator that holds a real number there. -/
theorem pay3_real (x0 x1 : Vec Ideal S2048x512 .bf16) (t : ℕ) (s : Vec Ideal S512x512 .f32) (p q : Fin 512) (r : ℝ)
    (h0 : ∀ n : Fin 2048, x0 (ix2 n p) = ((ext ar (t % 4 * 2048 + n.val) (t / 16 * 512 + p.val) : ℝ) : EReal))
    (h1 : ∀ n : Fin 2048, x1 (ix2 n q) = ((ext br (t % 4 * 2048 + n.val) (t / 4 % 4 * 512 + q.val) : ℝ) : EReal))
    (hs : s (ix2 p q) = ((r : ℝ) : EReal)) :
    k1_pay3 x0 x1 s (ix2 p q) = ((r + mm 4 (ext ar) (ext br) t p.val q.val : ℝ) : EReal) := by
  rw [PayVal.pay3_1, hs, EReal.coe_add]
  exact congrArg (((r : ℝ) : EReal) + ·) (block_sum ar br x0 x1 t p q h0 h1)

end Real

section Main
variable (V : (c : Dev nD) → (b : Ref sig .tc) → Buf (Elt Ideal) ((c : Thread nD τ).loc b))
variable (c : Dev nD) (ar : Fin 8192 → Fin 2048 → ℝ) (br : Fin 8192 → Fin 2048 → ℝ)

/-- After every grid point the accumulator and the result's buffer hold the real accumulation's values. -/
theorem outsAt_real (hA : ∀ n p, V c (Pipeline.arrRef spec1 0) (ix2 n p) = ((ar n p : ℝ) : EReal))
    (hB : ∀ n q, V c (Pipeline.arrRef spec1 1) (ix2 n q) = ((br n q : ℝ) : EReal)) :
    ∀ (t : ℕ) (ht : t < cfg1.N),
      (∀ p q : Fin 512, (outsAt V c t ht).2 (ix2 p q)
          = ((accR 4 (ext ar) (ext br) t p.val q.val : ℝ) : EReal)) ∧
      (∀ y : S1x1.Idx, (outsAt V c t ht).1 y = ((outR 4 (ext ar) (ext br) t : ℝ) : EReal)) := by
  intro t
  induction t with
  | zero =>
    intro ht
    rw [outsAt_zero_pay V c ht]
    refine ⟨fun p q => ?_, fun y => ?_⟩
    · show k1_pay3 (iblk V c 0 ⟨0, ht⟩) (iblk V c 1 ⟨0, ht⟩) (k1_pay2 (F := Ideal)) (ix2 p q) = _
      rw [pay3_real ar br (iblk V c 0 ⟨0, ht⟩) (iblk V c 1 ⟨0, ht⟩) 0 (k1_pay2 (F := Ideal)) p q 0
        (fun n => iblk_0_real V c ar hA ⟨0, ht⟩ n p) (fun n => iblk_1_real V c br hB ⟨0, ht⟩ n q)
        ((PayVal.pay2_1 _).trans EReal.coe_zero.symm)]
      rfl
    · show k1_pay1 y = _
      rw [PayVal.pay1_1]
      exact EReal.coe_zero.symm
  | succ t ih =>
    intro ht
    obtain ⟨ihS, ihO⟩ := ih (Nat.lt_of_succ_lt ht)
    have hS : ∀ (s : Vec Ideal S512x512 .f32) (g : ℕ → ℕ → ℝ), (∀ p q : Fin 512, s (ix2 p q) = ((g p.val q.val : ℝ) : EReal)) →
        ∀ p q : Fin 512, k1_pay3 (iblk V c 0 ⟨t + 1, ht⟩) (iblk V c 1 ⟨t + 1, ht⟩) s (ix2 p q)
          = ((g p.val q.val + mm 4 (ext ar) (ext br) (t + 1) p.val q.val : ℝ) : EReal) := fun s g hs p q =>
      pay3_real ar br (iblk V c 0 ⟨t + 1, ht⟩) (iblk V c 1 ⟨t + 1, ht⟩) (t + 1) s p q _
        (fun n => iblk_0_real V c ar hA ⟨t + 1, ht⟩ n p) (fun n => iblk_1_real V c br hB ⟨t + 1, ht⟩ n q) (hs p q)
    by_cases h1 : (t + 1) % 4 = 0
    · rw [outsAt_succ_pay_B V c t ht h1]
      refine ⟨fun p q => ?_, fun y => ?_⟩
      · show k1_pay3 (iblk V c 0 ⟨t + 1, ht⟩) (iblk V c 1 ⟨t + 1, ht⟩) (k1_pay2 (F := Ideal)) (ix2 p q) = _
        rw [hS (k1_pay2 (F := Ideal)) (fun _ _ => 0) (fun p q => (PayVal.pay2_1 _).trans EReal.coe_zero.symm) p q,
          Cert.GridSum.accR_succ_restart 4 _ _ t h1, zero_add]
      · show (outsAt V c t (Nat.lt_of_succ_lt ht)).1 y = _
        rw [ihO y, Cert.GridSum.outR_succ_keep 4 _ _ t (by omega)]
    · by_cases h2 : (t + 1) % 4 = 3
      · rw [outsAt_succ_pay_D V c t ht h1 h2]
        have hS' : ∀ p q : Fin 512,
            k1_pay3 (iblk V c 0 ⟨t + 1, ht⟩) (iblk V c 1 ⟨t + 1, ht⟩) (outsAt V c t (Nat.lt_of_succ_lt ht)).2 (ix2 p q)
              = ((accR 4 (ext ar) (ext br) (t + 1) p.val q.val : ℝ) : EReal) := fun p q => by
          rw [hS _ (accR 4 (ext ar) (ext br) t) ihS p q, Cert.GridSum.accR_succ_add 4 _ _ t h1]
        refine ⟨hS', fun y => ?_⟩
        show k1_pay4 _ _ y = _
        rw [PayVal.pay4_1, ihO y, Cert.GridSum.outR_succ_add 4 _ _ t h2, EReal.coe_add]
        refine congrArg (((outR 4 (ext ar) (ext br) t : ℝ) : EReal) + ·) ?_
        exact Cert.GridSum.sum_sq_coe 512 512 (accR 4 (ext ar) (ext br) (t + 1)) (fun p q => k1_pay3 (iblk V c 0 ⟨t + 1, ht⟩) (iblk V c 1 ⟨t + 1, ht⟩) (outsAt V c t (Nat.lt_of_succ_lt ht)).2 (ix2 p q)) hS'
      · rw [outsAt_succ_pay_C V c t ht h1 h2]
        refine ⟨fun p q => ?_, fun y => ?_⟩
        · show k1_pay3 (iblk V c 0 ⟨t + 1, ht⟩) (iblk V c 1 ⟨t + 1, ht⟩) (outsAt V c t (Nat.lt_of_succ_lt ht)).2 (ix2 p q) = _
          rw [hS _ (accR 4 (ext ar) (ext br) t) ihS p q, Cert.GridSum.accR_succ_add 4 _ _ t h1]
        · show (outsAt V c t (Nat.lt_of_succ_lt ht)).1 y = _
          rw [ihO y, Cert.GridSum.outR_succ_keep 4 _ _ t h2]

/-- The result array after the region: the squared Frobenius norm of the product of the transposed first matrix and
the second. -/
theorem result_real (hA : ∀ n p, V c (Pipeline.arrRef spec1 0) (ix2 n p) = ((ar n p : ℝ) : EReal))
    (hB : ∀ n q, V c (Pipeline.arrRef spec1 1) (ix2 n q) = ((br n q : ℝ) : EReal)) :
    ∀ y : S1x1.Idx, (dat V c).arrAt 2 cfg1.N y
      = ((∑ p : Fin 2048, ∑ q : Fin 2048, (∑ n : Fin 8192, ar n p * br n q) ^ 2 : ℝ) : EReal) := by
  intro y
  rw [arrAt_out_apply V c y, (outsAt_real V c ar br hA hB 63 lastLt).2 y]
  have h : outR 4 (ext ar) (ext br) 63
      = ∑ P ∈ Finset.range 2048, ∑ Q ∈ Finset.range 2048, (∑ n ∈ Finset.range 8192, ext ar n P * ext br n Q) ^ 2 :=
    Cert.GridSum.outR_last 4 (ext ar) (ext br) 4 (by norm_num) (by norm_num)
  rw [h, Cert.GridSum.sum_ext_sq]

end Main

end Cert.KernelIdeal.Reg1

end
-- ==== Proof.KI2Val.lean ====
/-
  Region 2: the contents each control case of the body leaves in the result's buffer and in the accumulator, read
  back from the pieces its run found, are the kernel's stored values: every store writes its whole buffer and every
  load reads its whole buffer, so the last store's value is what the buffer holds, with each loaded operand the
  buffer's contents at that moment.
-/
import proofs.«157129_j47072841564786_1_alg».proof.Proof.KI2
import Idealize.ShloMosaic.Lib.Pipeline.Value

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of a whole-buffer rectangle of rank two is zero on both axes. -/
theorem hz : (![0, 0] : Fin 2 → Nat) = fun _ => 0 := funext fun a => by fin_cases a <;> rfl

/-- Case A (the first point): the result's buffer ends with the zero splat. -/
theorem out_A_2_eq (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) :
    out_A_2 c i arg3 harg3 arg4 harg4 arg5 harg5 arg6 harg6 hc0 hc1 hc2 x0 x1 = k2_pay1 (F := F) := by
  unfold out_A_2
  rw [View.read_writes_eq_canon _ _ _ (cover_A_2 c i arg3 harg3 arg4 harg4 arg5 harg5 arg6 harg6 hc0 hc1 hc2 x0 x1)]
  unfold kernelRun_A
  dsimp only
  sl_unfold_words
  rw [View.canon_unit_zero hz]

/-- Case A: the accumulator is zeroed, then ends with the product of the two input blocks added to the zeros. -/
theorem sout_A_eq (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : cond_0 i) (hc1 : cond_1 i) (hc2 : ¬cond_2 i) (x0 x1 : Vec F S2048x512 .bf16) :
    sout_A c i arg3 harg3 arg4 harg4 arg5 harg5 arg6 harg6 hc0 hc1 hc2 x0 x1 = k2_pay3 x0 x1 (k2_pay2 (F := F)) := by
  unfold sout_A
  rw [View.read_writes_eq_canon _ _ _ (scover_A c i arg3 harg3 arg4 harg4 arg5 harg5 arg6 harg6 hc0 hc1 hc2 x0 x1)]
  unfold kernelRun_A
  dsimp only
  sl_unfold_words
  rw [View.canon_cons_unit_zero (S := S512x512) hz, View.readCov_unit_zero (S := S512x512) _ hz]
  simp only [View.readAt_eq_ld, harg3.read_unread, harg4.read_unread, View.ld_unit_zero (S := S2048x512) hz]

/-- Case B (reduction coordinate 0, not the first point): the same as case A for the accumulator. -/
theorem sout_B_eq (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : cond_1 i) (hc2 : ¬cond_2 i) (x0 x1 : Vec F S2048x512 .bf16) :
    sout_B c i arg3 harg3 arg4 harg4 arg5 harg5 arg6 harg6 hc0 hc1 hc2 x0 x1 = k2_pay3 x0 x1 (k2_pay2 (F := F)) := by
  unfold sout_B
  rw [View.read_writes_eq_canon _ _ _ (scover_B c i arg3 harg3 arg4 harg4 arg5 harg5 arg6 harg6 hc0 hc1 hc2 x0 x1)]
  unfold kernelRun_B
  dsimp only
  sl_unfold_words
  rw [View.canon_cons_unit_zero (S := S512x512) hz, View.readCov_unit_zero (S := S512x512) _ hz]
  simp only [View.readAt_eq_ld, harg3.read_unread, harg4.read_unread, View.ld_unit_zero (S := S2048x512) hz]

/-- Case C (reduction coordinate 1 or 2): the accumulator ends with its entering contents plus the product of the two
    input blocks. -/
theorem sout_C_eq (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : ¬cond_2 i) (x0 x1 : Vec F S2048x512 .bf16) (xs : Vec F S512x512 .f32) :
    sout_C c i arg3 harg3 arg4 harg4 arg5 harg5 arg6 harg6 hc0 hc1 hc2 x0 x1 xs = k2_pay3 x0 x1 xs := by
  unfold sout_C
  rw [View.read_writes_eq_canon _ _ _ (scover_C c i arg3 harg3 arg4 harg4 arg5 harg5 arg6 harg6 hc0 hc1 hc2 x0 x1 xs)]
  unfold kernelRun_C
  dsimp only
  sl_unfold_words
  rw [View.canon_unit_zero hz]
  simp only [View.readAt_eq_ld, harg3.read_unread, harg4.read_unread, harg6.read_unread, View.ld_unit_zero (S := S2048x512) hz, View.ld_unit_zero (S := S512x512) hz]

/-- Case D (reduction coordinate 3): the accumulator likewise. -/
theorem sout_D_eq (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) :
    sout_D c i arg3 harg3 arg4 harg4 arg5 harg5 arg6 harg6 hc0 hc1 hc2 x0 x1 xs xo = k2_pay3 x0 x1 xs := by
  unfold sout_D
  rw [View.read_writes_eq_canon _ _ _ (scover_D c i arg3 harg3 arg4 harg4 arg5 harg5 arg6 harg6 hc0 hc1 hc2 x0 x1 xs xo)]
  unfold kernelRun_D
  dsimp only
  sl_unfold_words
  rw [View.canon_unit_zero hz]
  simp only [View.readAt_eq_ld, harg3.read_unread, harg4.read_unread, harg6.read_unread, View.ld_unit_zero (S := S2048x512) hz, View.ld_unit_zero (S := S512x512) hz]

/-- Case D: the result's buffer ends with its entering contents plus the sum of the squares of the accumulator as the
    body has just left it. -/
theorem out_D_2_eq (c : Dev nD) (i : grid2.Coords) (arg3 : Memref sig .tc .vmem S2048x512 .bf16) (harg3 : arg3.IsWhole) (arg4 : Memref sig .tc .vmem S2048x512 .bf16) (harg4 : arg4.IsWhole) (arg5 : Memref sig .tc .vmem S1x1 .f32) (harg5 : arg5.IsWhole) (arg6 : Memref sig .tc .vmem S512x512 .f32) (harg6 : arg6.IsWhole) (hc0 : ¬cond_0 i) (hc1 : ¬cond_1 i) (hc2 : cond_2 i) (x0 x1 : Vec F S2048x512 .bf16) (xs : Vec F S512x512 .f32) (xo : Vec F S1x1 .f32) :
    out_D_2 c i arg3 harg3 arg4 harg4 arg5 harg5 arg6 harg6 hc0 hc1 hc2 x0 x1 xs xo = k2_pay4 (k2_pay3 x0 x1 xs) xo := by
  unfold out_D_2
  rw [View.read_writes_eq_canon _ _ _ (cover_D_2 c i arg3 harg3 arg4 harg4 arg5 harg5 arg6 harg6 hc0 hc1 hc2 x0 x1 xs xo)]
  unfold kernelRun_D
  dsimp only
  sl_unfold_words
  rw [View.canon_unit_zero hz, View.readCov_unit_zero (S := S512x512) _ hz]
  simp only [View.readAt_eq_ld, harg3.read_unread, harg4.read_unread, harg5.read_unread, harg6.read_unread, View.ld_unit_zero (S := S2048x512) hz, View.ld_unit_zero (S := S512x512) hz, View.ld_unit_zero (S := S1x1) hz]

end Cert.KernelIdeal.Reg2

end
-- ==== Proof.KI2Blk.lean ====
/-
  Region 2 (the grid of 16 points, 2 × 2 × 4, in row-major order: point t is (i, j, k) with
  i = t / 8, j = (t / 4) % 2, k = t % 4): its input blocks as entries of the arrays the region finds, and
  its result array after the region.

  The first input window's block at a point is block (k, i) of the second centred-data array of 8192 × 1024 in blocks of
  2048 × 512, the second's is block (k, j) of the second centred-data array of 8192 × 1024: entry (n, p) of a block sits in
  its array at row k · 2048 + n and column (block column) · 512 + p — a block's coordinate on an axis is the block
  index times the block's size plus the coordinate inside the block. The printed index maps are decided once over
  the grid (`idx_facts`).

  The result window is one 1 × 1 block, written back at the last point only; that block covers the whole 1 × 1 array,
  so the array after the region is what the result's buffer holds after the last point (`arrAt_out`).
-/
import proofs.«157129_j47072841564786_1_alg».proof.Proof.KI2
import Idealize.ShloMosaic.Lib.ValueIdx
import Idealize.ShloMosaic.Lib.Pipeline.Value

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The printed index maps of the two input windows, decided once over the grid. -/
theorem idx_facts : ∀ t : Fin cfg2.N,
    win2_0.index t (0 : Fin 2) = t.val % 4 ∧ win2_0.index t (1 : Fin 2) = t.val / 8
    ∧ win2_1.index t (0 : Fin 2) = t.val % 4 ∧ win2_1.index t (1 : Fin 2) = (t.val / 4) % 2 :=
  (by decide +kernel : ∀ t : Fin grid2.N, _)

/-- Entry (n, p) of the first window's block at point t, in its array. -/
theorem iblk_0_apply (c : Dev nD) (t : Fin cfg2.N) (n : Fin 2048) (p : Fin 512) :
    (iblk V c 0 t : S2048x512.Idx → Elt F .bf16) (ValueIdx.ix2 n p)
      = (V c (Pipeline.arrRef spec2 0) : S8192x1024.Idx → Elt F .bf16)
          (ValueIdx.ix2 (⟨(t.val % 4) * 2048 + n.val, by have := n.isLt; omega⟩ : Fin 8192)
            (⟨(t.val / 8) * 512 + p.val, by
              have hN : t.val < 16 := lt_of_lt_of_eq t.isLt (show cfg2.N = 16 from N_2)
              have := p.isLt; omega⟩ : Fin 1024)) := by
  obtain ⟨e0, e1, -, -⟩ := idx_facts t
  unfold iblk
  rw [View.read_apply]
  show (V c (Pipeline.arrRef spec2 0) : S8192x1024.Idx → Elt F .bf16) _ = _
  congr 1
  funext a
  apply Fin.ext
  match a with
  | ⟨0, _⟩ => show win2_0.index t (0 : Fin 2) * 2048 + 1 * n.val = (t.val % 4) * 2048 + n.val; rw [e0]; omega
  | ⟨1, _⟩ => show win2_0.index t (1 : Fin 2) * 512 + 1 * p.val = (t.val / 8) * 512 + p.val; rw [e1]; omega

/-- Entry (n, q) of the second window's block at point t, in its array. -/
theorem iblk_1_apply (c : Dev nD) (t : Fin cfg2.N) (n : Fin 2048) (q : Fin 512) :
    (iblk V c 1 t : S2048x512.Idx → Elt F .bf16) (ValueIdx.ix2 n q)
      = (V c (Pipeline.arrRef spec2 1) : S8192x1024.Idx → Elt F .bf16)
          (ValueIdx.ix2 (⟨(t.val % 4) * 2048 + n.val, by have := n.isLt; omega⟩ : Fin 8192)
            (⟨((t.val / 4) % 2) * 512 + q.val, by have := q.isLt; omega⟩ : Fin 1024)) := by
  obtain ⟨-, -, e0, e1⟩ := idx_facts t
  unfold iblk
  rw [View.read_apply]
  show (V c (Pipeline.arrRef spec2 1) : S8192x1024.Idx → Elt F .bf16) _ = _
  congr 1
  funext a
  apply Fin.ext
  match a with
  | ⟨0, _⟩ => show win2_1.index t (0 : Fin 2) * 2048 + 1 * n.val = (t.val % 4) * 2048 + n.val; rw [e0]; omega
  | ⟨1, _⟩ => show win2_1.index t (1 : Fin 2) * 512 + 1 * q.val = ((t.val / 4) % 2) * 512 + q.val; rw [e1]; omega

/-- A 1×1 array has one index. -/
theorem idx11_eq (y y' : S1x1.Idx) : y = y' := funext fun a => Fin.ext (by
  match a with
  | ⟨0, _⟩ =>
    have h := ValueIdx.idx2_lt0 y; have h' := ValueIdx.idx2_lt0 y'
    show (y 0).val = (y' 0).val; omega
  | ⟨1, _⟩ =>
    have h := ValueIdx.idx2_lt1 y; have h' := ValueIdx.idx2_lt1 y'
    show (y 1).val = (y' 1).val; omega)

/-- The last point of the grid. -/
theorem lastLt : 15 < cfg2.N := by have h : cfg2.N = 16 := N_2; omega

/-- The one write-back, at the last point, writes what the result's buffer holds after that point: block (0, 0) of a
    1×1 array is the array. -/
theorem flushed_2_eq (c : Dev nD) (t : Fin cfg2.N) (hf : (cfg2.win 2).flush t = true) :
    (dat V c).flushed 2 t = ((cfg2.win 2).blk t).view.read (Elt F) ((outsAt V c 15 lastLt).1 : Vec F S1x1 .f32) := by
  have hN : cfg2.N = 16 := N_2
  have h1 : t.val = 15 := by have := (flush2_2 t).mp hf; have := t.isLt; omega
  obtain rfl : t = ⟨15, lastLt⟩ := Fin.ext h1
  show (cfg2.win 2).cut (grid2.coords _) ((dat V c).after 2 _) = _
  rw [after_2]
  funext j
  rw [View.read_apply]
  show (outsAt V c 15 _).1 _ = (outsAt V c 15 _).1 _
  exact congrArg _ (idx11_eq _ _)

/-- The result array after the region holds what the recursion says the result's buffer holds after the last point. -/
theorem arrAt_out (c : Dev nD) :
    ((dat V c).arrAt 2 cfg2.N : S1x1.Idx → Elt F .f32) = (outsAt V c 15 lastLt).1 :=
  (dat V c).arrAt_eq_of_cover 2 ((outsAt V c 15 lastLt).1 : Vec F S1x1 .f32) (flushed_2_eq V c) fun i =>
    ⟨⟨15, lastLt⟩, (flush2_2 _).mpr rfl, by
      show i ∈ ((View.whole main_v18).slice (win2_2.rect ⟨15, lastLt⟩)).set
      rw [View.set_slice_whole, Rect.mem_set_unit]
      intro a
      have h0 : (i 0 : Nat) < 1 := (i 0).isLt
      have h1 : (i 1 : Nat) < 1 := (i 1).isLt
      match a with
      | ⟨0, _⟩ =>
        show win2_2.index ⟨15, lastLt⟩ 0 * win2_2.size 0 ≤ (i 0 : Nat)
          ∧ (i 0 : Nat) < win2_2.index ⟨15, lastLt⟩ 0 * win2_2.size 0 + win2_2.xsize (grid2.coords ⟨15, lastLt⟩) 0
        rw [show win2_2.index ⟨15, lastLt⟩ 0 * win2_2.size 0 = 0 from rfl,
          show win2_2.xsize (grid2.coords ⟨15, lastLt⟩) 0 = 1 from rfl]
        omega
      | ⟨1, _⟩ =>
        show win2_2.index ⟨15, lastLt⟩ 1 * win2_2.size 1 ≤ (i 1 : Nat)
          ∧ (i 1 : Nat) < win2_2.index ⟨15, lastLt⟩ 1 * win2_2.size 1 + win2_2.xsize (grid2.coords ⟨15, lastLt⟩) 1
        rw [show win2_2.index ⟨15, lastLt⟩ 1 * win2_2.size 1 = 0 from rfl,
          show win2_2.xsize (grid2.coords ⟨15, lastLt⟩) 1 = 1 from rfl]
        omega⟩

/-- The same, at an index. -/
theorem arrAt_out_apply (c : Dev nD) (y : S1x1.Idx) :
    ((dat V c).arrAt 2 cfg2.N : S1x1.Idx → Elt F .f32) y = (outsAt V c 15 lastLt).1 y :=
  congrFun (arrAt_out V c) y

end Cert.KernelIdeal.Reg2

end
-- ==== Proof.KI2Acc.lean ====
/-
  Region 2 of the idealized program as real numbers. The region walks a grid of 2 × 2 × 4 points; after each
  point the accumulator and the result's buffer hold, as extended reals, the values of the blocked accumulation over
  the real matrices the two input arrays hold (the matrices read at natural-number indices, zero outside their
  ranges), and after the last point the result array holds the squared Frobenius norm of the product of the
  transposed first matrix and the second.
-/
import proofs.«157129_j47072841564786_1_alg».proof.Proof.KI2Val
import proofs.«157129_j47072841564786_1_alg».proof.Proof.KI2Blk
import proofs.«157129_j47072841564786_1_alg».proof.Proof.PayIdeal
import proofs.«157129_j47072841564786_1_alg».proof.Proof.GridSum
import proofs.«157129_j47072841564786_1_alg».proof.Proof.ExtMat

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.GridSum (ext accR outR mm kk ii jj)
open scoped BigOperators

/-! ## What each case leaves, over the payloads -/

section Steps
variable {F : FTy → Type} [FloatOps F]
variable (V : (c : Dev nD) → (b : Ref sig .tc) → Buf (Elt F) ((c : Thread nD τ).loc b))

/-- The first point: the result is zeroed; the accumulator is zeroed and receives the first product. -/
theorem outsAt_zero_pay (c : Dev nD) (ht : 0 < cfg2.N) :
    outsAt V c 0 ht = (k2_pay1, k2_pay3 (iblk V c 0 ⟨0, ht⟩) (iblk V c 1 ⟨0, ht⟩) k2_pay2) := by
  have hc0 : cond_0 (grid2.coords ⟨0, ht⟩) := (hcond_0 ⟨0, ht⟩).mpr rfl
  have hc1 : cond_1 (grid2.coords ⟨0, ht⟩) := (hcond_1 ⟨0, ht⟩).mpr (Nat.zero_mod _)
  have hc2 : ¬cond_2 (grid2.coords ⟨0, ht⟩) := fun h => (fun h' => by (try dsimp only at h'); omega) ((hcond_2 ⟨0, ht⟩).mp h)
  have e := outsAt_A V c ⟨0, ht⟩ rfl hc0 hc1 hc2
  rw [out_A_2_eq, sout_A_eq] at e
  exact e

/-- A later point where the reduction starts again: the result is carried; the accumulator is zeroed and receives
the product. -/
theorem outsAt_succ_pay_B (c : Dev nD) (t : ℕ) (ht : t + 1 < cfg2.N) (h1 : (t + 1) % 4 = 0) :
    outsAt V c (t + 1) ht = ((outsAt V c t (Nat.lt_of_succ_lt ht)).1,
      k2_pay3 (iblk V c 0 ⟨t + 1, ht⟩) (iblk V c 1 ⟨t + 1, ht⟩) k2_pay2) := by
  have hc0 : ¬cond_0 (grid2.coords ⟨t + 1, ht⟩) := fun h => Nat.succ_ne_zero t ((hcond_0 ⟨t + 1, ht⟩).mp h)
  have hc1 : cond_1 (grid2.coords ⟨t + 1, ht⟩) := (hcond_1 ⟨t + 1, ht⟩).mpr h1
  have hc2 : ¬cond_2 (grid2.coords ⟨t + 1, ht⟩) := fun h => (fun h' => by (try dsimp only at h'); omega) ((hcond_2 ⟨t + 1, ht⟩).mp h)
  have e := outsAt_B V c ⟨t + 1, ht⟩ (Nat.succ_ne_zero t) h1 hc0 hc1 hc2
  rw [sout_B_eq] at e
  exact e

/-- A point where the reduction goes on: the result is carried; the accumulator receives the product. -/
theorem outsAt_succ_pay_C (c : Dev nD) (t : ℕ) (ht : t + 1 < cfg2.N) (h1 : ¬(t + 1) % 4 = 0) (h2 : ¬(t + 1) % 4 = 3) :
    outsAt V c (t + 1) ht = ((outsAt V c t (Nat.lt_of_succ_lt ht)).1,
      k2_pay3 (iblk V c 0 ⟨t + 1, ht⟩) (iblk V c 1 ⟨t + 1, ht⟩) (outsAt V c t (Nat.lt_of_succ_lt ht)).2) := by
  have hc0 : ¬cond_0 (grid2.coords ⟨t + 1, ht⟩) := fun h => Nat.succ_ne_zero t ((hcond_0 ⟨t + 1, ht⟩).mp h)
  have hc1 : ¬cond_1 (grid2.coords ⟨t + 1, ht⟩) := fun h => h1 ((hcond_1 ⟨t + 1, ht⟩).mp h)
  have hc2 : ¬cond_2 (grid2.coords ⟨t + 1, ht⟩) := fun h => h2 ((hcond_2 ⟨t + 1, ht⟩).mp h)
  have e := outsAt_C V c ⟨t + 1, ht⟩ (Nat.succ_ne_zero t) h1 h2 hc0 hc1 hc2
  rw [sout_C_eq] at e
  exact e

/-- A point where the reduction ends: the accumulator receives the product, and the result the sum of the
accumulator's squares. -/
theorem outsAt_succ_pay_D (c : Dev nD) (t : ℕ) (ht : t + 1 < cfg2.N) (h1 : ¬(t + 1) % 4 = 0) (h2 : (t + 1) % 4 = 3) :
    outsAt V c (t + 1) ht =
      (k2_pay4 (k2_pay3 (iblk V c 0 ⟨t + 1, ht⟩) (iblk V c 1 ⟨t + 1, ht⟩) (outsAt V c t (Nat.lt_of_succ_lt ht)).2)
          (outsAt V c t (Nat.lt_of_succ_lt ht)).1,
        k2_pay3 (iblk V c 0 ⟨t + 1, ht⟩) (iblk V c 1 ⟨t + 1, ht⟩) (outsAt V c t (Nat.lt_of_succ_lt ht)).2) := by
  have hc0 : ¬cond_0 (grid2.coords ⟨t + 1, ht⟩) := fun h => Nat.succ_ne_zero t ((hcond_0 ⟨t + 1, ht⟩).mp h)
  have hc1 : ¬cond_1 (grid2.coords ⟨t + 1, ht⟩) := fun h => h1 ((hcond_1 ⟨t + 1, ht⟩).mp h)
  have hc2 : cond_2 (grid2.coords ⟨t + 1, ht⟩) := (hcond_2 ⟨t + 1, ht⟩).mpr h2
  have e := outsAt_D V c ⟨t + 1, ht⟩ (Nat.succ_ne_zero t) h1 h2 hc0 hc1 hc2
  rw [out_D_2_eq, sout_D_eq] at e
  exact e

end Steps

/-! ## The accumulator and the result as real numbers -/

section Real
variable (V : (c : Dev nD) → (b : Ref sig .tc) → Buf (Elt Ideal) ((c : Thread nD τ).loc b))
variable (c : Dev nD) (ar : Fin 8192 → Fin 1024 → ℝ) (br : Fin 8192 → Fin 1024 → ℝ)

/-- An entry of the first operand's block at point `t` is the entry of the real matrix the grid point names. -/
theorem iblk_0_real (hA : ∀ n p, V c (Pipeline.arrRef spec2 0) (ix2 n p) = ((ar n p : ℝ) : EReal))
    (t : Fin cfg2.N) (n : Fin 2048) (p : Fin 512) :
    (iblk V c 0 t : Vec Ideal S2048x512 .bf16) (ix2 n p)
      = ((ext ar (t.val % 4 * 2048 + n.val) (t.val / 8 * 512 + p.val) : ℝ) : EReal) := by
  have hN : t.val < 16 := lt_of_lt_of_eq t.isLt (show cfg2.N = 16 from N_2)
  have h1 : t.val % 4 * 2048 + n.val < 8192 := by have := n.isLt; omega
  have h2 : t.val / 8 * 512 + p.val < 1024 := by have := p.isLt; omega
  rw [Cert.GridSum.ext_apply ar _ _ h1 h2]
  exact (iblk_0_apply V c t n p).trans (hA _ _)

/-- An entry of the second operand's block at point `t` is the entry of the real matrix the grid point names. -/
theorem iblk_1_real (hB : ∀ n q, V c (Pipeline.arrRef spec2 1) (ix2 n q) = ((br n q : ℝ) : EReal))
    (t : Fin cfg2.N) (n : Fin 2048) (q : Fin 512) :
    (iblk V c 1 t : Vec Ideal S2048x512 .bf16) (ix2 n q)
      = ((ext br (t.val % 4 * 2048 + n.val) (t.val / 4 % 2 * 512 + q.val) : ℝ) : EReal) := by
  have h1 : t.val % 4 * 2048 + n.val < 8192 := by have := n.isLt; omega
  have h2 : t.val / 4 % 2 * 512 + q.val < 1024 := by have := q.isLt; omega
  rw [Cert.GridSum.ext_apply br _ _ h1 h2]
  exact (iblk_1_apply V c t n q).trans (hB _ _)

omit V c in
/-- The product of two blocks that hold the real matrices' entries the point `t` names, at (p, q): the block
term of the real accumulation. -/
theorem block_sum (x0 x1 : Vec Ideal S2048x512 .bf16) (t : ℕ) (p q : Fin 512)
    (h0 : ∀ n : Fin 2048, x0 (ix2 n p) = ((ext ar (t % 4 * 2048 + n.val) (t / 8 * 512 + p.val) : ℝ) : EReal))
    (h1 : ∀ n : Fin 2048, x1 (ix2 n q) = ((ext br (t % 4 * 2048 + n.val) (t / 4 % 2 * 512 + q.val) : ℝ) : EReal)) :
    (∑ n : Fin 2048, x0 (ix2 n p) * x1 (ix2 n q))
      = ((mm 2 (ext ar) (ext br) t p.val q.val : ℝ) : EReal) := by
  unfold mm kk ii jj
  rw [Finset.sum_range, ← Cert.GridSum.coe_sum_ereal]
  refine Finset.sum_congr rfl fun n _ => ?_
  rw [h0 n, h1 n, ← EReal.coe_mul]

omit V c in
/-- The accumulator's payload at (p, q), over an accumulator that holds a real number there. -/
theorem pay3_real (x0 x1 : Vec Ideal S2048x512 .bf16) (t : ℕ) (s : Vec Ideal S512x512 .f32) (p q : Fin 512) (r : ℝ)
    (h0 : ∀ n : Fin 2048, x0 (ix2 n p) = ((ext ar (t % 4 * 2048 + n.val) (t / 8 * 512 + p.val) : ℝ) : EReal))
    (h1 : ∀ n : Fin 2048, x1 (ix2 n q) = ((ext br (t % 4 * 2048 + n.val) (t / 4 % 2 * 512 + q.val) : ℝ) : EReal))
    (hs : s (ix2 p q) = ((r : ℝ) : EReal)) :
    k2_pay3 x0 x1 s (ix2 p q) = ((r + mm 2 (ext ar) (ext br) t p.val q.val : ℝ) : EReal) := by
  rw [PayVal.pay3_2, hs, EReal.coe_add]
  exact congrArg (((r : ℝ) : EReal) + ·) (block_sum ar br x0 x1 t p q h0 h1)

end Real

section Main
variable (V : (c : Dev nD) → (b : Ref sig .tc) → Buf (Elt Ideal) ((c : Thread nD τ).loc b))
variable (c : Dev nD) (ar : Fin 8192 → Fin 1024 → ℝ) (br : Fin 8192 → Fin 1024 → ℝ)

/-- After every grid point the accumulator and the result's buffer hold the real accumulation's values. -/
theorem outsAt_real (hA : ∀ n p, V c (Pipeline.arrRef spec2 0) (ix2 n p) = ((ar n p : ℝ) : EReal))
    (hB : ∀ n q, V c (Pipeline.arrRef spec2 1) (ix2 n q) = ((br n q : ℝ) : EReal)) :
    ∀ (t : ℕ) (ht : t < cfg2.N),
      (∀ p q : Fin 512, (outsAt V c t ht).2 (ix2 p q)
          = ((accR 2 (ext ar) (ext br) t p.val q.val : ℝ) : EReal)) ∧
      (∀ y : S1x1.Idx, (outsAt V c t ht).1 y = ((outR 2 (ext ar) (ext br) t : ℝ) : EReal)) := by
  intro t
  induction t with
  | zero =>
    intro ht
    rw [outsAt_zero_pay V c ht]
    refine ⟨fun p q => ?_, fun y => ?_⟩
    · show k2_pay3 (iblk V c 0 ⟨0, ht⟩) (iblk V c 1 ⟨0, ht⟩) (k2_pay2 (F := Ideal)) (ix2 p q) = _
      rw [pay3_real ar br (iblk V c 0 ⟨0, ht⟩) (iblk V c 1 ⟨0, ht⟩) 0 (k2_pay2 (F := Ideal)) p q 0
        (fun n => iblk_0_real V c ar hA ⟨0, ht⟩ n p) (fun n => iblk_1_real V c br hB ⟨0, ht⟩ n q)
        ((PayVal.pay2_2 _).trans EReal.coe_zero.symm)]
      rfl
    · show k2_pay1 y = _
      rw [PayVal.pay1_2]
      exact EReal.coe_zero.symm
  | succ t ih =>
    intro ht
    obtain ⟨ihS, ihO⟩ := ih (Nat.lt_of_succ_lt ht)
    have hS : ∀ (s : Vec Ideal S512x512 .f32) (g : ℕ → ℕ → ℝ), (∀ p q : Fin 512, s (ix2 p q) = ((g p.val q.val : ℝ) : EReal)) →
        ∀ p q : Fin 512, k2_pay3 (iblk V c 0 ⟨t + 1, ht⟩) (iblk V c 1 ⟨t + 1, ht⟩) s (ix2 p q)
          = ((g p.val q.val + mm 2 (ext ar) (ext br) (t + 1) p.val q.val : ℝ) : EReal) := fun s g hs p q =>
      pay3_real ar br (iblk V c 0 ⟨t + 1, ht⟩) (iblk V c 1 ⟨t + 1, ht⟩) (t + 1) s p q _
        (fun n => iblk_0_real V c ar hA ⟨t + 1, ht⟩ n p) (fun n => iblk_1_real V c br hB ⟨t + 1, ht⟩ n q) (hs p q)
    by_cases h1 : (t + 1) % 4 = 0
    · rw [outsAt_succ_pay_B V c t ht h1]
      refine ⟨fun p q => ?_, fun y => ?_⟩
      · show k2_pay3 (iblk V c 0 ⟨t + 1, ht⟩) (iblk V c 1 ⟨t + 1, ht⟩) (k2_pay2 (F := Ideal)) (ix2 p q) = _
        rw [hS (k2_pay2 (F := Ideal)) (fun _ _ => 0) (fun p q => (PayVal.pay2_2 _).trans EReal.coe_zero.symm) p q,
          Cert.GridSum.accR_succ_restart 2 _ _ t h1, zero_add]
      · show (outsAt V c t (Nat.lt_of_succ_lt ht)).1 y = _
        rw [ihO y, Cert.GridSum.outR_succ_keep 2 _ _ t (by omega)]
    · by_cases h2 : (t + 1) % 4 = 3
      · rw [outsAt_succ_pay_D V c t ht h1 h2]
        have hS' : ∀ p q : Fin 512,
            k2_pay3 (iblk V c 0 ⟨t + 1, ht⟩) (iblk V c 1 ⟨t + 1, ht⟩) (outsAt V c t (Nat.lt_of_succ_lt ht)).2 (ix2 p q)
              = ((accR 2 (ext ar) (ext br) (t + 1) p.val q.val : ℝ) : EReal) := fun p q => by
          rw [hS _ (accR 2 (ext ar) (ext br) t) ihS p q, Cert.GridSum.accR_succ_add 2 _ _ t h1]
        refine ⟨hS', fun y => ?_⟩
        show k2_pay4 _ _ y = _
        rw [PayVal.pay4_2, ihO y, Cert.GridSum.outR_succ_add 2 _ _ t h2, EReal.coe_add]
        refine congrArg (((outR 2 (ext ar) (ext br) t : ℝ) : EReal) + ·) ?_
        exact Cert.GridSum.sum_sq_coe 512 512 (accR 2 (ext ar) (ext br) (t + 1)) (fun p q => k2_pay3 (iblk V c 0 ⟨t + 1, ht⟩) (iblk V c 1 ⟨t + 1, ht⟩) (outsAt V c t (Nat.lt_of_succ_lt ht)).2 (ix2 p q)) hS'
      · rw [outsAt_succ_pay_C V c t ht h1 h2]
        refine ⟨fun p q => ?_, fun y => ?_⟩
        · show k2_pay3 (iblk V c 0 ⟨t + 1, ht⟩) (iblk V c 1 ⟨t + 1, ht⟩) (outsAt V c t (Nat.lt_of_succ_lt ht)).2 (ix2 p q) = _
          rw [hS _ (accR 2 (ext ar) (ext br) t) ihS p q, Cert.GridSum.accR_succ_add 2 _ _ t h1]
        · show (outsAt V c t (Nat.lt_of_succ_lt ht)).1 y = _
          rw [ihO y, Cert.GridSum.outR_succ_keep 2 _ _ t h2]

/-- The result array after the region: the squared Frobenius norm of the product of the transposed first matrix and
the second. -/
theorem result_real (hA : ∀ n p, V c (Pipeline.arrRef spec2 0) (ix2 n p) = ((ar n p : ℝ) : EReal))
    (hB : ∀ n q, V c (Pipeline.arrRef spec2 1) (ix2 n q) = ((br n q : ℝ) : EReal)) :
    ∀ y : S1x1.Idx, (dat V c).arrAt 2 cfg2.N y
      = ((∑ p : Fin 1024, ∑ q : Fin 1024, (∑ n : Fin 8192, ar n p * br n q) ^ 2 : ℝ) : EReal) := by
  intro y
  rw [arrAt_out_apply V c y, (outsAt_real V c ar br hA hB 15 lastLt).2 y]
  have h : outR 2 (ext ar) (ext br) 15
      = ∑ P ∈ Finset.range 1024, ∑ Q ∈ Finset.range 1024, (∑ n ∈ Finset.range 8192, ext ar n P * ext br n Q) ^ 2 :=
    Cert.GridSum.outR_last 2 (ext ar) (ext br) 2 (by norm_num) (by norm_num)
  rw [h, Cert.GridSum.sum_ext_sq]

end Main

end Cert.KernelIdeal.Reg2

end
-- ==== Proof.HsicSpec.lean ====
/-
  The two closed forms of the linear-kernel HSIC statistic, over the reals and over arbitrary finite index types.

  For data matrices `a : ι → κ → ℝ` and `b : ι → μ → ℝ` with the same row type `ι` (the samples):
  * `gram a i j = ∑ p, a i p * a j p` is the Gram matrix `a aᵀ`;
  * `cgram N Q a` is the doubly centred Gram matrix, spelt entry by entry as
    `G i j - (row sum i)/N - (column sum j)/N + (grand total)/Q`;
  * `hsicRef N Q a b = ∑ i j, cgram a i j * cgram b i j` (the n × n form);
  * `cen N a n p = a n p - (column sum p)/N` is the column-centred data;
  * `hsicKer N a b = ∑ p q, (∑ n, cen a n p * cen b n q)²`, the squared Frobenius norm of `(cen a)ᵀ (cen b)`.
  With `N` the number of rows and `Q = N²` the two agree (proved in HsicAlgebra.lean).
-/
import Mathlib

noncomputable section

namespace Cert.Hsic

open Finset BigOperators

variable {ι κ μ : Type*} [Fintype ι] [Fintype κ] [Fintype μ]

/-- Entry `(n, p)` of the data less its column's mean, the mean written as the column sum over `N`. -/
def cen (N : ℝ) (a : ι → κ → ℝ) (n : ι) (p : κ) : ℝ := a n p - (∑ m, a m p) / N

/-- Entry `(i, j)` of the Gram matrix `a aᵀ`. -/
def gram (a : ι → κ → ℝ) (i j : ι) : ℝ := ∑ p, a i p * a j p

/-- Entry `(i, j)` of the doubly centred Gram matrix: less the row mean, less the column mean, plus the grand mean. -/
def cgram (N Q : ℝ) (a : ι → κ → ℝ) (i j : ι) : ℝ :=
  gram a i j - (∑ j', gram a i j') / N - (∑ i', gram a i' j) / N + (∑ i', ∑ j', gram a i' j') / Q

/-- The statistic as a sum over pairs of samples of the product of the two centred Gram matrices. -/
def hsicRef (N Q : ℝ) (a : ι → κ → ℝ) (b : ι → μ → ℝ) : ℝ := ∑ i, ∑ j, cgram N Q a i j * cgram N Q b i j

/-- The statistic as the squared Frobenius norm of the cross-covariance of the centred data. -/
def hsicKer (N : ℝ) (a : ι → κ → ℝ) (b : ι → μ → ℝ) : ℝ := ∑ p, ∑ q, (∑ n, cen N a n p * cen N b n q) ^ 2

end Cert.Hsic

end
-- ==== Proof.HostPrefix.lean ====
/-
  The host operations that open the idealized kernel, read at an index, and what the precondition says of
  the arguments.

  Before its first region the program computes, for each of its two arguments `x : f32[8192, 2048]` and
  `y : f32[8192, 1024]`, the data less its column means: the sum over the sample axis (a host sum from the zero
  word), broadcast to a row, divided by the word `0x46000000` (the f32 encoding of 8192, the number of samples),
  broadcast back over the rows, subtracted from the argument, and narrowed to bf16. Read as extended reals a
  change of format is the identity, the host sum is the initial value `0` plus the sum over the samples, and the
  division by the real number 8192 is multiplication by its inverse. So if every entry of the argument is a real
  number `xr i p`, entry `(i, p)` of the result is the real number
      `xr i p - (∑ m, xr m p) / 8192 = cen 8192 xr i p`
  (`Cert.Hsic.cen`, the column-centred data of the specification). `v6_apply` and `v13_apply` state this for
  the two buffers the regions later read, over any contents `W` of the buffers before the operations run.

  That the entries are real numbers is the precondition: it compares the absolute value `max a (-a)` of every
  entry `a` with the word `0x7F800000` (+∞) and takes the conjunction of all comparisons, so that conjunction
  being `1` makes every comparison `1`; `|a| < +∞` excludes `a = ±∞` (`finite_of_pre`).
-/
import proofs.«157129_j47072841564786_1_alg».proof.Defs
import proofs.«157129_j47072841564786_1_alg».proof.Proof.Gen.KernelIdeal.Launch
import proofs.«157129_j47072841564786_1_alg».proof.Proof.Gen.Pre_finite_inputs
import proofs.«157129_j47072841564786_1_alg».proof.Proof.HsicSpec
import Idealize.ShloMosaic.Lib.ValueIdx
import Idealize.ShloMosaic.Lib.ValueLayout
import Idealize.ShloMosaic.Lib.ReduceAll
import Idealize.ShloMosaic.Lib.StableHlo.Run
import Idealize.ShloMosaic.Lib.Pipeline.Value
import Idealize.ShloMosaic.PureOps.Ideal.Laws

noncomputable section

namespace Cert.KernelIdeal.HostVal

open Cert.KernelIdeal Cert.KernelIdeal.Gen Idealize.ShloMosaic Idealize.ShloMosaic.TcCoe Idealize.SL.Sem
open Idealize.ShloMosaic.StableHlo Idealize.ShloMosaic.ValueIdx

/-! ## The precondition: every entry is a real number -/

/-- The scalar shape has one index. -/
theorem subsingleton_scalar_idx : Subsingleton Cert.Pre_finite_inputs.S_.Idx :=
  ⟨fun a b => funext fun d => d.elim0⟩

/-- The word 0x7F800000 read as an f32 is +∞. -/
theorem ofBits_inf : Ideal.ofBits .f32 0x7F800000#32 = (⊤ : EReal) := by
  simp [Ideal.ofBits, Ideal.ieee]

/-- An extended real whose absolute value compares below +∞ is a real number. -/
theorem real_of_abs_lt_inf (a : EReal)
    (h : Ideal.cmp .olt (max a (-a)) (Ideal.ofBits .f32 0x7F800000#32) = 1#1) : ∃ r : ℝ, a = (r : EReal) := by
  rw [ofBits_inf] at h
  have hlt : max a (-a) < (⊤ : EReal) := by
    by_contra hn
    simp [Ideal.cmp, hn] at h
  induction a using EReal.rec with
  | bot => simp at hlt
  | coe r => exact ⟨r, rfl⟩
  | top => simp at hlt

/-- Under the precondition every entry of both arguments is a real number. -/
theorem finite_of_pre [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∃ (xr : Fin 8192 → Fin 2048 → ℝ) (yr : Fin 8192 → Fin 1024 → ℝ),
      (∀ i p, m ((c.tc : Thread Cert.KernelIdeal.nD Cert.KernelIdeal.τ).loc Cert.KernelIdeal.main_arg0) (ix2 i p)
          = ((xr i p : ℝ) : EReal)) ∧
      (∀ i q, m ((c.tc : Thread Cert.KernelIdeal.nD Cert.KernelIdeal.τ).loc Cert.KernelIdeal.main_arg1) (ix2 i q)
          = ((yr i q : ℝ) : EReal)) := by
  haveI : Subsingleton Cert.Pre_finite_inputs.S_.Idx := subsingleton_scalar_idx
  have h0 := congrFun (h c) ValueIdx.ix0
  dsimp only [Cert.Pre_finite_inputs.fn] at h0
  obtain ⟨h1, h2⟩ := IntOp.andi_eq_one.1 h0
  have r1 : ∀ (i : Fin 8192) (p : Fin 2048), ∃ r : ℝ,
      m ((c.tc : Thread Cert.KernelIdeal.nD Cert.KernelIdeal.τ).loc Cert.KernelIdeal.main_arg0) (ix2 i p) = (r : EReal) :=
    fun i p => real_of_abs_lt_inf _ (Host.reduce_andi_all _ _ _ _ _ h1 (ix2 i p))
  have r2 : ∀ (i : Fin 8192) (q : Fin 1024), ∃ r : ℝ,
      m ((c.tc : Thread Cert.KernelIdeal.nD Cert.KernelIdeal.τ).loc Cert.KernelIdeal.main_arg1) (ix2 i q) = (r : EReal) :=
    fun i q => real_of_abs_lt_inf _ (Host.reduce_andi_all _ _ _ _ _ h2 (ix2 i q))
  choose xr hxr using r1
  choose yr hyr using r2
  exact ⟨xr, yr, hxr, hyr⟩

/-! ## Words and sums as extended reals -/

/-- The word 0x46000000 read as an f32 is 8192. -/
theorem ofBits_8192 : Ideal.ofBits .f32 0x46000000#32 = ((8192 : ℝ) : EReal) := by
  simp [Ideal.ofBits, Ideal.ieee]
  rw [← EReal.coe_mul]
  congr 1
  norm_num

/-- A finite sum of real numbers, coerced. -/
theorem coe_sum {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-! ## The first argument: `main_arg0` to `main_v6` -/

/-- Column sums of the data: the host's sum over the sample axis, from the zero word. -/
def colsumX (x : (⟨S8192x2048, .f32⟩ : BufTy).Contents (Elt Ideal)) : (⟨S2048, .f32⟩ : BufTy).Contents (Elt Ideal) :=
  Host.reduceAdd (F := Ideal) x (constant (F := Ideal) S_ .f32 0x00000000#32) reducesTo_S8192x2048_S2048_d0 h_S_

theorem colsumX_apply (x : (⟨S8192x2048, .f32⟩ : BufTy).Contents (Elt Ideal)) (xr : Fin 8192 → Fin 2048 → ℝ)
    (hx : ∀ i p, x (ix2 i p) = ((xr i p : ℝ) : EReal)) (p : Fin 2048) :
    colsumX x (ix1 p) = ((∑ m, xr m p : ℝ) : EReal) := by
  unfold colsumX
  simp only [Host.reduceAdd, Ideal.hostReduceAdd_def]
  rw [Ideal.hostReduceAdd_single reducesTo_S8192x2048_S2048_d0 (by decide)]
  rw [constant_apply, Ideal.ofBits_zero_f32, zero_add, ← coe_sum]
  refine Finset.sum_congr rfl fun k _ => ?_
  rw [← hx k p]
  exact congrArg x (funext fun a => Fin.ext (by match a with | ⟨0, _⟩ => rfl | ⟨1, _⟩ => rfl))

/-- Column means, as a row: the column sums over the word 8192. -/
def meanX (x : (⟨S8192x2048, .f32⟩ : BufTy).Contents (Elt Ideal)) : (⟨S1x2048, .f32⟩ : BufTy).Contents (Elt Ideal) :=
  Host.divf (F := Ideal) (broadcastInDim S1x2048 ![1] bcast_S2048_S1x2048_1 (colsumX x))
    (broadcastInDim S1x2048 ![] bcast_S_S1x2048 (constant (F := Ideal) S_ .f32 0x46000000#32))

theorem meanX_apply (x : (⟨S8192x2048, .f32⟩ : BufTy).Contents (Elt Ideal)) (xr : Fin 8192 → Fin 2048 → ℝ)
    (hx : ∀ i p, x (ix2 i p) = ((xr i p : ℝ) : EReal)) (p : Fin 2048) :
    meanX x (ix2 (0 : Fin 1) p) = (((∑ m, xr m p) / 8192 : ℝ) : EReal) := by
  unfold meanX
  show Ideal.div (broadcastInDim S1x2048 ![1] bcast_S2048_S1x2048_1 (colsumX x) (ix2 (0 : Fin 1) p))
      (broadcastInDim S1x2048 ![] bcast_S_S1x2048 (constant (F := Ideal) S_ .f32 0x46000000#32) (ix2 (0 : Fin 1) p)) = _
  rw [broadcastInDim_apply _ bcast_S2048_S1x2048_1 (colsumX x) (ix2 (0 : Fin 1) p) (ix1 p) (fun a => match a with
    | ⟨0, _⟩ => by show p.val = if (2048 : Nat) = 1 then 0 else p.val; rw [if_neg (by decide)])]
  rw [broadcastInDim_apply _ bcast_S_S1x2048 _ (ix2 (0 : Fin 1) p) ix0 (fun a => a.elim0)]
  rw [colsumX_apply x xr hx p, constant_apply, ofBits_8192, Ideal.div_coe (by norm_num), ← EReal.coe_mul]
  congr 1
  ring

/-- The data less its column means, narrowed to bf16 (the identity on extended reals). -/
def cenX (x : (⟨S8192x2048, .f32⟩ : BufTy).Contents (Elt Ideal)) : (⟨S8192x2048, .bf16⟩ : BufTy).Contents (Elt Ideal) :=
  truncf (F := Ideal) .bf16 (subf (F := Ideal) x (broadcastInDim S8192x2048 ![0, 1] bcast_S1x2048_S8192x2048_0_1 (meanX x))) bitsLt_bf16_f32

theorem cenX_apply (x : (⟨S8192x2048, .f32⟩ : BufTy).Contents (Elt Ideal)) (xr : Fin 8192 → Fin 2048 → ℝ)
    (hx : ∀ i p, x (ix2 i p) = ((xr i p : ℝ) : EReal)) (i : Fin 8192) (p : Fin 2048) :
    cenX x (ix2 i p) = ((Cert.Hsic.cen (8192 : ℝ) xr i p : ℝ) : EReal) := by
  unfold cenX
  rw [truncf_apply, subf_apply]
  rw [broadcastInDim_apply _ bcast_S1x2048_S8192x2048_0_1 (meanX x) (ix2 i p) (ix2 (0 : Fin 1) p) (fun a => match a with
    | ⟨0, _⟩ => by show (0 : Nat) = if (1 : Nat) = 1 then 0 else i.val; rw [if_pos rfl]
    | ⟨1, _⟩ => by show p.val = if (2048 : Nat) = 1 then 0 else p.val; rw [if_neg (by decide)])]
  rw [meanX_apply x xr hx p, hx i p, ← EReal.coe_sub]
  rfl

/-- After the host prefix, the centred-data buffer holds `cenX` of the argument. -/
theorem after_main_v6 (W : Valuation τ sig (Elt Ideal)) :
    (StableHlo.after (hostOps0 (F := Ideal)) W (Proc.devRef .tc main_v6) : S8192x2048.Idx → EReal)
      = cenX (W (Proc.devRef .tc main_arg0)) := by
  dsimp only [hostOps0]
  after_results
  rfl

/-! ## The second argument: `main_arg1` to `main_v13` -/

/-- Column sums of the data: the host's sum over the sample axis, from the zero word. -/
def colsumY (x : (⟨S8192x1024, .f32⟩ : BufTy).Contents (Elt Ideal)) : (⟨S1024, .f32⟩ : BufTy).Contents (Elt Ideal) :=
  Host.reduceAdd (F := Ideal) x (constant (F := Ideal) S_ .f32 0x00000000#32) reducesTo_S8192x1024_S1024_d0 h_S_

theorem colsumY_apply (x : (⟨S8192x1024, .f32⟩ : BufTy).Contents (Elt Ideal)) (xr : Fin 8192 → Fin 1024 → ℝ)
    (hx : ∀ i p, x (ix2 i p) = ((xr i p : ℝ) : EReal)) (p : Fin 1024) :
    colsumY x (ix1 p) = ((∑ m, xr m p : ℝ) : EReal) := by
  unfold colsumY
  simp only [Host.reduceAdd, Ideal.hostReduceAdd_def]
  rw [Ideal.hostReduceAdd_single reducesTo_S8192x1024_S1024_d0 (by decide)]
  rw [constant_apply, Ideal.ofBits_zero_f32, zero_add, ← coe_sum]
  refine Finset.sum_congr rfl fun k _ => ?_
  rw [← hx k p]
  exact congrArg x (funext fun a => Fin.ext (by match a with | ⟨0, _⟩ => rfl | ⟨1, _⟩ => rfl))

/-- Column means, as a row: the column sums over the word 8192. -/
def meanY (x : (⟨S8192x1024, .f32⟩ : BufTy).Contents (Elt Ideal)) : (⟨S1x1024, .f32⟩ : BufTy).Contents (Elt Ideal) :=
  Host.divf (F := Ideal) (broadcastInDim S1x1024 ![1] bcast_S1024_S1x1024_1 (colsumY x))
    (broadcastInDim S1x1024 ![] bcast_S_S1x1024 (constant (F := Ideal) S_ .f32 0x46000000#32))

theorem meanY_apply (x : (⟨S8192x1024, .f32⟩ : BufTy).Contents (Elt Ideal)) (xr : Fin 8192 → Fin 1024 → ℝ)
    (hx : ∀ i p, x (ix2 i p) = ((xr i p : ℝ) : EReal)) (p : Fin 1024) :
    meanY x (ix2 (0 : Fin 1) p) = (((∑ m, xr m p) / 8192 : ℝ) : EReal) := by
  unfold meanY
  show Ideal.div (broadcastInDim S1x1024 ![1] bcast_S1024_S1x1024_1 (colsumY x) (ix2 (0 : Fin 1) p))
      (broadcastInDim S1x1024 ![] bcast_S_S1x1024 (constant (F := Ideal) S_ .f32 0x46000000#32) (ix2 (0 : Fin 1) p)) = _
  rw [broadcastInDim_apply _ bcast_S1024_S1x1024_1 (colsumY x) (ix2 (0 : Fin 1) p) (ix1 p) (fun a => match a with
    | ⟨0, _⟩ => by show p.val = if (1024 : Nat) = 1 then 0 else p.val; rw [if_neg (by decide)])]
  rw [broadcastInDim_apply _ bcast_S_S1x1024 _ (ix2 (0 : Fin 1) p) ix0 (fun a => a.elim0)]
  rw [colsumY_apply x xr hx p, constant_apply, ofBits_8192, Ideal.div_coe (by norm_num), ← EReal.coe_mul]
  congr 1
  ring

/-- The data less its column means, narrowed to bf16 (the identity on extended reals). -/
def cenY (x : (⟨S8192x1024, .f32⟩ : BufTy).Contents (Elt Ideal)) : (⟨S8192x1024, .bf16⟩ : BufTy).Contents (Elt Ideal) :=
  truncf (F := Ideal) .bf16 (subf (F := Ideal) x (broadcastInDim S8192x1024 ![0, 1] bcast_S1x1024_S8192x1024_0_1 (meanY x))) bitsLt_bf16_f32

theorem cenY_apply (x : (⟨S8192x1024, .f32⟩ : BufTy).Contents (Elt Ideal)) (xr : Fin 8192 → Fin 1024 → ℝ)
    (hx : ∀ i p, x (ix2 i p) = ((xr i p : ℝ) : EReal)) (i : Fin 8192) (p : Fin 1024) :
    cenY x (ix2 i p) = ((Cert.Hsic.cen (8192 : ℝ) xr i p : ℝ) : EReal) := by
  unfold cenY
  rw [truncf_apply, subf_apply]
  rw [broadcastInDim_apply _ bcast_S1x1024_S8192x1024_0_1 (meanY x) (ix2 i p) (ix2 (0 : Fin 1) p) (fun a => match a with
    | ⟨0, _⟩ => by show (0 : Nat) = if (1 : Nat) = 1 then 0 else i.val; rw [if_pos rfl]
    | ⟨1, _⟩ => by show p.val = if (1024 : Nat) = 1 then 0 else p.val; rw [if_neg (by decide)])]
  rw [meanY_apply x xr hx p, hx i p, ← EReal.coe_sub]
  rfl

/-- After the host prefix, the centred-data buffer holds `cenY` of the argument. -/
theorem after_main_v13 (W : Valuation τ sig (Elt Ideal)) :
    (StableHlo.after (hostOps0 (F := Ideal)) W (Proc.devRef .tc main_v13) : S8192x1024.Idx → EReal)
      = cenY (W (Proc.devRef .tc main_arg1)) := by
  dsimp only [hostOps0]
  after_results
  rfl

/-! ## The two buffers at an index -/

/-- Entry `(i, p)` of the first centred-data buffer after the host prefix, over real-valued contents of the
    first argument. -/
theorem v6_apply (W : Valuation τ sig (Elt Ideal)) (xr : Fin 8192 → Fin 2048 → ℝ)
    (hx : ∀ i p, W (Proc.devRef .tc main_arg0) (ix2 i p) = ((xr i p : ℝ) : EReal)) (i : Fin 8192) (p : Fin 2048) :
    StableHlo.after (hostOps0 (F := Ideal)) W (Proc.devRef .tc main_v6) (ix2 i p)
      = ((Cert.Hsic.cen (8192 : ℝ) xr i p : ℝ) : EReal) :=
  (congrFun (after_main_v6 W) (ix2 i p)).trans (cenX_apply _ xr hx i p)

/-- Entry `(i, q)` of the second centred-data buffer after the host prefix, over real-valued contents of the
    second argument. -/
theorem v13_apply (W : Valuation τ sig (Elt Ideal)) (yr : Fin 8192 → Fin 1024 → ℝ)
    (hy : ∀ i q, W (Proc.devRef .tc main_arg1) (ix2 i q) = ((yr i q : ℝ) : EReal)) (i : Fin 8192) (q : Fin 1024) :
    StableHlo.after (hostOps0 (F := Ideal)) W (Proc.devRef .tc main_v13) (ix2 i q)
      = ((Cert.Hsic.cen (8192 : ℝ) yr i q : ℝ) : EReal) :=
  (congrFun (after_main_v13 W) (ix2 i q)).trans (cenY_apply _ yr hy i q)

end Cert.KernelIdeal.HostVal

end
-- ==== Proof.KITail.lean ====
/-
  After the three launches the program reshapes each 1×1 result to a scalar and forms
  hsic_xy / (sqrt (hsic_xx * hsic_yy) + eps). Here that tail is read at the ideal instance: if the three launches
  leave the constants A, B, C in their result arrays, the program's result is finish A B C at its one index.
-/
import proofs.«157129_j47072841564786_1_alg».proof.Proof.Gen.KernelIdeal.Regions
import Idealize.ShloMosaic.Lib.StableHlo.Run
import Idealize.ShloMosaic.Lib.ValueIdx
import Idealize.ShloMosaic.Lib.Pipeline.Value

noncomputable section
namespace Cert.KernelIdeal.Tail
open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (outs : Outs (F := Ideal))

/-- The quotient the program ends with, on extended reals: A / (sqrt (B * C) + eps), eps the word 0x322BCC77. -/
def finish (A B C : EReal) : EReal :=
  FloatOps.hostDivf (F := Ideal) (φ := .f32) A (FloatOps.addf (F := Ideal) (φ := .f32) (FloatOps.hostUnary (F := Ideal) (φ := .f32) .sqrt (FloatOps.mulf (F := Ideal) (φ := .f32) B C)) (FloatOps.ofBits (F := Ideal) .f32 0x322BCC77#32))

/-- A constant 1×1 array reshaped to a scalar reads as that constant. -/
theorem rs_const {x : S1x1.Idx → EReal} {h : EReal} (hx : ∀ y, x y = h) (hc : S1x1.ShapeCasts S_) (i : S_.Idx) : shapeCast S_ x hc i = h := by
  unfold shapeCast; exact hx _

theorem v15 (c : Dev nD) (h : EReal) (ho : ∀ y : S1x1.Idx, outs 2 main_v14 c y = h) (i : S_.Idx) :
    V6 m outs c (Proc.devRef .tc main_v15) i = h := by
  rw [V6_of m outs c main_v15 (by decide), V5_of m outs c main_v15 (by decide), V4_of m outs c main_v15 (by decide)]
  show StableHlo.after hostOps1 (V2 m outs c) (Proc.devRef .tc main_v15) i = _
  dsimp only [hostOps1]
  after_results
  show shapeCast S_ (V2 m outs c (Proc.devRef .tc main_v14)) shapeCasts_S1x1_S_ i = h
  refine rs_const (fun y => ?_) _ i
  rw [show V2 m outs c (Proc.devRef .tc main_v14) = outs 2 main_v14 c from Function.update_self ..]
  exact ho y

theorem v17 (c : Dev nD) (h : EReal) (ho : ∀ y : S1x1.Idx, outs 4 main_v16 c y = h) (i : S_.Idx) :
    V6 m outs c (Proc.devRef .tc main_v17) i = h := by
  rw [V6_of m outs c main_v17 (by decide)]
  show StableHlo.after hostOps2 (V4 m outs c) (Proc.devRef .tc main_v17) i = _
  dsimp only [hostOps2]
  after_results
  show shapeCast S_ (V4 m outs c (Proc.devRef .tc main_v16)) shapeCasts_S1x1_S_ i = h
  refine rs_const (fun y => ?_) _ i
  rw [show V4 m outs c (Proc.devRef .tc main_v16) = outs 4 main_v16 c from Function.update_self ..]
  exact ho y

/-- The program's result at its one index, from the constants the three launches leave. -/
theorem v23 (c : Dev nD) (A B C : EReal) (h14 : ∀ y : S1x1.Idx, outs 2 main_v14 c y = A) (h16 : ∀ y : S1x1.Idx, outs 4 main_v16 c y = B)
    (h18 : ∀ y : S1x1.Idx, outs 6 main_v18 c y = C) (i : S_.Idx) :
    V7 m outs c (Proc.devRef .tc main_v23) i = finish A B C := by
  show StableHlo.after hostOps3 (V6 m outs c) (Proc.devRef .tc main_v23) i = _
  dsimp only [hostOps3]
  after_results
  show FloatOps.hostDivf (F := Ideal) (φ := .f32) (V6 m outs c (Proc.devRef .tc main_v15) i)
      (FloatOps.addf (F := Ideal) (φ := .f32) (FloatOps.hostUnary (F := Ideal) (φ := .f32) .sqrt (FloatOps.mulf (F := Ideal) (φ := .f32) (V6 m outs c (Proc.devRef .tc main_v17) i)
        (shapeCast S_ (V6 m outs c (Proc.devRef .tc main_v18)) shapeCasts_S1x1_S_ i))) (FloatOps.ofBits (F := Ideal) .f32 0x322BCC77#32)) = _
  rw [v15 m outs c A h14 i, v17 m outs c B h16 i,
    rs_const (x := V6 m outs c (Proc.devRef .tc main_v18)) (h := C) (fun y => by
      rw [show V6 m outs c (Proc.devRef .tc main_v18) = outs 6 main_v18 c from Function.update_self ..]; exact h18 y) _ i]
  rfl

end Cert.KernelIdeal.Tail
end
-- ==== Proof.KIValue.lean ====
/-
  The idealized kernel program's result as a real expression. With finite inputs (entries ↑xr, ↑yr) the two arrays the
  launches read are the column-centred data; each launch leaves in its 1×1 result the squared Frobenius norm of the
  cross-covariance of its two operands, which is the statistic hsicKer; the tail of the program then forms the quotient.
-/
import proofs.«157129_j47072841564786_1_alg».proof.Proof.KIRun
import proofs.«157129_j47072841564786_1_alg».proof.Proof.KI0Acc
import proofs.«157129_j47072841564786_1_alg».proof.Proof.KI1Acc
import proofs.«157129_j47072841564786_1_alg».proof.Proof.KI2Acc
import proofs.«157129_j47072841564786_1_alg».proof.Proof.HostPrefix
import proofs.«157129_j47072841564786_1_alg».proof.Proof.KITail

noncomputable section
namespace Cert.KernelIdeal.Value
open Cert.KernelIdeal Cert.KernelIdeal.Gen
open Idealize.ShloMosaic Idealize.ShloMosaic.TcCoe Idealize.SL.Sem Idealize.ShloMosaic.ValueIdx
open Cert.KernelIdeal.Tail (finish)

variable (m : (ℓ : Loc nD τ sig) → Buf (Elt Ideal) ℓ)
variable (c : Dev nD) (xr : Fin 8192 → Fin 2048 → ℝ) (yr : Fin 8192 → Fin 1024 → ℝ)
variable (hx : ∀ (i : Fin 8192) (p : Fin 2048), m ((c.tc : Thread nD τ).loc main_arg0) (ix2 i p) = ((xr i p : ℝ) : EReal))
variable (hy : ∀ (i : Fin 8192) (q : Fin 1024), m ((c.tc : Thread nD τ).loc main_arg1) (ix2 i q) = ((yr i q : ℝ) : EReal))

include hx in
/-- The first centred array, as every launch that reads it finds it. -/
theorem v6_at_1 (n : Fin 8192) (p : Fin 2048) : Gen.V1 m c (Proc.devRef .tc main_v6) (ix2 n p) = ((Cert.Hsic.cen (8192 : ℝ) xr n p : ℝ) : EReal) :=
  Cert.KernelIdeal.HostVal.v6_apply (Gen.V0 m c) xr hx n p
include hy in
theorem v13_at_1 (n : Fin 8192) (q : Fin 1024) : Gen.V1 m c (Proc.devRef .tc main_v13) (ix2 n q) = ((Cert.Hsic.cen (8192 : ℝ) yr n q : ℝ) : EReal) :=
  Cert.KernelIdeal.HostVal.v13_apply (Gen.V0 m c) yr hy n q

theorem W3_v6 : Run.W3 m c (Proc.devRef .tc main_v6) = Gen.V1 m c (Proc.devRef .tc main_v6) := by
  rw [← Run.V3_eq m c, Gen.V3_of m (Run.outs m) c main_v6 (by decide), Gen.V2_of m (Run.outs m) c main_v6 (by decide)]
theorem W5_v13 : Run.W5 m c (Proc.devRef .tc main_v13) = Gen.V1 m c (Proc.devRef .tc main_v13) := by
  rw [← Run.V5_eq m c, Gen.V5_of m (Run.outs m) c main_v13 (by decide), Gen.V4_of m (Run.outs m) c main_v13 (by decide),
    Gen.V3_of m (Run.outs m) c main_v13 (by decide), Gen.V2_of m (Run.outs m) c main_v13 (by decide)]

include hx hy in
theorem o0_val (y : S1x1.Idx) : Run.o0 m c y = ((Cert.Hsic.hsicKer (8192 : ℝ) xr yr : ℝ) : EReal) :=
  Reg0.result_real (Run.E1 m) c (Cert.Hsic.cen (8192 : ℝ) xr) (Cert.Hsic.cen (8192 : ℝ) yr) (v6_at_1 m c xr hx) (v13_at_1 m c yr hy) y
include hx in
theorem o1_val (y : S1x1.Idx) : Run.o1 m c y = ((Cert.Hsic.hsicKer (8192 : ℝ) xr xr : ℝ) : EReal) :=
  Reg1.result_real (Run.E3 m) c (Cert.Hsic.cen (8192 : ℝ) xr) (Cert.Hsic.cen (8192 : ℝ) xr)
    (fun n p => (congrFun (W3_v6 m c) _).trans (v6_at_1 m c xr hx n p)) (fun n p => (congrFun (W3_v6 m c) _).trans (v6_at_1 m c xr hx n p)) y
include hy in
theorem o2_val (y : S1x1.Idx) : Run.o2 m c y = ((Cert.Hsic.hsicKer (8192 : ℝ) yr yr : ℝ) : EReal) :=
  Reg2.result_real (Run.E5 m) c (Cert.Hsic.cen (8192 : ℝ) yr) (Cert.Hsic.cen (8192 : ℝ) yr)
    (fun n q => (congrFun (W5_v13 m c) _).trans (v13_at_1 m c yr hy n q)) (fun n q => (congrFun (W5_v13 m c) _).trans (v13_at_1 m c yr hy n q)) y

include hx hy in
/-- The program's result at its one index. -/
theorem result (i : S_.Idx) : Gen.V7 m (Run.outs m) c (Proc.devRef .tc main_v23) i
    = finish ((Cert.Hsic.hsicKer (8192 : ℝ) xr yr : ℝ) : EReal) ((Cert.Hsic.hsicKer (8192 : ℝ) xr xr : ℝ) : EReal) ((Cert.Hsic.hsicKer (8192 : ℝ) yr yr : ℝ) : EReal) :=
  Cert.KernelIdeal.Tail.v23 m (Run.outs m) c _ _ _
    (fun y => by rw [Run.outs_2]; exact o0_val m c xr yr hx hy y)
    (fun y => by rw [Run.outs_4]; exact o1_val m c xr hx y)
    (fun y => by rw [Run.outs_6]; exact o2_val m c yr hy y) i

end Cert.KernelIdeal.Value
end
-- ==== Proof.RefReal.lean ====
/-
  The reference program read as real numbers.

  For real data matrices `xr` (8192 × 2048) and `yr` (8192 × 1024) and input arrays whose entries are the
  coercions of those reals, every stage of the reference program is the coercion of a real expression, and
  the three scalar sums it forms are the coercions of the n × n closed form `Cert.Hsic.hsicRef` of the
  statistic (HsicSpec.lean): the Gram matrix `a aᵀ`, its row sums over 8192, its column sums over 8192, its
  grand total over 8192² = 67108864, the doubly centred matrix ((G − row mean) − column mean) + grand mean,
  and the sum over all pairs of samples of the product of two such matrices.
-/
import proofs.«157129_j47072841564786_1_alg».proof.Proof.Gen.ReferenceIdeal.Read
import proofs.«157129_j47072841564786_1_alg».proof.Proof.HsicSpec
import Idealize.ShloMosaic.Lib.ValueIdx
import Idealize.ShloMosaic.PureOps.Ideal.Laws

noncomputable section

namespace Cert.RefReal

open Cert.ReferenceIdeal Cert.ReferenceIdeal.Read Idealize.ShloMosaic Idealize.ShloMosaic.ValueIdx Cert.Hsic
open scoped BigOperators

/-! ## Extended reals that are coerced reals -/

/-- A finite sum of reals, coerced, is the sum of the coercions. -/
theorem coe_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The quotient of two coerced reals, the divisor not zero, is the coerced quotient. -/
theorem div_real (a b : ℝ) (hb : b ≠ 0) : Ideal.div (a : EReal) (b : EReal) = ((a / b : ℝ) : EReal) := by
  rw [Ideal.div_coe hb, ← EReal.coe_mul, mul_one_div]

/-- The word `0x46000000` is the real 8192 = 2¹³. -/
theorem ofBits_N : Ideal.ofBits .f32 0x46000000#32 = ((8192 : ℝ) : EReal) := by
  simp [Ideal.ofBits, Ideal.ieee, -EReal.coe_mul]; norm_num

/-- The word `0x4C800000` is the real 67108864 = 2²⁶. -/
theorem ofBits_Q : Ideal.ofBits .f32 0x4C800000#32 = ((67108864 : ℝ) : EReal) := by
  simp [Ideal.ofBits, Ideal.ieee, -EReal.coe_mul]; norm_num

/-- The zero word is the real 0. -/
theorem ofBits_Z : Ideal.ofBits .f32 0x00000000#32 = 0 := Ideal.ofBits_zero_f32

/-! ## The centred Gram matrix of `xr`: operations %0 to %17 -/

section BlockA
variable (x : (⟨S8192x2048, .f32⟩ : BufTy).Contents (Elt Ideal)) (xr : Fin 8192 → Fin 2048 → ℝ)
  (hx : ∀ (i : Fin 8192) (p : Fin 2048), x (ix2 i p) = ((xr i p : ℝ) : EReal))
include hx

/-- %1: the Gram matrix. -/
theorem gA (a c : Fin 8192) : val_main_v1 (F := Ideal) x (ix2 a c) = ((gram xr a c : ℝ) : EReal) := by
  rw [val_main_v1_apply, gram, coe_sum]
  refine Finset.sum_congr rfl fun k _ => ?_
  have e1 : lidx_main_v1 (ix2 a c) k = ix2 a k := by
    funext d; match d with | ⟨0, _⟩ => rfl | ⟨1, _⟩ => rfl
  have e2 : idx_main_v0 (ridx_main_v1 (ix2 a c) k) = ix2 c k := by
    funext d; match d with | ⟨0, _⟩ => rfl | ⟨1, _⟩ => rfl
  rw [val_main_v0_apply, e1, e2, hx, hx, EReal.coe_mul]

/-- %2: the row sums. -/
theorem rowA (a : Fin 8192) : val_main_v2 (F := Ideal) x (ix1 a) = ((∑ j', gram xr a j' : ℝ) : EReal) := by
  rw [val_main_v2_apply, val_main_cst_apply, Ideal.ofBits_def, ofBits_Z, zero_add, coe_sum]
  refine Finset.sum_congr rfl fun k _ => ?_
  have e : idx_main_v2 (ix1 a) k = ix2 a k := by
    funext d; match d with | ⟨0, _⟩ => rfl | ⟨1, _⟩ => rfl
  rw [e, gA x xr hx]

/-- %6: the column sums. -/
theorem colA (c : Fin 8192) : val_main_v6 (F := Ideal) x (ix1 c) = ((∑ i', gram xr i' c : ℝ) : EReal) := by
  rw [val_main_v6_apply, val_main_cst_1_apply, Ideal.ofBits_def, ofBits_Z, zero_add, coe_sum]
  refine Finset.sum_congr rfl fun k _ => ?_
  have e : idx_main_v6 (ix1 c) k = ix2 k c := by
    funext d; match d with | ⟨0, _⟩ => rfl | ⟨1, _⟩ => rfl
  rw [e, gA x xr hx]

/-- %10: the grand total. -/
theorem totA (i : S_.Idx) : val_main_v10 (F := Ideal) x i = ((∑ i', ∑ j', gram xr i' j' : ℝ) : EReal) := by
  rw [val_main_v10_apply, val_main_cst_3_apply, Ideal.ofBits_def, ofBits_Z, zero_add, sum_idx2, coe_sum]
  refine Finset.sum_congr rfl fun a _ => ?_
  rw [coe_sum]
  refine Finset.sum_congr rfl fun c _ => ?_
  rw [gA x xr hx]

/-- %12: the row means, spread along the rows. -/
theorem rowmeanA (a c : Fin 8192) :
    val_main_v12 (F := Ideal) x (ix2 a c) = (((∑ j', gram xr a j') / 8192 : ℝ) : EReal) := by
  have e : idx_main_v3 (idx_main_v12 (ix2 a c)) = ix1 a := by
    funext d; match d with | ⟨0, _⟩ => rfl
  rw [val_main_v12_apply, val_main_v5_apply, val_main_v3_apply, val_main_v4_apply, val_main_cst_0_apply, e, rowA x xr hx,
    Ideal.hostDivf_def, Ideal.ofBits_def, ofBits_N, div_real _ _ (by norm_num)]

/-- %14: the column means, spread along the columns. -/
theorem colmeanA (a c : Fin 8192) :
    val_main_v14 (F := Ideal) x (ix2 a c) = (((∑ i', gram xr i' c) / 8192 : ℝ) : EReal) := by
  have e : idx_main_v7 (idx_main_v14 (ix2 a c)) = ix1 c := by
    funext d; match d with | ⟨0, _⟩ => rfl
  rw [val_main_v14_apply, val_main_v9_apply, val_main_v7_apply, val_main_v8_apply, val_main_cst_2_apply, e, colA x xr hx,
    Ideal.hostDivf_def, Ideal.ofBits_def, ofBits_N, div_real _ _ (by norm_num)]

/-- %16: the grand mean, spread over the matrix. -/
theorem totmeanA (a c : Fin 8192) :
    val_main_v16 (F := Ideal) x (ix2 a c) = (((∑ i', ∑ j', gram xr i' j') / 67108864 : ℝ) : EReal) := by
  rw [val_main_v16_apply, val_main_v11_apply, val_main_cst_4_apply, totA x xr hx,
    Ideal.hostDivf_def, Ideal.ofBits_def, ofBits_Q, div_real _ _ (by norm_num)]

/-- %17: the doubly centred Gram matrix. -/
theorem kA (a c : Fin 8192) :
    val_main_v17 (F := Ideal) x (ix2 a c) = ((cgram 8192 67108864 xr a c : ℝ) : EReal) := by
  rw [val_main_v17_apply, val_main_v15_apply, val_main_v13_apply, gA x xr hx, rowmeanA x xr hx,
    colmeanA x xr hx, totmeanA x xr hx, Ideal.addf_def, Ideal.subf_def, Ideal.subf_def,
    ← EReal.coe_sub, ← EReal.coe_sub, ← EReal.coe_add]
  rfl

end BlockA

/-! ## The centred Gram matrix of `yr`: operations %18 to %35 -/

section BlockB
variable (x : (⟨S8192x1024, .f32⟩ : BufTy).Contents (Elt Ideal)) (yr : Fin 8192 → Fin 1024 → ℝ)
  (hx : ∀ (i : Fin 8192) (p : Fin 1024), x (ix2 i p) = ((yr i p : ℝ) : EReal))
include hx

/-- %19: the Gram matrix. -/
theorem gB (a c : Fin 8192) : val_main_v19 (F := Ideal) x (ix2 a c) = ((gram yr a c : ℝ) : EReal) := by
  rw [val_main_v19_apply, gram, coe_sum]
  refine Finset.sum_congr rfl fun k _ => ?_
  have e1 : lidx_main_v19 (ix2 a c) k = ix2 a k := by
    funext d; match d with | ⟨0, _⟩ => rfl | ⟨1, _⟩ => rfl
  have e2 : idx_main_v18 (ridx_main_v19 (ix2 a c) k) = ix2 c k := by
    funext d; match d with | ⟨0, _⟩ => rfl | ⟨1, _⟩ => rfl
  rw [val_main_v18_apply, e1, e2, hx, hx, EReal.coe_mul]

/-- %20: the row sums. -/
theorem rowB (a : Fin 8192) : val_main_v20 (F := Ideal) x (ix1 a) = ((∑ j', gram yr a j' : ℝ) : EReal) := by
  rw [val_main_v20_apply, val_main_cst_5_apply, Ideal.ofBits_def, ofBits_Z, zero_add, coe_sum]
  refine Finset.sum_congr rfl fun k _ => ?_
  have e : idx_main_v20 (ix1 a) k = ix2 a k := by
    funext d; match d with | ⟨0, _⟩ => rfl | ⟨1, _⟩ => rfl
  rw [e, gB x yr hx]

/-- %24: the column sums. -/
theorem colB (c : Fin 8192) : val_main_v24 (F := Ideal) x (ix1 c) = ((∑ i', gram yr i' c : ℝ) : EReal) := by
  rw [val_main_v24_apply, val_main_cst_7_apply, Ideal.ofBits_def, ofBits_Z, zero_add, coe_sum]
  refine Finset.sum_congr rfl fun k _ => ?_
  have e : idx_main_v24 (ix1 c) k = ix2 k c := by
    funext d; match d with | ⟨0, _⟩ => rfl | ⟨1, _⟩ => rfl
  rw [e, gB x yr hx]

/-- %28: the grand total. -/
theorem totB (i : S_.Idx) : val_main_v28 (F := Ideal) x i = ((∑ i', ∑ j', gram yr i' j' : ℝ) : EReal) := by
  rw [val_main_v28_apply, val_main_cst_9_apply, Ideal.ofBits_def, ofBits_Z, zero_add, sum_idx2, coe_sum]
  refine Finset.sum_congr rfl fun a _ => ?_
  rw [coe_sum]
  refine Finset.sum_congr rfl fun c _ => ?_
  rw [gB x yr hx]

/-- %30: the row means, spread along the rows. -/
theorem rowmeanB (a c : Fin 8192) :
    val_main_v30 (F := Ideal) x (ix2 a c) = (((∑ j', gram yr a j') / 8192 : ℝ) : EReal) := by
  have e : idx_main_v21 (idx_main_v30 (ix2 a c)) = ix1 a := by
    funext d; match d with | ⟨0, _⟩ => rfl
  rw [val_main_v30_apply, val_main_v23_apply, val_main_v21_apply, val_main_v22_apply, val_main_cst_6_apply, e, rowB x yr hx,
    Ideal.hostDivf_def, Ideal.ofBits_def, ofBits_N, div_real _ _ (by norm_num)]

/-- %32: the column means, spread along the columns. -/
theorem colmeanB (a c : Fin 8192) :
    val_main_v32 (F := Ideal) x (ix2 a c) = (((∑ i', gram yr i' c) / 8192 : ℝ) : EReal) := by
  have e : idx_main_v25 (idx_main_v32 (ix2 a c)) = ix1 c := by
    funext d; match d with | ⟨0, _⟩ => rfl
  rw [val_main_v32_apply, val_main_v27_apply, val_main_v25_apply, val_main_v26_apply, val_main_cst_8_apply, e, colB x yr hx,
    Ideal.hostDivf_def, Ideal.ofBits_def, ofBits_N, div_real _ _ (by norm_num)]

/-- %34: the grand mean, spread over the matrix. -/
theorem totmeanB (a c : Fin 8192) :
    val_main_v34 (F := Ideal) x (ix2 a c) = (((∑ i', ∑ j', gram yr i' j') / 67108864 : ℝ) : EReal) := by
  rw [val_main_v34_apply, val_main_v29_apply, val_main_cst_10_apply, totB x yr hx,
    Ideal.hostDivf_def, Ideal.ofBits_def, ofBits_Q, div_real _ _ (by norm_num)]

/-- %35: the doubly centred Gram matrix. -/
theorem kB (a c : Fin 8192) :
    val_main_v35 (F := Ideal) x (ix2 a c) = ((cgram 8192 67108864 yr a c : ℝ) : EReal) := by
  rw [val_main_v35_apply, val_main_v33_apply, val_main_v31_apply, gB x yr hx, rowmeanB x yr hx,
    colmeanB x yr hx, totmeanB x yr hx, Ideal.addf_def, Ideal.subf_def, Ideal.subf_def,
    ← EReal.coe_sub, ← EReal.coe_sub, ← EReal.coe_add]
  rfl

end BlockB

/-! ## The centred Gram matrix of `xr`: operations %38 to %55 -/

section BlockC
variable (x : (⟨S8192x2048, .f32⟩ : BufTy).Contents (Elt Ideal)) (xr : Fin 8192 → Fin 2048 → ℝ)
  (hx : ∀ (i : Fin 8192) (p : Fin 2048), x (ix2 i p) = ((xr i p : ℝ) : EReal))
include hx

/-- %39: the Gram matrix. -/
theorem gC (a c : Fin 8192) : val_main_v39 (F := Ideal) x (ix2 a c) = ((gram xr a c : ℝ) : EReal) := by
  rw [val_main_v39_apply, gram, coe_sum]
  refine Finset.sum_congr rfl fun k _ => ?_
  have e1 : lidx_main_v39 (ix2 a c) k = ix2 a k := by
    funext d; match d with | ⟨0, _⟩ => rfl | ⟨1, _⟩ => rfl
  have e2 : idx_main_v38 (ridx_main_v39 (ix2 a c) k) = ix2 c k := by
    funext d; match d with | ⟨0, _⟩ => rfl | ⟨1, _⟩ => rfl
  rw [val_main_v38_apply, e1, e2, hx, hx, EReal.coe_mul]

/-- %40: the row sums. -/
theorem rowC (a : Fin 8192) : val_main_v40 (F := Ideal) x (ix1 a) = ((∑ j', gram xr a j' : ℝ) : EReal) := by
  rw [val_main_v40_apply, val_main_cst_12_apply, Ideal.ofBits_def, ofBits_Z, zero_add, coe_sum]
  refine Finset.sum_congr rfl fun k _ => ?_
  have e : idx_main_v40 (ix1 a) k = ix2 a k := by
    funext d; match d with | ⟨0, _⟩ => rfl | ⟨1, _⟩ => rfl
  rw [e, gC x xr hx]

/-- %44: the column sums. -/
theorem colC (c : Fin 8192) : val_main_v44 (F := Ideal) x (ix1 c) = ((∑ i', gram xr i' c : ℝ) : EReal) := by
  rw [val_main_v44_apply, val_main_cst_14_apply, Ideal.ofBits_def, ofBits_Z, zero_add, coe_sum]
  refine Finset.sum_congr rfl fun k _ => ?_
  have e : idx_main_v44 (ix1 c) k = ix2 k c := by
    funext d; match d with | ⟨0, _⟩ => rfl | ⟨1, _⟩ => rfl
  rw [e, gC x xr hx]

/-- %48: the grand total. -/
theorem totC (i : S_.Idx) : val_main_v48 (F := Ideal) x i = ((∑ i', ∑ j', gram xr i' j' : ℝ) : EReal) := by
  rw [val_main_v48_apply, val_main_cst_16_apply, Ideal.ofBits_def, ofBits_Z, zero_add, sum_idx2, coe_sum]
  refine Finset.sum_congr rfl fun a _ => ?_
  rw [coe_sum]
  refine Finset.sum_congr rfl fun c _ => ?_
  rw [gC x xr hx]

/-- %50: the row means, spread along the rows. -/
theorem rowmeanC (a c : Fin 8192) :
    val_main_v50 (F := Ideal) x (ix2 a c) = (((∑ j', gram xr a j') / 8192 : ℝ) : EReal) := by
  have e : idx_main_v41 (idx_main_v50 (ix2 a c)) = ix1 a := by
    funext d; match d with | ⟨0, _⟩ => rfl
  rw [val_main_v50_apply, val_main_v43_apply, val_main_v41_apply, val_main_v42_apply, val_main_cst_13_apply, e, rowC x xr hx,
    Ideal.hostDivf_def, Ideal.ofBits_def, ofBits_N, div_real _ _ (by norm_num)]

/-- %52: the column means, spread along the columns. -/
theorem colmeanC (a c : Fin 8192) :
    val_main_v52 (F := Ideal) x (ix2 a c) = (((∑ i', gram xr i' c) / 8192 : ℝ) : EReal) := by
  have e : idx_main_v45 (idx_main_v52 (ix2 a c)) = ix1 c := by
    funext d; match d with | ⟨0, _⟩ => rfl
  rw [val_main_v52_apply, val_main_v47_apply, val_main_v45_apply, val_main_v46_apply, val_main_cst_15_apply, e, colC x xr hx,
    Ideal.hostDivf_def, Ideal.ofBits_def, ofBits_N, div_real _ _ (by norm_num)]

/-- %54: the grand mean, spread over the matrix. -/
theorem totmeanC (a c : Fin 8192) :
    val_main_v54 (F := Ideal) x (ix2 a c) = (((∑ i', ∑ j', gram xr i' j') / 67108864 : ℝ) : EReal) := by
  rw [val_main_v54_apply, val_main_v49_apply, val_main_cst_17_apply, totC x xr hx,
    Ideal.hostDivf_def, Ideal.ofBits_def, ofBits_Q, div_real _ _ (by norm_num)]

/-- %55: the doubly centred Gram matrix. -/
theorem kC (a c : Fin 8192) :
    val_main_v55 (F := Ideal) x (ix2 a c) = ((cgram 8192 67108864 xr a c : ℝ) : EReal) := by
  rw [val_main_v55_apply, val_main_v53_apply, val_main_v51_apply, gC x xr hx, rowmeanC x xr hx,
    colmeanC x xr hx, totmeanC x xr hx, Ideal.addf_def, Ideal.subf_def, Ideal.subf_def,
    ← EReal.coe_sub, ← EReal.coe_sub, ← EReal.coe_add]
  rfl

end BlockC

/-! ## The centred Gram matrix of `xr`: operations %56 to %73 -/

section BlockD
variable (x : (⟨S8192x2048, .f32⟩ : BufTy).Contents (Elt Ideal)) (xr : Fin 8192 → Fin 2048 → ℝ)
  (hx : ∀ (i : Fin 8192) (p : Fin 2048), x (ix2 i p) = ((xr i p : ℝ) : EReal))
include hx

/-- %57: the Gram matrix. -/
theorem gD (a c : Fin 8192) : val_main_v57 (F := Ideal) x (ix2 a c) = ((gram xr a c : ℝ) : EReal) := by
  rw [val_main_v57_apply, gram, coe_sum]
  refine Finset.sum_congr rfl fun k _ => ?_
  have e1 : lidx_main_v57 (ix2 a c) k = ix2 a k := by
    funext d; match d with | ⟨0, _⟩ => rfl | ⟨1, _⟩ => rfl
  have e2 : idx_main_v56 (ridx_main_v57 (ix2 a c) k) = ix2 c k := by
    funext d; match d with | ⟨0, _⟩ => rfl | ⟨1, _⟩ => rfl
  rw [val_main_v56_apply, e1, e2, hx, hx, EReal.coe_mul]

/-- %58: the row sums. -/
theorem rowD (a : Fin 8192) : val_main_v58 (F := Ideal) x (ix1 a) = ((∑ j', gram xr a j' : ℝ) : EReal) := by
  rw [val_main_v58_apply, val_main_cst_18_apply, Ideal.ofBits_def, ofBits_Z, zero_add, coe_sum]
  refine Finset.sum_congr rfl fun k _ => ?_
  have e : idx_main_v58 (ix1 a) k = ix2 a k := by
    funext d; match d with | ⟨0, _⟩ => rfl | ⟨1, _⟩ => rfl
  rw [e, gD x xr hx]

/-- %62: the column sums. -/
theorem colD (c : Fin 8192) : val_main_v62 (F := Ideal) x (ix1 c) = ((∑ i', gram xr i' c : ℝ) : EReal) := by
  rw [val_main_v62_apply, val_main_cst_20_apply, Ideal.ofBits_def, ofBits_Z, zero_add, coe_sum]
  refine Finset.sum_congr rfl fun k _ => ?_
  have e : idx_main_v62 (ix1 c) k = ix2 k c := by
    funext d; match d with | ⟨0, _⟩ => rfl | ⟨1, _⟩ => rfl
  rw [e, gD x xr hx]

/-- %66: the grand total. -/
theorem totD (i : S_.Idx) : val_main_v66 (F := Ideal) x i = ((∑ i', ∑ j', gram xr i' j' : ℝ) : EReal) := by
  rw [val_main_v66_apply, val_main_cst_22_apply, Ideal.ofBits_def, ofBits_Z, zero_add, sum_idx2, coe_sum]
  refine Finset.sum_congr rfl fun a _ => ?_
  rw [coe_sum]
  refine Finset.sum_congr rfl fun c _ => ?_
  rw [gD x xr hx]

/-- %68: the row means, spread along the rows. -/
theorem rowmeanD (a c : Fin 8192) :
    val_main_v68 (F := Ideal) x (ix2 a c) = (((∑ j', gram xr a j') / 8192 : ℝ) : EReal) := by
  have e : idx_main_v59 (idx_main_v68 (ix2 a c)) = ix1 a := by
    funext d; match d with | ⟨0, _⟩ => rfl
  rw [val_main_v68_apply, val_main_v61_apply, val_main_v59_apply, val_main_v60_apply, val_main_cst_19_apply, e, rowD x xr hx,
    Ideal.hostDivf_def, Ideal.ofBits_def, ofBits_N, div_real _ _ (by norm_num)]

/-- %70: the column means, spread along the columns. -/
theorem colmeanD (a c : Fin 8192) :
    val_main_v70 (F := Ideal) x (ix2 a c) = (((∑ i', gram xr i' c) / 8192 : ℝ) : EReal) := by
  have e : idx_main_v63 (idx_main_v70 (ix2 a c)) = ix1 c := by
    funext d; match d with | ⟨0, _⟩ => rfl
  rw [val_main_v70_apply, val_main_v65_apply, val_main_v63_apply, val_main_v64_apply, val_main_cst_21_apply, e, colD x xr hx,
    Ideal.hostDivf_def, Ideal.ofBits_def, ofBits_N, div_real _ _ (by norm_num)]

/-- %72: the grand mean, spread over the matrix. -/
theorem totmeanD (a c : Fin 8192) :
    val_main_v72 (F := Ideal) x (ix2 a c) = (((∑ i', ∑ j', gram xr i' j') / 67108864 : ℝ) : EReal) := by
  rw [val_main_v72_apply, val_main_v67_apply, val_main_cst_23_apply, totD x xr hx,
    Ideal.hostDivf_def, Ideal.ofBits_def, ofBits_Q, div_real _ _ (by norm_num)]

/-- %73: the doubly centred Gram matrix. -/
theorem kD (a c : Fin 8192) :
    val_main_v73 (F := Ideal) x (ix2 a c) = ((cgram 8192 67108864 xr a c : ℝ) : EReal) := by
  rw [val_main_v73_apply, val_main_v71_apply, val_main_v69_apply, gD x xr hx, rowmeanD x xr hx,
    colmeanD x xr hx, totmeanD x xr hx, Ideal.addf_def, Ideal.subf_def, Ideal.subf_def,
    ← EReal.coe_sub, ← EReal.coe_sub, ← EReal.coe_add]
  rfl

end BlockD

/-! ## The centred Gram matrix of `yr`: operations %76 to %93 -/

section BlockE
variable (x : (⟨S8192x1024, .f32⟩ : BufTy).Contents (Elt Ideal)) (yr : Fin 8192 → Fin 1024 → ℝ)
  (hx : ∀ (i : Fin 8192) (p : Fin 1024), x (ix2 i p) = ((yr i p : ℝ) : EReal))
include hx

/-- %77: the Gram matrix. -/
theorem gE (a c : Fin 8192) : val_main_v77 (F := Ideal) x (ix2 a c) = ((gram yr a c : ℝ) : EReal) := by
  rw [val_main_v77_apply, gram, coe_sum]
  refine Finset.sum_congr rfl fun k _ => ?_
  have e1 : lidx_main_v77 (ix2 a c) k = ix2 a k := by
    funext d; match d with | ⟨0, _⟩ => rfl | ⟨1, _⟩ => rfl
  have e2 : idx_main_v76 (ridx_main_v77 (ix2 a c) k) = ix2 c k := by
    funext d; match d with | ⟨0, _⟩ => rfl | ⟨1, _⟩ => rfl
  rw [val_main_v76_apply, e1, e2, hx, hx, EReal.coe_mul]

/-- %78: the row sums. -/
theorem rowE (a : Fin 8192) : val_main_v78 (F := Ideal) x (ix1 a) = ((∑ j', gram yr a j' : ℝ) : EReal) := by
  rw [val_main_v78_apply, val_main_cst_25_apply, Ideal.ofBits_def, ofBits_Z, zero_add, coe_sum]
  refine Finset.sum_congr rfl fun k _ => ?_
  have e : idx_main_v78 (ix1 a) k = ix2 a k := by
    funext d; match d with | ⟨0, _⟩ => rfl | ⟨1, _⟩ => rfl
  rw [e, gE x yr hx]

/-- %82: the column sums. -/
theorem colE (c : Fin 8192) : val_main_v82 (F := Ideal) x (ix1 c) = ((∑ i', gram yr i' c : ℝ) : EReal) := by
  rw [val_main_v82_apply, val_main_cst_27_apply, Ideal.ofBits_def, ofBits_Z, zero_add, coe_sum]
  refine Finset.sum_congr rfl fun k _ => ?_
  have e : idx_main_v82 (ix1 c) k = ix2 k c := by
    funext d; match d with | ⟨0, _⟩ => rfl | ⟨1, _⟩ => rfl
  rw [e, gE x yr hx]

/-- %86: the grand total. -/
theorem totE (i : S_.Idx) : val_main_v86 (F := Ideal) x i = ((∑ i', ∑ j', gram yr i' j' : ℝ) : EReal) := by
  rw [val_main_v86_apply, val_main_cst_29_apply, Ideal.ofBits_def, ofBits_Z, zero_add, sum_idx2, coe_sum]
  refine Finset.sum_congr rfl fun a _ => ?_
  rw [coe_sum]
  refine Finset.sum_congr rfl fun c _ => ?_
  rw [gE x yr hx]

/-- %88: the row means, spread along the rows. -/
theorem rowmeanE (a c : Fin 8192) :
    val_main_v88 (F := Ideal) x (ix2 a c) = (((∑ j', gram yr a j') / 8192 : ℝ) : EReal) := by
  have e : idx_main_v79 (idx_main_v88 (ix2 a c)) = ix1 a := by
    funext d; match d with | ⟨0, _⟩ => rfl
  rw [val_main_v88_apply, val_main_v81_apply, val_main_v79_apply, val_main_v80_apply, val_main_cst_26_apply, e, rowE x yr hx,
    Ideal.hostDivf_def, Ideal.ofBits_def, ofBits_N, div_real _ _ (by norm_num)]

/-- %90: the column means, spread along the columns. -/
theorem colmeanE (a c : Fin 8192) :
    val_main_v90 (F := Ideal) x (ix2 a c) = (((∑ i', gram yr i' c) / 8192 : ℝ) : EReal) := by
  have e : idx_main_v83 (idx_main_v90 (ix2 a c)) = ix1 c := by
    funext d; match d with | ⟨0, _⟩ => rfl
  rw [val_main_v90_apply, val_main_v85_apply, val_main_v83_apply, val_main_v84_apply, val_main_cst_28_apply, e, colE x yr hx,
    Ideal.hostDivf_def, Ideal.ofBits_def, ofBits_N, div_real _ _ (by norm_num)]

/-- %92: the grand mean, spread over the matrix. -/
theorem totmeanE (a c : Fin 8192) :
    val_main_v92 (F := Ideal) x (ix2 a c) = (((∑ i', ∑ j', gram yr i' j') / 67108864 : ℝ) : EReal) := by
  rw [val_main_v92_apply, val_main_v87_apply, val_main_cst_30_apply, totE x yr hx,
    Ideal.hostDivf_def, Ideal.ofBits_def, ofBits_Q, div_real _ _ (by norm_num)]

/-- %93: the doubly centred Gram matrix. -/
theorem kE (a c : Fin 8192) :
    val_main_v93 (F := Ideal) x (ix2 a c) = ((cgram 8192 67108864 yr a c : ℝ) : EReal) := by
  rw [val_main_v93_apply, val_main_v91_apply, val_main_v89_apply, gE x yr hx, rowmeanE x yr hx,
    colmeanE x yr hx, totmeanE x yr hx, Ideal.addf_def, Ideal.subf_def, Ideal.subf_def,
    ← EReal.coe_sub, ← EReal.coe_sub, ← EReal.coe_add]
  rfl

end BlockE

/-! ## The centred Gram matrix of `yr`: operations %94 to %111 -/

section BlockF
variable (x : (⟨S8192x1024, .f32⟩ : BufTy).Contents (Elt Ideal)) (yr : Fin 8192 → Fin 1024 → ℝ)
  (hx : ∀ (i : Fin 8192) (p : Fin 1024), x (ix2 i p) = ((yr i p : ℝ) : EReal))
include hx

/-- %95: the Gram matrix. -/
theorem gF (a c : Fin 8192) : val_main_v95 (F := Ideal) x (ix2 a c) = ((gram yr a c : ℝ) : EReal) := by
  rw [val_main_v95_apply, gram, coe_sum]
  refine Finset.sum_congr rfl fun k _ => ?_
  have e1 : lidx_main_v95 (ix2 a c) k = ix2 a k := by
    funext d; match d with | ⟨0, _⟩ => rfl | ⟨1, _⟩ => rfl
  have e2 : idx_main_v94 (ridx_main_v95 (ix2 a c) k) = ix2 c k := by
    funext d; match d with | ⟨0, _⟩ => rfl | ⟨1, _⟩ => rfl
  rw [val_main_v94_apply, e1, e2, hx, hx, EReal.coe_mul]

/-- %96: the row sums. -/
theorem rowF (a : Fin 8192) : val_main_v96 (F := Ideal) x (ix1 a) = ((∑ j', gram yr a j' : ℝ) : EReal) := by
  rw [val_main_v96_apply, val_main_cst_31_apply, Ideal.ofBits_def, ofBits_Z, zero_add, coe_sum]
  refine Finset.sum_congr rfl fun k _ => ?_
  have e : idx_main_v96 (ix1 a) k = ix2 a k := by
    funext d; match d with | ⟨0, _⟩ => rfl | ⟨1, _⟩ => rfl
  rw [e, gF x yr hx]

/-- %100: the column sums. -/
theorem colF (c : Fin 8192) : val_main_v100 (F := Ideal) x (ix1 c) = ((∑ i', gram yr i' c : ℝ) : EReal) := by
  rw [val_main_v100_apply, val_main_cst_33_apply, Ideal.ofBits_def, ofBits_Z, zero_add, coe_sum]
  refine Finset.sum_congr rfl fun k _ => ?_
  have e : idx_main_v100 (ix1 c) k = ix2 k c := by
    funext d; match d with | ⟨0, _⟩ => rfl | ⟨1, _⟩ => rfl
  rw [e, gF x yr hx]

/-- %104: the grand total. -/
theorem totF (i : S_.Idx) : val_main_v104 (F := Ideal) x i = ((∑ i', ∑ j', gram yr i' j' : ℝ) : EReal) := by
  rw [val_main_v104_apply, val_main_cst_35_apply, Ideal.ofBits_def, ofBits_Z, zero_add, sum_idx2, coe_sum]
  refine Finset.sum_congr rfl fun a _ => ?_
  rw [coe_sum]
  refine Finset.sum_congr rfl fun c _ => ?_
  rw [gF x yr hx]

/-- %106: the row means, spread along the rows. -/
theorem rowmeanF (a c : Fin 8192) :
    val_main_v106 (F := Ideal) x (ix2 a c) = (((∑ j', gram yr a j') / 8192 : ℝ) : EReal) := by
  have e : idx_main_v97 (idx_main_v106 (ix2 a c)) = ix1 a := by
    funext d; match d with | ⟨0, _⟩ => rfl
  rw [val_main_v106_apply, val_main_v99_apply, val_main_v97_apply, val_main_v98_apply, val_main_cst_32_apply, e, rowF x yr hx,
    Ideal.hostDivf_def, Ideal.ofBits_def, ofBits_N, div_real _ _ (by norm_num)]

/-- %108: the column means, spread along the columns. -/
theorem colmeanF (a c : Fin 8192) :
    val_main_v108 (F := Ideal) x (ix2 a c) = (((∑ i', gram yr i' c) / 8192 : ℝ) : EReal) := by
  have e : idx_main_v101 (idx_main_v108 (ix2 a c)) = ix1 c := by
    funext d; match d with | ⟨0, _⟩ => rfl
  rw [val_main_v108_apply, val_main_v103_apply, val_main_v101_apply, val_main_v102_apply, val_main_cst_34_apply, e, colF x yr hx,
    Ideal.hostDivf_def, Ideal.ofBits_def, ofBits_N, div_real _ _ (by norm_num)]

/-- %110: the grand mean, spread over the matrix. -/
theorem totmeanF (a c : Fin 8192) :
    val_main_v110 (F := Ideal) x (ix2 a c) = (((∑ i', ∑ j', gram yr i' j') / 67108864 : ℝ) : EReal) := by
  rw [val_main_v110_apply, val_main_v105_apply, val_main_cst_36_apply, totF x yr hx,
    Ideal.hostDivf_def, Ideal.ofBits_def, ofBits_Q, div_real _ _ (by norm_num)]

/-- %111: the doubly centred Gram matrix. -/
theorem kF (a c : Fin 8192) :
    val_main_v111 (F := Ideal) x (ix2 a c) = ((cgram 8192 67108864 yr a c : ℝ) : EReal) := by
  rw [val_main_v111_apply, val_main_v109_apply, val_main_v107_apply, gF x yr hx, rowmeanF x yr hx,
    colmeanF x yr hx, totmeanF x yr hx, Ideal.addf_def, Ideal.subf_def, Ideal.subf_def,
    ← EReal.coe_sub, ← EReal.coe_sub, ← EReal.coe_add]
  rfl

end BlockF

/-! ## The three scalars: the sums over all pairs of samples of the products of two centred Gram matrices -/

section Scalars
variable (x : (⟨S8192x2048, .f32⟩ : BufTy).Contents (Elt Ideal)) (y : (⟨S8192x1024, .f32⟩ : BufTy).Contents (Elt Ideal))
  (xr : Fin 8192 → Fin 2048 → ℝ) (yr : Fin 8192 → Fin 1024 → ℝ)
  (hx : ∀ (i : Fin 8192) (p : Fin 2048), x (ix2 i p) = ((xr i p : ℝ) : EReal))
  (hy : ∀ (i : Fin 8192) (p : Fin 1024), y (ix2 i p) = ((yr i p : ℝ) : EReal))

include hx hy in
/-- %37: the statistic of `xr` against `yr`. -/
theorem hsic_xy : ∀ i, val_main_v37 (F := Ideal) x y i = ((hsicRef (8192 : ℝ) (67108864 : ℝ) xr yr : ℝ) : EReal) := by
  intro i
  rw [val_main_v37_apply, val_main_cst_11_apply, Ideal.ofBits_def, ofBits_Z, zero_add, sum_idx2, hsicRef, coe_sum]
  refine Finset.sum_congr rfl fun a _ => ?_
  rw [coe_sum]
  refine Finset.sum_congr rfl fun c _ => ?_
  rw [val_main_v36_apply, Ideal.mulf_def, kA x xr hx, kB y yr hy, EReal.coe_mul]

include hx in
/-- %75: the statistic of `xr` against itself. -/
theorem hsic_xx : ∀ i, val_main_v75 (F := Ideal) x i = ((hsicRef (8192 : ℝ) (67108864 : ℝ) xr xr : ℝ) : EReal) := by
  intro i
  rw [val_main_v75_apply, val_main_cst_24_apply, Ideal.ofBits_def, ofBits_Z, zero_add, sum_idx2, hsicRef, coe_sum]
  refine Finset.sum_congr rfl fun a _ => ?_
  rw [coe_sum]
  refine Finset.sum_congr rfl fun c _ => ?_
  rw [val_main_v74_apply, Ideal.mulf_def, kC x xr hx, kD x xr hx, EReal.coe_mul]

include hy in
/-- %113: the statistic of `yr` against itself. -/
theorem hsic_yy : ∀ i, val_main_v113 (F := Ideal) y i = ((hsicRef (8192 : ℝ) (67108864 : ℝ) yr yr : ℝ) : EReal) := by
  intro i
  rw [val_main_v113_apply, val_main_cst_37_apply, Ideal.ofBits_def, ofBits_Z, zero_add, sum_idx2, hsicRef, coe_sum]
  refine Finset.sum_congr rfl fun a _ => ?_
  rw [coe_sum]
  refine Finset.sum_congr rfl fun c _ => ?_
  rw [val_main_v112_apply, Ideal.mulf_def, kE y yr hy, kF y yr hy, EReal.coe_mul]

end Scalars

end Cert.RefReal

end
-- ==== Proof.HsicAlgebra.lean ====
/-
  The linear-kernel HSIC statistic: its n × n form equals its feature-space form.

  Notation as in HsicSpec.lean.  Write `S p = ∑ m, a m p` for the column sums of the data `a`.

  1. Row sums, column sums and the grand total of the Gram matrix `G = a aᵀ` are
       `∑ j, G i j = ∑ p, a i p * S p`,  `∑ i, G i j = ∑ p, S p * a j p`,  `∑ i j, G i j = ∑ p, S p * S p`,
     by exchanging the order of summation.
  2. Hence the doubly centred Gram matrix is the Gram matrix of the column-centred data:
       `G i j - (∑ p, a i p * S p)/N - (∑ p, S p * a j p)/N + (∑ p, S p * S p)/(N*N)
          = ∑ p, (a i p - S p / N) * (a j p - S p / N)`,
     which is a termwise identity of real numbers.  It needs only `Q = N * N`.
  3. For any `A`, `B` with the same row type,
       `∑ i j, (∑ p, A i p * A j p) * (∑ q, B i q * B j q) = ∑ p q, (∑ n, A n p * B n q)²`
     (both sides are `tr (A Aᵀ B Bᵀ) = ‖Aᵀ B‖²`): expand both sides into the fourfold sum of
     `(A i p * B i q) * (A j p * B j q)` and exchange the order of summation.
  Taking `A`, `B` to be the centred data gives `hsicRef N Q a b = hsicKer N a b`.

  With `N` the number of rows and `N ≠ 0`, the centred columns sum to zero (`sum_cen_eq_zero`); the main
  identity does not use this fact.
-/
import Mathlib
import proofs.«157129_j47072841564786_1_alg».proof.Proof.HsicSpec

namespace Cert.Hsic

open Finset BigOperators

variable {ι κ μ : Type*} [Fintype ι] [Fintype κ] [Fintype μ]

/-- Each column of the centred data sums to zero when `N` is the (non-zero) number of rows. -/
theorem sum_cen_eq_zero (N : ℝ) (hN : N = (Fintype.card ι : ℝ)) (hN0 : N ≠ 0)
    (a : ι → κ → ℝ) (p : κ) : ∑ n, cen N a n p = 0 := by
  unfold cen
  rw [Finset.sum_sub_distrib, Finset.sum_const, Finset.card_univ, nsmul_eq_mul, ← hN]
  field_simp
  ring

/-- Row sum of the Gram matrix. -/
theorem sum_gram_right (a : ι → κ → ℝ) (i : ι) :
    ∑ j', gram a i j' = ∑ p, a i p * ∑ m, a m p := by
  unfold gram
  rw [Finset.sum_comm]
  refine Finset.sum_congr rfl fun p _ => ?_
  rw [Finset.mul_sum]

/-- Column sum of the Gram matrix. -/
theorem sum_gram_left (a : ι → κ → ℝ) (j : ι) :
    ∑ i', gram a i' j = ∑ p, (∑ m, a m p) * a j p := by
  unfold gram
  rw [Finset.sum_comm]
  refine Finset.sum_congr rfl fun p _ => ?_
  rw [Finset.sum_mul]

/-- Grand total of the Gram matrix. -/
theorem sum_sum_gram (a : ι → κ → ℝ) :
    ∑ i', ∑ j', gram a i' j' = ∑ p, (∑ m, a m p) * ∑ m, a m p := by
  simp only [sum_gram_right]
  rw [Finset.sum_comm]
  refine Finset.sum_congr rfl fun p _ => ?_
  rw [Finset.sum_mul]

/-- Double centring of the Gram matrix of a linear kernel gives the Gram matrix of the column-centred data. -/
theorem cgram_eq_gram_cen (N Q : ℝ) (hQ : Q = N * N) (a : ι → κ → ℝ) (i j : ι) :
    cgram N Q a i j = ∑ p, cen N a i p * cen N a j p := by
  have hterm : ∀ p, cen N a i p * cen N a j p
      = a i p * a j p - a i p * (∑ m, a m p) / N - (∑ m, a m p) * a j p / N
        + (∑ m, a m p) * (∑ m, a m p) / (N * N) := by
    intro p
    unfold cen
    ring
  unfold cgram
  rw [sum_gram_right, sum_gram_left, sum_sum_gram, hQ]
  unfold gram
  simp only [hterm, Finset.sum_add_distrib, Finset.sum_sub_distrib, Finset.sum_div]

/-- Exchange of a fourfold sum: the two outer indices move inside. -/
theorem sum_comm4 (F : ι → ι → κ → μ → ℝ) :
    ∑ i, ∑ j, ∑ p, ∑ q, F i j p q = ∑ p, ∑ q, ∑ i, ∑ j, F i j p q := by
  calc ∑ i, ∑ j, ∑ p, ∑ q, F i j p q
      = ∑ i, ∑ p, ∑ j, ∑ q, F i j p q :=
        Finset.sum_congr rfl fun i _ => Finset.sum_comm
    _ = ∑ p, ∑ i, ∑ j, ∑ q, F i j p q := Finset.sum_comm
    _ = ∑ p, ∑ i, ∑ q, ∑ j, F i j p q :=
        Finset.sum_congr rfl fun p _ => Finset.sum_congr rfl fun i _ => Finset.sum_comm
    _ = ∑ p, ∑ q, ∑ i, ∑ j, F i j p q :=
        Finset.sum_congr rfl fun p _ => Finset.sum_comm

/-- `tr (A Aᵀ B Bᵀ) = ‖Aᵀ B‖²`, entry by entry. -/
theorem frobenius_swap (A : ι → κ → ℝ) (B : ι → μ → ℝ) :
    ∑ i, ∑ j, (∑ p, A i p * A j p) * (∑ q, B i q * B j q)
      = ∑ p, ∑ q, (∑ n, A n p * B n q) ^ 2 := by
  have hL : ∀ i j, (∑ p, A i p * A j p) * (∑ q, B i q * B j q)
      = ∑ p, ∑ q, (A i p * B i q) * (A j p * B j q) := by
    intro i j
    rw [Finset.sum_mul]
    refine Finset.sum_congr rfl fun p _ => ?_
    rw [Finset.mul_sum]
    refine Finset.sum_congr rfl fun q _ => ?_
    ring
  have hR : ∀ p q, (∑ n, A n p * B n q) ^ 2
      = ∑ i, ∑ j, (A i p * B i q) * (A j p * B j q) := by
    intro p q
    rw [sq, Finset.sum_mul]
    refine Finset.sum_congr rfl fun i _ => ?_
    rw [Finset.mul_sum]
  simp only [hL, hR]
  exact sum_comm4 fun i j p q => (A i p * B i q) * (A j p * B j q)

/-- The two closed forms agree as soon as `Q = N * N`. -/
theorem hsicRef_eq_hsicKer_of_sq (N Q : ℝ) (hQ : Q = N * N) (a : ι → κ → ℝ) (b : ι → μ → ℝ) :
    hsicRef N Q a b = hsicKer N a b := by
  unfold hsicRef hsicKer
  simp only [cgram_eq_gram_cen N Q hQ]
  exact frobenius_swap (cen N a) (cen N b)

/-- The two closed forms of the statistic agree, with `N` the number of samples and `Q = N²`. -/
theorem hsicRef_eq_hsicKer {ι κ μ : Type*} [Fintype ι] [Fintype κ] [Fintype μ] (N Q : ℝ)
    (hN : N = (Fintype.card ι : ℝ)) (hQ : Q = N * N) (hN0 : N ≠ 0)
    (a : ι → κ → ℝ) (b : ι → μ → ℝ) : hsicRef N Q a b = hsicKer N a b :=
  hsicRef_eq_hsicKer_of_sq N Q hQ a b

/-- Symmetric case: the statistic of the data against itself. -/
theorem hsicRef_self_eq_hsicKer_self (N Q : ℝ) (hQ : Q = N * N) (a : ι → κ → ℝ) :
    hsicRef N Q a a = hsicKer N a a :=
  hsicRef_eq_hsicKer_of_sq N Q hQ a a

end Cert.Hsic
-- ==== Proof.RefFinish.lean ====
/-
  The reference's result as a real expression: with finite inputs (entries ↑xr, ↑yr) its one entry is
  finish (hsic x y) (hsic x x) (hsic y y), where hsic is the statistic in its cross-covariance form — the form the
  kernel computes — by the identity between the two closed forms (N = 8192 samples, Q = 8192² = 67108864).
-/
import proofs.«157129_j47072841564786_1_alg».proof.Proof.RefReal
import proofs.«157129_j47072841564786_1_alg».proof.Proof.HsicAlgebra
import proofs.«157129_j47072841564786_1_alg».proof.Proof.KITail

noncomputable section
namespace Cert.RefFinish
open Cert.ReferenceIdeal Idealize.ShloMosaic Idealize.ShloMosaic.ValueIdx
open Cert.KernelIdeal.Tail (finish)

theorem ref_result (x : (⟨S8192x2048, .f32⟩ : BufTy).Contents (Elt Ideal)) (y : (⟨S8192x1024, .f32⟩ : BufTy).Contents (Elt Ideal))
    (xr : Fin 8192 → Fin 2048 → ℝ) (yr : Fin 8192 → Fin 1024 → ℝ)
    (hx : ∀ (i : Fin 8192) (p : Fin 2048), x (ix2 i p) = ((xr i p : ℝ) : EReal))
    (hy : ∀ (i : Fin 8192) (p : Fin 1024), y (ix2 i p) = ((yr i p : ℝ) : EReal)) (i : S_.Idx) :
    Cert.ReferenceIdeal.Read.val_main_v117 (F := Ideal) x y i
      = finish ((Cert.Hsic.hsicKer (8192 : ℝ) xr yr : ℝ) : EReal) ((Cert.Hsic.hsicKer (8192 : ℝ) xr xr : ℝ) : EReal) ((Cert.Hsic.hsicKer (8192 : ℝ) yr yr : ℝ) : EReal) := by
  have hQ : (67108864 : ℝ) = 8192 * 8192 := by norm_num
  rw [show Cert.ReferenceIdeal.Read.val_main_v117 (F := Ideal) x y i
      = finish (Cert.ReferenceIdeal.Read.val_main_v37 (F := Ideal) x y i) (Cert.ReferenceIdeal.Read.val_main_v75 (F := Ideal) x i) (Cert.ReferenceIdeal.Read.val_main_v113 (F := Ideal) y i) from rfl,
    Cert.RefReal.hsic_xy x y xr yr hx hy i, Cert.RefReal.hsic_xx x xr hx i, Cert.RefReal.hsic_yy y yr hy i,
    Cert.Hsic.hsicRef_eq_hsicKer_of_sq _ _ hQ, Cert.Hsic.hsicRef_eq_hsicKer_of_sq _ _ hQ, Cert.Hsic.hsicRef_eq_hsicKer_of_sq _ _ hQ]

end Cert.RefFinish
end
-- ==== Proof.lean ====
/-
  The certificate's five claims, assembled.

  Both printed kernel programs (the word-level one and its idealization, which the ideal pass left textually the same:
  its ledger is empty, so the fourth claim is trivial) are three launches of one sum-of-squares kernel among four
  stretches of host operations; their frames are the whole-program run of each (every weakly fair execution
  terminates, nothing faults, the argument arrays end as launched), with the named result dropped. The reference's
  frame is its run read back.

  The value claim. On finite inputs x (8192 × 2048) and y (8192 × 1024) both idealized programs compute
  hsic(x, y) / (sqrt (hsic(x, x) · hsic(y, y)) + eps). The reference computes hsic(a, b) as the sum over pairs of
  samples of the product of the two doubly centred Gram matrices; the kernel computes it as the squared Frobenius
  norm of the cross-covariance of the column-centred data, accumulated block by block over a grid. Over the reals the
  two closed forms agree (double centring of a linear kernel's Gram matrix is the Gram matrix of the centred data;
  then the trace of a product of Gram matrices is the squared Frobenius norm of the cross product). Finiteness of the
  inputs is what lets every extended-real operation be read as the real one.
-/
import proofs.«157129_j47072841564786_1_alg».proof.Defs
import proofs.«157129_j47072841564786_1_alg».proof.Proof.Gen.Kernel
import proofs.«157129_j47072841564786_1_alg».proof.Proof.Gen.KernelIdeal
import proofs.«157129_j47072841564786_1_alg».proof.Proof.Gen.ReferenceIdeal
import proofs.«157129_j47072841564786_1_alg».proof.Proof.Gen.ReferenceIdeal.Run
import proofs.«157129_j47072841564786_1_alg».proof.Proof.Gen.ReferenceIdeal.Read
import proofs.«157129_j47072841564786_1_alg».proof.Proof.Gen.Pre_finite_inputs
import proofs.«157129_j47072841564786_1_alg».proof.Proof.KBRun
import proofs.«157129_j47072841564786_1_alg».proof.Proof.KIRun
import proofs.«157129_j47072841564786_1_alg».proof.Proof.KIValue
import proofs.«157129_j47072841564786_1_alg».proof.Proof.RefFinish
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) := fun m ρ _ =>
  (θ_run Cert.Kernel.defs _ _).mono (fun _ h c => (h c).2) (Cert.Kernel.Run.run (F := Bits) m ρ)

theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun _ h c => (h c).2) (Cert.KernelIdeal.Run.run (F := Ideal) m ρ)

theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- Both idealized programs end with the quotient of the same three real statistics. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Gen.V7 m (Cert.KernelIdeal.Run.outs m) c (Proc.devRef .tc Cert.KernelIdeal.main_v23),
    Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨xr, yr, hx, hy⟩ := Cert.KernelIdeal.HostVal.finite_of_pre m hpre c
  rw [Cert.ReferenceIdeal.Read.val_main_v117_eq, (hagree c).1, (hagree c).2]
  funext i
  exact (Cert.RefFinish.ref_result _ _ xr yr hx hy i).trans (Cert.KernelIdeal.Value.result m c xr yr hx hy i).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
